-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1250000 : Shape := ⟨1, ![1250000]⟩
abbrev S64x256 : Shape := ⟨2, ![64, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg9 : FVec F S256 .f32) (main_arg10 : FVec F S256 .f32) (main_arg11 : FVec F S256x40 .f32) (main_arg12 : FVec F S40 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x40 .f32 := Host.absf main_arg11
  let main_cst_16 : FVec F S_ .f32 := constant S_ .f32 0x7F800000#32
  let main_v45 : FVec F S256x40 .f32 := broadcastInDim S256x40 ![] bcast_S_S256x40 main_cst_16
  let main_v46 : IVec S256x40 1 := cmpf .olt main_v44 main_v45
  let main_c_17 : IVec S_ 1 := constantI S_ 1 1#1
  let main_v47 : IVec S_ 1 := (fun x v => Host.reduce IntOp.andi x v reducesTo_S256x40_S_d0_1 h_S_) main_v46 main_c_17
  let main_v48 : IVec S_ 1 := andi main_v43 main_v47
  let main_v49 : FVec F S40 .f32 := Host.absf main_arg12
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg6 : FVec F S256 .f32) (main_arg7 : FVec F S256x256 .f32) (main_arg8 : FVec F S256 .f32) (main_arg9 : FVec F S256 .f32) (main_arg10 : FVec F S256 .f32) (main_arg11 : FVec F S256x40 .f32) (main_arg12 : FVec F S40 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x64 .f32) (main_arg1 : IVec S1250000 32) (main_arg2 : IVec S1250000 32) (main_arg3 : FVec F S64x256 .f32) (main_arg4 : FVec F S256 .f32) (main_arg5 : FVec F S256 .f32) (main_arg6 : FVec F S256 .f32) (main_arg7 : FVec F S256x256 .f32) (main_arg8 : FVec F S256 .f32) (main_arg9 : FVec F S256 .f32) (main_arg10 : FVec F S256 .f32) (main_arg11 : FVec F S256x40 .f32) (main_arg12 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x256 .f32 := Host.absf main_arg3
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_v13 main_v16
-- ==== Kernel.lean ====
abbrev S100000x64 : Shape := ⟨2, ![100000, 64]⟩
abbrev S1250000 : Shape := ⟨1, ![1250000]⟩
abbrev S64x256 : Shape := ⟨2, ![64, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1250000x64 : Shape := ⟨2, ![1250000, 64]⟩
abbrev S100000x256 : Shape := ⟨2, ![100000, 256]⟩
abbrev S2x2x256 : Shape := ⟨3, ![2, 2, 256]⟩
abbrev S5000x64 : Shape := ⟨2, ![5000, 64]⟩
abbrev S5000x256 : Shape := ⟨2, ![5000, 256]⟩
abbrev S1x2x256 : Shape := ⟨3, ![1, 2, 256]⟩
abbrev S2x256 : Shape := ⟨2, ![2, 256]⟩
abbrev S1x256 : Shape := ⟨2, ![1, 256]⟩
abbrev S256x128 : Shape := ⟨2, ![256, 128]⟩
abbrev S128 : Shape := ⟨1, ![128]⟩
abbrev S100000x128 : Shape := ⟨2, ![100000, 128]⟩
abbrev S5000x128 : Shape := ⟨2, ![5000, 128]⟩
abbrev S1x128 : Shape := ⟨2, ![1, 128]⟩
abbrev S100000x40 : Shape := ⟨2, ![100000, 40]⟩

abbrev nBuf : Space → Nat
  | .hbm => 168
  | .vmem => 28
  | .smem => 0
  | _ => 0

abbrev hbmTy0_0 (i : Nat) : BufTy := match i % 128 with
  | 0 => ⟨S100000x64, .f32⟩
  | 1 => ⟨S1250000, .i32⟩
  | 2 => ⟨S1250000, .i32⟩
  | 3 => ⟨S64x256, .f32⟩
  | 4 => ⟨S256, .f32⟩
  | 5 => ⟨S256, .f32⟩
  | 6 => ⟨S256, .f32⟩
  | 7 => ⟨S256x256, .f32⟩
  | 8 => ⟨S256, .f32⟩
  | 9 => ⟨S256, .f32⟩
  | 10 => ⟨S256, .f32⟩
  | 11 => ⟨S256x40, .f32⟩
  | 12 => ⟨S40, .f32⟩
  | 13 => ⟨S_, .f32⟩
  | 14 => ⟨S1250000, .f32⟩
  | 15 => ⟨S_, .f32⟩
  | 16 => ⟨S100000, .f32⟩
  | 17 => ⟨S1250000x1, .i32⟩
  | 18 => ⟨S100000, .f32⟩
  | 19 => ⟨S_, .f32⟩
  | 20 => ⟨S_, .f32⟩
  | 21 => ⟨S100000, .f32⟩
  | 22 => ⟨S100000, .f32⟩
  | 23 => ⟨S_, .f32⟩
  | 24 => ⟨S100000, .f32⟩
  | 25 => ⟨S100000, .f32⟩
  | 26 => ⟨S100000x1, .f32⟩
  | 27 => ⟨S_, .f32⟩
  | 28 => ⟨S100000x64, .f32⟩
  | 29 => ⟨S100000x64, .f32⟩
  | 30 => ⟨S100000x64, .f32⟩
  | 31 => ⟨S_, .i32⟩
  | 32 => ⟨S1250000, .i32⟩
  | 33 => ⟨S1250000, .i1⟩
  | 34 => ⟨S_, .i32⟩
  | 35 => ⟨S1250000, .i32⟩
  | 36 => ⟨S1250000, .i32⟩
  | 37 => ⟨S1250000, .i32⟩
  | 38 => ⟨S1250000x1, .i32⟩
  | 39 => ⟨S1250000x64, .f32⟩
  | 40 => ⟨S_, .f32⟩
  | 41 => ⟨S100000x64, .f32⟩
  | 42 => ⟨S1250000x1, .i32⟩
  | 43 => ⟨S100000x64, .f32⟩
  | 44 => ⟨S100000x64, .f32⟩
  | 45 => ⟨S100000x64, .f32⟩
  | 46 => ⟨S100000x64, .f32⟩
  | 47 => ⟨S100000x64, .f32⟩
  | 48 => ⟨S100000x64, .f32⟩
  | 49 => ⟨S_, .i32⟩
  | 50 => ⟨S1250000, .i32⟩
  | 51 => ⟨S1250000, .i1⟩
  | 52 => ⟨S_, .i32⟩
  | 53 => ⟨S1250000, .i32⟩
  | 54 => ⟨S1250000, .i32⟩
  | 55 => ⟨S1250000, .i32⟩
  | 56 => ⟨S1250000x1, .i32⟩
  | 57 => ⟨S1250000x64, .f32⟩
  | 58 => ⟨S_, .f32⟩
  | 59 => ⟨S100000x64, .f32⟩
  | 60 => ⟨S1250000x1, .i32⟩
  | 61 => ⟨S100000x64, .f32⟩
  | 62 => ⟨S100000x64, .f32⟩
  | 63 => ⟨S100000x64, .f32⟩
  | 64 => ⟨S100000x64, .f32⟩
  | 65 => ⟨S100000x64, .f32⟩
  | 66 => ⟨S100000x64, .f32⟩
  | 67 => ⟨S_, .i32⟩
  | 68 => ⟨S1250000, .i32⟩
  | 69 => ⟨S1250000, .i1⟩
  | 70 => ⟨S_, .i32⟩
  | 71 => ⟨S1250000, .i32⟩
  | 72 => ⟨S1250000, .i32⟩
  | 73 => ⟨S1250000, .i32⟩
  | 74 => ⟨S1250000x1, .i32⟩
  | 75 => ⟨S1250000x64, .f32⟩
  | 76 => ⟨S_, .f32⟩
  | 77 => ⟨S100000x64, .f32⟩
  | 78 => ⟨S1250000x1, .i32⟩
  | 79 => ⟨S100000x64, .f32⟩
  | 80 => ⟨S100000x64, .f32⟩
  | 81 => ⟨S100000x64, .f32⟩
  | 82 => ⟨S100000x64, .f32⟩
  | 83 => ⟨S100000x64, .f32⟩
  | 84 => ⟨S100000x64, .f32⟩
  | 85 => ⟨S_, .i32⟩
  | 86 => ⟨S1250000, .i32⟩
  | 87 => ⟨S1250000, .i1⟩
  | 88 => ⟨S_, .i32⟩
  | 89 => ⟨S1250000, .i32⟩
  | 90 => ⟨S1250000, .i32⟩
  | 91 => ⟨S1250000, .i32⟩
  | 92 => ⟨S1250000x1, .i32⟩
  | 93 => ⟨S1250000x64, .f32⟩
  | 94 => ⟨S_, .f32⟩
  | 95 => ⟨S100000x64, .f32⟩
  | 96 => ⟨S1250000x1, .i32⟩
  | 97 => ⟨S100000x64, .f32⟩
  | 98 => ⟨S100000x64, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S_, .f32⟩
  | 105 => ⟨S100000x64, .f32⟩
  | 106 => ⟨S100000x64, .f32⟩
  | 107 => ⟨S100000x64, .f32⟩
  | 108 => ⟨S100000x256, .bf16⟩
  | 109 => ⟨S2x2x256, .f32⟩
  | 110 => ⟨S_, .f32⟩
  | 111 => ⟨S2x256, .f32⟩
  | 112 => ⟨S1x256, .f32⟩
  | 113 => ⟨S256, .f32⟩
  | 114 => ⟨S_, .f32⟩
  | 115 => ⟨S256, .f32⟩
  | 116 => ⟨S256, .f32⟩
  | 117 => ⟨S1x256, .f32⟩
  | 118 => ⟨S256, .f32⟩
  | 119 => ⟨S_, .f32⟩
  | 120 => ⟨S256, .f32⟩
  | 121 => ⟨S256, .f32⟩
  | 122 => ⟨S256, .f32⟩
  | 123 => ⟨S256, .f32⟩
  | 124 => ⟨S_, .f32⟩
  | 125 => ⟨S256, .f32⟩
  | 126 => ⟨S256, .f32⟩
  | 127 => ⟨S_, .f32⟩
  | _ => ⟨S100000x64, .f32⟩

abbrev hbmTy0_1 (i : Nat) : BufTy := match i % 128 with
  | 0 => ⟨S256, .f32⟩
  | 1 => ⟨S256, .f32⟩
  | 2 => ⟨S256, .f32⟩
  | 3 => ⟨S256, .f32⟩
  | 4 => ⟨S256, .f32⟩
  | 5 => ⟨S256, .f32⟩
  | 6 => ⟨S100000x256, .bf16⟩
  | 7 => ⟨S2x2x256, .f32⟩
  | 8 => ⟨S_, .f32⟩
  | 9 => ⟨S2x256, .f32⟩
  | 10 => ⟨S1x256, .f32⟩
  | 11 => ⟨S256, .f32⟩
  | 12 => ⟨S_, .f32⟩
  | 13 => ⟨S256, .f32⟩
  | 14 => ⟨S256, .f32⟩
  | 15 => ⟨S1x256, .f32⟩
  | 16 => ⟨S256, .f32⟩
  | 17 => ⟨S_, .f32⟩
  | 18 => ⟨S256, .f32⟩
  | 19 => ⟨S256, .f32⟩
  | 20 => ⟨S256, .f32⟩
  | 21 => ⟨S256, .f32⟩
  | 22 => ⟨S_, .f32⟩
  | 23 => ⟨S256, .f32⟩
  | 24 => ⟨S256, .f32⟩
  | 25 => ⟨S_, .f32⟩
  | 26 => ⟨S256, .f32⟩
  | 27 => ⟨S256, .f32⟩
  | 28 => ⟨S256, .f32⟩
  | 29 => ⟨S256, .f32⟩
  | 30 => ⟨S256, .f32⟩
  | 31 => ⟨S256, .f32⟩
  | 32 => ⟨S_, .i32⟩
  | 33 => ⟨S_, .f32⟩
  | 34 => ⟨S256x128, .f32⟩
  | 35 => ⟨S_, .i32⟩
  | 36 => ⟨S_, .f32⟩
  | 37 => ⟨S128, .f32⟩
  | 38 => ⟨S100000x128, .f32⟩
  | 39 => ⟨S100000x40, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x256, .f32⟩
  | .local _ .vmem, ⟨3, _⟩ => ⟨S256, .f32⟩
  | .local _ .vmem, ⟨4, _⟩ => ⟨S5000x256, .bf16⟩
  | .local _ .vmem, ⟨5, _⟩ => ⟨S5000x256, .bf16⟩
  | .local _ .vmem, ⟨6, _⟩ => ⟨S1x2x256, .f32⟩
  | .local _ .vmem, ⟨7, _⟩ => ⟨S1x2x256, .f32⟩
  | .local _ .vmem, ⟨8, _⟩ => ⟨S2x256, .f32⟩
  | .local _ .vmem, ⟨9, _⟩ => ⟨S5000x256, .bf16⟩
  | .local _ .vmem, ⟨10, _⟩ => ⟨S5000x256, .bf16⟩
  | .local _ .vmem, ⟨11, _⟩ => ⟨S256, .f32⟩
  | .local _ .vmem, ⟨12, _⟩ => ⟨S256, .f32⟩
  | .local _ .vmem, ⟨13, _⟩ => ⟨S256x256, .f32⟩
  | .local _ .vmem, ⟨14, _⟩ => ⟨S256, .f32⟩
  | .local _ .vmem, ⟨15, _⟩ => ⟨S5000x256, .bf16⟩
  | .local _ .vmem, ⟨16, _⟩ => ⟨S5000x256, .bf16⟩
  | .local _ .vmem, ⟨17, _⟩ => ⟨S1x2x256, .f32⟩
  | .local _ .vmem, ⟨18, _⟩ => ⟨S1x2x256, .f32⟩
  | .local _ .vmem, ⟨19, _⟩ => ⟨S2x256, .f32⟩
  | .local _ .vmem, ⟨20, _⟩ => ⟨S5000x256, .bf16⟩
  | .local _ .vmem, ⟨21, _⟩ => ⟨S5000x256, .bf16⟩
  | .local _ .vmem, ⟨22, _⟩ => ⟨S256, .f32⟩
  | .local _ .vmem, ⟨23, _⟩ => ⟨S256, .f32⟩
  | .local _ .vmem, ⟨24, _⟩ => ⟨S256x128, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v4 : Ref sig .tc := ⟨.hbm, 22, rfl⟩
abbrev main_cst_2 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_3 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_5 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_c_7 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_8 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_9 : Ref sig .tc := ⟨.hbm, 67, rfl⟩
abbrev main_v41 : Ref sig .tc := ⟨.hbm, 68, rfl⟩
abbrev main_v42 : Ref sig .tc := ⟨.hbm, 69, rfl⟩
abbrev main_c_10 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_11 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_12 : Ref sig .tc := ⟨.hbm, 85, rfl⟩
abbrev main_v56 : Ref sig .tc := ⟨.hbm, 86, rfl⟩
abbrev main_v57 : Ref sig .tc := ⟨.hbm, 87, rfl⟩
abbrev main_c_13 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_14 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_15 : Ref sig .tc := ⟨.hbm, 101, rfl⟩
abbrev main_v69 : Ref sig .tc := ⟨.hbm, 102, rfl⟩
abbrev main_v70 : Ref sig .tc := ⟨.hbm, 103, rfl⟩
abbrev main_cst_16 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74_0 : Ref sig .tc := ⟨.hbm, 108, rfl⟩
abbrev main_v74_1 : Ref sig .tc := ⟨.hbm, 109, rfl⟩
abbrev main_cst_17 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_18 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_19 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_20 : Ref sig .tc := ⟨.hbm, 124, rfl⟩
abbrev main_v86 : Ref sig .tc := ⟨.hbm, 125, rfl⟩
abbrev main_v87 : Ref sig .tc := ⟨.hbm, 126, rfl⟩
abbrev main_cst_21 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94_0 : Ref sig .tc := ⟨.hbm, 134, rfl⟩
abbrev main_v94_1 : Ref sig .tc := ⟨.hbm, 135, rfl⟩
abbrev main_cst_22 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_23 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_24 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_25 : Ref sig .tc := ⟨.hbm, 150, rfl⟩
abbrev main_v106 : Ref sig .tc := ⟨.hbm, 151, rfl⟩
abbrev main_v107 : Ref sig .tc := ⟨.hbm, 152, rfl⟩
abbrev main_cst_26 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_c_27 : Ref sig .tc := ⟨.hbm, 160, rfl⟩
abbrev main_call1_v0 : Ref sig .tc := ⟨.hbm, 161, rfl⟩
abbrev main_v114 : Ref sig .tc := ⟨.hbm, 162, rfl⟩
abbrev main_c_28 : Ref sig .tc := ⟨.hbm, 163, rfl⟩
abbrev main_call2_v0 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨2, ![2, 10], ![false, false]⟩

def k0_cond2 (i : grid0.Coords) : BitVec 1 :=
  let arg1 : BitVec 32 := BitVec.ofNat 32 (i 1).val
  let c9_i32 : BitVec 32 := 9#32
  let v30 : BitVec 1 := Scalar.cmpi .eq arg1 c9_i32
  let v31 : BitVec 32 := Scalar.extui v30
  let c0_i32_16 : BitVec 32 := 0#32
  let v32 : BitVec 1 := Scalar.cmpi .ne v31 c0_i32_16
  v32

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S5000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 10], ![false, false]⟩

def k1_cond2 (i : grid1.Coords) : BitVec 1 :=
  let arg1 : BitVec 32 := BitVec.ofNat 32 (i 1).val
  let c9_i32 : BitVec 32 := 9#32
  let v43 : BitVec 1 := Scalar.cmpi .eq arg1 c9_i32
  let v44 : BitVec 32 := Scalar.extui v43
  let c0_i32_19 : BitVec 32 := 0#32
  let v45 : BitVec 1 := Scalar.cmpi .ne v44 c0_i32_19
  v45

def cc1_transform_0 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S5000x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x2x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨2, ![2, 10], ![false, false]⟩

def cc2_transform_0 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S5000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  inb_S2x256_S2x256_0_0 : ∀ a, (![0, 0] : Fin 2 → Nat) a + S2x256.size a ≤ S2x256.size a
  h_S2x256 : 0 < S2x256.numel
  shapeCasts_S2x256_S2x256 : S2x256.ShapeCasts S2x256
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  packedbf16_S5000x256_S5000x256_0_0 : (Rect.unit (s := S5000x256) ![0, 0] S5000x256.size inb_S5000x256_S5000x256_0_0).PackedRows (EltTy.packing .bf16)
  inb_S2x256_S1x256_0_0 : ∀ a, (![0, 0] : Fin 2 → Nat) a + S1x256.size a ≤ S2x256.size a
  h_S1x256 : 0 < S1x256.numel
  shapeCasts_S1x256_S256 : S1x256.ShapeCasts S256
  reduces_S5000x256_S256 : S5000x256.Reduces [0] S256
  inb_S2x256_S1x256_1_0 : ∀ a, (![1, 0] : Fin 2 → Nat) a + S1x256.size a ≤ S2x256.size a
  inb_S1x2x256_S1x2x256_0_0_0 : ∀ a, (![0, 0, 0] : Fin 3 → Nat) a + S1x2x256.size a ≤ S1x2x256.size a
  h_S1x2x256 : 0 < S1x2x256.numel
  shapeCasts_S1x2x256_S2x256 : S1x2x256.ShapeCasts S2x256
  shapeCasts_S2x256_S1x2x256 : S2x256.ShapeCasts S1x2x256
  reducesTo_S2x2x256_S2x256_d0 : S2x2x256.ReducesTo [0] S2x256
  h_S_ : 0 < S_.numel
  slices_S2x256_S1x256_0_0 : S2x256.Slices ![0, 0] S1x256
  bcast_S_S256 : S_.BroadcastsInDim S256 (![] : Fin 0 → Fin S256.rank)
  slices_S2x256_S1x256_1_0 : S2x256.Slices ![1, 0] S1x256
  shapeCasts_S5000x256_S5000x256 : S5000x256.ShapeCasts S5000x256
  shapeCasts_S256_S256 : S256.ShapeCasts S256
  inb_S256x256_S256x256_0_0 : ∀ a, (![0, 0] : Fin 2 → Nat) a + S256x256.size a ≤ S256x256.size a
  h_S256x256 : 0 < S256x256.numel
  pads_S256x40_S256x128_000_0880 : S256x40.Pads (![0, 0] : Fin 2 → Nat) ![0, 88] ![0, 0] S256x128
  pads_S40_S128_0880 : S40.Pads (![0] : Fin 1 → Nat) ![88] ![0] S128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S100000x128_S100000x40_0_0 : S100000x128.Slices ![0, 0] S100000x40
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x64_S64x256_S5000x256_1_0_0_1_n_n_wf : DotDims.WF S5000x64 S64x256 S5000x256 [1] [0] [0] [1] [] []
  dot_S5000x256_S256x256_S5000x256_1_0_0_1_n_n_wf : DotDims.WF S5000x256 S256x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S100000x256.size a
  hwx0_3 : ∀ i : grid0.Coords, EltTy.bits .bf16 = 32 ∨ (Rect.block (s := S100000x256) S5000x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2x256.size a ≤ S2x2x256.size a
  hwx0_4 : ∀ i : grid0.Coords, EltTy.bits .f32 = 32 ∨ (Rect.block (s := S2x2x256) S1x2x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .bf16 = 32 ∨ (Rect.block (s := S100000x256) S5000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S256.size a
  hwx1_1 : ∀ i : grid1.Coords, EltTy.bits .f32 = 32 ∨ (Rect.block (s := S256) S256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S100000x256.size a
  hwx1_5 : ∀ i : grid1.Coords, EltTy.bits .bf16 = 32 ∨ (Rect.block (s := S100000x256) S5000x256.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x2x256.size a ≤ S2x2x256.size a
  hwx1_6 : ∀ i : grid1.Coords, EltTy.bits .f32 = 32 ∨ (Rect.block (s := S2x2x256) S1x2x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S100000x256.size a
  hwx2_0 : ∀ i : grid2.Coords, EltTy.bits .bf16 = 32 ∨ (Rect.block (s := S100000x256) S5000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256.size a ≤ S256.size a
  hwx2_1 : ∀ i : grid2.Coords, EltTy.bits .f32 = 32 ∨ (Rect.block (s := S256) S256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v73) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v74_0) S5000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v74_1) S1x2x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v74_0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v91) S256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v93) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v94_0) S5000x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v94_1) S1x2x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v94_0) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v111) S256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v113) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v114) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v115) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v116) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S1250000 : Shape := ⟨1, ![1250000]⟩
abbrev S64x256 : Shape := ⟨2, ![64, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1250000x64 : Shape := ⟨2, ![1250000, 64]⟩
abbrev S100000x256 : Shape := ⟨2, ![100000, 256]⟩
abbrev S1x256 : Shape := ⟨2, ![1, 256]⟩
abbrev S100000x40 : Shape := ⟨2, ![100000, 40]⟩
abbrev S1x40 : Shape := ⟨2, ![1, 40]⟩

abbrev nBuf : Space → Nat
  | .hbm => 214
  | .vmem => 0
  | .smem => 0
  | _ => 0

abbrev hbmTy0_0 (i : Nat) : BufTy := match i % 128 with
  | 0 => ⟨S100000x64, .f32⟩
  | 1 => ⟨S1250000, .i32⟩
  | 2 => ⟨S1250000, .i32⟩
  | 3 => ⟨S64x256, .f32⟩
  | 4 => ⟨S256, .f32⟩
  | 5 => ⟨S256, .f32⟩
  | 6 => ⟨S256, .f32⟩
  | 7 => ⟨S256x256, .f32⟩
  | 8 => ⟨S256, .f32⟩
  | 9 => ⟨S256, .f32⟩
  | 10 => ⟨S256, .f32⟩
  | 11 => ⟨S256x40, .f32⟩
  | 12 => ⟨S40, .f32⟩
  | 13 => ⟨S_, .f32⟩
  | 14 => ⟨S1250000, .f32⟩
  | 15 => ⟨S_, .f32⟩
  | 16 => ⟨S100000, .f32⟩
  | 17 => ⟨S1250000x1, .i32⟩
  | 18 => ⟨S100000, .f32⟩
  | 19 => ⟨S_, .f32⟩
  | 20 => ⟨S_, .f32⟩
  | 21 => ⟨S100000, .f32⟩
  | 22 => ⟨S100000, .f32⟩
  | 23 => ⟨S_, .f32⟩
  | 24 => ⟨S100000, .f32⟩
  | 25 => ⟨S100000, .f32⟩
  | 26 => ⟨S100000x1, .f32⟩
  | 27 => ⟨S_, .f32⟩
  | 28 => ⟨S100000x64, .f32⟩
  | 29 => ⟨S100000x64, .f32⟩
  | 30 => ⟨S100000x64, .f32⟩
  | 31 => ⟨S_, .i32⟩
  | 32 => ⟨S1250000, .i32⟩
  | 33 => ⟨S1250000, .i1⟩
  | 34 => ⟨S_, .i32⟩
  | 35 => ⟨S1250000, .i32⟩
  | 36 => ⟨S1250000, .i32⟩
  | 37 => ⟨S1250000, .i32⟩
  | 38 => ⟨S1250000x1, .i32⟩
  | 39 => ⟨S1250000x64, .f32⟩
  | 40 => ⟨S_, .f32⟩
  | 41 => ⟨S100000x64, .f32⟩
  | 42 => ⟨S1250000x1, .i32⟩
  | 43 => ⟨S100000x64, .f32⟩
  | 44 => ⟨S100000x64, .f32⟩
  | 45 => ⟨S100000x64, .f32⟩
  | 46 => ⟨S100000x64, .f32⟩
  | 47 => ⟨S100000x64, .f32⟩
  | 48 => ⟨S100000x64, .f32⟩
  | 49 => ⟨S_, .i32⟩
  | 50 => ⟨S1250000, .i32⟩
  | 51 => ⟨S1250000, .i1⟩
  | 52 => ⟨S_, .i32⟩
  | 53 => ⟨S1250000, .i32⟩
  | 54 => ⟨S1250000, .i32⟩
  | 55 => ⟨S1250000, .i32⟩
  | 56 => ⟨S1250000x1, .i32⟩
  | 57 => ⟨S1250000x64, .f32⟩
  | 58 => ⟨S_, .f32⟩
  | 59 => ⟨S100000x64, .f32⟩
  | 60 => ⟨S1250000x1, .i32⟩
  | 61 => ⟨S100000x64, .f32⟩
  | 62 => ⟨S100000x64, .f32⟩
  | 63 => ⟨S100000x64, .f32⟩
  | 64 => ⟨S100000x64, .f32⟩
  | 65 => ⟨S100000x64, .f32⟩
  | 66 => ⟨S100000x64, .f32⟩
  | 67 => ⟨S_, .i32⟩
  | 68 => ⟨S1250000, .i32⟩
  | 69 => ⟨S1250000, .i1⟩
  | 70 => ⟨S_, .i32⟩
  | 71 => ⟨S1250000, .i32⟩
  | 72 => ⟨S1250000, .i32⟩
  | 73 => ⟨S1250000, .i32⟩
  | 74 => ⟨S1250000x1, .i32⟩
  | 75 => ⟨S1250000x64, .f32⟩
  | 76 => ⟨S_, .f32⟩
  | 77 => ⟨S100000x64, .f32⟩
  | 78 => ⟨S1250000x1, .i32⟩
  | 79 => ⟨S100000x64, .f32⟩
  | 80 => ⟨S100000x64, .f32⟩
  | 81 => ⟨S100000x64, .f32⟩
  | 82 => ⟨S100000x64, .f32⟩
  | 83 => ⟨S100000x64, .f32⟩
  | 84 => ⟨S100000x64, .f32⟩
  | 85 => ⟨S_, .i32⟩
  | 86 => ⟨S1250000, .i32⟩
  | 87 => ⟨S1250000, .i1⟩
  | 88 => ⟨S_, .i32⟩
  | 89 => ⟨S1250000, .i32⟩
  | 90 => ⟨S1250000, .i32⟩
  | 91 => ⟨S1250000, .i32⟩
  | 92 => ⟨S1250000x1, .i32⟩
  | 93 => ⟨S1250000x64, .f32⟩
  | 94 => ⟨S_, .f32⟩
  | 95 => ⟨S100000x64, .f32⟩
  | 96 => ⟨S1250000x1, .i32⟩
  | 97 => ⟨S100000x64, .f32⟩
  | 98 => ⟨S100000x64, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S_, .f32⟩
  | 105 => ⟨S100000x64, .f32⟩
  | 106 => ⟨S100000x64, .f32⟩
  | 107 => ⟨S100000x64, .f32⟩
  | 108 => ⟨S100000x256, .f32⟩
  | 109 => ⟨S1x256, .f32⟩
  | 110 => ⟨S100000x256, .f32⟩
  | 111 => ⟨S100000x256, .f32⟩
  | 112 => ⟨S_, .f32⟩
  | 113 => ⟨S256, .f32⟩
  | 114 => ⟨S_, .f32⟩
  | 115 => ⟨S256, .f32⟩
  | 116 => ⟨S256, .f32⟩
  | 117 => ⟨S_, .i32⟩
  | 118 => ⟨S_, .f32⟩
  | 119 => ⟨S256, .f32⟩
  | 120 => ⟨S1x256, .f32⟩
  | 121 => ⟨S_, .f32⟩
  | 122 => ⟨S1x256, .f32⟩
  | 123 => ⟨S1x256, .f32⟩
  | 124 => ⟨S100000x256, .f32⟩
  | 125 => ⟨S100000x256, .f32⟩
  | 126 => ⟨S100000x256, .f32⟩
  | 127 => ⟨S_, .f32⟩
  | _ => ⟨S100000x64, .f32⟩

abbrev hbmTy0_1 (i : Nat) : BufTy := match i % 128 with
  | 0 => ⟨S_, .f32⟩
  | 1 => ⟨S_, .f32⟩
  | 2 => ⟨S_, .f32⟩
  | 3 => ⟨S256, .f32⟩
  | 4 => ⟨S256, .f32⟩
  | 5 => ⟨S256, .f32⟩
  | 6 => ⟨S_, .f32⟩
  | 7 => ⟨S_, .i1⟩
  | 8 => ⟨S_, .f32⟩
  | 9 => ⟨S_, .f32⟩
  | 10 => ⟨S256, .f32⟩
  | 11 => ⟨S256, .f32⟩
  | 12 => ⟨S1x256, .f32⟩
  | 13 => ⟨S100000x256, .f32⟩
  | 14 => ⟨S100000x256, .f32⟩
  | 15 => ⟨S1x256, .f32⟩
  | 16 => ⟨S100000x256, .f32⟩
  | 17 => ⟨S100000x256, .f32⟩
  | 18 => ⟨S_, .f32⟩
  | 19 => ⟨S256, .f32⟩
  | 20 => ⟨S256, .f32⟩
  | 21 => ⟨S256, .f32⟩
  | 22 => ⟨S1x256, .f32⟩
  | 23 => ⟨S100000x256, .f32⟩
  | 24 => ⟨S100000x256, .f32⟩
  | 25 => ⟨S1x256, .f32⟩
  | 26 => ⟨S100000x256, .f32⟩
  | 27 => ⟨S100000x256, .f32⟩
  | 28 => ⟨S_, .f32⟩
  | 29 => ⟨S100000x256, .f32⟩
  | 30 => ⟨S100000x256, .f32⟩
  | 31 => ⟨S100000x256, .f32⟩
  | 32 => ⟨S1x256, .f32⟩
  | 33 => ⟨S100000x256, .f32⟩
  | 34 => ⟨S100000x256, .f32⟩
  | 35 => ⟨S_, .f32⟩
  | 36 => ⟨S256, .f32⟩
  | 37 => ⟨S_, .f32⟩
  | 38 => ⟨S256, .f32⟩
  | 39 => ⟨S256, .f32⟩
  | 40 => ⟨S_, .i32⟩
  | 41 => ⟨S_, .f32⟩
  | 42 => ⟨S256, .f32⟩
  | 43 => ⟨S1x256, .f32⟩
  | 44 => ⟨S_, .f32⟩
  | 45 => ⟨S1x256, .f32⟩
  | 46 => ⟨S1x256, .f32⟩
  | 47 => ⟨S100000x256, .f32⟩
  | 48 => ⟨S100000x256, .f32⟩
  | 49 => ⟨S100000x256, .f32⟩
  | 50 => ⟨S_, .f32⟩
  | 51 => ⟨S_, .f32⟩
  | 52 => ⟨S_, .f32⟩
  | 53 => ⟨S_, .f32⟩
  | 54 => ⟨S256, .f32⟩
  | 55 => ⟨S256, .f32⟩
  | 56 => ⟨S256, .f32⟩
  | 57 => ⟨S_, .f32⟩
  | 58 => ⟨S_, .i1⟩
  | 59 => ⟨S_, .f32⟩
  | 60 => ⟨S_, .f32⟩
  | 61 => ⟨S256, .f32⟩
  | 62 => ⟨S256, .f32⟩
  | 63 => ⟨S1x256, .f32⟩
  | 64 => ⟨S100000x256, .f32⟩
  | 65 => ⟨S100000x256, .f32⟩
  | 66 => ⟨S1x256, .f32⟩
  | 67 => ⟨S100000x256, .f32⟩
  | 68 => ⟨S100000x256, .f32⟩
  | 69 => ⟨S_, .f32⟩
  | 70 => ⟨S256, .f32⟩
  | 71 => ⟨S256, .f32⟩
  | 72 => ⟨S256, .f32⟩
  | 73 => ⟨S1x256, .f32⟩
  | 74 => ⟨S100000x256, .f32⟩
  | 75 => ⟨S100000x256, .f32⟩
  | 76 => ⟨S1x256, .f32⟩
  | 77 => ⟨S100000x256, .f32⟩
  | 78 => ⟨S100000x256, .f32⟩
  | 79 => ⟨S_, .f32⟩
  | 80 => ⟨S100000x256, .f32⟩
  | 81 => ⟨S100000x256, .f32⟩
  | 82 => ⟨S100000x40, .f32⟩
  | 83 => ⟨S1x40, .f32⟩
  | 84 => ⟨S100000x40, .f32⟩
  | 85 => ⟨S100000x40, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v4 : Ref sig .tc := ⟨.hbm, 22, rfl⟩
abbrev main_cst_2 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_3 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_5 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_c_7 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_8 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_9 : Ref sig .tc := ⟨.hbm, 67, rfl⟩
abbrev main_v41 : Ref sig .tc := ⟨.hbm, 68, rfl⟩
abbrev main_v42 : Ref sig .tc := ⟨.hbm, 69, rfl⟩
abbrev main_c_10 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_11 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_12 : Ref sig .tc := ⟨.hbm, 85, rfl⟩
abbrev main_v56 : Ref sig .tc := ⟨.hbm, 86, rfl⟩
abbrev main_v57 : Ref sig .tc := ⟨.hbm, 87, rfl⟩
abbrev main_c_13 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_14 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_15 : Ref sig .tc := ⟨.hbm, 101, rfl⟩
abbrev main_v69 : Ref sig .tc := ⟨.hbm, 102, rfl⟩
abbrev main_v70 : Ref sig .tc := ⟨.hbm, 103, rfl⟩
abbrev main_cst_16 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_17 : Ref sig .tc := ⟨.hbm, 112, rfl⟩
abbrev main_v78 : Ref sig .tc := ⟨.hbm, 113, rfl⟩
abbrev main_cst_18 : Ref sig .tc := ⟨.hbm, 114, rfl⟩
abbrev main_v79 : Ref sig .tc := ⟨.hbm, 115, rfl⟩
abbrev main_v80 : Ref sig .tc := ⟨.hbm, 116, rfl⟩
abbrev main_c_19 : Ref sig .tc := ⟨.hbm, 117, rfl⟩
abbrev main_call1_cst : Ref sig .tc := ⟨.hbm, 118, rfl⟩
abbrev main_call1_v0 : Ref sig .tc := ⟨.hbm, 119, rfl⟩
abbrev main_call1_v1 : Ref sig .tc := ⟨.hbm, 120, rfl⟩
abbrev main_call1_cst_0 : Ref sig .tc := ⟨.hbm, 121, rfl⟩
abbrev main_call1_v2 : Ref sig .tc := ⟨.hbm, 122, rfl⟩
abbrev main_call1_v3 : Ref sig .tc := ⟨.hbm, 123, rfl⟩
abbrev main_call1_v4 : Ref sig .tc := ⟨.hbm, 124, rfl⟩
abbrev main_call1_v5 : Ref sig .tc := ⟨.hbm, 125, rfl⟩
abbrev main_call1_v6 : Ref sig .tc := ⟨.hbm, 126, rfl⟩
abbrev main_call1_v7 : Ref sig .tc := ⟨.hbm, 127, rfl⟩
abbrev main_call1_cst_1 : Ref sig .tc := ⟨.hbm, 128, rfl⟩
abbrev main_call1_v8 : Ref sig .tc := ⟨.hbm, 129, rfl⟩
abbrev main_call1_cst_2 : Ref sig .tc := ⟨.hbm, 130, rfl⟩
abbrev main_call1_v9 : Ref sig .tc := ⟨.hbm, 131, rfl⟩
abbrev main_call1_v10 : Ref sig .tc := ⟨.hbm, 132, rfl⟩
abbrev main_call1_v11 : Ref sig .tc := ⟨.hbm, 133, rfl⟩
abbrev main_call1_cst_3 : Ref sig .tc := ⟨.hbm, 134, rfl⟩
abbrev main_call1_v12 : Ref sig .tc := ⟨.hbm, 135, rfl⟩
abbrev main_call1_cst_4 : Ref sig .tc := ⟨.hbm, 136, rfl⟩
abbrev main_call1_call0_v0 : Ref sig .tc := ⟨.hbm, 137, rfl⟩
abbrev main_call1_call0_v1 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_cst_20 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_call2_cst : Ref sig .tc := ⟨.hbm, 156, rfl⟩
abbrev main_call2_v0 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_cst_21 : Ref sig .tc := ⟨.hbm, 163, rfl⟩
abbrev main_v102 : Ref sig .tc := ⟨.hbm, 164, rfl⟩
abbrev main_cst_22 : Ref sig .tc := ⟨.hbm, 165, rfl⟩
abbrev main_v103 : Ref sig .tc := ⟨.hbm, 166, rfl⟩
abbrev main_v104 : Ref sig .tc := ⟨.hbm, 167, rfl⟩
abbrev main_c_23 : Ref sig .tc := ⟨.hbm, 168, rfl⟩
abbrev main_call3_cst : Ref sig .tc := ⟨.hbm, 169, rfl⟩
abbrev main_call3_v0 : Ref sig .tc := ⟨.hbm, 170, rfl⟩
abbrev main_call3_v1 : Ref sig .tc := ⟨.hbm, 171, rfl⟩
abbrev main_call3_cst_0 : Ref sig .tc := ⟨.hbm, 172, rfl⟩
abbrev main_call3_v2 : Ref sig .tc := ⟨.hbm, 173, rfl⟩
abbrev main_call3_v3 : Ref sig .tc := ⟨.hbm, 174, rfl⟩
abbrev main_call3_v4 : Ref sig .tc := ⟨.hbm, 175, rfl⟩
abbrev main_call3_v5 : Ref sig .tc := ⟨.hbm, 176, rfl⟩
abbrev main_call3_v6 : Ref sig .tc := ⟨.hbm, 177, rfl⟩
abbrev main_call3_v7 : Ref sig .tc := ⟨.hbm, 178, rfl⟩
abbrev main_call3_cst_1 : Ref sig .tc := ⟨.hbm, 179, rfl⟩
abbrev main_call3_v8 : Ref sig .tc := ⟨.hbm, 180, rfl⟩
abbrev main_call3_cst_2 : Ref sig .tc := ⟨.hbm, 181, rfl⟩
abbrev main_call3_v9 : Ref sig .tc := ⟨.hbm, 182, rfl⟩
abbrev main_call3_v10 : Ref sig .tc := ⟨.hbm, 183, rfl⟩
abbrev main_call3_v11 : Ref sig .tc := ⟨.hbm, 184, rfl⟩
abbrev main_call3_cst_3 : Ref sig .tc := ⟨.hbm, 185, rfl⟩
abbrev main_call3_v12 : Ref sig .tc := ⟨.hbm, 186, rfl⟩
abbrev main_call3_cst_4 : Ref sig .tc := ⟨.hbm, 187, rfl⟩
abbrev main_call3_call0_v0 : Ref sig .tc := ⟨.hbm, 188, rfl⟩
abbrev main_call3_call0_v1 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_cst_24 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_call4_cst : Ref sig .tc := ⟨.hbm, 207, rfl⟩
abbrev main_call4_v0 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S256_d0 : S100000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S100000x256 : S_.BroadcastsInDim S100000x256 (![] : Fin 0 → Fin S100000x256.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x256_S100000x256_1_0_0_1_n_n_wf : DotDims.WF S100000x64 S64x256 S100000x256 [1] [0] [0] [1] [] []
  dot_S100000x256_S256x256_S100000x256_1_0_0_1_n_n_wf : DotDims.WF S100000x256 S256x256 S100000x256 [1] [0] [0] [1] [] []
  dot_S100000x256_S256x40_S100000x40_1_0_0_1_n_n_wf : DotDims.WF S100000x256 S256x40 S100000x40 [1] [0] [0] [1] [] []

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x256_S100000x256_1_0_0_1_n_n : DotDims S100000x64 S64x256 S100000x256 where
  lhsContracting := [1]
  rhsContracting := [0]
  lhsNonContracting := [0]
  rhsNonContracting := [1]
  lhsBatch := []
  rhsBatch := []
  wf := dot_S100000x64_S64x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x40_S100000x40_1_0_0_1_n_n : DotDims S100000x256 S256x40 S100000x40 where
  lhsContracting := [1]
  rhsContracting := [0]
  lhsNonContracting := [0]
  rhsNonContracting := [1]
  lhsBatch := []
  rhsBatch := []
  wf := dot_S100000x256_S256x40_S100000x40_1_0_0_1_n_n_wf

class Facts : Prop extends Facts₀ where

variable [Facts]
-- ==== Proof.K.R0Run.lean ====
import proofs.«169417_j2877628089024_2_alg».proof.Proof.Gen.Kernel.Launch
import proofs.«169417_j2877628089024_2_alg».proof.Proof.Gen.Kernel.Skeleton
import proofs.«169417_j2877628089024_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the first linear layer with its column statistics — the body's runs

The body at a grid point (c, s) of the 2 × 10 grid: when s = 0 the statistics accumulator (2 × 256) is reset
to zero; the 5000 × 64 block of features is multiplied into the 64 × 256 weights, the bias added, the product
stored (rounded to bf16) into the output block, and its column sums and column sums of squares added into rows 0
and 1 of the accumulator; when s = 9 the accumulator is copied into the statistics block. Three cases:
A (s = 0), B (0 < s < 9), C (s = 9). -/

/-! ## The two conditions, in closed form over the grid -/

/-- The reset's condition (s = 0), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 10). -/
theorem hcond0_0 : ∀ t : Fin cfg0.N, cond0_0 (grid0.coords t) ↔ t.val % 10 = 0 :=
  (by decide +kernel : ∀ t : Fin grid0.N, cond0_0 (grid0.coords t) ↔ t.val % 10 = 0)

/-- The copy-out's condition (s = 9), from the grid coordinates. -/
abbrev cond0_1 (i : grid0.Coords) : Prop := k0_cond2 i = 1#1
/-- It holds at the points ≡ 9 (mod 10). -/
theorem hcond0_1 : ∀ t : Fin cfg0.N, cond0_1 (grid0.coords t) ↔ t.val % 10 = 9 :=
  (by decide +kernel : ∀ t : Fin grid0.N, cond0_1 (grid0.coords t) ↔ t.val % 10 = 9)

/-! ## The body's run, case by case

Each run is a dependent tuple: the pieces the body's stores leave in the product block (`L3`), in the statistics
block (`L4`) and in the accumulator (`LS0`), last store first, with the proof that from whole memrefs — the three
inputs at their contents, the product block at anything, the statistics block at contents handed back untouched
(cases A, B) or at anything (case C), the accumulator at anything (case A) or at what the point before left
(cases B, C) — the body runs to a continuation that holds the inputs as they were and each written buffer with
its pieces written. -/

set_option maxHeartbeats 4000000 in
/-- CASE A (s = 0): reset, then accumulate. -/
noncomputable def kernelRun0_A (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : cond0_0 i) (hc1 : ¬cond0_1 i)
    (x0 : Vec F S5000x64 .f32) (x1 : Vec F S64x256 .f32) (x2 : Vec F S256 .f32) :
    Σ' (L3 : List (View.Piece (Elt F) S5000x256 .bf16)) (L4 : List (View.Piece (Elt F) S1x2x256 .f32)), { LS0 : List (View.Piece (Elt F) S2x256 .f32) //
      ∀ (xi4 : Vec F S1x2x256 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__linear1_kernel i arg2 harg2 arg3 harg3 arg4 harg4 arg5 harg5 arg6 harg6 arg7 harg7) K } := by
  refine ⟨?_, [], ?_, fun xi4 E K => ?run⟩
  case run =>
    simp only [cc0__linear1_kernel_eq_skeleton]; unfold cc0__linear1_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; iexact HS0

set_option maxHeartbeats 4000000 in
/-- CASE B (0 < s < 9): accumulate. -/
noncomputable def kernelRun0_B (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : ¬cond0_1 i)
    (x0 : Vec F S5000x64 .f32) (x1 : Vec F S64x256 .f32) (x2 : Vec F S256 .f32) (xs0 : Vec F S2x256 .f32) :
    Σ' (L3 : List (View.Piece (Elt F) S5000x256 .bf16)) (L4 : List (View.Piece (Elt F) S1x2x256 .f32)), { LS0 : List (View.Piece (Elt F) S2x256 .f32) //
      ∀ (xi4 : Vec F S1x2x256 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__linear1_kernel i arg2 harg2 arg3 harg3 arg4 harg4 arg5 harg5 arg6 harg6 arg7 harg7) K } := by
  refine ⟨?_, [], ?_, fun xi4 E K => ?run⟩
  case run =>
    simp only [cc0__linear1_kernel_eq_skeleton]; unfold cc0__linear1_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg6.eq_unread hf4
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; iexact HS0

set_option maxHeartbeats 4000000 in
/-- CASE C (s = 9): accumulate, then copy the accumulator into the statistics block. -/
noncomputable def kernelRun0_C (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : cond0_1 i)
    (x0 : Vec F S5000x64 .f32) (x1 : Vec F S64x256 .f32) (x2 : Vec F S256 .f32) (xs0 : Vec F S2x256 .f32) :
    Σ' (L3 : List (View.Piece (Elt F) S5000x256 .bf16)) (L4 : List (View.Piece (Elt F) S1x2x256 .f32)), { LS0 : List (View.Piece (Elt F) S2x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__linear1_kernel i arg2 harg2 arg3 harg3 arg4 harg4 arg5 harg5 arg6 harg6 arg7 harg7) K } := by
  refine ⟨?_, ?_, ?_, fun E K => ?run⟩
  case run =>
    simp only [cc0__linear1_kernel_eq_skeleton]; unfold cc0__linear1_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Hand

end
-- ==== Proof.K.R0.lean ====
import proofs.«169417_j2877628089024_2_alg».proof.Proof.K.R0Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the first linear layer with its column statistics — the frame half

Stated at a parameter `V`: the TensorCore's buffer contents when the region is entered. -/

/-! ## The scoped rest, split at the accumulator -/

/-- The core's scoped buffers that are no staging buffer of this call, split at the call's accumulator; the
    remainder (the other calls' staging buffers and scratch) is carried unopened. -/
theorem scopedRest0_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f)
          ∗ Pipeline.scopedRestBut (Ix := Ix) (Name := Name) (U := U) (Lvl := Lvl) (Val := Val) spec0 c [cc0_scratch0]) :=
  Pipeline.scopedRest_split_of_list spec0 c [cc0_scratch0] (by decide) (by decide)

/-- The remainder: every scoped buffer of the core other than this call's staging buffers and its accumulator,
    each at some contents. -/
abbrev Rest0 (c : Dev nD) : sProp 𝕄 :=
  Pipeline.scopedRestBut (Ix := Unit) (Name := ℕ) (U := UR sig nD τ) (Lvl := ℕ) (Val := Elt F) spec0 c [cc0_scratch0]

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- At the points of case A the statistics window is idle, -/
theorem idleAt0_4_A : ∀ t : Fin cfg0.N, cond0_0 (grid0.coords t) → ¬cond0_1 (grid0.coords t) → cfg0.idle 4 (grid0.coords t) = true := by decide +kernel
/-- and not written back. -/
theorem noFlush0_4_A : ∀ t : Fin cfg0.N, cond0_0 (grid0.coords t) → ¬cond0_1 (grid0.coords t) → (cfg0.win 4).flush t = false := by decide +kernel
/-- The same at the points of case B. -/
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- At the points of case C it is live. -/
theorem liveAt0_4_C : ∀ t : Fin cfg0.N, ¬cond0_0 (grid0.coords t) → cond0_1 (grid0.coords t) → cfg0.idle 4 (grid0.coords t) = false := by decide +kernel

/-! ## The staging memrefs and the accumulator -/

/-- One staging buffer of each output window, through which its contents are stated (the choice does not matter). -/
abbrev VO0_3 : View sig .tc .vmem S5000x256 .bf16 := (Memref.whole cc0_stg3_0 : Memref sig .tc .vmem S5000x256 .bf16).view
abbrev VO0_4 : View sig .tc .vmem S1x2x256 .f32 := (Memref.whole cc0_stg4_0 : Memref sig .tc .vmem S1x2x256 .f32).view
/-- Each window's current staging memref at point `t`, and its wholeness. -/
abbrev ms0_0 (t : Fin cfg0.N) : Memref sig .tc .vmem S5000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5000x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x256 .f32 := win0_4.stage (cfg0.slots t 4)
abbrev hs0_4 (t : Fin cfg0.N) : (ms0_4 t).IsWhole := hstage0_4 ((cfg0.slots t 4).cast nbuf0_4)
/-- The accumulator: a whole scoped buffer of the kernel's own, carried between points. -/
abbrev scM0_0 : Memref sig .tc .vmem S2x256 .f32 := Memref.whole cc0_scratch0
abbrev VS0_0 : View sig .tc .vmem S2x256 .f32 := scM0_0.view

/-- The launch's invariant with the accumulator as a memref owned at some contents. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA; rw [scopedRest0_split]; simp only [scM0_0, owns_whole]; try rfl

/-! ## What each case leaves, as the runs' pieces read back -/

/-- Case A: the one store into the product block covers it. -/
theorem cover0_A_3 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : cond0_0 i) (hc1 : ¬cond0_1 i)
    (x0 : Vec F S5000x64 .f32) (x1 : Vec F S64x256 .f32) (x2 : Vec F S256 .f32) (y : S5000x256.Idx) :
    ∃ pc ∈ (kernelRun0_A c i arg2 harg2 arg3 harg3 arg4 harg4 arg5 harg5 arg6 harg6 arg7 harg7 hc0 hc1 x0 x1 x2).1, y ∈ pc.1.set :=
  View.cover_of_tiledL (kernelRun0_A c i arg2 harg2 arg3 harg3 arg4 harg4 arg5 harg5 arg6 harg6 arg7 harg7 hc0 hc1 x0 x1 x2).1 S5000x256.size (by sl_kernel_rfl) y

/-- What case A leaves in the product block's staging buffer: its pieces read back. -/
def out0_A_3 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : cond0_0 i) (hc1 : ¬cond0_1 i)
    (x0 : Vec F S5000x64 .f32) (x1 : Vec F S64x256 .f32) (x2 : Vec F S256 .f32) : Vec F S5000x256 .bf16 :=
  VO0_3.read (Elt F) (VO0_3.writes (Elt F) VO0_3.junk (kernelRun0_A c i arg2 harg2 arg3 harg3 arg4 harg4 arg5 harg5 arg6 harg6 arg7 harg7 hc0 hc1 x0 x1 x2).1)

/-- What case A leaves in the statistics block's staging buffer — nothing is stored there: the window is idle at the
    case's points and not written back, so this value is consulted by nothing. -/
def out0_A_4 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : cond0_0 i) (hc1 : ¬cond0_1 i)
    (x0 : Vec F S5000x64 .f32) (x1 : Vec F S64x256 .f32) (x2 : Vec F S256 .f32) : Vec F S1x2x256 .f32 :=
  VO0_4.read (Elt F) (VO0_4.writes (Elt F) VO0_4.junk (kernelRun0_A c i arg2 harg2 arg3 harg3 arg4 harg4 arg5 harg5 arg6 harg6 arg7 harg7 hc0 hc1 x0 x1 x2).2.1)

/-- Case A: the accumulator's three stores (the reset, then rows 0 and 1) cover it. -/
theorem scover0_A_0 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : cond0_0 i) (hc1 : ¬cond0_1 i)
    (x0 : Vec F S5000x64 .f32) (x1 : Vec F S64x256 .f32) (x2 : Vec F S256 .f32) (y : S2x256.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S1x256.size (by sl_kernel_rfl) y

/-- What case A leaves in the accumulator: its pieces read back. -/
def sout0_A_0 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : cond0_0 i) (hc1 : ¬cond0_1 i)
    (x0 : Vec F S5000x64 .f32) (x1 : Vec F S64x256 .f32) (x2 : Vec F S256 .f32) : Vec F S2x256 .f32 :=
  VS0_0.read (Elt F) (VS0_0.writes (Elt F) VS0_0.junk (kernelRun0_A c i arg2 harg2 arg3 harg3 arg4 harg4 arg5 harg5 arg6 harg6 arg7 harg7 hc0 hc1 x0 x1 x2).2.2.1)

/-- Case B: the one store into the product block covers it. -/
theorem cover0_B_3 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : ¬cond0_1 i)
    (x0 : Vec F S5000x64 .f32) (x1 : Vec F S64x256 .f32) (x2 : Vec F S256 .f32) (xs0 : Vec F S2x256 .f32) (y : S5000x256.Idx) :
    ∃ pc ∈ (kernelRun0_B c i arg2 harg2 arg3 harg3 arg4 harg4 arg5 harg5 arg6 harg6 arg7 harg7 hc0 hc1 x0 x1 x2 xs0).1, y ∈ pc.1.set :=
  View.cover_of_tiledL (kernelRun0_B c i arg2 harg2 arg3 harg3 arg4 harg4 arg5 harg5 arg6 harg6 arg7 harg7 hc0 hc1 x0 x1 x2 xs0).1 S5000x256.size (by sl_kernel_rfl) y

/-- What case B leaves in the product block's staging buffer: its pieces read back. -/
def out0_B_3 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : ¬cond0_1 i)
    (x0 : Vec F S5000x64 .f32) (x1 : Vec F S64x256 .f32) (x2 : Vec F S256 .f32) (xs0 : Vec F S2x256 .f32) : Vec F S5000x256 .bf16 :=
  VO0_3.read (Elt F) (VO0_3.writes (Elt F) VO0_3.junk (kernelRun0_B c i arg2 harg2 arg3 harg3 arg4 harg4 arg5 harg5 arg6 harg6 arg7 harg7 hc0 hc1 x0 x1 x2 xs0).1)

/-- What case B leaves in the statistics block's staging buffer — nothing is stored there: the window is idle at the
    case's points and not written back, so this value is consulted by nothing. -/
def out0_B_4 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : ¬cond0_1 i)
    (x0 : Vec F S5000x64 .f32) (x1 : Vec F S64x256 .f32) (x2 : Vec F S256 .f32) (xs0 : Vec F S2x256 .f32) : Vec F S1x2x256 .f32 :=
  VO0_4.read (Elt F) (VO0_4.writes (Elt F) VO0_4.junk (kernelRun0_B c i arg2 harg2 arg3 harg3 arg4 harg4 arg5 harg5 arg6 harg6 arg7 harg7 hc0 hc1 x0 x1 x2 xs0).2.1)

/-- Case B: the accumulator's two stores (rows 0 and 1) cover it. -/
theorem scover0_B_0 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : ¬cond0_1 i)
    (x0 : Vec F S5000x64 .f32) (x1 : Vec F S64x256 .f32) (x2 : Vec F S256 .f32) (xs0 : Vec F S2x256 .f32) (y : S2x256.Idx) :
    ∃ pc ∈ (kernelRun0_B c i arg2 harg2 arg3 harg3 arg4 harg4 arg5 harg5 arg6 harg6 arg7 harg7 hc0 hc1 x0 x1 x2 xs0).2.2.1, y ∈ pc.1.set :=
  View.cover_of_tiledL (kernelRun0_B c i arg2 harg2 arg3 harg3 arg4 harg4 arg5 harg5 arg6 harg6 arg7 harg7 hc0 hc1 x0 x1 x2 xs0).2.2.1 S1x256.size (by sl_kernel_rfl) y

/-- What case B leaves in the accumulator: its pieces read back. -/
def sout0_B_0 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : ¬cond0_1 i)
    (x0 : Vec F S5000x64 .f32) (x1 : Vec F S64x256 .f32) (x2 : Vec F S256 .f32) (xs0 : Vec F S2x256 .f32) : Vec F S2x256 .f32 :=
  VS0_0.read (Elt F) (VS0_0.writes (Elt F) VS0_0.junk (kernelRun0_B c i arg2 harg2 arg3 harg3 arg4 harg4 arg5 harg5 arg6 harg6 arg7 harg7 hc0 hc1 x0 x1 x2 xs0).2.2.1)

/-- Case C: the one store into the product block covers it. -/
theorem cover0_C_3 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : cond0_1 i)
    (x0 : Vec F S5000x64 .f32) (x1 : Vec F S64x256 .f32) (x2 : Vec F S256 .f32) (xs0 : Vec F S2x256 .f32) (y : S5000x256.Idx) :
    ∃ pc ∈ (kernelRun0_C c i arg2 harg2 arg3 harg3 arg4 harg4 arg5 harg5 arg6 harg6 arg7 harg7 hc0 hc1 x0 x1 x2 xs0).1, y ∈ pc.1.set :=
  View.cover_of_tiledL (kernelRun0_C c i arg2 harg2 arg3 harg3 arg4 harg4 arg5 harg5 arg6 harg6 arg7 harg7 hc0 hc1 x0 x1 x2 xs0).1 S5000x256.size (by sl_kernel_rfl) y

/-- What case C leaves in the product block's staging buffer: its pieces read back. -/
def out0_C_3 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : cond0_1 i)
    (x0 : Vec F S5000x64 .f32) (x1 : Vec F S64x256 .f32) (x2 : Vec F S256 .f32) (xs0 : Vec F S2x256 .f32) : Vec F S5000x256 .bf16 :=
  VO0_3.read (Elt F) (VO0_3.writes (Elt F) VO0_3.junk (kernelRun0_C c i arg2 harg2 arg3 harg3 arg4 harg4 arg5 harg5 arg6 harg6 arg7 harg7 hc0 hc1 x0 x1 x2 xs0).1)

/-- Case C: the copy of the accumulator covers the statistics block. -/
theorem cover0_C_4 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : cond0_1 i)
    (x0 : Vec F S5000x64 .f32) (x1 : Vec F S64x256 .f32) (x2 : Vec F S256 .f32) (xs0 : Vec F S2x256 .f32) (y : S1x2x256.Idx) :
    ∃ pc ∈ (kernelRun0_C c i arg2 harg2 arg3 harg3 arg4 harg4 arg5 harg5 arg6 harg6 arg7 harg7 hc0 hc1 x0 x1 x2 xs0).2.1, y ∈ pc.1.set :=
  View.cover_of_tiledL (kernelRun0_C c i arg2 harg2 arg3 harg3 arg4 harg4 arg5 harg5 arg6 harg6 arg7 harg7 hc0 hc1 x0 x1 x2 xs0).2.1 S1x2x256.size (by sl_kernel_rfl) y

/-- What case C leaves in the statistics block's staging buffer: the copied accumulator. -/
def out0_C_4 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : cond0_1 i)
    (x0 : Vec F S5000x64 .f32) (x1 : Vec F S64x256 .f32) (x2 : Vec F S256 .f32) (xs0 : Vec F S2x256 .f32) : Vec F S1x2x256 .f32 :=
  VO0_4.read (Elt F) (VO0_4.writes (Elt F) VO0_4.junk (kernelRun0_C c i arg2 harg2 arg3 harg3 arg4 harg4 arg5 harg5 arg6 harg6 arg7 harg7 hc0 hc1 x0 x1 x2 xs0).2.1)

/-- Case C: the accumulator's two stores (rows 0 and 1) cover it. -/
theorem scover0_C_0 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : cond0_1 i)
    (x0 : Vec F S5000x64 .f32) (x1 : Vec F S64x256 .f32) (x2 : Vec F S256 .f32) (xs0 : Vec F S2x256 .f32) (y : S2x256.Idx) :
    ∃ pc ∈ (kernelRun0_C c i arg2 harg2 arg3 harg3 arg4 harg4 arg5 harg5 arg6 harg6 arg7 harg7 hc0 hc1 x0 x1 x2 xs0).2.2.1, y ∈ pc.1.set :=
  View.cover_of_tiledL (kernelRun0_C c i arg2 harg2 arg3 harg3 arg4 harg4 arg5 harg5 arg6 harg6 arg7 harg7 hc0 hc1 x0 x1 x2 xs0).2.2.1 S1x256.size (by sl_kernel_rfl) y

/-- What case C leaves in the accumulator: its pieces read back. -/
def sout0_C_0 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : cond0_1 i)
    (x0 : Vec F S5000x64 .f32) (x1 : Vec F S64x256 .f32) (x2 : Vec F S256 .f32) (xs0 : Vec F S2x256 .f32) : Vec F S2x256 .f32 :=
  VS0_0.read (Elt F) (VS0_0.writes (Elt F) VS0_0.junk (kernelRun0_C c i arg2 harg2 arg3 harg3 arg4 harg4 arg5 harg5 arg6 harg6 arg7 harg7 hc0 hc1 x0 x1 x2 xs0).2.2.1)

section Region
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the outputs and the accumulator hold after each point -/

/-- THE ACCUMULATION. After the body at position `n`: (the product block's staging buffer, the statistics block's
    staging buffer, the accumulator) — the case the closed forms select at `n`, run at the point's memrefs and input
    blocks, the accumulator entering cases B and C at what position `n - 1` left in it. -/
def outsAt0 (c : Dev nD) : (n : ℕ) → n < cfg0.N → Vec F S5000x256 .bf16 × Vec F S1x2x256 .f32 × Vec F S2x256 .f32
  | 0, hn =>
      (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
         out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
         sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 10 = 0 then
      if h1 : (n + 1) % 10 = 9 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
         out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 10 = 9 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2,
         out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2,
         out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2)

/-- `outsAt0` at a point of case A. -/
theorem outsAt0_A (c : Dev nD) (t : Fin cfg0.N) (h0 : t.val % 10 = 0) (h1 : ¬t.val % 10 = 9) :
    outsAt0 V c t.val t.isLt =
      (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t),
         out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t),
         sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a point of case B: over the accumulator the point before left. -/
theorem outsAt0_B (c : Dev nD) (t : Fin cfg0.N) (h0 : ¬t.val % 10 = 0) (h1 : ¬t.val % 10 = 9) :
    outsAt0 V c t.val t.isLt =
      (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2,
         out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2,
         sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: over the accumulator the point before left. -/
theorem outsAt0_C (c : Dev nD) (t : Fin cfg0.N) (h0 : ¬t.val % 10 = 0) (h1 : t.val % 10 = 9) :
    outsAt0 V c t.val t.isLt =
      (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2,
         out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2,
         sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over; afterwards the
    accumulator at what the point before left in it, the rest of the scoped buffers and the generator register at
    some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ Rest0 c) ∗ (∃ r, prngReg c r)) := by
  cases n with
  | zero => exact absurd rfl hz
  | succ n => rfl

/-! ## The pipeline's proof data -/

/-- The proof data of this pipeline on core `c`: the arrays as the region finds them (`V`); after the body at point
    `t` each input's buffer at its block and the outputs' at `outsAt0`'s components; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' memrefs hold their blocks; the closed forms say which case the point is in; the
    invariant hands the body the accumulator at what the point before left (at anything before the first point) and
    takes it back at this point's contents; the statistics window, idle in cases A and B, is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 20 := lt_of_lt_of_eq t.isLt (show cfg0.N = 20 from N_0)
  by_cases h0 : t.val % 10 = 0
  · by_cases h1 : t.val % 10 = 9
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold out0_A_3 sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
        isplitl [H0]; · iexact H0
        isplitl [H1]; · iexact H1
        isplitl [H2]; · iexact H2
        isplitl [H3]; · iexists _; iexact H3
        isplitl [H4]; · iexact H4
        isplitl [HS0]; · iexact HS0
        iintro ⟨H0, H1, H2, ⟨%e3, H3⟩, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _)
        iexists _; iexact H4
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
        isplitl [H0]; · iexact H0
        isplitl [H1]; · iexact H1
        isplitl [H2]; · iexact H2
        isplitl [H3]; · iexists _; iexact H3
        isplitl [H4]; · iexact H4
        isplitl [HS0]; · iexists _; iexact HS0
        iintro ⟨H0, H1, H2, ⟨%e3, H3⟩, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _)
        iexists _; iexact H4

  · by_cases h1 : t.val % 10 = 9
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold out0_C_3 out0_C_4 sout0_C_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _).2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        iintro ⟨H0, H1, H2, ⟨%e3, H3⟩, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _)

    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold out0_B_3 sout0_B_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _).2.2.2 _ Set.univ _)
        isplitl [H0]; · iexact H0
        isplitl [H1]; · iexact H1
        isplitl [H2]; · iexact H2
        isplitl [H3]; · iexists _; iexact H3
        isplitl [H4]; · iexact H4
        isplitl [HS0]; · iexact HS0
        iintro ⟨H0, H1, H2, ⟨%e3, H3⟩, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_B_3 c _ _ _ _ _ _ _ _ _ _ _ _ _ _ _ _ _ _ _)
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives it back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 20 := N_0; omega)

end Region

end Cert.Kernel.Hand

end
-- ==== Proof.K.R1Run.lean ====
import proofs.«169417_j2877628089024_2_alg».proof.Proof.Gen.Kernel.Launch
import proofs.«169417_j2877628089024_2_alg».proof.Proof.Gen.Kernel.Skeleton
import proofs.«169417_j2877628089024_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# The second pallas_call, one grid point at a time

The call walks a grid of 2 × 10 points in order.  At each point its body reads a 5000 × 256 block of
activations and four small parameter arrays, writes a 5000 × 256 block of results, and adds that
block's column sums and column sums of squares into a 2 × 256 accumulator that lives in a buffer of
its own between points.  The ten points of a group fall into three kinds:

* kind A, the first point of a group: the accumulator is cleared before anything is added;
* kind B, the eight points in the middle: the accumulator is only added to;
* kind C, the last point of a group: after adding, the accumulator is copied into the 1 × 2 × 256
  block of the statistics output, which is written back to its array at these points only.

This file decides, over the twenty points, which point is of which kind, and runs the body once per
kind on arbitrary whole buffers: the run records, per output buffer and for the accumulator, the
list of rectangles the body stored into and what it stored there.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which point is of which kind -/

/-- The body clears the accumulator when the inner grid coordinate is 0. -/
abbrev cond1_0 (i : grid1.Coords) : Prop :=
  (Scalar.cmpi .ne (Scalar.extui (Scalar.cmpi .eq (BitVec.ofNat 32 (i 1).val) 0#32)) 0#32) = 1#1

/-- Over the twenty points: exactly at the points that are 0 modulo 10. -/
theorem hcond1_0 : ∀ t : Fin cfg1.N, cond1_0 (grid1.coords t) ↔ t.val % 10 = 0 :=
  (by decide +kernel : ∀ t : Fin grid1.N, cond1_0 (grid1.coords t) ↔ t.val % 10 = 0)

/-- The body copies the accumulator out when the inner grid coordinate is 9. -/
abbrev cond1_1 (i : grid1.Coords) : Prop := k1_cond2 i = 1#1

/-- Over the twenty points: exactly at the points that are 9 modulo 10. -/
theorem hcond1_1 : ∀ t : Fin cfg1.N, cond1_1 (grid1.coords t) ↔ t.val % 10 = 9 :=
  (by decide +kernel : ∀ t : Fin grid1.N, cond1_1 (grid1.coords t) ↔ t.val % 10 = 9)

/-! ## Where a window is left alone -/

/-- The five inputs and the block output are used at every point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Away from the last point of a group nothing is stored into the statistics block, -/
theorem idleAt1_6 : ∀ t : Fin cfg1.N, ¬cond1_1 (grid1.coords t) → cfg1.idle 6 (grid1.coords t) = true := by decide +kernel
/-- and the block is not written back there; -/
theorem noFlush1_6 : ∀ t : Fin cfg1.N, ¬cond1_1 (grid1.coords t) → (cfg1.win 6).flush t = false := by decide +kernel
/-- at the last point of a group it is stored into. -/
theorem liveAt1_6 : ∀ t : Fin cfg1.N, cond1_1 (grid1.coords t) → cfg1.idle 6 (grid1.coords t) = false := by decide +kernel

/-! ## The buffers the body is handed at a point -/

/-- The buffer each window is staged in at point `t`, and that it is a whole buffer. -/
abbrev ms1_0 (t : Fin cfg1.N) : Memref sig .tc .vmem S5000x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S5000x256 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x2x256 .f32 := win1_6.stage (cfg1.slots t 6)
abbrev hs1_6 (t : Fin cfg1.N) : (ms1_6 t).IsWhole := hstage1_6 ((cfg1.slots t 6).cast nbuf1_6)

/-- One staging buffer of each output, through which its contents are stated (which one does not matter: a
    covered buffer reads back the same whatever was there). -/
abbrev VO1_5 : View sig .tc .vmem S5000x256 .bf16 := (Memref.whole cc1_stg5_0 : Memref sig .tc .vmem S5000x256 .bf16).view
abbrev VO1_6 : View sig .tc .vmem S1x2x256 .f32 := (Memref.whole cc1_stg6_0 : Memref sig .tc .vmem S1x2x256 .f32).view
/-- The accumulator: a whole buffer of the call's own, handed to the body beside the windows. -/
abbrev scM1_0 : Memref sig .tc .vmem S2x256 .f32 := Memref.whole cc1_scratch0
abbrev VS1_0 : View sig .tc .vmem S2x256 .f32 := scM1_0.view

/-- What the call is handed besides its windows: every other buffer of the core's fast memory whole at some
    contents — the accumulator among them, written here as a buffer the body may use — and the random-number
    register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f)) ∗ (∃ r, prngReg c r)) := by
  unfold Pipeline.ΦA; rw [scopedRest1_eq]; simp only [scM1_0, owns_whole]; try rfl

set_option maxHeartbeats 4000000 in
/-- KIND A (the accumulator is cleared, nothing is copied out).  On whole buffers — the five inputs at contents
    `x0 … x4`, the block output and the accumulator at anything, the statistics block at `xi6` — the body runs
    and hands back: the inputs as they were, the block output with the rectangles `L5` written, the statistics
    block untouched, the accumulator with the rectangles `LS0` written.  The lists are found by running the body. -/
noncomputable def kernelRun1_A (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : cond1_0 i) (hc1 : ¬cond1_1 i)
    (x0 : Vec F S5000x256 .bf16) (x1 : Vec F S256 .f32) (x2 : Vec F S256 .f32) (x3 : Vec F S256x256 .f32) (x4 : Vec F S256 .f32) :
    Σ' (L5 : List (View.Piece (Elt F) S5000x256 .bf16)) (L6 : List (View.Piece (Elt F) S1x2x256 .f32)), { LS0 : List (View.Piece (Elt F) S2x256 .f32) //
      ∀ (xi6 : Vec F S1x2x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__linear_bn_kernel i arg2 harg2 arg3 harg3 arg4 harg4 arg5 harg5 arg6 harg6 arg7 harg7 arg8 harg8 arg9 harg9) K } := by
  refine ⟨?_, [], ?_, fun xi6 E K => ?run⟩
  case run =>
    simp only [cc1__linear_bn_kernel_eq_skeleton]; unfold cc1__linear_bn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact HS0

set_option maxHeartbeats 4000000 in
/-- KIND B (no clearing, nothing copied out): as kind A, but the accumulator comes in at the contents `xs0`
    the point before left, and what is added is added to that. -/
noncomputable def kernelRun1_B (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : ¬cond1_1 i)
    (x0 : Vec F S5000x256 .bf16) (x1 : Vec F S256 .f32) (x2 : Vec F S256 .f32) (x3 : Vec F S256x256 .f32) (x4 : Vec F S256 .f32) (xs0 : Vec F S2x256 .f32) :
    Σ' (L5 : List (View.Piece (Elt F) S5000x256 .bf16)) (L6 : List (View.Piece (Elt F) S1x2x256 .f32)), { LS0 : List (View.Piece (Elt F) S2x256 .f32) //
      ∀ (xi6 : Vec F S1x2x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__linear_bn_kernel i arg2 harg2 arg3 harg3 arg4 harg4 arg5 harg5 arg6 harg6 arg7 harg7 arg8 harg8 arg9 harg9) K } := by
  refine ⟨?_, [], ?_, fun xi6 E K => ?run⟩
  case run =>
    simp only [cc1__linear_bn_kernel_eq_skeleton]; unfold cc1__linear_bn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact HS0

set_option maxHeartbeats 4000000 in
/-- KIND C (no clearing; the accumulator is copied out): as kind B, and the statistics block, taken at anything,
    comes back with the rectangles `L6` written. -/
noncomputable def kernelRun1_C (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : cond1_1 i)
    (x0 : Vec F S5000x256 .bf16) (x1 : Vec F S256 .f32) (x2 : Vec F S256 .f32) (x3 : Vec F S256x256 .f32) (x4 : Vec F S256 .f32) (xs0 : Vec F S2x256 .f32) :
    Σ' (L5 : List (View.Piece (Elt F) S5000x256 .bf16)) (L6 : List (View.Piece (Elt F) S1x2x256 .f32)), { LS0 : List (View.Piece (Elt F) S2x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__linear_bn_kernel i arg2 harg2 arg3 harg3 arg4 harg4 arg5 harg5 arg6 harg6 arg7 harg7 arg8 harg8 arg9 harg9) K } := by
  refine ⟨?_, ?_, ?_, fun E K => ?run⟩
  case run =>
    simp only [cc1__linear_bn_kernel_eq_skeleton]; unfold cc1__linear_bn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.Kernel.Hand

end
-- ==== Proof.K.R1.lean ====
import proofs.«169417_j2877628089024_2_alg».proof.Proof.K.R1Run

/-!
# The second pallas_call over its whole grid

Stated at a parameter `V`: what the core's arrays hold when the call is entered.

From the three runs of the body (one per kind of point) this file reads off what each output buffer and the
accumulator hold after the body, follows the accumulator from point to point by recursion on the point
(`outsAt1`), packs this as the proof data of the call's pipeline (`dat1`) and shows that the body, run at any
point on what the pipeline hands it, leaves what the proof data say (`body_obligation1`).

The accumulator's life: before the first point it holds anything; after point `n` it holds the third component
of `outsAt1 n`.  Within a group of ten points, that is zero plus the column sums (row 0) and column sums of
squares (row 1) of the blocks of the group's points so far.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, cut out of its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input 0's buffer holds its block at every point, whether it was fetched there or at an earlier point with the
    same block index — for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input 1's buffer holds its block at every point, whether it was fetched there or at an earlier point with the
    same block index — for any proof data over `V` whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input 2's buffer holds its block at every point, whether it was fetched there or at an earlier point with the
    same block index — for any proof data over `V` whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input 3's buffer holds its block at every point, whether it was fetched there or at an earlier point with the
    same block index — for any proof data over `V` whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input 4's buffer holds its block at every point, whether it was fetched there or at an earlier point with the
    same block index — for any proof data over `V` whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What one run of the body leaves, per kind of point -/

/-! ### Kind A: the first point of a group -/

/-- The rectangles stored into the block output at the first point of a group tile the 5000 × 256 block (one store of the whole block). -/
theorem cover1_A_5 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : cond1_0 i) (hc1 : ¬cond1_1 i)
    (x0 : Vec F S5000x256 .bf16) (x1 : Vec F S256 .f32) (x2 : Vec F S256 .f32) (x3 : Vec F S256x256 .f32) (x4 : Vec F S256 .f32) (y : S5000x256.Idx) :
    ∃ pc ∈ (kernelRun1_A c i arg2 harg2 arg3 harg3 arg4 harg4 arg5 harg5 arg6 harg6 arg7 harg7 arg8 harg8 arg9 harg9 hc0 hc1 x0 x1 x2 x3 x4).1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4).1 S5000x256.size (by sl_kernel_rfl) y

/-- What the block output's buffer holds after the body at the first point of a group: the stored rectangles read back (the
    buffer is covered, so what was there before does not matter).  The one rectangle is the whole block, and
    what is stored is `k1_pay5` of the five input blocks: relu(x·scale + shift) times the weights plus the bias. -/
def out1_A_5 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : cond1_0 i) (hc1 : ¬cond1_1 i)
    (x0 : Vec F S5000x256 .bf16) (x1 : Vec F S256 .f32) (x2 : Vec F S256 .f32) (x3 : Vec F S256x256 .f32) (x4 : Vec F S256 .f32) : Vec F S5000x256 .bf16 :=
  VO1_5.read (Elt F) (VO1_5.writes (Elt F) VO1_5.junk (kernelRun1_A c i arg2 harg2 arg3 harg3 arg4 harg4 arg5 harg5 arg6 harg6 arg7 harg7 arg8 harg8 arg9 harg9 hc0 hc1 x0 x1 x2 x3 x4).1)

/-- Nothing is stored into the statistics block at the first point of a group; this term (no rectangles read back) stands in
    the tuple below and is never looked at: the block is neither written back here nor read at the next point. -/
def out1_A_6 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : cond1_0 i) (hc1 : ¬cond1_1 i)
    (x0 : Vec F S5000x256 .bf16) (x1 : Vec F S256 .f32) (x2 : Vec F S256 .f32) (x3 : Vec F S256x256 .f32) (x4 : Vec F S256 .f32) : Vec F S1x2x256 .f32 :=
  VO1_6.read (Elt F) (VO1_6.writes (Elt F) VO1_6.junk (kernelRun1_A c i arg2 harg2 arg3 harg3 arg4 harg4 arg5 harg5 arg6 harg6 arg7 harg7 arg8 harg8 arg9 harg9 hc0 hc1 x0 x1 x2 x3 x4).2.1)

/-- The rectangles stored into the accumulator at the first point of a group cover it: its two rows are each stored once (after the clearing store of the whole). -/
theorem scover1_A_0 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : cond1_0 i) (hc1 : ¬cond1_1 i)
    (x0 : Vec F S5000x256 .bf16) (x1 : Vec F S256 .f32) (x2 : Vec F S256 .f32) (x3 : Vec F S256x256 .f32) (x4 : Vec F S256 .f32) (y : S2x256.Idx) :
    ∃ pc ∈ (kernelRun1_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4).2.2.1 S1x256.size (by sl_kernel_rfl) y

/-- What the accumulator holds after the body at the first point of a group: row 0 is `k1_pay6` (zero plus the
    block's column sums), row 1 is `k1_pay1` (zero plus the column sums of the squares). -/
def sout1_A_0 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : cond1_0 i) (hc1 : ¬cond1_1 i)
    (x0 : Vec F S5000x256 .bf16) (x1 : Vec F S256 .f32) (x2 : Vec F S256 .f32) (x3 : Vec F S256x256 .f32) (x4 : Vec F S256 .f32) : Vec F S2x256 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4).2.2.1)

/-! ### Kind B: a middle point of a group -/

/-- The rectangles stored into the block output at a middle point of a group tile the 5000 × 256 block (one store of the whole block). -/
theorem cover1_B_5 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : ¬cond1_1 i)
    (x0 : Vec F S5000x256 .bf16) (x1 : Vec F S256 .f32) (x2 : Vec F S256 .f32) (x3 : Vec F S256x256 .f32) (x4 : Vec F S256 .f32) (xs0 : Vec F S2x256 .f32) (y : S5000x256.Idx) :
    ∃ pc ∈ (kernelRun1_B c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 xs0).1 S5000x256.size (by sl_kernel_rfl) y

/-- What the block output's buffer holds after the body at a middle point of a group: the stored rectangles read back (the
    buffer is covered, so what was there before does not matter).  The one rectangle is the whole block, and
    what is stored is `k1_pay5` of the five input blocks: relu(x·scale + shift) times the weights plus the bias. -/
def out1_B_5 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : ¬cond1_1 i)
    (x0 : Vec F S5000x256 .bf16) (x1 : Vec F S256 .f32) (x2 : Vec F S256 .f32) (x3 : Vec F S256x256 .f32) (x4 : Vec F S256 .f32) (xs0 : Vec F S2x256 .f32) : Vec F S5000x256 .bf16 :=
  VO1_5.read (Elt F) (VO1_5.writes (Elt F) VO1_5.junk (kernelRun1_B c i arg2 harg2 arg3 harg3 arg4 harg4 arg5 harg5 arg6 harg6 arg7 harg7 arg8 harg8 arg9 harg9 hc0 hc1 x0 x1 x2 x3 x4 xs0).1)

/-- Nothing is stored into the statistics block at a middle point of a group; this term (no rectangles read back) stands in
    the tuple below and is never looked at: the block is neither written back here nor read at the next point. -/
def out1_B_6 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : ¬cond1_1 i)
    (x0 : Vec F S5000x256 .bf16) (x1 : Vec F S256 .f32) (x2 : Vec F S256 .f32) (x3 : Vec F S256x256 .f32) (x4 : Vec F S256 .f32) (xs0 : Vec F S2x256 .f32) : Vec F S1x2x256 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 xs0).2.1)

/-- The rectangles stored into the accumulator at a middle point of a group cover it: its two rows are each stored once. -/
theorem scover1_B_0 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : ¬cond1_1 i)
    (x0 : Vec F S5000x256 .bf16) (x1 : Vec F S256 .f32) (x2 : Vec F S256 .f32) (x3 : Vec F S256x256 .f32) (x4 : Vec F S256 .f32) (xs0 : Vec F S2x256 .f32) (y : S2x256.Idx) :
    ∃ pc ∈ (kernelRun1_B c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 xs0).2.2.1 S1x256.size (by sl_kernel_rfl) y

/-- What the accumulator holds after the body at a middle point of a group: row 0 is `k1_pay6` (row 0 of `xs0` plus the
    block's column sums), row 1 is `k1_pay1` (row 1 of `xs0` plus the column sums of the squares). -/
def sout1_B_0 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : ¬cond1_1 i)
    (x0 : Vec F S5000x256 .bf16) (x1 : Vec F S256 .f32) (x2 : Vec F S256 .f32) (x3 : Vec F S256x256 .f32) (x4 : Vec F S256 .f32) (xs0 : Vec F S2x256 .f32) : Vec F S2x256 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 xs0).2.2.1)

/-! ### Kind C: the last point of a group -/

/-- The rectangles stored into the block output at the last point of a group tile the 5000 × 256 block (one store of the whole block). -/
theorem cover1_C_5 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : cond1_1 i)
    (x0 : Vec F S5000x256 .bf16) (x1 : Vec F S256 .f32) (x2 : Vec F S256 .f32) (x3 : Vec F S256x256 .f32) (x4 : Vec F S256 .f32) (xs0 : Vec F S2x256 .f32) (y : S5000x256.Idx) :
    ∃ pc ∈ (kernelRun1_C c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 xs0).1 S5000x256.size (by sl_kernel_rfl) y

/-- What the block output's buffer holds after the body at the last point of a group: the stored rectangles read back (the
    buffer is covered, so what was there before does not matter).  The one rectangle is the whole block, and
    what is stored is `k1_pay5` of the five input blocks: relu(x·scale + shift) times the weights plus the bias. -/
def out1_C_5 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : cond1_1 i)
    (x0 : Vec F S5000x256 .bf16) (x1 : Vec F S256 .f32) (x2 : Vec F S256 .f32) (x3 : Vec F S256x256 .f32) (x4 : Vec F S256 .f32) (xs0 : Vec F S2x256 .f32) : Vec F S5000x256 .bf16 :=
  VO1_5.read (Elt F) (VO1_5.writes (Elt F) VO1_5.junk (kernelRun1_C c i arg2 harg2 arg3 harg3 arg4 harg4 arg5 harg5 arg6 harg6 arg7 harg7 arg8 harg8 arg9 harg9 hc0 hc1 x0 x1 x2 x3 x4 xs0).1)

/-- The rectangles stored into the statistics block at the last point of a group tile it (one store of the whole 1 × 2 × 256 block). -/
theorem cover1_C_6 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : cond1_1 i)
    (x0 : Vec F S5000x256 .bf16) (x1 : Vec F S256 .f32) (x2 : Vec F S256 .f32) (x3 : Vec F S256x256 .f32) (x4 : Vec F S256 .f32) (xs0 : Vec F S2x256 .f32) (y : S1x2x256.Idx) :
    ∃ pc ∈ (kernelRun1_C c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 xs0).2.1 S1x2x256.size (by sl_kernel_rfl) y

/-- What the statistics block holds after the body at the last point of a group: `k1_pay2` of the accumulator as
    this point leaves it — the accumulator's two rows, the sums and the sums of squares over the group. -/
def out1_C_6 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : cond1_1 i)
    (x0 : Vec F S5000x256 .bf16) (x1 : Vec F S256 .f32) (x2 : Vec F S256 .f32) (x3 : Vec F S256x256 .f32) (x4 : Vec F S256 .f32) (xs0 : Vec F S2x256 .f32) : Vec F S1x2x256 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 xs0).2.1)

/-- The rectangles stored into the accumulator at the last point of a group cover it: its two rows are each stored once. -/
theorem scover1_C_0 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : cond1_1 i)
    (x0 : Vec F S5000x256 .bf16) (x1 : Vec F S256 .f32) (x2 : Vec F S256 .f32) (x3 : Vec F S256x256 .f32) (x4 : Vec F S256 .f32) (xs0 : Vec F S2x256 .f32) (y : S2x256.Idx) :
    ∃ pc ∈ (kernelRun1_C c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 xs0).2.2.1 S1x256.size (by sl_kernel_rfl) y

/-- What the accumulator holds after the body at the last point of a group: row 0 is `k1_pay6` (row 0 of `xs0` plus the
    block's column sums), row 1 is `k1_pay1` (row 1 of `xs0` plus the column sums of the squares). -/
def sout1_C_0 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : cond1_1 i)
    (x0 : Vec F S5000x256 .bf16) (x1 : Vec F S256 .f32) (x2 : Vec F S256 .f32) (x3 : Vec F S256x256 .f32) (x4 : Vec F S256 .f32) (xs0 : Vec F S2x256 .f32) : Vec F S2x256 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 xs0).2.2.1)

/-! ## From point to point -/

/-- The three buffers (block output, statistics block, accumulator) after the body at a point `t` of kind A: the
    run of that kind at the point's buffers and input blocks.  Nothing of the points before enters: the accumulator is cleared first. -/
def caseA1 (c : Dev nD) (t : Fin cfg1.N) (h0 : t.val % 10 = 0) (h1 : ¬t.val % 10 = 9) : Vec F S5000x256 .bf16 × Vec F S1x2x256 .f32 × Vec F S2x256 .f32 :=
  (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t),
   out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))

/-- The same at a point of kind B, from what the point before left in the accumulator (`xs0`). -/
def caseB1 (c : Dev nD) (t : Fin cfg1.N) (h0 : ¬t.val % 10 = 0) (h1 : ¬t.val % 10 = 9) (xs0 : Vec F S2x256 .f32) : Vec F S5000x256 .bf16 × Vec F S1x2x256 .f32 × Vec F S2x256 .f32 :=
  (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0,
   out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0)

/-- The same at a point of kind C. -/
def caseC1 (c : Dev nD) (t : Fin cfg1.N) (h0 : ¬t.val % 10 = 0) (h1 : t.val % 10 = 9) (xs0 : Vec F S2x256 .f32) : Vec F S5000x256 .bf16 × Vec F S1x2x256 .f32 × Vec F S2x256 .f32 :=
  (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0,
   out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0)

/-- THE ACCUMULATION.  What the block output's buffer, the statistics block's buffer and the accumulator hold after
    the body at position `n`: the kind is read off `n` modulo 10, and kinds B and C start from the accumulator as
    position `n - 1` left it (nothing touches it between two points). -/
def outsAt1 (c : Dev nD) : (n : ℕ) → n < cfg1.N → Vec F S5000x256 .bf16 × Vec F S1x2x256 .f32 × Vec F S2x256 .f32
  | 0, hn => caseA1 V c ⟨0, hn⟩ (Nat.zero_mod _) (by decide : ¬ 0 % 10 = 9)
  | n + 1, hn =>
    if h0 : (n + 1) % 10 = 0 then
      if h1 : (n + 1) % 10 = 9 then False.elim (by omega)
      else caseA1 V c ⟨n + 1, hn⟩ h0 h1
    else
      if h1 : (n + 1) % 10 = 9 then caseC1 V c ⟨n + 1, hn⟩ h0 h1 (outsAt1 c n (Nat.lt_of_succ_lt hn)).2.2
      else caseB1 V c ⟨n + 1, hn⟩ h0 h1 (outsAt1 c n (Nat.lt_of_succ_lt hn)).2.2

/-- `outsAt1` at a point of kind A. -/
theorem outsAt1_A (c : Dev nD) (t : Fin cfg1.N) (h0 : t.val % 10 = 0) (h1 : ¬t.val % 10 = 9) :
    outsAt1 V c t.val t.isLt = caseA1 V c t h0 h1 := by
  obtain ⟨n, hn⟩ := t
  cases n with
  | zero => exact rfl
  | succ n => exact (dif_pos h0).trans ((dif_neg h1).trans rfl)

/-- `outsAt1` at a point of kind B: over the accumulator of the point before. -/
theorem outsAt1_B (c : Dev nD) (t : Fin cfg1.N) (h0 : ¬t.val % 10 = 0) (h1 : ¬t.val % 10 = 9) :
    outsAt1 V c t.val t.isLt = caseB1 V c t h0 h1 (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

/-- `outsAt1` at a point of kind C: over the accumulator of the point before. -/
theorem outsAt1_C (c : Dev nD) (t : Fin cfg1.N) (h0 : ¬t.val % 10 = 0) (h1 : t.val % 10 = 9) :
    outsAt1 V c t.val t.isLt = caseC1 V c t h0 h1 (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-! ## The invariant between points -/

/-- What the call holds besides its windows before position `n`: before the first point what it was handed (the
    accumulator at anything); later the same with the accumulator at what the point before left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f)) ∗ (∃ r, prngReg c r))

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f)) ∗ (∃ r, prngReg c r)) := by
  cases n with
  | zero => exact absurd rfl hz
  | succ n => rfl

/-! ## The proof data of the call's pipeline -/

/-- The arrays as the call finds them; after the body at point `t` each input's buffer still at its block, the
    block output's and the statistics block's at `outsAt1`'s first two components; the invariant `PhiS1`; nothing owed; whole shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
  Φ t := PhiS1 V c t.val (Nat.le_of_lt_succ t.isLt)
  q _ := fullShare
  owed _ := 0

/-- The proof data's arrays are the entry contents. -/
theorem A_eq1 (c : Dev nD) (w : Fin cfg1.W) : (dat1 V c).A w = V c (Pipeline.arrRef spec1 w) := by
  dsimp only [dat1]

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]

/-- Each input's buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body at a generic point -/

/-- What the body is called with at point `t`: the invariant, the core's debts, each window's buffer at what it holds there; -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point.  The inputs' buffers hold their blocks; the point's number modulo 10 says which kind it is,
    and the run of that kind applies: the invariant hands over the accumulator (at anything before the first point,
    at what the point before left afterwards) and takes it back at this point's contents; the block output's buffer
    comes back covered; the statistics block's comes back covered at the last point of a group and untouched elsewhere. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  by_cases h0 : t.val % 10 = 0
  · by_cases h1 : t.val % 10 = 9
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [outsAt1_A V c t h0 h1]
      unfold caseA1 out1_A_5 sout1_A_0; (try dsimp only)
      by_cases hz : t.val = 0
      · rw [PhiS1_castSucc V c t, PhiS1_zero V c _ _ hz, PhiA1_eq]
        iintro ⟨⟨⟨HR0, HR1, HR2, HR3, HR4, HR5, HR6, HR7, HR8, HS0, HR10, HR11, HR12, HR13, HR14, HR15, HR16, HR17⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS0]; · iexact HS0
        iintro ⟨H0, H1, H2, H3, H4, ⟨%e5, H5⟩, H6, ⟨%es0, HS0⟩⟩
        isplitl [HR0 HR1 HR2 HR3 HR4 HR5 HR6 HR7 HR8 HS0 HR10 HR11 HR12 HR13 HR14 HR15 HR16 HR17 Hg]
        · isplitl [HR0 HR1 HR2 HR3 HR4 HR5 HR6 HR7 HR8 HS0 HR10 HR11 HR12 HR13 HR14 HR15 HR16 HR17]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _)
            isplitl [HR10]; · iexact HR10
            isplitl [HR11]; · iexact HR11
            isplitl [HR12]; · iexact HR12
            isplitl [HR13]; · iexact HR13
            isplitl [HR14]; · iexact HR14
            isplitl [HR15]; · iexact HR15
            isplitl [HR16]; · iexact HR16
            iexact HR17
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover1_A_5 c _ _ _ _ _ _ _ _ _ _ _ _ _ _ _ _ _ _ _ _ _ _ _ _)
        iexists _; iexact H6
      · rw [PhiS1_castSucc V c t, PhiS1_pos V c _ _ hz]
        iintro ⟨⟨⟨HR0, HR1, HR2, HR3, HR4, HR5, HR6, HR7, HR8, HS0, HR10, HR11, HR12, HR13, HR14, HR15, HR16, HR17⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS0]; · iexists _; iexact HS0
        iintro ⟨H0, H1, H2, H3, H4, ⟨%e5, H5⟩, H6, ⟨%es0, HS0⟩⟩
        isplitl [HR0 HR1 HR2 HR3 HR4 HR5 HR6 HR7 HR8 HS0 HR10 HR11 HR12 HR13 HR14 HR15 HR16 HR17 Hg]
        · isplitl [HR0 HR1 HR2 HR3 HR4 HR5 HR6 HR7 HR8 HS0 HR10 HR11 HR12 HR13 HR14 HR15 HR16 HR17]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _)
            isplitl [HR10]; · iexact HR10
            isplitl [HR11]; · iexact HR11
            isplitl [HR12]; · iexact HR12
            isplitl [HR13]; · iexact HR13
            isplitl [HR14]; · iexact HR14
            isplitl [HR15]; · iexact HR15
            isplitl [HR16]; · iexact HR16
            iexact HR17
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover1_A_5 c _ _ _ _ _ _ _ _ _ _ _ _ _ _ _ _ _ _ _ _ _ _ _ _)
        iexists _; iexact H6
  · by_cases h1 : t.val % 10 = 9
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold caseC1 out1_C_5 out1_C_6 sout1_C_0; (try dsimp only)
      by_cases hz : t.val = 0
      · exfalso; omega
      · rw [PhiS1_castSucc V c t, PhiS1_pos V c _ _ hz]
        iintro ⟨⟨⟨HR0, HR1, HR2, HR3, HR4, HR5, HR6, HR7, HR8, HS0, HR10, HR11, HR12, HR13, HR14, HR15, HR16, HR17⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        iintro ⟨H0, H1, H2, H3, H4, ⟨%e5, H5⟩, ⟨%e6, H6⟩, ⟨%es0, HS0⟩⟩
        isplitl [HR0 HR1 HR2 HR3 HR4 HR5 HR6 HR7 HR8 HS0 HR10 HR11 HR12 HR13 HR14 HR15 HR16 HR17 Hg]
        · isplitl [HR0 HR1 HR2 HR3 HR4 HR5 HR6 HR7 HR8 HS0 HR10 HR11 HR12 HR13 HR14 HR15 HR16 HR17]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _)
            isplitl [HR10]; · iexact HR10
            isplitl [HR11]; · iexact HR11
            isplitl [HR12]; · iexact HR12
            isplitl [HR13]; · iexact HR13
            isplitl [HR14]; · iexact HR14
            isplitl [HR15]; · iexact HR15
            isplitl [HR16]; · iexact HR16
            iexact HR17
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover1_C_5 c _ _ _ _ _ _ _ _ _ _ _ _ _ _ _ _ _ _ _ _ _ _ _ _ _)
        unfold owns; iexists _; isplitr
        swap; · iexact H6
        ipureintro; exact View.read_writes_of_cover _ _ _ _ _ (cover1_C_6 c _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [outsAt1_B V c t h0 h1]
      unfold caseB1 out1_B_5 sout1_B_0; (try dsimp only)
      by_cases hz : t.val = 0
      · exfalso; omega
      · rw [PhiS1_castSucc V c t, PhiS1_pos V c _ _ hz]
        iintro ⟨⟨⟨HR0, HR1, HR2, HR3, HR4, HR5, HR6, HR7, HR8, HS0, HR10, HR11, HR12, HR13, HR14, HR15, HR16, HR17⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS0]; · iexact HS0
        iintro ⟨H0, H1, H2, H3, H4, ⟨%e5, H5⟩, H6, ⟨%es0, HS0⟩⟩
        isplitl [HR0 HR1 HR2 HR3 HR4 HR5 HR6 HR7 HR8 HS0 HR10 HR11 HR12 HR13 HR14 HR15 HR16 HR17 Hg]
        · isplitl [HR0 HR1 HR2 HR3 HR4 HR5 HR6 HR7 HR8 HS0 HR10 HR11 HR12 HR13 HR14 HR15 HR16 HR17]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _)
            isplitl [HR10]; · iexact HR10
            isplitl [HR11]; · iexact HR11
            isplitl [HR12]; · iexact HR12
            isplitl [HR13]; · iexact HR13
            isplitl [HR14]; · iexact HR14
            isplitl [HR15]; · iexact HR15
            isplitl [HR16]; · iexact HR16
            iexact HR17
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover1_B_5 c _ _ _ _ _ _ _ _ _ _ _ _ _ _ _ _ _ _ _ _ _ _ _ _ _)
        iexists _; iexact H6

/-- The body obligation of the call's pipeline, at every point. -/
theorem body_obligation1 (c : Dev nD) : BodyObligation (dat1 (F := F) V c) (defs₀ (F := F)) Variants.none () Set.univ := fun t => by
  rw [bigSep_W1, bigSep_W1]
  exact sound_body1 V c t

/-- What the call is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the call was handed: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HS0, HR10, HR11, HR12, HR13, HR14, HR15, HR16, HR17⟩, Hg⟩
  isplitl [HR0 HR1 HR2 HR3 HR4 HR5 HR6 HR7 HR8 HS0 HR10 HR11 HR12 HR13 HR14 HR15 HR16 HR17]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HS0]; · iexists _; iexact HS0
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    iexact HR17
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end Cert.Kernel.Hand

end
-- ==== Proof.K.R2Run.lean ====
/- Region 2 of the program: the body of `cc2__linear_bn_final_kernel` run once on whole staging buffers.
   The body reads its five inputs whole (the activations' block, the scale and shift rows, the padded weight, the
   padded bias), reads the output buffer once without using what it finds, and stores one whole block: the affine
   map, clamped below at zero, contracted against the weight and shifted by the bias.  What the store leaves in the
   output buffer is named (`out2_5`) so that the value leg can read it as a term over the input blocks. -/
import proofs.«169417_j2877628089024_2_alg».proof.Proof.Gen.Kernel.Skeleton
import proofs.«169417_j2877628089024_2_alg».proof.Proof.Gen.Kernel.Launch
import Idealize.ShloMosaic.Lib.Pipeline.FrameBody
import Idealize.ShloMosaic.Lib.Ring
import Idealize.ShloMosaic.Lib.Tactic

-- deciding that one whole-block rectangle tiles a 5000-row shape recurses once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every one is the whole of its buffer -/

/-- The whole activations block, 5000 rows of 256 lanes. -/
abbrev r2_x : Rect S5000x256 := Rect.unit (s := S5000x256) ![0, 0] S5000x256.size inb_S5000x256_S5000x256_0_0
/-- A whole 256-lane row (the scale, the shift). -/
abbrev r2_v : Rect S256 := Rect.unit (s := S256) ![0] S256.size inb_S256_S256_0
/-- The whole padded weight, 256 by 128. -/
abbrev r2_w : Rect S256x128 := Rect.unit (s := S256x128) ![0, 0] S256x128.size inb_S256x128_S256x128_0_0
/-- The whole padded bias, 128 lanes. -/
abbrev r2_b : Rect S128 := Rect.unit (s := S128) ![0] S128.size inb_S128_S128_0
/-- The whole output block, 5000 rows of 128 lanes. -/
abbrev r2_o : Rect S5000x128 := Rect.unit (s := S5000x128) ![0, 0] S5000x128.size inb_S5000x128_S5000x128_0_0

/-! ## What the body leaves in the output window's buffer -/

/-- Window 5's staging buffer after the body, as a term over the five input blocks: the single whole-block store,
    whose payload `Gen.k2_pay1` is, lane by lane, `max (x * scale + shift) 0` contracted over the 256 lanes against
    the weight, plus the bias.  Arguments in window order: activations, scale, shift, weight, bias. -/
def out2_5 (x0 : Vec F S5000x256 .bf16) (x1 : Vec F S256 .f32) (x2 : Vec F S256 .f32) (x3 : Vec F S256x128 .f32)
    (x4 : Vec F S128 .f32) : Vec F S5000x128 .f32 :=
  View.canon [⟨r2_o, k2_pay1 (View.ld x0 r2_x) (View.ld x1 r2_v) (View.ld x2 r2_v) (View.ld x3 r2_w) (View.ld x4 r2_b)⟩]

/-- One store of the whole block covers the block. -/
theorem cover2_5 (p0 : Vec F S5000x128 .f32) (y : S5000x128.Idx) :
    ∃ pc ∈ ([⟨r2_o, p0⟩] : List (View.Piece (Elt F) S5000x128 .f32)), y ∈ pc.1.set :=
  View.cover_of_tiled [⟨r2_o, p0⟩] S5000x128.size (by rfl) y

/-! ## The body's triple -/

set_option maxHeartbeats 1000000 in
/-- The body on whole staging buffers — the five inputs' at contents `x0 … x4`, the output's at anything — runs to the
    continuation holding the inputs as they were and the output at `out2_5` of the inputs. -/
theorem sound_kernel2 (c : Dev nD) (E : Set ℕ) (i : grid2.Coords)
    (arg0 : Memref sig .tc .vmem S5000x256 .bf16) (harg0 : arg0.IsWhole)
    (arg1 : Memref sig .tc .vmem S256 .f32) (harg1 : arg1.IsWhole)
    (arg2 : Memref sig .tc .vmem S256 .f32) (harg2 : arg2.IsWhole)
    (arg3 : Memref sig .tc .vmem S256x128 .f32) (harg3 : arg3.IsWhole)
    (arg4 : Memref sig .tc .vmem S128 .f32) (harg4 : arg4.IsWhole)
    (arg5 : Memref sig .tc .vmem S5000x128 .f32) (harg5 : arg5.IsWhole)
    (x0 : Vec F S5000x256 .bf16) (x1 : Vec F S256 .f32) (x2 : Vec F S256 .f32) (x3 : Vec F S256x128 .f32)
    (x4 : Vec F S128 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4
            ∗ owns (c : Thread nD τ) arg5 fullShare (out2_5 x0 x1 x2 x3 x4)) -∗ K ⟨⟩))
      ⊢ wp frame (wpE (defs₀ (F := F)) Variants.none c none) E
          (cc2__linear_bn_final_kernel i arg0 harg0 arg1 harg1 arg2 harg2 arg3 harg3 arg4 harg4 arg5 harg5) K := by
  simp only [cc2__linear_bn_final_kernel_eq_skeleton]; unfold cc2__linear_bn_final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

end Cert.Kernel.Hand

end
-- ==== Proof.K.R2.lean ====
/- Region 2 of the program, `cc2__linear_bn_final_kernel` on its grid of 2 by 10 points run in sequence: the frame
   half, for any float model and at a PARAMETER `V` — the contents of the TensorCore's buffers when the region is
   entered.  The kernel is of the plain class: no scratch, no conditional, one control case.  Window 0 (the
   activations, one 5000-row block per point) is fetched at every point; windows 1–4 (scale, shift, padded weight,
   padded bias: one block each) are fetched at the first point only and stay in their buffers; window 5 (the
   output, one 5000-row block per point) is written back at every point.  So after the body at point `t` every
   input buffer still holds its block and the output buffer holds `out2_5` of the five input blocks at `t`. -/
import proofs.«169417_j2877628089024_2_alg».proof.Proof.K.R2Run
import proofs.«169417_j2877628089024_2_alg».proof.Proof.Gen.Kernel.Launch
import proofs.«169417_j2877628089024_2_alg».proof.Proof.Gen.Kernel.Skeleton
import proofs.«169417_j2877628089024_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the activations): its current staging buffer holds its block at every point, fetched there or not, for any
    proof data whose array is `V`'s and whose body leaves the block in place.  Where the window is not fetched its
    block index has not moved since the fetch, so the buffer still holds that same block; the window is never cut and
    never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the scale row): its current staging buffer holds its block at every point, fetched there or not, for any
    proof data whose array is `V`'s and whose body leaves the block in place.  Where the window is not fetched its
    block index has not moved since the fetch, so the buffer still holds that same block; the window is never cut and
    never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the shift row): its current staging buffer holds its block at every point, fetched there or not, for any
    proof data whose array is `V`'s and whose body leaves the block in place.  Where the window is not fetched its
    block index has not moved since the fetch, so the buffer still holds that same block; the window is never cut and
    never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (the padded weight): its current staging buffer holds its block at every point, fetched there or not, for any
    proof data whose array is `V`'s and whose body leaves the block in place.  Where the window is not fetched its
    block index has not moved since the fetch, so the buffer still holds that same block; the window is never cut and
    never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (the padded bias): its current staging buffer holds its block at every point, fetched there or not, for any
    proof data whose array is `V`'s and whose body leaves the block in place.  Where the window is not fetched its
    block index has not moved since the fetch, so the buffer still holds that same block; the window is never cut and
    never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The region's proof data -/

/-- The proof data of the region on core `c`: the arrays as the region finds them (`V`); after the body at point `t`
    each input's buffer at its block and the output's at `out2_5` of the five input blocks; the invariant is the plain
    class's (the scoped rest and the generator register, untouched) at every position; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
/-- The output window's buffer after the body at point `t`: `out2_5` of the five input blocks at `t`. -/
theorem after2_5 (c : Dev nD) (t : Fin cfg2.N) :
    (dat2 V c).after 5 t = out2_5 (iblk2 V c 0 t) (iblk2 V c 1 t) (iblk2 V c 2 t) (iblk2 V c 3 t) (iblk2 V c 4 t) := by
  dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`: the invariant, the core's debts, and every window's current buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks (`before2_w`), so the body's triple applies; the
    invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the two ends -/

/-- What the launch hands the region is the invariant before the first point: they are the same proposition. -/
theorem hin2 (c : Dev nD) : Pipeline.ΦA spec2 c ⊢ (dat2 V c).Φ 0 := by
  rw [show (dat2 V c).Φ 0 = Pipeline.ΦA spec2 c from rfl]

/-- And the invariant after the last point is what the region hands back. -/
theorem hout2 (c : Dev nD) : (dat2 V c).Φ (Fin.last cfg2.N) ⊢ Pipeline.ΦA spec2 c := by
  rw [show (dat2 V c).Φ (Fin.last cfg2.N) = Pipeline.ΦA spec2 c from rfl]

end Region2

end Cert.Kernel.Hand

end
-- ==== Proof.K.MainRun.lean ====
/-
  The run of @main: twelve segments — nine stretches of host operations and the three kernel regions — launched from
  any memory with zero semaphore counters. The buffer contents at each boundary are a fold from the launch memory
  (`W0 … W12`); each region's arrays leave it at what its write-backs produce; the final state holds `W12`.
-/
import proofs.«169417_j2877628089024_2_alg».proof.Proof.K.R0
import proofs.«169417_j2877628089024_2_alg».proof.Proof.K.R1
import proofs.«169417_j2877628089024_2_alg».proof.Proof.K.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main's twelve segments: a fold from the launch memory

  `W k` is what core `c`'s buffers hold after the first `k` segments: a stretch of host operations applies
  them (`StableHlo.after`), a kernel region leaves its arrays at what its write-backs produce (`Dat.arrAt … N`)
  and every other buffer as it found it. -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
abbrev W7 : Dev nD → Valuation τ sig (Elt F) := fun c => StableHlo.after hostOps2 (W6 m ρ c)
abbrev W8 : Dev nD → Valuation τ sig (Elt F) := fun c => StableHlo.after hostOps2_1 (W7 m ρ c)
abbrev W9 : Dev nD → Valuation τ sig (Elt F) := fun c => StableHlo.after hostOps2_2 (W8 m ρ c)
abbrev W10 : Dev nD → Valuation τ sig (Elt F) := fun c => StableHlo.after hostOps2_3 (W9 m ρ c)
abbrev V10 : (c : Dev nD) → (b : Ref sig .tc) → Buf (Elt F) ((c : Thread nD τ).loc b) := fun c b => W10 m ρ c b
def W11 (c : Dev nD) : Valuation τ sig (Elt F) :=
  Pipeline.withArrays spec2 c (W10 m ρ c) fun w => (dat2 (V10 m ρ) c).arrAt w cfg2.N
theorem W11_arr (c : Dev nD) (w : Fin cfg2.W) :
    W11 m ρ c (Proc.devRef .tc (Pipeline.arrRef spec2 w)) = (dat2 (V10 m ρ) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ c (Proc.devRef .tc b) = W10 m ρ c (Proc.devRef .tc b) := by
  unfold W11; exact Pipeline.withArrays_of_ne spec2 c _ _ b hb
abbrev V11 : (c : Dev nD) → (b : Ref sig .tc) → Buf (Elt F) ((c : Thread nD τ).loc b) := fun c b => W11 m ρ c b
theorem hF2 (c : Dev nD) (w : Fin cfg2.W) : (dat2 (V10 m ρ) c).arrAt w cfg2.N = V11 m ρ c (Pipeline.arrRef spec2 w) :=
  (W11_arr m ρ c w).symm
theorem hrest2 (c : Dev nD) : ∀ b, b ∉ Finset.univ.image (Pipeline.arrRef spec2) → V11 m ρ c b = V10 m ρ c b :=
  fun b hb => W11_of_ne m ρ c b fun w e => hb (Finset.mem_image.mpr ⟨w, Finset.mem_univ _, e⟩)
abbrev W12 : Dev nD → Valuation τ sig (Elt F) := fun c => StableHlo.after hostOps3 (W11 m ρ c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V10 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem hostOps2_3_fresh : (hostOps2_3 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W12 m ρ c) ∗ ∃ r, prngReg c r)

/-! ## The regions as segments -/

set_option backward.isDefEq.respectTransparency.types false in
/-- Region 0: entered from every unscoped buffer at `W3`, left at `W4`; its arrays split out of the unscoped
    buffers and put back at the exit contents; the generator register into the region's invariant and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec0 c ⊢ (pdats m ρ 0 c).Φ 0 := hin0 (V3 m ρ) c
    unfold Pipeline.ΦA at h
    iintro ⟨Hp, -, Hr⟩
    iapply h
    isplitl [Hr]; · iexact Hr
    iexact Hp
  hout c := by
    rw [Pipeline.ownSems0_none]
    have h : (pdats m ρ 0 c).Φ (Fin.last _) ⊢ Pipeline.ΦA spec0 c := hout0 (V3 m ρ) c
    unfold Pipeline.ΦA at h
    iintro Hf
    ihave H := h $$ Hf
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W5`, left at `W6`; its arrays split out of the unscoped
    buffers and put back at the exit contents; the generator register into the region's invariant and out. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m ρ 1 c).Φ 0 := hin1 (V5 m ρ) c
    unfold Pipeline.ΦA at h
    iintro ⟨Hp, -, Hr⟩
    iapply h
    isplitl [Hr]; · iexact Hr
    iexact Hp
  hout c := by
    rw [Pipeline.ownSems0_none]
    have h : (pdats m ρ 1 c).Φ (Fin.last _) ⊢ Pipeline.ΦA spec1 c := hout1 (V5 m ρ) c
    unfold Pipeline.ΦA at h
    iintro Hf
    ihave H := h $$ Hf
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W10`, left at `W11`; its arrays split out of the unscoped
    buffers and put back at the exit contents; the generator register into the region's invariant and out. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V10 m ρ) c).loose
  hwaits := Pipeline.hwaits_of_owed_zero _ _ _ _ L lv 2 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec2 c (V10 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec2 c ⊢ (pdats m ρ 2 c).Φ 0 := hin2 (V10 m ρ) c
    unfold Pipeline.ΦA at h
    iintro ⟨Hp, -, Hr⟩
    iapply h
    isplitl [Hr]; · iexact Hr
    iexact Hp
  hout c := by
    rw [Pipeline.ownSems0_none]
    have h : (pdats m ρ 2 c).Φ (Fin.last _) ⊢ Pipeline.ΦA spec2 c := hout2 (V10 m ρ) c
    unfold Pipeline.ΦA at h
    iintro Hf
    ihave H := h $$ Hf
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V10 m ρ c) (V11 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .host (hseg hostOps2_1 hostOps2_1_sub hostOps2_1_fresh (W7 m ρ)),
    .host (hseg hostOps2_2 hostOps2_2_sub hostOps2_2_fresh (W8 m ρ)),
    .host (hseg hostOps2_3 hostOps2_3_sub hostOps2_3_fresh (W9 m ρ)),
    .region (reg2 m ρ),
    .host (hseg hostOps3 hostOps3_sub hostOps3_fresh (W11 m ρ)) ]

set_option maxHeartbeats 4000000 in
/-- @main is the run of the twelve segments. -/
theorem main_run (c : Dev nD) : main (F := F) c = Pipeline.Seg.run (segs m ρ) := (main_chain c).trans (by chain_rfl)

set_option backward.isDefEq.respectTransparency.types false in
set_option maxHeartbeats 4000000 in
/-- The run of @main at any `F`: from any memory with zero counters every weakly fair execution terminates, nothing
    faults, and in every final state each unscoped buffer holds the last boundary's contents `W12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun c => show iprop(StableHlo.held (c : Thread nD τ) (Pipeline.ucRefs τ sig) (W12 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.Kernel.Hand

end
-- ==== Proof.K.Kept.lean ====
/-
  No host operation of @main writes an argument buffer: each writes only its own result buffer.
-/
import proofs.«169417_j2877628089024_2_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The thirteen argument buffers. -/
def IsArg (b : Ref sig .tc) : Prop := b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11 ∨ b = main_arg12

/-- A stretch of host operations none of which writes `b` leaves `b` as it was. -/
theorem after_kept (ops : List (HloOp τ sig (Elt F))) (W : Valuation τ sig (Elt F)) (b : Ref sig .tc)
    (h : ops.Forall fun op => Proc.devRef .tc b ∉ op.writes) :
    StableHlo.after ops W (Proc.devRef .tc b) = W (Proc.devRef .tc b) :=
  StableHlo.after_of_forall_not_mem (b := Proc.devRef .tc b) _ _ (List.forall_iff_forall_mem.mp h)

/-- No operation of `hostOps0` writes an argument: each writes only its own result buffer. -/
theorem hostOps0_keeps_args (b : Ref sig .tc) (hb : IsArg b) : (hostOps0 : List (HloOp τ sig (Elt F))).Forall fun op => Proc.devRef .tc b ∉ op.writes := by
  rcases hb with rfl | rfl | rfl | rfl | rfl | rfl | rfl | rfl | rfl | rfl | rfl | rfl | rfl
  all_goals
    simp only [hostOps0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.ternary, StableHlo.TRef.nullary, Finset.mem_singleton]
    repeat' apply And.intro
    all_goals exact StableHlo.devRef_ne_of_ne (by decide)

/-- No operation of `hostOps0_1` writes an argument: each writes only its own result buffer. -/
theorem hostOps0_1_keeps_args (b : Ref sig .tc) (hb : IsArg b) : (hostOps0_1 : List (HloOp τ sig (Elt F))).Forall fun op => Proc.devRef .tc b ∉ op.writes := by
  rcases hb with rfl | rfl | rfl | rfl | rfl | rfl | rfl | rfl | rfl | rfl | rfl | rfl | rfl
  all_goals
    simp only [hostOps0_1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.ternary, StableHlo.TRef.nullary, Finset.mem_singleton]
    repeat' apply And.intro
    all_goals exact StableHlo.devRef_ne_of_ne (by decide)

set_option maxHeartbeats 8000000 in
/-- No operation of `hostOps0_2` writes an argument: each writes only its own result buffer. -/
theorem hostOps0_2_keeps_args (b : Ref sig .tc) (hb : IsArg b) : (hostOps0_2 : List (HloOp τ sig (Elt F))).Forall fun op => Proc.devRef .tc b ∉ op.writes := by
  rcases hb with rfl | rfl | rfl | rfl | rfl | rfl | rfl | rfl | rfl | rfl | rfl | rfl | rfl
  all_goals
    simp only [hostOps0_2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.ternary, StableHlo.TRef.nullary, Finset.mem_singleton]
    repeat' apply And.intro
    all_goals exact StableHlo.devRef_ne_of_ne (by decide)

/-- No operation of `hostOps1` writes an argument: each writes only its own result buffer. -/
theorem hostOps1_keeps_args (b : Ref sig .tc) (hb : IsArg b) : (hostOps1 : List (HloOp τ sig (Elt F))).Forall fun op => Proc.devRef .tc b ∉ op.writes := by
  rcases hb with rfl | rfl | rfl | rfl | rfl | rfl | rfl | rfl | rfl | rfl | rfl | rfl | rfl
  all_goals
    simp only [hostOps1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.ternary, StableHlo.TRef.nullary, Finset.mem_singleton]
    repeat' apply And.intro
    all_goals exact StableHlo.devRef_ne_of_ne (by decide)

/-- No operation of `hostOps2` writes an argument: each writes only its own result buffer. -/
theorem hostOps2_keeps_args (b : Ref sig .tc) (hb : IsArg b) : (hostOps2 : List (HloOp τ sig (Elt F))).Forall fun op => Proc.devRef .tc b ∉ op.writes := by
  rcases hb with rfl | rfl | rfl | rfl | rfl | rfl | rfl | rfl | rfl | rfl | rfl | rfl | rfl
  all_goals
    simp only [hostOps2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.ternary, StableHlo.TRef.nullary, Finset.mem_singleton]
    repeat' apply And.intro
    all_goals exact StableHlo.devRef_ne_of_ne (by decide)

/-- No operation of `hostOps2_1` writes an argument: each writes only its own result buffer. -/
theorem hostOps2_1_keeps_args (b : Ref sig .tc) (hb : IsArg b) : (hostOps2_1 : List (HloOp τ sig (Elt F))).Forall fun op => Proc.devRef .tc b ∉ op.writes := by
  rcases hb with rfl | rfl | rfl | rfl | rfl | rfl | rfl | rfl | rfl | rfl | rfl | rfl | rfl
  all_goals
    simp only [hostOps2_1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.ternary, StableHlo.TRef.nullary, Finset.mem_singleton]
    repeat' apply And.intro
    all_goals exact StableHlo.devRef_ne_of_ne (by decide)

/-- No operation of `hostOps2_2` writes an argument: each writes only its own result buffer. -/
theorem hostOps2_2_keeps_args (b : Ref sig .tc) (hb : IsArg b) : (hostOps2_2 : List (HloOp τ sig (Elt F))).Forall fun op => Proc.devRef .tc b ∉ op.writes := by
  rcases hb with rfl | rfl | rfl | rfl | rfl | rfl | rfl | rfl | rfl | rfl | rfl | rfl | rfl
  all_goals
    simp only [hostOps2_2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.ternary, StableHlo.TRef.nullary, Finset.mem_singleton]
    repeat' apply And.intro
    all_goals exact StableHlo.devRef_ne_of_ne (by decide)

/-- No operation of `hostOps2_3` writes an argument: each writes only its own result buffer. -/
theorem hostOps2_3_keeps_args (b : Ref sig .tc) (hb : IsArg b) : (hostOps2_3 : List (HloOp τ sig (Elt F))).Forall fun op => Proc.devRef .tc b ∉ op.writes := by
  rcases hb with rfl | rfl | rfl | rfl | rfl | rfl | rfl | rfl | rfl | rfl | rfl | rfl | rfl
  all_goals
    simp only [hostOps2_3, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.ternary, StableHlo.TRef.nullary, Finset.mem_singleton]
    repeat' apply And.intro
    all_goals exact StableHlo.devRef_ne_of_ne (by decide)

/-- No operation of `hostOps3` writes an argument: each writes only its own result buffer. -/
theorem hostOps3_keeps_args (b : Ref sig .tc) (hb : IsArg b) : (hostOps3 : List (HloOp τ sig (Elt F))).Forall fun op => Proc.devRef .tc b ∉ op.writes := by
  rcases hb with rfl | rfl | rfl | rfl | rfl | rfl | rfl | rfl | rfl | rfl | rfl | rfl | rfl
  all_goals
    simp only [hostOps3, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.ternary, StableHlo.TRef.nullary, Finset.mem_singleton]
    repeat' apply And.intro
    all_goals exact StableHlo.devRef_ne_of_ne (by decide)

end Cert.Kernel.Hand

end
-- ==== Proof.K.Frame.lean ====
/-
  The frame of the kernel program from its run: every argument buffer is read back through the twelve boundaries to
  its launch contents.
-/
import proofs.«169417_j2877628089024_2_alg».proof.Proof.K.MainRun
import proofs.«169417_j2877628089024_2_alg».proof.Proof.K.Kept
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments at every boundary: no host operation writes one, and a region reads one through an input window or bypasses it -/

theorem W0_main_arg0 (c : Dev nD) : W0 m ρ c (Proc.devRef .tc main_arg0) = m ((c : Thread nD τ).loc main_arg0) := rfl
theorem W1_main_arg0 (c : Dev nD) : W1 m ρ c (Proc.devRef .tc main_arg0) = m ((c : Thread nD τ).loc main_arg0) :=
  (show W1 m ρ c (Proc.devRef .tc main_arg0) = W0 m ρ c (Proc.devRef .tc main_arg0) from after_kept _ _ main_arg0 (hostOps0_keeps_args main_arg0 (by unfold IsArg; simp))).trans (W0_main_arg0 m ρ c)
theorem W2_main_arg0 (c : Dev nD) : W2 m ρ c (Proc.devRef .tc main_arg0) = m ((c : Thread nD τ).loc main_arg0) :=
  (show W2 m ρ c (Proc.devRef .tc main_arg0) = W1 m ρ c (Proc.devRef .tc main_arg0) from after_kept _ _ main_arg0 (hostOps0_1_keeps_args main_arg0 (by unfold IsArg; simp))).trans (W1_main_arg0 m ρ c)
theorem W3_main_arg0 (c : Dev nD) : W3 m ρ c (Proc.devRef .tc main_arg0) = m ((c : Thread nD τ).loc main_arg0) :=
  (show W3 m ρ c (Proc.devRef .tc main_arg0) = W2 m ρ c (Proc.devRef .tc main_arg0) from after_kept _ _ main_arg0 (hostOps0_2_keeps_args main_arg0 (by unfold IsArg; simp))).trans (W2_main_arg0 m ρ c)
theorem W4_main_arg0 (c : Dev nD) : W4 m ρ c (Proc.devRef .tc main_arg0) = m ((c : Thread nD τ).loc main_arg0) :=
  (show W4 m ρ c (Proc.devRef .tc main_arg0) = W3 m ρ c (Proc.devRef .tc main_arg0) from W4_of_ne m ρ c main_arg0 (by decide)).trans (W3_main_arg0 m ρ c)
theorem W5_main_arg0 (c : Dev nD) : W5 m ρ c (Proc.devRef .tc main_arg0) = m ((c : Thread nD τ).loc main_arg0) :=
  (show W5 m ρ c (Proc.devRef .tc main_arg0) = W4 m ρ c (Proc.devRef .tc main_arg0) from after_kept _ _ main_arg0 (hostOps1_keeps_args main_arg0 (by unfold IsArg; simp))).trans (W4_main_arg0 m ρ c)
theorem W6_main_arg0 (c : Dev nD) : W6 m ρ c (Proc.devRef .tc main_arg0) = m ((c : Thread nD τ).loc main_arg0) :=
  (show W6 m ρ c (Proc.devRef .tc main_arg0) = W5 m ρ c (Proc.devRef .tc main_arg0) from W6_of_ne m ρ c main_arg0 (by decide)).trans (W5_main_arg0 m ρ c)
theorem W7_main_arg0 (c : Dev nD) : W7 m ρ c (Proc.devRef .tc main_arg0) = m ((c : Thread nD τ).loc main_arg0) :=
  (show W7 m ρ c (Proc.devRef .tc main_arg0) = W6 m ρ c (Proc.devRef .tc main_arg0) from after_kept _ _ main_arg0 (hostOps2_keeps_args main_arg0 (by unfold IsArg; simp))).trans (W6_main_arg0 m ρ c)
theorem W8_main_arg0 (c : Dev nD) : W8 m ρ c (Proc.devRef .tc main_arg0) = m ((c : Thread nD τ).loc main_arg0) :=
  (show W8 m ρ c (Proc.devRef .tc main_arg0) = W7 m ρ c (Proc.devRef .tc main_arg0) from after_kept _ _ main_arg0 (hostOps2_1_keeps_args main_arg0 (by unfold IsArg; simp))).trans (W7_main_arg0 m ρ c)
theorem W9_main_arg0 (c : Dev nD) : W9 m ρ c (Proc.devRef .tc main_arg0) = m ((c : Thread nD τ).loc main_arg0) :=
  (show W9 m ρ c (Proc.devRef .tc main_arg0) = W8 m ρ c (Proc.devRef .tc main_arg0) from after_kept _ _ main_arg0 (hostOps2_2_keeps_args main_arg0 (by unfold IsArg; simp))).trans (W8_main_arg0 m ρ c)
theorem W10_main_arg0 (c : Dev nD) : W10 m ρ c (Proc.devRef .tc main_arg0) = m ((c : Thread nD τ).loc main_arg0) :=
  (show W10 m ρ c (Proc.devRef .tc main_arg0) = W9 m ρ c (Proc.devRef .tc main_arg0) from after_kept _ _ main_arg0 (hostOps2_3_keeps_args main_arg0 (by unfold IsArg; simp))).trans (W9_main_arg0 m ρ c)
theorem W11_main_arg0 (c : Dev nD) : W11 m ρ c (Proc.devRef .tc main_arg0) = m ((c : Thread nD τ).loc main_arg0) :=
  (show W11 m ρ c (Proc.devRef .tc main_arg0) = W10 m ρ c (Proc.devRef .tc main_arg0) from W11_of_ne m ρ c main_arg0 (by decide)).trans (W10_main_arg0 m ρ c)
theorem W12_main_arg0 (c : Dev nD) : W12 m ρ c (Proc.devRef .tc main_arg0) = m ((c : Thread nD τ).loc main_arg0) :=
  (show W12 m ρ c (Proc.devRef .tc main_arg0) = W11 m ρ c (Proc.devRef .tc main_arg0) from after_kept _ _ main_arg0 (hostOps3_keeps_args main_arg0 (by unfold IsArg; simp))).trans (W11_main_arg0 m ρ c)

theorem W0_main_arg1 (c : Dev nD) : W0 m ρ c (Proc.devRef .tc main_arg1) = m ((c : Thread nD τ).loc main_arg1) := rfl
theorem W1_main_arg1 (c : Dev nD) : W1 m ρ c (Proc.devRef .tc main_arg1) = m ((c : Thread nD τ).loc main_arg1) :=
  (show W1 m ρ c (Proc.devRef .tc main_arg1) = W0 m ρ c (Proc.devRef .tc main_arg1) from after_kept _ _ main_arg1 (hostOps0_keeps_args main_arg1 (by unfold IsArg; simp))).trans (W0_main_arg1 m ρ c)
theorem W2_main_arg1 (c : Dev nD) : W2 m ρ c (Proc.devRef .tc main_arg1) = m ((c : Thread nD τ).loc main_arg1) :=
  (show W2 m ρ c (Proc.devRef .tc main_arg1) = W1 m ρ c (Proc.devRef .tc main_arg1) from after_kept _ _ main_arg1 (hostOps0_1_keeps_args main_arg1 (by unfold IsArg; simp))).trans (W1_main_arg1 m ρ c)
theorem W3_main_arg1 (c : Dev nD) : W3 m ρ c (Proc.devRef .tc main_arg1) = m ((c : Thread nD τ).loc main_arg1) :=
  (show W3 m ρ c (Proc.devRef .tc main_arg1) = W2 m ρ c (Proc.devRef .tc main_arg1) from after_kept _ _ main_arg1 (hostOps0_2_keeps_args main_arg1 (by unfold IsArg; simp))).trans (W2_main_arg1 m ρ c)
theorem W4_main_arg1 (c : Dev nD) : W4 m ρ c (Proc.devRef .tc main_arg1) = m ((c : Thread nD τ).loc main_arg1) :=
  (show W4 m ρ c (Proc.devRef .tc main_arg1) = W3 m ρ c (Proc.devRef .tc main_arg1) from W4_of_ne m ρ c main_arg1 (by decide)).trans (W3_main_arg1 m ρ c)
theorem W5_main_arg1 (c : Dev nD) : W5 m ρ c (Proc.devRef .tc main_arg1) = m ((c : Thread nD τ).loc main_arg1) :=
  (show W5 m ρ c (Proc.devRef .tc main_arg1) = W4 m ρ c (Proc.devRef .tc main_arg1) from after_kept _ _ main_arg1 (hostOps1_keeps_args main_arg1 (by unfold IsArg; simp))).trans (W4_main_arg1 m ρ c)
theorem W6_main_arg1 (c : Dev nD) : W6 m ρ c (Proc.devRef .tc main_arg1) = m ((c : Thread nD τ).loc main_arg1) :=
  (show W6 m ρ c (Proc.devRef .tc main_arg1) = W5 m ρ c (Proc.devRef .tc main_arg1) from W6_of_ne m ρ c main_arg1 (by decide)).trans (W5_main_arg1 m ρ c)
theorem W7_main_arg1 (c : Dev nD) : W7 m ρ c (Proc.devRef .tc main_arg1) = m ((c : Thread nD τ).loc main_arg1) :=
  (show W7 m ρ c (Proc.devRef .tc main_arg1) = W6 m ρ c (Proc.devRef .tc main_arg1) from after_kept _ _ main_arg1 (hostOps2_keeps_args main_arg1 (by unfold IsArg; simp))).trans (W6_main_arg1 m ρ c)
theorem W8_main_arg1 (c : Dev nD) : W8 m ρ c (Proc.devRef .tc main_arg1) = m ((c : Thread nD τ).loc main_arg1) :=
  (show W8 m ρ c (Proc.devRef .tc main_arg1) = W7 m ρ c (Proc.devRef .tc main_arg1) from after_kept _ _ main_arg1 (hostOps2_1_keeps_args main_arg1 (by unfold IsArg; simp))).trans (W7_main_arg1 m ρ c)
theorem W9_main_arg1 (c : Dev nD) : W9 m ρ c (Proc.devRef .tc main_arg1) = m ((c : Thread nD τ).loc main_arg1) :=
  (show W9 m ρ c (Proc.devRef .tc main_arg1) = W8 m ρ c (Proc.devRef .tc main_arg1) from after_kept _ _ main_arg1 (hostOps2_2_keeps_args main_arg1 (by unfold IsArg; simp))).trans (W8_main_arg1 m ρ c)
theorem W10_main_arg1 (c : Dev nD) : W10 m ρ c (Proc.devRef .tc main_arg1) = m ((c : Thread nD τ).loc main_arg1) :=
  (show W10 m ρ c (Proc.devRef .tc main_arg1) = W9 m ρ c (Proc.devRef .tc main_arg1) from after_kept _ _ main_arg1 (hostOps2_3_keeps_args main_arg1 (by unfold IsArg; simp))).trans (W9_main_arg1 m ρ c)
theorem W11_main_arg1 (c : Dev nD) : W11 m ρ c (Proc.devRef .tc main_arg1) = m ((c : Thread nD τ).loc main_arg1) :=
  (show W11 m ρ c (Proc.devRef .tc main_arg1) = W10 m ρ c (Proc.devRef .tc main_arg1) from W11_of_ne m ρ c main_arg1 (by decide)).trans (W10_main_arg1 m ρ c)
theorem W12_main_arg1 (c : Dev nD) : W12 m ρ c (Proc.devRef .tc main_arg1) = m ((c : Thread nD τ).loc main_arg1) :=
  (show W12 m ρ c (Proc.devRef .tc main_arg1) = W11 m ρ c (Proc.devRef .tc main_arg1) from after_kept _ _ main_arg1 (hostOps3_keeps_args main_arg1 (by unfold IsArg; simp))).trans (W11_main_arg1 m ρ c)

theorem W0_main_arg2 (c : Dev nD) : W0 m ρ c (Proc.devRef .tc main_arg2) = m ((c : Thread nD τ).loc main_arg2) := rfl
theorem W1_main_arg2 (c : Dev nD) : W1 m ρ c (Proc.devRef .tc main_arg2) = m ((c : Thread nD τ).loc main_arg2) :=
  (show W1 m ρ c (Proc.devRef .tc main_arg2) = W0 m ρ c (Proc.devRef .tc main_arg2) from after_kept _ _ main_arg2 (hostOps0_keeps_args main_arg2 (by unfold IsArg; simp))).trans (W0_main_arg2 m ρ c)
theorem W2_main_arg2 (c : Dev nD) : W2 m ρ c (Proc.devRef .tc main_arg2) = m ((c : Thread nD τ).loc main_arg2) :=
  (show W2 m ρ c (Proc.devRef .tc main_arg2) = W1 m ρ c (Proc.devRef .tc main_arg2) from after_kept _ _ main_arg2 (hostOps0_1_keeps_args main_arg2 (by unfold IsArg; simp))).trans (W1_main_arg2 m ρ c)
theorem W3_main_arg2 (c : Dev nD) : W3 m ρ c (Proc.devRef .tc main_arg2) = m ((c : Thread nD τ).loc main_arg2) :=
  (show W3 m ρ c (Proc.devRef .tc main_arg2) = W2 m ρ c (Proc.devRef .tc main_arg2) from after_kept _ _ main_arg2 (hostOps0_2_keeps_args main_arg2 (by unfold IsArg; simp))).trans (W2_main_arg2 m ρ c)
theorem W4_main_arg2 (c : Dev nD) : W4 m ρ c (Proc.devRef .tc main_arg2) = m ((c : Thread nD τ).loc main_arg2) :=
  (show W4 m ρ c (Proc.devRef .tc main_arg2) = W3 m ρ c (Proc.devRef .tc main_arg2) from W4_of_ne m ρ c main_arg2 (by decide)).trans (W3_main_arg2 m ρ c)
theorem W5_main_arg2 (c : Dev nD) : W5 m ρ c (Proc.devRef .tc main_arg2) = m ((c : Thread nD τ).loc main_arg2) :=
  (show W5 m ρ c (Proc.devRef .tc main_arg2) = W4 m ρ c (Proc.devRef .tc main_arg2) from after_kept _ _ main_arg2 (hostOps1_keeps_args main_arg2 (by unfold IsArg; simp))).trans (W4_main_arg2 m ρ c)
theorem W6_main_arg2 (c : Dev nD) : W6 m ρ c (Proc.devRef .tc main_arg2) = m ((c : Thread nD τ).loc main_arg2) :=
  (show W6 m ρ c (Proc.devRef .tc main_arg2) = W5 m ρ c (Proc.devRef .tc main_arg2) from W6_of_ne m ρ c main_arg2 (by decide)).trans (W5_main_arg2 m ρ c)
theorem W7_main_arg2 (c : Dev nD) : W7 m ρ c (Proc.devRef .tc main_arg2) = m ((c : Thread nD τ).loc main_arg2) :=
  (show W7 m ρ c (Proc.devRef .tc main_arg2) = W6 m ρ c (Proc.devRef .tc main_arg2) from after_kept _ _ main_arg2 (hostOps2_keeps_args main_arg2 (by unfold IsArg; simp))).trans (W6_main_arg2 m ρ c)
theorem W8_main_arg2 (c : Dev nD) : W8 m ρ c (Proc.devRef .tc main_arg2) = m ((c : Thread nD τ).loc main_arg2) :=
  (show W8 m ρ c (Proc.devRef .tc main_arg2) = W7 m ρ c (Proc.devRef .tc main_arg2) from after_kept _ _ main_arg2 (hostOps2_1_keeps_args main_arg2 (by unfold IsArg; simp))).trans (W7_main_arg2 m ρ c)
theorem W9_main_arg2 (c : Dev nD) : W9 m ρ c (Proc.devRef .tc main_arg2) = m ((c : Thread nD τ).loc main_arg2) :=
  (show W9 m ρ c (Proc.devRef .tc main_arg2) = W8 m ρ c (Proc.devRef .tc main_arg2) from after_kept _ _ main_arg2 (hostOps2_2_keeps_args main_arg2 (by unfold IsArg; simp))).trans (W8_main_arg2 m ρ c)
theorem W10_main_arg2 (c : Dev nD) : W10 m ρ c (Proc.devRef .tc main_arg2) = m ((c : Thread nD τ).loc main_arg2) :=
  (show W10 m ρ c (Proc.devRef .tc main_arg2) = W9 m ρ c (Proc.devRef .tc main_arg2) from after_kept _ _ main_arg2 (hostOps2_3_keeps_args main_arg2 (by unfold IsArg; simp))).trans (W9_main_arg2 m ρ c)
theorem W11_main_arg2 (c : Dev nD) : W11 m ρ c (Proc.devRef .tc main_arg2) = m ((c : Thread nD τ).loc main_arg2) :=
  (show W11 m ρ c (Proc.devRef .tc main_arg2) = W10 m ρ c (Proc.devRef .tc main_arg2) from W11_of_ne m ρ c main_arg2 (by decide)).trans (W10_main_arg2 m ρ c)
theorem W12_main_arg2 (c : Dev nD) : W12 m ρ c (Proc.devRef .tc main_arg2) = m ((c : Thread nD τ).loc main_arg2) :=
  (show W12 m ρ c (Proc.devRef .tc main_arg2) = W11 m ρ c (Proc.devRef .tc main_arg2) from after_kept _ _ main_arg2 (hostOps3_keeps_args main_arg2 (by unfold IsArg; simp))).trans (W11_main_arg2 m ρ c)

theorem W0_main_arg3 (c : Dev nD) : W0 m ρ c (Proc.devRef .tc main_arg3) = m ((c : Thread nD τ).loc main_arg3) := rfl
theorem W1_main_arg3 (c : Dev nD) : W1 m ρ c (Proc.devRef .tc main_arg3) = m ((c : Thread nD τ).loc main_arg3) :=
  (show W1 m ρ c (Proc.devRef .tc main_arg3) = W0 m ρ c (Proc.devRef .tc main_arg3) from after_kept _ _ main_arg3 (hostOps0_keeps_args main_arg3 (by unfold IsArg; simp))).trans (W0_main_arg3 m ρ c)
theorem W2_main_arg3 (c : Dev nD) : W2 m ρ c (Proc.devRef .tc main_arg3) = m ((c : Thread nD τ).loc main_arg3) :=
  (show W2 m ρ c (Proc.devRef .tc main_arg3) = W1 m ρ c (Proc.devRef .tc main_arg3) from after_kept _ _ main_arg3 (hostOps0_1_keeps_args main_arg3 (by unfold IsArg; simp))).trans (W1_main_arg3 m ρ c)
theorem W3_main_arg3 (c : Dev nD) : W3 m ρ c (Proc.devRef .tc main_arg3) = m ((c : Thread nD τ).loc main_arg3) :=
  (show W3 m ρ c (Proc.devRef .tc main_arg3) = W2 m ρ c (Proc.devRef .tc main_arg3) from after_kept _ _ main_arg3 (hostOps0_2_keeps_args main_arg3 (by unfold IsArg; simp))).trans (W2_main_arg3 m ρ c)
theorem W4_main_arg3 (c : Dev nD) : W4 m ρ c (Proc.devRef .tc main_arg3) = m ((c : Thread nD τ).loc main_arg3) :=
  (show W4 m ρ c (Proc.devRef .tc main_arg3) = W3 m ρ c (Proc.devRef .tc main_arg3) from (W4_arr m ρ c 1).trans (((dat0 (V3 m ρ) c).arrAt_in 1 rfl _).trans (A_eq0 (V3 m ρ) c 1))).trans (W3_main_arg3 m ρ c)
theorem W5_main_arg3 (c : Dev nD) : W5 m ρ c (Proc.devRef .tc main_arg3) = m ((c : Thread nD τ).loc main_arg3) :=
  (show W5 m ρ c (Proc.devRef .tc main_arg3) = W4 m ρ c (Proc.devRef .tc main_arg3) from after_kept _ _ main_arg3 (hostOps1_keeps_args main_arg3 (by unfold IsArg; simp))).trans (W4_main_arg3 m ρ c)
theorem W6_main_arg3 (c : Dev nD) : W6 m ρ c (Proc.devRef .tc main_arg3) = m ((c : Thread nD τ).loc main_arg3) :=
  (show W6 m ρ c (Proc.devRef .tc main_arg3) = W5 m ρ c (Proc.devRef .tc main_arg3) from W6_of_ne m ρ c main_arg3 (by decide)).trans (W5_main_arg3 m ρ c)
theorem W7_main_arg3 (c : Dev nD) : W7 m ρ c (Proc.devRef .tc main_arg3) = m ((c : Thread nD τ).loc main_arg3) :=
  (show W7 m ρ c (Proc.devRef .tc main_arg3) = W6 m ρ c (Proc.devRef .tc main_arg3) from after_kept _ _ main_arg3 (hostOps2_keeps_args main_arg3 (by unfold IsArg; simp))).trans (W6_main_arg3 m ρ c)
theorem W8_main_arg3 (c : Dev nD) : W8 m ρ c (Proc.devRef .tc main_arg3) = m ((c : Thread nD τ).loc main_arg3) :=
  (show W8 m ρ c (Proc.devRef .tc main_arg3) = W7 m ρ c (Proc.devRef .tc main_arg3) from after_kept _ _ main_arg3 (hostOps2_1_keeps_args main_arg3 (by unfold IsArg; simp))).trans (W7_main_arg3 m ρ c)
theorem W9_main_arg3 (c : Dev nD) : W9 m ρ c (Proc.devRef .tc main_arg3) = m ((c : Thread nD τ).loc main_arg3) :=
  (show W9 m ρ c (Proc.devRef .tc main_arg3) = W8 m ρ c (Proc.devRef .tc main_arg3) from after_kept _ _ main_arg3 (hostOps2_2_keeps_args main_arg3 (by unfold IsArg; simp))).trans (W8_main_arg3 m ρ c)
theorem W10_main_arg3 (c : Dev nD) : W10 m ρ c (Proc.devRef .tc main_arg3) = m ((c : Thread nD τ).loc main_arg3) :=
  (show W10 m ρ c (Proc.devRef .tc main_arg3) = W9 m ρ c (Proc.devRef .tc main_arg3) from after_kept _ _ main_arg3 (hostOps2_3_keeps_args main_arg3 (by unfold IsArg; simp))).trans (W9_main_arg3 m ρ c)
theorem W11_main_arg3 (c : Dev nD) : W11 m ρ c (Proc.devRef .tc main_arg3) = m ((c : Thread nD τ).loc main_arg3) :=
  (show W11 m ρ c (Proc.devRef .tc main_arg3) = W10 m ρ c (Proc.devRef .tc main_arg3) from W11_of_ne m ρ c main_arg3 (by decide)).trans (W10_main_arg3 m ρ c)
theorem W12_main_arg3 (c : Dev nD) : W12 m ρ c (Proc.devRef .tc main_arg3) = m ((c : Thread nD τ).loc main_arg3) :=
  (show W12 m ρ c (Proc.devRef .tc main_arg3) = W11 m ρ c (Proc.devRef .tc main_arg3) from after_kept _ _ main_arg3 (hostOps3_keeps_args main_arg3 (by unfold IsArg; simp))).trans (W11_main_arg3 m ρ c)

theorem W0_main_arg4 (c : Dev nD) : W0 m ρ c (Proc.devRef .tc main_arg4) = m ((c : Thread nD τ).loc main_arg4) := rfl
theorem W1_main_arg4 (c : Dev nD) : W1 m ρ c (Proc.devRef .tc main_arg4) = m ((c : Thread nD τ).loc main_arg4) :=
  (show W1 m ρ c (Proc.devRef .tc main_arg4) = W0 m ρ c (Proc.devRef .tc main_arg4) from after_kept _ _ main_arg4 (hostOps0_keeps_args main_arg4 (by unfold IsArg; simp))).trans (W0_main_arg4 m ρ c)
theorem W2_main_arg4 (c : Dev nD) : W2 m ρ c (Proc.devRef .tc main_arg4) = m ((c : Thread nD τ).loc main_arg4) :=
  (show W2 m ρ c (Proc.devRef .tc main_arg4) = W1 m ρ c (Proc.devRef .tc main_arg4) from after_kept _ _ main_arg4 (hostOps0_1_keeps_args main_arg4 (by unfold IsArg; simp))).trans (W1_main_arg4 m ρ c)
theorem W3_main_arg4 (c : Dev nD) : W3 m ρ c (Proc.devRef .tc main_arg4) = m ((c : Thread nD τ).loc main_arg4) :=
  (show W3 m ρ c (Proc.devRef .tc main_arg4) = W2 m ρ c (Proc.devRef .tc main_arg4) from after_kept _ _ main_arg4 (hostOps0_2_keeps_args main_arg4 (by unfold IsArg; simp))).trans (W2_main_arg4 m ρ c)
theorem W4_main_arg4 (c : Dev nD) : W4 m ρ c (Proc.devRef .tc main_arg4) = m ((c : Thread nD τ).loc main_arg4) :=
  (show W4 m ρ c (Proc.devRef .tc main_arg4) = W3 m ρ c (Proc.devRef .tc main_arg4) from (W4_arr m ρ c 2).trans (((dat0 (V3 m ρ) c).arrAt_in 2 rfl _).trans (A_eq0 (V3 m ρ) c 2))).trans (W3_main_arg4 m ρ c)
theorem W5_main_arg4 (c : Dev nD) : W5 m ρ c (Proc.devRef .tc main_arg4) = m ((c : Thread nD τ).loc main_arg4) :=
  (show W5 m ρ c (Proc.devRef .tc main_arg4) = W4 m ρ c (Proc.devRef .tc main_arg4) from after_kept _ _ main_arg4 (hostOps1_keeps_args main_arg4 (by unfold IsArg; simp))).trans (W4_main_arg4 m ρ c)
theorem W6_main_arg4 (c : Dev nD) : W6 m ρ c (Proc.devRef .tc main_arg4) = m ((c : Thread nD τ).loc main_arg4) :=
  (show W6 m ρ c (Proc.devRef .tc main_arg4) = W5 m ρ c (Proc.devRef .tc main_arg4) from W6_of_ne m ρ c main_arg4 (by decide)).trans (W5_main_arg4 m ρ c)
theorem W7_main_arg4 (c : Dev nD) : W7 m ρ c (Proc.devRef .tc main_arg4) = m ((c : Thread nD τ).loc main_arg4) :=
  (show W7 m ρ c (Proc.devRef .tc main_arg4) = W6 m ρ c (Proc.devRef .tc main_arg4) from after_kept _ _ main_arg4 (hostOps2_keeps_args main_arg4 (by unfold IsArg; simp))).trans (W6_main_arg4 m ρ c)
theorem W8_main_arg4 (c : Dev nD) : W8 m ρ c (Proc.devRef .tc main_arg4) = m ((c : Thread nD τ).loc main_arg4) :=
  (show W8 m ρ c (Proc.devRef .tc main_arg4) = W7 m ρ c (Proc.devRef .tc main_arg4) from after_kept _ _ main_arg4 (hostOps2_1_keeps_args main_arg4 (by unfold IsArg; simp))).trans (W7_main_arg4 m ρ c)
theorem W9_main_arg4 (c : Dev nD) : W9 m ρ c (Proc.devRef .tc main_arg4) = m ((c : Thread nD τ).loc main_arg4) :=
  (show W9 m ρ c (Proc.devRef .tc main_arg4) = W8 m ρ c (Proc.devRef .tc main_arg4) from after_kept _ _ main_arg4 (hostOps2_2_keeps_args main_arg4 (by unfold IsArg; simp))).trans (W8_main_arg4 m ρ c)
theorem W10_main_arg4 (c : Dev nD) : W10 m ρ c (Proc.devRef .tc main_arg4) = m ((c : Thread nD τ).loc main_arg4) :=
  (show W10 m ρ c (Proc.devRef .tc main_arg4) = W9 m ρ c (Proc.devRef .tc main_arg4) from after_kept _ _ main_arg4 (hostOps2_3_keeps_args main_arg4 (by unfold IsArg; simp))).trans (W9_main_arg4 m ρ c)
theorem W11_main_arg4 (c : Dev nD) : W11 m ρ c (Proc.devRef .tc main_arg4) = m ((c : Thread nD τ).loc main_arg4) :=
  (show W11 m ρ c (Proc.devRef .tc main_arg4) = W10 m ρ c (Proc.devRef .tc main_arg4) from W11_of_ne m ρ c main_arg4 (by decide)).trans (W10_main_arg4 m ρ c)
theorem W12_main_arg4 (c : Dev nD) : W12 m ρ c (Proc.devRef .tc main_arg4) = m ((c : Thread nD τ).loc main_arg4) :=
  (show W12 m ρ c (Proc.devRef .tc main_arg4) = W11 m ρ c (Proc.devRef .tc main_arg4) from after_kept _ _ main_arg4 (hostOps3_keeps_args main_arg4 (by unfold IsArg; simp))).trans (W11_main_arg4 m ρ c)

theorem W0_main_arg5 (c : Dev nD) : W0 m ρ c (Proc.devRef .tc main_arg5) = m ((c : Thread nD τ).loc main_arg5) := rfl
theorem W1_main_arg5 (c : Dev nD) : W1 m ρ c (Proc.devRef .tc main_arg5) = m ((c : Thread nD τ).loc main_arg5) :=
  (show W1 m ρ c (Proc.devRef .tc main_arg5) = W0 m ρ c (Proc.devRef .tc main_arg5) from after_kept _ _ main_arg5 (hostOps0_keeps_args main_arg5 (by unfold IsArg; simp))).trans (W0_main_arg5 m ρ c)
theorem W2_main_arg5 (c : Dev nD) : W2 m ρ c (Proc.devRef .tc main_arg5) = m ((c : Thread nD τ).loc main_arg5) :=
  (show W2 m ρ c (Proc.devRef .tc main_arg5) = W1 m ρ c (Proc.devRef .tc main_arg5) from after_kept _ _ main_arg5 (hostOps0_1_keeps_args main_arg5 (by unfold IsArg; simp))).trans (W1_main_arg5 m ρ c)
theorem W3_main_arg5 (c : Dev nD) : W3 m ρ c (Proc.devRef .tc main_arg5) = m ((c : Thread nD τ).loc main_arg5) :=
  (show W3 m ρ c (Proc.devRef .tc main_arg5) = W2 m ρ c (Proc.devRef .tc main_arg5) from after_kept _ _ main_arg5 (hostOps0_2_keeps_args main_arg5 (by unfold IsArg; simp))).trans (W2_main_arg5 m ρ c)
theorem W4_main_arg5 (c : Dev nD) : W4 m ρ c (Proc.devRef .tc main_arg5) = m ((c : Thread nD τ).loc main_arg5) :=
  (show W4 m ρ c (Proc.devRef .tc main_arg5) = W3 m ρ c (Proc.devRef .tc main_arg5) from W4_of_ne m ρ c main_arg5 (by decide)).trans (W3_main_arg5 m ρ c)
theorem W5_main_arg5 (c : Dev nD) : W5 m ρ c (Proc.devRef .tc main_arg5) = m ((c : Thread nD τ).loc main_arg5) :=
  (show W5 m ρ c (Proc.devRef .tc main_arg5) = W4 m ρ c (Proc.devRef .tc main_arg5) from after_kept _ _ main_arg5 (hostOps1_keeps_args main_arg5 (by unfold IsArg; simp))).trans (W4_main_arg5 m ρ c)
theorem W6_main_arg5 (c : Dev nD) : W6 m ρ c (Proc.devRef .tc main_arg5) = m ((c : Thread nD τ).loc main_arg5) :=
  (show W6 m ρ c (Proc.devRef .tc main_arg5) = W5 m ρ c (Proc.devRef .tc main_arg5) from W6_of_ne m ρ c main_arg5 (by decide)).trans (W5_main_arg5 m ρ c)
theorem W7_main_arg5 (c : Dev nD) : W7 m ρ c (Proc.devRef .tc main_arg5) = m ((c : Thread nD τ).loc main_arg5) :=
  (show W7 m ρ c (Proc.devRef .tc main_arg5) = W6 m ρ c (Proc.devRef .tc main_arg5) from after_kept _ _ main_arg5 (hostOps2_keeps_args main_arg5 (by unfold IsArg; simp))).trans (W6_main_arg5 m ρ c)
theorem W8_main_arg5 (c : Dev nD) : W8 m ρ c (Proc.devRef .tc main_arg5) = m ((c : Thread nD τ).loc main_arg5) :=
  (show W8 m ρ c (Proc.devRef .tc main_arg5) = W7 m ρ c (Proc.devRef .tc main_arg5) from after_kept _ _ main_arg5 (hostOps2_1_keeps_args main_arg5 (by unfold IsArg; simp))).trans (W7_main_arg5 m ρ c)
theorem W9_main_arg5 (c : Dev nD) : W9 m ρ c (Proc.devRef .tc main_arg5) = m ((c : Thread nD τ).loc main_arg5) :=
  (show W9 m ρ c (Proc.devRef .tc main_arg5) = W8 m ρ c (Proc.devRef .tc main_arg5) from after_kept _ _ main_arg5 (hostOps2_2_keeps_args main_arg5 (by unfold IsArg; simp))).trans (W8_main_arg5 m ρ c)
theorem W10_main_arg5 (c : Dev nD) : W10 m ρ c (Proc.devRef .tc main_arg5) = m ((c : Thread nD τ).loc main_arg5) :=
  (show W10 m ρ c (Proc.devRef .tc main_arg5) = W9 m ρ c (Proc.devRef .tc main_arg5) from after_kept _ _ main_arg5 (hostOps2_3_keeps_args main_arg5 (by unfold IsArg; simp))).trans (W9_main_arg5 m ρ c)
theorem W11_main_arg5 (c : Dev nD) : W11 m ρ c (Proc.devRef .tc main_arg5) = m ((c : Thread nD τ).loc main_arg5) :=
  (show W11 m ρ c (Proc.devRef .tc main_arg5) = W10 m ρ c (Proc.devRef .tc main_arg5) from W11_of_ne m ρ c main_arg5 (by decide)).trans (W10_main_arg5 m ρ c)
theorem W12_main_arg5 (c : Dev nD) : W12 m ρ c (Proc.devRef .tc main_arg5) = m ((c : Thread nD τ).loc main_arg5) :=
  (show W12 m ρ c (Proc.devRef .tc main_arg5) = W11 m ρ c (Proc.devRef .tc main_arg5) from after_kept _ _ main_arg5 (hostOps3_keeps_args main_arg5 (by unfold IsArg; simp))).trans (W11_main_arg5 m ρ c)

theorem W0_main_arg6 (c : Dev nD) : W0 m ρ c (Proc.devRef .tc main_arg6) = m ((c : Thread nD τ).loc main_arg6) := rfl
theorem W1_main_arg6 (c : Dev nD) : W1 m ρ c (Proc.devRef .tc main_arg6) = m ((c : Thread nD τ).loc main_arg6) :=
  (show W1 m ρ c (Proc.devRef .tc main_arg6) = W0 m ρ c (Proc.devRef .tc main_arg6) from after_kept _ _ main_arg6 (hostOps0_keeps_args main_arg6 (by unfold IsArg; simp))).trans (W0_main_arg6 m ρ c)
theorem W2_main_arg6 (c : Dev nD) : W2 m ρ c (Proc.devRef .tc main_arg6) = m ((c : Thread nD τ).loc main_arg6) :=
  (show W2 m ρ c (Proc.devRef .tc main_arg6) = W1 m ρ c (Proc.devRef .tc main_arg6) from after_kept _ _ main_arg6 (hostOps0_1_keeps_args main_arg6 (by unfold IsArg; simp))).trans (W1_main_arg6 m ρ c)
theorem W3_main_arg6 (c : Dev nD) : W3 m ρ c (Proc.devRef .tc main_arg6) = m ((c : Thread nD τ).loc main_arg6) :=
  (show W3 m ρ c (Proc.devRef .tc main_arg6) = W2 m ρ c (Proc.devRef .tc main_arg6) from after_kept _ _ main_arg6 (hostOps0_2_keeps_args main_arg6 (by unfold IsArg; simp))).trans (W2_main_arg6 m ρ c)
theorem W4_main_arg6 (c : Dev nD) : W4 m ρ c (Proc.devRef .tc main_arg6) = m ((c : Thread nD τ).loc main_arg6) :=
  (show W4 m ρ c (Proc.devRef .tc main_arg6) = W3 m ρ c (Proc.devRef .tc main_arg6) from W4_of_ne m ρ c main_arg6 (by decide)).trans (W3_main_arg6 m ρ c)
theorem W5_main_arg6 (c : Dev nD) : W5 m ρ c (Proc.devRef .tc main_arg6) = m ((c : Thread nD τ).loc main_arg6) :=
  (show W5 m ρ c (Proc.devRef .tc main_arg6) = W4 m ρ c (Proc.devRef .tc main_arg6) from after_kept _ _ main_arg6 (hostOps1_keeps_args main_arg6 (by unfold IsArg; simp))).trans (W4_main_arg6 m ρ c)
theorem W6_main_arg6 (c : Dev nD) : W6 m ρ c (Proc.devRef .tc main_arg6) = m ((c : Thread nD τ).loc main_arg6) :=
  (show W6 m ρ c (Proc.devRef .tc main_arg6) = W5 m ρ c (Proc.devRef .tc main_arg6) from W6_of_ne m ρ c main_arg6 (by decide)).trans (W5_main_arg6 m ρ c)
theorem W7_main_arg6 (c : Dev nD) : W7 m ρ c (Proc.devRef .tc main_arg6) = m ((c : Thread nD τ).loc main_arg6) :=
  (show W7 m ρ c (Proc.devRef .tc main_arg6) = W6 m ρ c (Proc.devRef .tc main_arg6) from after_kept _ _ main_arg6 (hostOps2_keeps_args main_arg6 (by unfold IsArg; simp))).trans (W6_main_arg6 m ρ c)
theorem W8_main_arg6 (c : Dev nD) : W8 m ρ c (Proc.devRef .tc main_arg6) = m ((c : Thread nD τ).loc main_arg6) :=
  (show W8 m ρ c (Proc.devRef .tc main_arg6) = W7 m ρ c (Proc.devRef .tc main_arg6) from after_kept _ _ main_arg6 (hostOps2_1_keeps_args main_arg6 (by unfold IsArg; simp))).trans (W7_main_arg6 m ρ c)
theorem W9_main_arg6 (c : Dev nD) : W9 m ρ c (Proc.devRef .tc main_arg6) = m ((c : Thread nD τ).loc main_arg6) :=
  (show W9 m ρ c (Proc.devRef .tc main_arg6) = W8 m ρ c (Proc.devRef .tc main_arg6) from after_kept _ _ main_arg6 (hostOps2_2_keeps_args main_arg6 (by unfold IsArg; simp))).trans (W8_main_arg6 m ρ c)
theorem W10_main_arg6 (c : Dev nD) : W10 m ρ c (Proc.devRef .tc main_arg6) = m ((c : Thread nD τ).loc main_arg6) :=
  (show W10 m ρ c (Proc.devRef .tc main_arg6) = W9 m ρ c (Proc.devRef .tc main_arg6) from after_kept _ _ main_arg6 (hostOps2_3_keeps_args main_arg6 (by unfold IsArg; simp))).trans (W9_main_arg6 m ρ c)
theorem W11_main_arg6 (c : Dev nD) : W11 m ρ c (Proc.devRef .tc main_arg6) = m ((c : Thread nD τ).loc main_arg6) :=
  (show W11 m ρ c (Proc.devRef .tc main_arg6) = W10 m ρ c (Proc.devRef .tc main_arg6) from W11_of_ne m ρ c main_arg6 (by decide)).trans (W10_main_arg6 m ρ c)
theorem W12_main_arg6 (c : Dev nD) : W12 m ρ c (Proc.devRef .tc main_arg6) = m ((c : Thread nD τ).loc main_arg6) :=
  (show W12 m ρ c (Proc.devRef .tc main_arg6) = W11 m ρ c (Proc.devRef .tc main_arg6) from after_kept _ _ main_arg6 (hostOps3_keeps_args main_arg6 (by unfold IsArg; simp))).trans (W11_main_arg6 m ρ c)

theorem W0_main_arg7 (c : Dev nD) : W0 m ρ c (Proc.devRef .tc main_arg7) = m ((c : Thread nD τ).loc main_arg7) := rfl
theorem W1_main_arg7 (c : Dev nD) : W1 m ρ c (Proc.devRef .tc main_arg7) = m ((c : Thread nD τ).loc main_arg7) :=
  (show W1 m ρ c (Proc.devRef .tc main_arg7) = W0 m ρ c (Proc.devRef .tc main_arg7) from after_kept _ _ main_arg7 (hostOps0_keeps_args main_arg7 (by unfold IsArg; simp))).trans (W0_main_arg7 m ρ c)
theorem W2_main_arg7 (c : Dev nD) : W2 m ρ c (Proc.devRef .tc main_arg7) = m ((c : Thread nD τ).loc main_arg7) :=
  (show W2 m ρ c (Proc.devRef .tc main_arg7) = W1 m ρ c (Proc.devRef .tc main_arg7) from after_kept _ _ main_arg7 (hostOps0_1_keeps_args main_arg7 (by unfold IsArg; simp))).trans (W1_main_arg7 m ρ c)
theorem W3_main_arg7 (c : Dev nD) : W3 m ρ c (Proc.devRef .tc main_arg7) = m ((c : Thread nD τ).loc main_arg7) :=
  (show W3 m ρ c (Proc.devRef .tc main_arg7) = W2 m ρ c (Proc.devRef .tc main_arg7) from after_kept _ _ main_arg7 (hostOps0_2_keeps_args main_arg7 (by unfold IsArg; simp))).trans (W2_main_arg7 m ρ c)
theorem W4_main_arg7 (c : Dev nD) : W4 m ρ c (Proc.devRef .tc main_arg7) = m ((c : Thread nD τ).loc main_arg7) :=
  (show W4 m ρ c (Proc.devRef .tc main_arg7) = W3 m ρ c (Proc.devRef .tc main_arg7) from W4_of_ne m ρ c main_arg7 (by decide)).trans (W3_main_arg7 m ρ c)
theorem W5_main_arg7 (c : Dev nD) : W5 m ρ c (Proc.devRef .tc main_arg7) = m ((c : Thread nD τ).loc main_arg7) :=
  (show W5 m ρ c (Proc.devRef .tc main_arg7) = W4 m ρ c (Proc.devRef .tc main_arg7) from after_kept _ _ main_arg7 (hostOps1_keeps_args main_arg7 (by unfold IsArg; simp))).trans (W4_main_arg7 m ρ c)
theorem W6_main_arg7 (c : Dev nD) : W6 m ρ c (Proc.devRef .tc main_arg7) = m ((c : Thread nD τ).loc main_arg7) :=
  (show W6 m ρ c (Proc.devRef .tc main_arg7) = W5 m ρ c (Proc.devRef .tc main_arg7) from (W6_arr m ρ c 3).trans (((dat1 (V5 m ρ) c).arrAt_in 3 rfl _).trans (A_eq1 (V5 m ρ) c 3))).trans (W5_main_arg7 m ρ c)
theorem W7_main_arg7 (c : Dev nD) : W7 m ρ c (Proc.devRef .tc main_arg7) = m ((c : Thread nD τ).loc main_arg7) :=
  (show W7 m ρ c (Proc.devRef .tc main_arg7) = W6 m ρ c (Proc.devRef .tc main_arg7) from after_kept _ _ main_arg7 (hostOps2_keeps_args main_arg7 (by unfold IsArg; simp))).trans (W6_main_arg7 m ρ c)
theorem W8_main_arg7 (c : Dev nD) : W8 m ρ c (Proc.devRef .tc main_arg7) = m ((c : Thread nD τ).loc main_arg7) :=
  (show W8 m ρ c (Proc.devRef .tc main_arg7) = W7 m ρ c (Proc.devRef .tc main_arg7) from after_kept _ _ main_arg7 (hostOps2_1_keeps_args main_arg7 (by unfold IsArg; simp))).trans (W7_main_arg7 m ρ c)
theorem W9_main_arg7 (c : Dev nD) : W9 m ρ c (Proc.devRef .tc main_arg7) = m ((c : Thread nD τ).loc main_arg7) :=
  (show W9 m ρ c (Proc.devRef .tc main_arg7) = W8 m ρ c (Proc.devRef .tc main_arg7) from after_kept _ _ main_arg7 (hostOps2_2_keeps_args main_arg7 (by unfold IsArg; simp))).trans (W8_main_arg7 m ρ c)
theorem W10_main_arg7 (c : Dev nD) : W10 m ρ c (Proc.devRef .tc main_arg7) = m ((c : Thread nD τ).loc main_arg7) :=
  (show W10 m ρ c (Proc.devRef .tc main_arg7) = W9 m ρ c (Proc.devRef .tc main_arg7) from after_kept _ _ main_arg7 (hostOps2_3_keeps_args main_arg7 (by unfold IsArg; simp))).trans (W9_main_arg7 m ρ c)
theorem W11_main_arg7 (c : Dev nD) : W11 m ρ c (Proc.devRef .tc main_arg7) = m ((c : Thread nD τ).loc main_arg7) :=
  (show W11 m ρ c (Proc.devRef .tc main_arg7) = W10 m ρ c (Proc.devRef .tc main_arg7) from W11_of_ne m ρ c main_arg7 (by decide)).trans (W10_main_arg7 m ρ c)
theorem W12_main_arg7 (c : Dev nD) : W12 m ρ c (Proc.devRef .tc main_arg7) = m ((c : Thread nD τ).loc main_arg7) :=
  (show W12 m ρ c (Proc.devRef .tc main_arg7) = W11 m ρ c (Proc.devRef .tc main_arg7) from after_kept _ _ main_arg7 (hostOps3_keeps_args main_arg7 (by unfold IsArg; simp))).trans (W11_main_arg7 m ρ c)

theorem W0_main_arg8 (c : Dev nD) : W0 m ρ c (Proc.devRef .tc main_arg8) = m ((c : Thread nD τ).loc main_arg8) := rfl
theorem W1_main_arg8 (c : Dev nD) : W1 m ρ c (Proc.devRef .tc main_arg8) = m ((c : Thread nD τ).loc main_arg8) :=
  (show W1 m ρ c (Proc.devRef .tc main_arg8) = W0 m ρ c (Proc.devRef .tc main_arg8) from after_kept _ _ main_arg8 (hostOps0_keeps_args main_arg8 (by unfold IsArg; simp))).trans (W0_main_arg8 m ρ c)
theorem W2_main_arg8 (c : Dev nD) : W2 m ρ c (Proc.devRef .tc main_arg8) = m ((c : Thread nD τ).loc main_arg8) :=
  (show W2 m ρ c (Proc.devRef .tc main_arg8) = W1 m ρ c (Proc.devRef .tc main_arg8) from after_kept _ _ main_arg8 (hostOps0_1_keeps_args main_arg8 (by unfold IsArg; simp))).trans (W1_main_arg8 m ρ c)
theorem W3_main_arg8 (c : Dev nD) : W3 m ρ c (Proc.devRef .tc main_arg8) = m ((c : Thread nD τ).loc main_arg8) :=
  (show W3 m ρ c (Proc.devRef .tc main_arg8) = W2 m ρ c (Proc.devRef .tc main_arg8) from after_kept _ _ main_arg8 (hostOps0_2_keeps_args main_arg8 (by unfold IsArg; simp))).trans (W2_main_arg8 m ρ c)
theorem W4_main_arg8 (c : Dev nD) : W4 m ρ c (Proc.devRef .tc main_arg8) = m ((c : Thread nD τ).loc main_arg8) :=
  (show W4 m ρ c (Proc.devRef .tc main_arg8) = W3 m ρ c (Proc.devRef .tc main_arg8) from W4_of_ne m ρ c main_arg8 (by decide)).trans (W3_main_arg8 m ρ c)
theorem W5_main_arg8 (c : Dev nD) : W5 m ρ c (Proc.devRef .tc main_arg8) = m ((c : Thread nD τ).loc main_arg8) :=
  (show W5 m ρ c (Proc.devRef .tc main_arg8) = W4 m ρ c (Proc.devRef .tc main_arg8) from after_kept _ _ main_arg8 (hostOps1_keeps_args main_arg8 (by unfold IsArg; simp))).trans (W4_main_arg8 m ρ c)
theorem W6_main_arg8 (c : Dev nD) : W6 m ρ c (Proc.devRef .tc main_arg8) = m ((c : Thread nD τ).loc main_arg8) :=
  (show W6 m ρ c (Proc.devRef .tc main_arg8) = W5 m ρ c (Proc.devRef .tc main_arg8) from (W6_arr m ρ c 4).trans (((dat1 (V5 m ρ) c).arrAt_in 4 rfl _).trans (A_eq1 (V5 m ρ) c 4))).trans (W5_main_arg8 m ρ c)
theorem W7_main_arg8 (c : Dev nD) : W7 m ρ c (Proc.devRef .tc main_arg8) = m ((c : Thread nD τ).loc main_arg8) :=
  (show W7 m ρ c (Proc.devRef .tc main_arg8) = W6 m ρ c (Proc.devRef .tc main_arg8) from after_kept _ _ main_arg8 (hostOps2_keeps_args main_arg8 (by unfold IsArg; simp))).trans (W6_main_arg8 m ρ c)
theorem W8_main_arg8 (c : Dev nD) : W8 m ρ c (Proc.devRef .tc main_arg8) = m ((c : Thread nD τ).loc main_arg8) :=
  (show W8 m ρ c (Proc.devRef .tc main_arg8) = W7 m ρ c (Proc.devRef .tc main_arg8) from after_kept _ _ main_arg8 (hostOps2_1_keeps_args main_arg8 (by unfold IsArg; simp))).trans (W7_main_arg8 m ρ c)
theorem W9_main_arg8 (c : Dev nD) : W9 m ρ c (Proc.devRef .tc main_arg8) = m ((c : Thread nD τ).loc main_arg8) :=
  (show W9 m ρ c (Proc.devRef .tc main_arg8) = W8 m ρ c (Proc.devRef .tc main_arg8) from after_kept _ _ main_arg8 (hostOps2_2_keeps_args main_arg8 (by unfold IsArg; simp))).trans (W8_main_arg8 m ρ c)
theorem W10_main_arg8 (c : Dev nD) : W10 m ρ c (Proc.devRef .tc main_arg8) = m ((c : Thread nD τ).loc main_arg8) :=
  (show W10 m ρ c (Proc.devRef .tc main_arg8) = W9 m ρ c (Proc.devRef .tc main_arg8) from after_kept _ _ main_arg8 (hostOps2_3_keeps_args main_arg8 (by unfold IsArg; simp))).trans (W9_main_arg8 m ρ c)
theorem W11_main_arg8 (c : Dev nD) : W11 m ρ c (Proc.devRef .tc main_arg8) = m ((c : Thread nD τ).loc main_arg8) :=
  (show W11 m ρ c (Proc.devRef .tc main_arg8) = W10 m ρ c (Proc.devRef .tc main_arg8) from W11_of_ne m ρ c main_arg8 (by decide)).trans (W10_main_arg8 m ρ c)
theorem W12_main_arg8 (c : Dev nD) : W12 m ρ c (Proc.devRef .tc main_arg8) = m ((c : Thread nD τ).loc main_arg8) :=
  (show W12 m ρ c (Proc.devRef .tc main_arg8) = W11 m ρ c (Proc.devRef .tc main_arg8) from after_kept _ _ main_arg8 (hostOps3_keeps_args main_arg8 (by unfold IsArg; simp))).trans (W11_main_arg8 m ρ c)

theorem W0_main_arg9 (c : Dev nD) : W0 m ρ c (Proc.devRef .tc main_arg9) = m ((c : Thread nD τ).loc main_arg9) := rfl
theorem W1_main_arg9 (c : Dev nD) : W1 m ρ c (Proc.devRef .tc main_arg9) = m ((c : Thread nD τ).loc main_arg9) :=
  (show W1 m ρ c (Proc.devRef .tc main_arg9) = W0 m ρ c (Proc.devRef .tc main_arg9) from after_kept _ _ main_arg9 (hostOps0_keeps_args main_arg9 (by unfold IsArg; simp))).trans (W0_main_arg9 m ρ c)
theorem W2_main_arg9 (c : Dev nD) : W2 m ρ c (Proc.devRef .tc main_arg9) = m ((c : Thread nD τ).loc main_arg9) :=
  (show W2 m ρ c (Proc.devRef .tc main_arg9) = W1 m ρ c (Proc.devRef .tc main_arg9) from after_kept _ _ main_arg9 (hostOps0_1_keeps_args main_arg9 (by unfold IsArg; simp))).trans (W1_main_arg9 m ρ c)
theorem W3_main_arg9 (c : Dev nD) : W3 m ρ c (Proc.devRef .tc main_arg9) = m ((c : Thread nD τ).loc main_arg9) :=
  (show W3 m ρ c (Proc.devRef .tc main_arg9) = W2 m ρ c (Proc.devRef .tc main_arg9) from after_kept _ _ main_arg9 (hostOps0_2_keeps_args main_arg9 (by unfold IsArg; simp))).trans (W2_main_arg9 m ρ c)
theorem W4_main_arg9 (c : Dev nD) : W4 m ρ c (Proc.devRef .tc main_arg9) = m ((c : Thread nD τ).loc main_arg9) :=
  (show W4 m ρ c (Proc.devRef .tc main_arg9) = W3 m ρ c (Proc.devRef .tc main_arg9) from W4_of_ne m ρ c main_arg9 (by decide)).trans (W3_main_arg9 m ρ c)
theorem W5_main_arg9 (c : Dev nD) : W5 m ρ c (Proc.devRef .tc main_arg9) = m ((c : Thread nD τ).loc main_arg9) :=
  (show W5 m ρ c (Proc.devRef .tc main_arg9) = W4 m ρ c (Proc.devRef .tc main_arg9) from after_kept _ _ main_arg9 (hostOps1_keeps_args main_arg9 (by unfold IsArg; simp))).trans (W4_main_arg9 m ρ c)
theorem W6_main_arg9 (c : Dev nD) : W6 m ρ c (Proc.devRef .tc main_arg9) = m ((c : Thread nD τ).loc main_arg9) :=
  (show W6 m ρ c (Proc.devRef .tc main_arg9) = W5 m ρ c (Proc.devRef .tc main_arg9) from W6_of_ne m ρ c main_arg9 (by decide)).trans (W5_main_arg9 m ρ c)
theorem W7_main_arg9 (c : Dev nD) : W7 m ρ c (Proc.devRef .tc main_arg9) = m ((c : Thread nD τ).loc main_arg9) :=
  (show W7 m ρ c (Proc.devRef .tc main_arg9) = W6 m ρ c (Proc.devRef .tc main_arg9) from after_kept _ _ main_arg9 (hostOps2_keeps_args main_arg9 (by unfold IsArg; simp))).trans (W6_main_arg9 m ρ c)
theorem W8_main_arg9 (c : Dev nD) : W8 m ρ c (Proc.devRef .tc main_arg9) = m ((c : Thread nD τ).loc main_arg9) :=
  (show W8 m ρ c (Proc.devRef .tc main_arg9) = W7 m ρ c (Proc.devRef .tc main_arg9) from after_kept _ _ main_arg9 (hostOps2_1_keeps_args main_arg9 (by unfold IsArg; simp))).trans (W7_main_arg9 m ρ c)
theorem W9_main_arg9 (c : Dev nD) : W9 m ρ c (Proc.devRef .tc main_arg9) = m ((c : Thread nD τ).loc main_arg9) :=
  (show W9 m ρ c (Proc.devRef .tc main_arg9) = W8 m ρ c (Proc.devRef .tc main_arg9) from after_kept _ _ main_arg9 (hostOps2_2_keeps_args main_arg9 (by unfold IsArg; simp))).trans (W8_main_arg9 m ρ c)
theorem W10_main_arg9 (c : Dev nD) : W10 m ρ c (Proc.devRef .tc main_arg9) = m ((c : Thread nD τ).loc main_arg9) :=
  (show W10 m ρ c (Proc.devRef .tc main_arg9) = W9 m ρ c (Proc.devRef .tc main_arg9) from after_kept _ _ main_arg9 (hostOps2_3_keeps_args main_arg9 (by unfold IsArg; simp))).trans (W9_main_arg9 m ρ c)
theorem W11_main_arg9 (c : Dev nD) : W11 m ρ c (Proc.devRef .tc main_arg9) = m ((c : Thread nD τ).loc main_arg9) :=
  (show W11 m ρ c (Proc.devRef .tc main_arg9) = W10 m ρ c (Proc.devRef .tc main_arg9) from W11_of_ne m ρ c main_arg9 (by decide)).trans (W10_main_arg9 m ρ c)
theorem W12_main_arg9 (c : Dev nD) : W12 m ρ c (Proc.devRef .tc main_arg9) = m ((c : Thread nD τ).loc main_arg9) :=
  (show W12 m ρ c (Proc.devRef .tc main_arg9) = W11 m ρ c (Proc.devRef .tc main_arg9) from after_kept _ _ main_arg9 (hostOps3_keeps_args main_arg9 (by unfold IsArg; simp))).trans (W11_main_arg9 m ρ c)

theorem W0_main_arg10 (c : Dev nD) : W0 m ρ c (Proc.devRef .tc main_arg10) = m ((c : Thread nD τ).loc main_arg10) := rfl
theorem W1_main_arg10 (c : Dev nD) : W1 m ρ c (Proc.devRef .tc main_arg10) = m ((c : Thread nD τ).loc main_arg10) :=
  (show W1 m ρ c (Proc.devRef .tc main_arg10) = W0 m ρ c (Proc.devRef .tc main_arg10) from after_kept _ _ main_arg10 (hostOps0_keeps_args main_arg10 (by unfold IsArg; simp))).trans (W0_main_arg10 m ρ c)
theorem W2_main_arg10 (c : Dev nD) : W2 m ρ c (Proc.devRef .tc main_arg10) = m ((c : Thread nD τ).loc main_arg10) :=
  (show W2 m ρ c (Proc.devRef .tc main_arg10) = W1 m ρ c (Proc.devRef .tc main_arg10) from after_kept _ _ main_arg10 (hostOps0_1_keeps_args main_arg10 (by unfold IsArg; simp))).trans (W1_main_arg10 m ρ c)
theorem W3_main_arg10 (c : Dev nD) : W3 m ρ c (Proc.devRef .tc main_arg10) = m ((c : Thread nD τ).loc main_arg10) :=
  (show W3 m ρ c (Proc.devRef .tc main_arg10) = W2 m ρ c (Proc.devRef .tc main_arg10) from after_kept _ _ main_arg10 (hostOps0_2_keeps_args main_arg10 (by unfold IsArg; simp))).trans (W2_main_arg10 m ρ c)
theorem W4_main_arg10 (c : Dev nD) : W4 m ρ c (Proc.devRef .tc main_arg10) = m ((c : Thread nD τ).loc main_arg10) :=
  (show W4 m ρ c (Proc.devRef .tc main_arg10) = W3 m ρ c (Proc.devRef .tc main_arg10) from W4_of_ne m ρ c main_arg10 (by decide)).trans (W3_main_arg10 m ρ c)
theorem W5_main_arg10 (c : Dev nD) : W5 m ρ c (Proc.devRef .tc main_arg10) = m ((c : Thread nD τ).loc main_arg10) :=
  (show W5 m ρ c (Proc.devRef .tc main_arg10) = W4 m ρ c (Proc.devRef .tc main_arg10) from after_kept _ _ main_arg10 (hostOps1_keeps_args main_arg10 (by unfold IsArg; simp))).trans (W4_main_arg10 m ρ c)
theorem W6_main_arg10 (c : Dev nD) : W6 m ρ c (Proc.devRef .tc main_arg10) = m ((c : Thread nD τ).loc main_arg10) :=
  (show W6 m ρ c (Proc.devRef .tc main_arg10) = W5 m ρ c (Proc.devRef .tc main_arg10) from W6_of_ne m ρ c main_arg10 (by decide)).trans (W5_main_arg10 m ρ c)
theorem W7_main_arg10 (c : Dev nD) : W7 m ρ c (Proc.devRef .tc main_arg10) = m ((c : Thread nD τ).loc main_arg10) :=
  (show W7 m ρ c (Proc.devRef .tc main_arg10) = W6 m ρ c (Proc.devRef .tc main_arg10) from after_kept _ _ main_arg10 (hostOps2_keeps_args main_arg10 (by unfold IsArg; simp))).trans (W6_main_arg10 m ρ c)
theorem W8_main_arg10 (c : Dev nD) : W8 m ρ c (Proc.devRef .tc main_arg10) = m ((c : Thread nD τ).loc main_arg10) :=
  (show W8 m ρ c (Proc.devRef .tc main_arg10) = W7 m ρ c (Proc.devRef .tc main_arg10) from after_kept _ _ main_arg10 (hostOps2_1_keeps_args main_arg10 (by unfold IsArg; simp))).trans (W7_main_arg10 m ρ c)
theorem W9_main_arg10 (c : Dev nD) : W9 m ρ c (Proc.devRef .tc main_arg10) = m ((c : Thread nD τ).loc main_arg10) :=
  (show W9 m ρ c (Proc.devRef .tc main_arg10) = W8 m ρ c (Proc.devRef .tc main_arg10) from after_kept _ _ main_arg10 (hostOps2_2_keeps_args main_arg10 (by unfold IsArg; simp))).trans (W8_main_arg10 m ρ c)
theorem W10_main_arg10 (c : Dev nD) : W10 m ρ c (Proc.devRef .tc main_arg10) = m ((c : Thread nD τ).loc main_arg10) :=
  (show W10 m ρ c (Proc.devRef .tc main_arg10) = W9 m ρ c (Proc.devRef .tc main_arg10) from after_kept _ _ main_arg10 (hostOps2_3_keeps_args main_arg10 (by unfold IsArg; simp))).trans (W9_main_arg10 m ρ c)
theorem W11_main_arg10 (c : Dev nD) : W11 m ρ c (Proc.devRef .tc main_arg10) = m ((c : Thread nD τ).loc main_arg10) :=
  (show W11 m ρ c (Proc.devRef .tc main_arg10) = W10 m ρ c (Proc.devRef .tc main_arg10) from W11_of_ne m ρ c main_arg10 (by decide)).trans (W10_main_arg10 m ρ c)
theorem W12_main_arg10 (c : Dev nD) : W12 m ρ c (Proc.devRef .tc main_arg10) = m ((c : Thread nD τ).loc main_arg10) :=
  (show W12 m ρ c (Proc.devRef .tc main_arg10) = W11 m ρ c (Proc.devRef .tc main_arg10) from after_kept _ _ main_arg10 (hostOps3_keeps_args main_arg10 (by unfold IsArg; simp))).trans (W11_main_arg10 m ρ c)

theorem W0_main_arg11 (c : Dev nD) : W0 m ρ c (Proc.devRef .tc main_arg11) = m ((c : Thread nD τ).loc main_arg11) := rfl
theorem W1_main_arg11 (c : Dev nD) : W1 m ρ c (Proc.devRef .tc main_arg11) = m ((c : Thread nD τ).loc main_arg11) :=
  (show W1 m ρ c (Proc.devRef .tc main_arg11) = W0 m ρ c (Proc.devRef .tc main_arg11) from after_kept _ _ main_arg11 (hostOps0_keeps_args main_arg11 (by unfold IsArg; simp))).trans (W0_main_arg11 m ρ c)
theorem W2_main_arg11 (c : Dev nD) : W2 m ρ c (Proc.devRef .tc main_arg11) = m ((c : Thread nD τ).loc main_arg11) :=
  (show W2 m ρ c (Proc.devRef .tc main_arg11) = W1 m ρ c (Proc.devRef .tc main_arg11) from after_kept _ _ main_arg11 (hostOps0_1_keeps_args main_arg11 (by unfold IsArg; simp))).trans (W1_main_arg11 m ρ c)
theorem W3_main_arg11 (c : Dev nD) : W3 m ρ c (Proc.devRef .tc main_arg11) = m ((c : Thread nD τ).loc main_arg11) :=
  (show W3 m ρ c (Proc.devRef .tc main_arg11) = W2 m ρ c (Proc.devRef .tc main_arg11) from after_kept _ _ main_arg11 (hostOps0_2_keeps_args main_arg11 (by unfold IsArg; simp))).trans (W2_main_arg11 m ρ c)
theorem W4_main_arg11 (c : Dev nD) : W4 m ρ c (Proc.devRef .tc main_arg11) = m ((c : Thread nD τ).loc main_arg11) :=
  (show W4 m ρ c (Proc.devRef .tc main_arg11) = W3 m ρ c (Proc.devRef .tc main_arg11) from W4_of_ne m ρ c main_arg11 (by decide)).trans (W3_main_arg11 m ρ c)
theorem W5_main_arg11 (c : Dev nD) : W5 m ρ c (Proc.devRef .tc main_arg11) = m ((c : Thread nD τ).loc main_arg11) :=
  (show W5 m ρ c (Proc.devRef .tc main_arg11) = W4 m ρ c (Proc.devRef .tc main_arg11) from after_kept _ _ main_arg11 (hostOps1_keeps_args main_arg11 (by unfold IsArg; simp))).trans (W4_main_arg11 m ρ c)
theorem W6_main_arg11 (c : Dev nD) : W6 m ρ c (Proc.devRef .tc main_arg11) = m ((c : Thread nD τ).loc main_arg11) :=
  (show W6 m ρ c (Proc.devRef .tc main_arg11) = W5 m ρ c (Proc.devRef .tc main_arg11) from W6_of_ne m ρ c main_arg11 (by decide)).trans (W5_main_arg11 m ρ c)
theorem W7_main_arg11 (c : Dev nD) : W7 m ρ c (Proc.devRef .tc main_arg11) = m ((c : Thread nD τ).loc main_arg11) :=
  (show W7 m ρ c (Proc.devRef .tc main_arg11) = W6 m ρ c (Proc.devRef .tc main_arg11) from after_kept _ _ main_arg11 (hostOps2_keeps_args main_arg11 (by unfold IsArg; simp))).trans (W6_main_arg11 m ρ c)
theorem W8_main_arg11 (c : Dev nD) : W8 m ρ c (Proc.devRef .tc main_arg11) = m ((c : Thread nD τ).loc main_arg11) :=
  (show W8 m ρ c (Proc.devRef .tc main_arg11) = W7 m ρ c (Proc.devRef .tc main_arg11) from after_kept _ _ main_arg11 (hostOps2_1_keeps_args main_arg11 (by unfold IsArg; simp))).trans (W7_main_arg11 m ρ c)
theorem W9_main_arg11 (c : Dev nD) : W9 m ρ c (Proc.devRef .tc main_arg11) = m ((c : Thread nD τ).loc main_arg11) :=
  (show W9 m ρ c (Proc.devRef .tc main_arg11) = W8 m ρ c (Proc.devRef .tc main_arg11) from after_kept _ _ main_arg11 (hostOps2_2_keeps_args main_arg11 (by unfold IsArg; simp))).trans (W8_main_arg11 m ρ c)
theorem W10_main_arg11 (c : Dev nD) : W10 m ρ c (Proc.devRef .tc main_arg11) = m ((c : Thread nD τ).loc main_arg11) :=
  (show W10 m ρ c (Proc.devRef .tc main_arg11) = W9 m ρ c (Proc.devRef .tc main_arg11) from after_kept _ _ main_arg11 (hostOps2_3_keeps_args main_arg11 (by unfold IsArg; simp))).trans (W9_main_arg11 m ρ c)
theorem W11_main_arg11 (c : Dev nD) : W11 m ρ c (Proc.devRef .tc main_arg11) = m ((c : Thread nD τ).loc main_arg11) :=
  (show W11 m ρ c (Proc.devRef .tc main_arg11) = W10 m ρ c (Proc.devRef .tc main_arg11) from W11_of_ne m ρ c main_arg11 (by decide)).trans (W10_main_arg11 m ρ c)
theorem W12_main_arg11 (c : Dev nD) : W12 m ρ c (Proc.devRef .tc main_arg11) = m ((c : Thread nD τ).loc main_arg11) :=
  (show W12 m ρ c (Proc.devRef .tc main_arg11) = W11 m ρ c (Proc.devRef .tc main_arg11) from after_kept _ _ main_arg11 (hostOps3_keeps_args main_arg11 (by unfold IsArg; simp))).trans (W11_main_arg11 m ρ c)

theorem W0_main_arg12 (c : Dev nD) : W0 m ρ c (Proc.devRef .tc main_arg12) = m ((c : Thread nD τ).loc main_arg12) := rfl
theorem W1_main_arg12 (c : Dev nD) : W1 m ρ c (Proc.devRef .tc main_arg12) = m ((c : Thread nD τ).loc main_arg12) :=
  (show W1 m ρ c (Proc.devRef .tc main_arg12) = W0 m ρ c (Proc.devRef .tc main_arg12) from after_kept _ _ main_arg12 (hostOps0_keeps_args main_arg12 (by unfold IsArg; simp))).trans (W0_main_arg12 m ρ c)
theorem W2_main_arg12 (c : Dev nD) : W2 m ρ c (Proc.devRef .tc main_arg12) = m ((c : Thread nD τ).loc main_arg12) :=
  (show W2 m ρ c (Proc.devRef .tc main_arg12) = W1 m ρ c (Proc.devRef .tc main_arg12) from after_kept _ _ main_arg12 (hostOps0_1_keeps_args main_arg12 (by unfold IsArg; simp))).trans (W1_main_arg12 m ρ c)
theorem W3_main_arg12 (c : Dev nD) : W3 m ρ c (Proc.devRef .tc main_arg12) = m ((c : Thread nD τ).loc main_arg12) :=
  (show W3 m ρ c (Proc.devRef .tc main_arg12) = W2 m ρ c (Proc.devRef .tc main_arg12) from after_kept _ _ main_arg12 (hostOps0_2_keeps_args main_arg12 (by unfold IsArg; simp))).trans (W2_main_arg12 m ρ c)
theorem W4_main_arg12 (c : Dev nD) : W4 m ρ c (Proc.devRef .tc main_arg12) = m ((c : Thread nD τ).loc main_arg12) :=
  (show W4 m ρ c (Proc.devRef .tc main_arg12) = W3 m ρ c (Proc.devRef .tc main_arg12) from W4_of_ne m ρ c main_arg12 (by decide)).trans (W3_main_arg12 m ρ c)
theorem W5_main_arg12 (c : Dev nD) : W5 m ρ c (Proc.devRef .tc main_arg12) = m ((c : Thread nD τ).loc main_arg12) :=
  (show W5 m ρ c (Proc.devRef .tc main_arg12) = W4 m ρ c (Proc.devRef .tc main_arg12) from after_kept _ _ main_arg12 (hostOps1_keeps_args main_arg12 (by unfold IsArg; simp))).trans (W4_main_arg12 m ρ c)
theorem W6_main_arg12 (c : Dev nD) : W6 m ρ c (Proc.devRef .tc main_arg12) = m ((c : Thread nD τ).loc main_arg12) :=
  (show W6 m ρ c (Proc.devRef .tc main_arg12) = W5 m ρ c (Proc.devRef .tc main_arg12) from W6_of_ne m ρ c main_arg12 (by decide)).trans (W5_main_arg12 m ρ c)
theorem W7_main_arg12 (c : Dev nD) : W7 m ρ c (Proc.devRef .tc main_arg12) = m ((c : Thread nD τ).loc main_arg12) :=
  (show W7 m ρ c (Proc.devRef .tc main_arg12) = W6 m ρ c (Proc.devRef .tc main_arg12) from after_kept _ _ main_arg12 (hostOps2_keeps_args main_arg12 (by unfold IsArg; simp))).trans (W6_main_arg12 m ρ c)
theorem W8_main_arg12 (c : Dev nD) : W8 m ρ c (Proc.devRef .tc main_arg12) = m ((c : Thread nD τ).loc main_arg12) :=
  (show W8 m ρ c (Proc.devRef .tc main_arg12) = W7 m ρ c (Proc.devRef .tc main_arg12) from after_kept _ _ main_arg12 (hostOps2_1_keeps_args main_arg12 (by unfold IsArg; simp))).trans (W7_main_arg12 m ρ c)
theorem W9_main_arg12 (c : Dev nD) : W9 m ρ c (Proc.devRef .tc main_arg12) = m ((c : Thread nD τ).loc main_arg12) :=
  (show W9 m ρ c (Proc.devRef .tc main_arg12) = W8 m ρ c (Proc.devRef .tc main_arg12) from after_kept _ _ main_arg12 (hostOps2_2_keeps_args main_arg12 (by unfold IsArg; simp))).trans (W8_main_arg12 m ρ c)
theorem W10_main_arg12 (c : Dev nD) : W10 m ρ c (Proc.devRef .tc main_arg12) = m ((c : Thread nD τ).loc main_arg12) :=
  (show W10 m ρ c (Proc.devRef .tc main_arg12) = W9 m ρ c (Proc.devRef .tc main_arg12) from after_kept _ _ main_arg12 (hostOps2_3_keeps_args main_arg12 (by unfold IsArg; simp))).trans (W9_main_arg12 m ρ c)
theorem W11_main_arg12 (c : Dev nD) : W11 m ρ c (Proc.devRef .tc main_arg12) = m ((c : Thread nD τ).loc main_arg12) :=
  (show W11 m ρ c (Proc.devRef .tc main_arg12) = W10 m ρ c (Proc.devRef .tc main_arg12) from W11_of_ne m ρ c main_arg12 (by decide)).trans (W10_main_arg12 m ρ c)
theorem W12_main_arg12 (c : Dev nD) : W12 m ρ c (Proc.devRef .tc main_arg12) = m ((c : Thread nD τ).loc main_arg12) :=
  (show W12 m ρ c (Proc.devRef .tc main_arg12) = W11 m ρ c (Proc.devRef .tc main_arg12) from after_kept _ _ main_arg12 (hostOps3_keeps_args main_arg12 (by unfold IsArg; simp))).trans (W11_main_arg12 m ρ c)
/-- THE FRAME, at any `F`: @main terminates, nothing faults, and the thirteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W12_main_arg0 m ρ c),
    (h c _ (mem_uc main_arg1 (by decide))).trans (W12_main_arg1 m ρ c),
    (h c _ (mem_uc main_arg2 (by decide))).trans (W12_main_arg2 m ρ c),
    (h c _ (mem_uc main_arg3 (by decide))).trans (W12_main_arg3 m ρ c),
    (h c _ (mem_uc main_arg4 (by decide))).trans (W12_main_arg4 m ρ c),
    (h c _ (mem_uc main_arg5 (by decide))).trans (W12_main_arg5 m ρ c),
    (h c _ (mem_uc main_arg6 (by decide))).trans (W12_main_arg6 m ρ c),
    (h c _ (mem_uc main_arg7 (by decide))).trans (W12_main_arg7 m ρ c),
    (h c _ (mem_uc main_arg8 (by decide))).trans (W12_main_arg8 m ρ c),
    (h c _ (mem_uc main_arg9 (by decide))).trans (W12_main_arg9 m ρ c),
    (h c _ (mem_uc main_arg10 (by decide))).trans (W12_main_arg10 m ρ c),
    (h c _ (mem_uc main_arg11 (by decide))).trans (W12_main_arg11 m ρ c),
    (h c _ (mem_uc main_arg12 (by decide))).trans (W12_main_arg12 m ρ c)⟩) (run_all m ρ)

/-- The same run with the result buffer named: it ends at the last boundary's contents. -/
theorem run_value : θ_run defs (onTc (τ := τ) (main (F := F))) ⟨m, fun _ => 0, ρ⟩ (fun r => ∀ c : Dev nD,
      r.2.mem ((c.tc : Thread nD τ).loc main_v117) = W12 m ρ c (Proc.devRef .tc main_v117)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨h c _ (mem_uc main_v117 (by decide)), (h c _ (mem_uc main_arg0 (by decide))).trans (W12_main_arg0 m ρ c),
    (h c _ (mem_uc main_arg1 (by decide))).trans (W12_main_arg1 m ρ c),
    (h c _ (mem_uc main_arg2 (by decide))).trans (W12_main_arg2 m ρ c),
    (h c _ (mem_uc main_arg3 (by decide))).trans (W12_main_arg3 m ρ c),
    (h c _ (mem_uc main_arg4 (by decide))).trans (W12_main_arg4 m ρ c),
    (h c _ (mem_uc main_arg5 (by decide))).trans (W12_main_arg5 m ρ c),
    (h c _ (mem_uc main_arg6 (by decide))).trans (W12_main_arg6 m ρ c),
    (h c _ (mem_uc main_arg7 (by decide))).trans (W12_main_arg7 m ρ c),
    (h c _ (mem_uc main_arg8 (by decide))).trans (W12_main_arg8 m ρ c),
    (h c _ (mem_uc main_arg9 (by decide))).trans (W12_main_arg9 m ρ c),
    (h c _ (mem_uc main_arg10 (by decide))).trans (W12_main_arg10 m ρ c),
    (h c _ (mem_uc main_arg11 (by decide))).trans (W12_main_arg11 m ρ c),
    (h c _ (mem_uc main_arg12 (by decide))).trans (W12_main_arg12 m ρ c)⟩) (run_all m ρ)

end Cert.Kernel.Hand

end
-- ==== Proof.KI.R0Run.lean ====
import proofs.«169417_j2877628089024_2_alg».proof.Proof.Gen.KernelIdeal.Launch
import proofs.«169417_j2877628089024_2_alg».proof.Proof.Gen.KernelIdeal.Skeleton
import proofs.«169417_j2877628089024_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the first linear layer with its column statistics — the body's runs

The body at a grid point (c, s) of the 2 × 10 grid: when s = 0 the statistics accumulator (2 × 256) is reset
to zero; the 5000 × 64 block of features is multiplied into the 64 × 256 weights, the bias added, the product
stored (rounded to bf16) into the output block, and its column sums and column sums of squares added into rows 0
and 1 of the accumulator; when s = 9 the accumulator is copied into the statistics block. Three cases:
A (s = 0), B (0 < s < 9), C (s = 9). -/

/-! ## The two conditions, in closed form over the grid -/

/-- The reset's condition (s = 0), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 10). -/
theorem hcond0_0 : ∀ t : Fin cfg0.N, cond0_0 (grid0.coords t) ↔ t.val % 10 = 0 :=
  (by decide +kernel : ∀ t : Fin grid0.N, cond0_0 (grid0.coords t) ↔ t.val % 10 = 0)

/-- The copy-out's condition (s = 9), from the grid coordinates. -/
abbrev cond0_1 (i : grid0.Coords) : Prop := k0_cond2 i = 1#1
/-- It holds at the points ≡ 9 (mod 10). -/
theorem hcond0_1 : ∀ t : Fin cfg0.N, cond0_1 (grid0.coords t) ↔ t.val % 10 = 9 :=
  (by decide +kernel : ∀ t : Fin grid0.N, cond0_1 (grid0.coords t) ↔ t.val % 10 = 9)

/-! ## The body's run, case by case

Each run is a dependent tuple: the pieces the body's stores leave in the product block (`L3`), in the statistics
block (`L4`) and in the accumulator (`LS0`), last store first, with the proof that from whole memrefs — the three
inputs at their contents, the product block at anything, the statistics block at contents handed back untouched
(cases A, B) or at anything (case C), the accumulator at anything (case A) or at what the point before left
(cases B, C) — the body runs to a continuation that holds the inputs as they were and each written buffer with
its pieces written. -/

set_option maxHeartbeats 4000000 in
/-- CASE A (s = 0): reset, then accumulate. -/
noncomputable def kernelRun0_A (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : cond0_0 i) (hc1 : ¬cond0_1 i)
    (x0 : Vec F S5000x64 .f32) (x1 : Vec F S64x256 .f32) (x2 : Vec F S256 .f32) :
    Σ' (L3 : List (View.Piece (Elt F) S5000x256 .bf16)) (L4 : List (View.Piece (Elt F) S1x2x256 .f32)), { LS0 : List (View.Piece (Elt F) S2x256 .f32) //
      ∀ (xi4 : Vec F S1x2x256 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__linear1_kernel i arg2 harg2 arg3 harg3 arg4 harg4 arg5 harg5 arg6 harg6 arg7 harg7) K } := by
  refine ⟨?_, [], ?_, fun xi4 E K => ?run⟩
  case run =>
    simp only [cc0__linear1_kernel_eq_skeleton]; unfold cc0__linear1_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; iexact HS0

set_option maxHeartbeats 4000000 in
/-- CASE B (0 < s < 9): accumulate. -/
noncomputable def kernelRun0_B (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : ¬cond0_1 i)
    (x0 : Vec F S5000x64 .f32) (x1 : Vec F S64x256 .f32) (x2 : Vec F S256 .f32) (xs0 : Vec F S2x256 .f32) :
    Σ' (L3 : List (View.Piece (Elt F) S5000x256 .bf16)) (L4 : List (View.Piece (Elt F) S1x2x256 .f32)), { LS0 : List (View.Piece (Elt F) S2x256 .f32) //
      ∀ (xi4 : Vec F S1x2x256 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__linear1_kernel i arg2 harg2 arg3 harg3 arg4 harg4 arg5 harg5 arg6 harg6 arg7 harg7) K } := by
  refine ⟨?_, [], ?_, fun xi4 E K => ?run⟩
  case run =>
    simp only [cc0__linear1_kernel_eq_skeleton]; unfold cc0__linear1_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg6.eq_unread hf4
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; iexact HS0

set_option maxHeartbeats 4000000 in
/-- CASE C (s = 9): accumulate, then copy the accumulator into the statistics block. -/
noncomputable def kernelRun0_C (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : cond0_1 i)
    (x0 : Vec F S5000x64 .f32) (x1 : Vec F S64x256 .f32) (x2 : Vec F S256 .f32) (xs0 : Vec F S2x256 .f32) :
    Σ' (L3 : List (View.Piece (Elt F) S5000x256 .bf16)) (L4 : List (View.Piece (Elt F) S1x2x256 .f32)), { LS0 : List (View.Piece (Elt F) S2x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__linear1_kernel i arg2 harg2 arg3 harg3 arg4 harg4 arg5 harg5 arg6 harg6 arg7 harg7) K } := by
  refine ⟨?_, ?_, ?_, fun E K => ?run⟩
  case run =>
    simp only [cc0__linear1_kernel_eq_skeleton]; unfold cc0__linear1_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Hand

end
-- ==== Proof.KI.R0.lean ====
import proofs.«169417_j2877628089024_2_alg».proof.Proof.KI.R0Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the first linear layer with its column statistics — the frame half

Stated at a parameter `V`: the TensorCore's buffer contents when the region is entered. -/

/-! ## The scoped rest, split at the accumulator -/

/-- The core's scoped buffers that are no staging buffer of this call, split at the call's accumulator; the
    remainder (the other calls' staging buffers and scratch) is carried unopened. -/
theorem scopedRest0_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f)
          ∗ Pipeline.scopedRestBut (Ix := Ix) (Name := Name) (U := U) (Lvl := Lvl) (Val := Val) spec0 c [cc0_scratch0]) :=
  Pipeline.scopedRest_split_of_list spec0 c [cc0_scratch0] (by decide) (by decide)

/-- The remainder: every scoped buffer of the core other than this call's staging buffers and its accumulator,
    each at some contents. -/
abbrev Rest0 (c : Dev nD) : sProp 𝕄 :=
  Pipeline.scopedRestBut (Ix := Unit) (Name := ℕ) (U := UR sig nD τ) (Lvl := ℕ) (Val := Elt F) spec0 c [cc0_scratch0]

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- At the points of case A the statistics window is idle, -/
theorem idleAt0_4_A : ∀ t : Fin cfg0.N, cond0_0 (grid0.coords t) → ¬cond0_1 (grid0.coords t) → cfg0.idle 4 (grid0.coords t) = true := by decide +kernel
/-- and not written back. -/
theorem noFlush0_4_A : ∀ t : Fin cfg0.N, cond0_0 (grid0.coords t) → ¬cond0_1 (grid0.coords t) → (cfg0.win 4).flush t = false := by decide +kernel
/-- The same at the points of case B. -/
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- At the points of case C it is live. -/
theorem liveAt0_4_C : ∀ t : Fin cfg0.N, ¬cond0_0 (grid0.coords t) → cond0_1 (grid0.coords t) → cfg0.idle 4 (grid0.coords t) = false := by decide +kernel

/-! ## The staging memrefs and the accumulator -/

/-- One staging buffer of each output window, through which its contents are stated (the choice does not matter). -/
abbrev VO0_3 : View sig .tc .vmem S5000x256 .bf16 := (Memref.whole cc0_stg3_0 : Memref sig .tc .vmem S5000x256 .bf16).view
abbrev VO0_4 : View sig .tc .vmem S1x2x256 .f32 := (Memref.whole cc0_stg4_0 : Memref sig .tc .vmem S1x2x256 .f32).view
/-- Each window's current staging memref at point `t`, and its wholeness. -/
abbrev ms0_0 (t : Fin cfg0.N) : Memref sig .tc .vmem S5000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5000x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x256 .f32 := win0_4.stage (cfg0.slots t 4)
abbrev hs0_4 (t : Fin cfg0.N) : (ms0_4 t).IsWhole := hstage0_4 ((cfg0.slots t 4).cast nbuf0_4)
/-- The accumulator: a whole scoped buffer of the kernel's own, carried between points. -/
abbrev scM0_0 : Memref sig .tc .vmem S2x256 .f32 := Memref.whole cc0_scratch0
abbrev VS0_0 : View sig .tc .vmem S2x256 .f32 := scM0_0.view

/-- The launch's invariant with the accumulator as a memref owned at some contents. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA; rw [scopedRest0_split]; simp only [scM0_0, owns_whole]; try rfl

/-! ## What each case leaves, as the runs' pieces read back -/

/-- Case A: the one store into the product block covers it. -/
theorem cover0_A_3 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : cond0_0 i) (hc1 : ¬cond0_1 i)
    (x0 : Vec F S5000x64 .f32) (x1 : Vec F S64x256 .f32) (x2 : Vec F S256 .f32) (y : S5000x256.Idx) :
    ∃ pc ∈ (kernelRun0_A c i arg2 harg2 arg3 harg3 arg4 harg4 arg5 harg5 arg6 harg6 arg7 harg7 hc0 hc1 x0 x1 x2).1, y ∈ pc.1.set :=
  View.cover_of_tiledL (kernelRun0_A c i arg2 harg2 arg3 harg3 arg4 harg4 arg5 harg5 arg6 harg6 arg7 harg7 hc0 hc1 x0 x1 x2).1 S5000x256.size (by sl_kernel_rfl) y

/-- What case A leaves in the product block's staging buffer: its pieces read back. -/
def out0_A_3 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : cond0_0 i) (hc1 : ¬cond0_1 i)
    (x0 : Vec F S5000x64 .f32) (x1 : Vec F S64x256 .f32) (x2 : Vec F S256 .f32) : Vec F S5000x256 .bf16 :=
  VO0_3.read (Elt F) (VO0_3.writes (Elt F) VO0_3.junk (kernelRun0_A c i arg2 harg2 arg3 harg3 arg4 harg4 arg5 harg5 arg6 harg6 arg7 harg7 hc0 hc1 x0 x1 x2).1)

/-- What case A leaves in the statistics block's staging buffer — nothing is stored there: the window is idle at the
    case's points and not written back, so this value is consulted by nothing. -/
def out0_A_4 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : cond0_0 i) (hc1 : ¬cond0_1 i)
    (x0 : Vec F S5000x64 .f32) (x1 : Vec F S64x256 .f32) (x2 : Vec F S256 .f32) : Vec F S1x2x256 .f32 :=
  VO0_4.read (Elt F) (VO0_4.writes (Elt F) VO0_4.junk (kernelRun0_A c i arg2 harg2 arg3 harg3 arg4 harg4 arg5 harg5 arg6 harg6 arg7 harg7 hc0 hc1 x0 x1 x2).2.1)

/-- Case A: the accumulator's three stores (the reset, then rows 0 and 1) cover it. -/
theorem scover0_A_0 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : cond0_0 i) (hc1 : ¬cond0_1 i)
    (x0 : Vec F S5000x64 .f32) (x1 : Vec F S64x256 .f32) (x2 : Vec F S256 .f32) (y : S2x256.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S1x256.size (by sl_kernel_rfl) y

/-- What case A leaves in the accumulator: its pieces read back. -/
def sout0_A_0 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : cond0_0 i) (hc1 : ¬cond0_1 i)
    (x0 : Vec F S5000x64 .f32) (x1 : Vec F S64x256 .f32) (x2 : Vec F S256 .f32) : Vec F S2x256 .f32 :=
  VS0_0.read (Elt F) (VS0_0.writes (Elt F) VS0_0.junk (kernelRun0_A c i arg2 harg2 arg3 harg3 arg4 harg4 arg5 harg5 arg6 harg6 arg7 harg7 hc0 hc1 x0 x1 x2).2.2.1)

/-- Case B: the one store into the product block covers it. -/
theorem cover0_B_3 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : ¬cond0_1 i)
    (x0 : Vec F S5000x64 .f32) (x1 : Vec F S64x256 .f32) (x2 : Vec F S256 .f32) (xs0 : Vec F S2x256 .f32) (y : S5000x256.Idx) :
    ∃ pc ∈ (kernelRun0_B c i arg2 harg2 arg3 harg3 arg4 harg4 arg5 harg5 arg6 harg6 arg7 harg7 hc0 hc1 x0 x1 x2 xs0).1, y ∈ pc.1.set :=
  View.cover_of_tiledL (kernelRun0_B c i arg2 harg2 arg3 harg3 arg4 harg4 arg5 harg5 arg6 harg6 arg7 harg7 hc0 hc1 x0 x1 x2 xs0).1 S5000x256.size (by sl_kernel_rfl) y

/-- What case B leaves in the product block's staging buffer: its pieces read back. -/
def out0_B_3 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : ¬cond0_1 i)
    (x0 : Vec F S5000x64 .f32) (x1 : Vec F S64x256 .f32) (x2 : Vec F S256 .f32) (xs0 : Vec F S2x256 .f32) : Vec F S5000x256 .bf16 :=
  VO0_3.read (Elt F) (VO0_3.writes (Elt F) VO0_3.junk (kernelRun0_B c i arg2 harg2 arg3 harg3 arg4 harg4 arg5 harg5 arg6 harg6 arg7 harg7 hc0 hc1 x0 x1 x2 xs0).1)

/-- What case B leaves in the statistics block's staging buffer — nothing is stored there: the window is idle at the
    case's points and not written back, so this value is consulted by nothing. -/
def out0_B_4 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : ¬cond0_1 i)
    (x0 : Vec F S5000x64 .f32) (x1 : Vec F S64x256 .f32) (x2 : Vec F S256 .f32) (xs0 : Vec F S2x256 .f32) : Vec F S1x2x256 .f32 :=
  VO0_4.read (Elt F) (VO0_4.writes (Elt F) VO0_4.junk (kernelRun0_B c i arg2 harg2 arg3 harg3 arg4 harg4 arg5 harg5 arg6 harg6 arg7 harg7 hc0 hc1 x0 x1 x2 xs0).2.1)

/-- Case B: the accumulator's two stores (rows 0 and 1) cover it. -/
theorem scover0_B_0 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : ¬cond0_1 i)
    (x0 : Vec F S5000x64 .f32) (x1 : Vec F S64x256 .f32) (x2 : Vec F S256 .f32) (xs0 : Vec F S2x256 .f32) (y : S2x256.Idx) :
    ∃ pc ∈ (kernelRun0_B c i arg2 harg2 arg3 harg3 arg4 harg4 arg5 harg5 arg6 harg6 arg7 harg7 hc0 hc1 x0 x1 x2 xs0).2.2.1, y ∈ pc.1.set :=
  View.cover_of_tiledL (kernelRun0_B c i arg2 harg2 arg3 harg3 arg4 harg4 arg5 harg5 arg6 harg6 arg7 harg7 hc0 hc1 x0 x1 x2 xs0).2.2.1 S1x256.size (by sl_kernel_rfl) y

/-- What case B leaves in the accumulator: its pieces read back. -/
def sout0_B_0 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : ¬cond0_1 i)
    (x0 : Vec F S5000x64 .f32) (x1 : Vec F S64x256 .f32) (x2 : Vec F S256 .f32) (xs0 : Vec F S2x256 .f32) : Vec F S2x256 .f32 :=
  VS0_0.read (Elt F) (VS0_0.writes (Elt F) VS0_0.junk (kernelRun0_B c i arg2 harg2 arg3 harg3 arg4 harg4 arg5 harg5 arg6 harg6 arg7 harg7 hc0 hc1 x0 x1 x2 xs0).2.2.1)

/-- Case C: the one store into the product block covers it. -/
theorem cover0_C_3 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : cond0_1 i)
    (x0 : Vec F S5000x64 .f32) (x1 : Vec F S64x256 .f32) (x2 : Vec F S256 .f32) (xs0 : Vec F S2x256 .f32) (y : S5000x256.Idx) :
    ∃ pc ∈ (kernelRun0_C c i arg2 harg2 arg3 harg3 arg4 harg4 arg5 harg5 arg6 harg6 arg7 harg7 hc0 hc1 x0 x1 x2 xs0).1, y ∈ pc.1.set :=
  View.cover_of_tiledL (kernelRun0_C c i arg2 harg2 arg3 harg3 arg4 harg4 arg5 harg5 arg6 harg6 arg7 harg7 hc0 hc1 x0 x1 x2 xs0).1 S5000x256.size (by sl_kernel_rfl) y

/-- What case C leaves in the product block's staging buffer: its pieces read back. -/
def out0_C_3 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : cond0_1 i)
    (x0 : Vec F S5000x64 .f32) (x1 : Vec F S64x256 .f32) (x2 : Vec F S256 .f32) (xs0 : Vec F S2x256 .f32) : Vec F S5000x256 .bf16 :=
  VO0_3.read (Elt F) (VO0_3.writes (Elt F) VO0_3.junk (kernelRun0_C c i arg2 harg2 arg3 harg3 arg4 harg4 arg5 harg5 arg6 harg6 arg7 harg7 hc0 hc1 x0 x1 x2 xs0).1)

/-- Case C: the copy of the accumulator covers the statistics block. -/
theorem cover0_C_4 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : cond0_1 i)
    (x0 : Vec F S5000x64 .f32) (x1 : Vec F S64x256 .f32) (x2 : Vec F S256 .f32) (xs0 : Vec F S2x256 .f32) (y : S1x2x256.Idx) :
    ∃ pc ∈ (kernelRun0_C c i arg2 harg2 arg3 harg3 arg4 harg4 arg5 harg5 arg6 harg6 arg7 harg7 hc0 hc1 x0 x1 x2 xs0).2.1, y ∈ pc.1.set :=
  View.cover_of_tiledL (kernelRun0_C c i arg2 harg2 arg3 harg3 arg4 harg4 arg5 harg5 arg6 harg6 arg7 harg7 hc0 hc1 x0 x1 x2 xs0).2.1 S1x2x256.size (by sl_kernel_rfl) y

/-- What case C leaves in the statistics block's staging buffer: the copied accumulator. -/
def out0_C_4 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : cond0_1 i)
    (x0 : Vec F S5000x64 .f32) (x1 : Vec F S64x256 .f32) (x2 : Vec F S256 .f32) (xs0 : Vec F S2x256 .f32) : Vec F S1x2x256 .f32 :=
  VO0_4.read (Elt F) (VO0_4.writes (Elt F) VO0_4.junk (kernelRun0_C c i arg2 harg2 arg3 harg3 arg4 harg4 arg5 harg5 arg6 harg6 arg7 harg7 hc0 hc1 x0 x1 x2 xs0).2.1)

/-- Case C: the accumulator's two stores (rows 0 and 1) cover it. -/
theorem scover0_C_0 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : cond0_1 i)
    (x0 : Vec F S5000x64 .f32) (x1 : Vec F S64x256 .f32) (x2 : Vec F S256 .f32) (xs0 : Vec F S2x256 .f32) (y : S2x256.Idx) :
    ∃ pc ∈ (kernelRun0_C c i arg2 harg2 arg3 harg3 arg4 harg4 arg5 harg5 arg6 harg6 arg7 harg7 hc0 hc1 x0 x1 x2 xs0).2.2.1, y ∈ pc.1.set :=
  View.cover_of_tiledL (kernelRun0_C c i arg2 harg2 arg3 harg3 arg4 harg4 arg5 harg5 arg6 harg6 arg7 harg7 hc0 hc1 x0 x1 x2 xs0).2.2.1 S1x256.size (by sl_kernel_rfl) y

/-- What case C leaves in the accumulator: its pieces read back. -/
def sout0_C_0 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : cond0_1 i)
    (x0 : Vec F S5000x64 .f32) (x1 : Vec F S64x256 .f32) (x2 : Vec F S256 .f32) (xs0 : Vec F S2x256 .f32) : Vec F S2x256 .f32 :=
  VS0_0.read (Elt F) (VS0_0.writes (Elt F) VS0_0.junk (kernelRun0_C c i arg2 harg2 arg3 harg3 arg4 harg4 arg5 harg5 arg6 harg6 arg7 harg7 hc0 hc1 x0 x1 x2 xs0).2.2.1)

section Region
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the outputs and the accumulator hold after each point -/

/-- THE ACCUMULATION. After the body at position `n`: (the product block's staging buffer, the statistics block's
    staging buffer, the accumulator) — the case the closed forms select at `n`, run at the point's memrefs and input
    blocks, the accumulator entering cases B and C at what position `n - 1` left in it. -/
def outsAt0 (c : Dev nD) : (n : ℕ) → n < cfg0.N → Vec F S5000x256 .bf16 × Vec F S1x2x256 .f32 × Vec F S2x256 .f32
  | 0, hn =>
      (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
         out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
         sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 10 = 0 then
      if h1 : (n + 1) % 10 = 9 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
         out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 10 = 9 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2,
         out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2,
         out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2)

/-- `outsAt0` at a point of case A. -/
theorem outsAt0_A (c : Dev nD) (t : Fin cfg0.N) (h0 : t.val % 10 = 0) (h1 : ¬t.val % 10 = 9) :
    outsAt0 V c t.val t.isLt =
      (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t),
         out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t),
         sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a point of case B: over the accumulator the point before left. -/
theorem outsAt0_B (c : Dev nD) (t : Fin cfg0.N) (h0 : ¬t.val % 10 = 0) (h1 : ¬t.val % 10 = 9) :
    outsAt0 V c t.val t.isLt =
      (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2,
         out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2,
         sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: over the accumulator the point before left. -/
theorem outsAt0_C (c : Dev nD) (t : Fin cfg0.N) (h0 : ¬t.val % 10 = 0) (h1 : t.val % 10 = 9) :
    outsAt0 V c t.val t.isLt =
      (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2,
         out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2,
         sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over; afterwards the
    accumulator at what the point before left in it, the rest of the scoped buffers and the generator register at
    some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ Rest0 c) ∗ (∃ r, prngReg c r)) := by
  cases n with
  | zero => exact absurd rfl hz
  | succ n => rfl

/-! ## The pipeline's proof data -/

/-- The proof data of this pipeline on core `c`: the arrays as the region finds them (`V`); after the body at point
    `t` each input's buffer at its block and the outputs' at `outsAt0`'s components; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' memrefs hold their blocks; the closed forms say which case the point is in; the
    invariant hands the body the accumulator at what the point before left (at anything before the first point) and
    takes it back at this point's contents; the statistics window, idle in cases A and B, is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 20 := lt_of_lt_of_eq t.isLt (show cfg0.N = 20 from N_0)
  by_cases h0 : t.val % 10 = 0
  · by_cases h1 : t.val % 10 = 9
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold out0_A_3 sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
        isplitl [H0]; · iexact H0
        isplitl [H1]; · iexact H1
        isplitl [H2]; · iexact H2
        isplitl [H3]; · iexists _; iexact H3
        isplitl [H4]; · iexact H4
        isplitl [HS0]; · iexact HS0
        iintro ⟨H0, H1, H2, ⟨%e3, H3⟩, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _)
        iexists _; iexact H4
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
        isplitl [H0]; · iexact H0
        isplitl [H1]; · iexact H1
        isplitl [H2]; · iexact H2
        isplitl [H3]; · iexists _; iexact H3
        isplitl [H4]; · iexact H4
        isplitl [HS0]; · iexists _; iexact HS0
        iintro ⟨H0, H1, H2, ⟨%e3, H3⟩, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _)
        iexists _; iexact H4

  · by_cases h1 : t.val % 10 = 9
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold out0_C_3 out0_C_4 sout0_C_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _).2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        iintro ⟨H0, H1, H2, ⟨%e3, H3⟩, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _)

    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold out0_B_3 sout0_B_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _).2.2.2 _ Set.univ _)
        isplitl [H0]; · iexact H0
        isplitl [H1]; · iexact H1
        isplitl [H2]; · iexact H2
        isplitl [H3]; · iexists _; iexact H3
        isplitl [H4]; · iexact H4
        isplitl [HS0]; · iexact HS0
        iintro ⟨H0, H1, H2, ⟨%e3, H3⟩, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_B_3 c _ _ _ _ _ _ _ _ _ _ _ _ _ _ _ _ _ _ _)
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives it back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 20 := N_0; omega)

end Region

end Cert.KernelIdeal.Hand

end
-- ==== Proof.KI.R1Run.lean ====
import proofs.«169417_j2877628089024_2_alg».proof.Proof.Gen.KernelIdeal.Launch
import proofs.«169417_j2877628089024_2_alg».proof.Proof.Gen.KernelIdeal.Skeleton
import proofs.«169417_j2877628089024_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# The second pallas_call, one grid point at a time

The call walks a grid of 2 × 10 points in order.  At each point its body reads a 5000 × 256 block of
activations and four small parameter arrays, writes a 5000 × 256 block of results, and adds that
block's column sums and column sums of squares into a 2 × 256 accumulator that lives in a buffer of
its own between points.  The ten points of a group fall into three kinds:

* kind A, the first point of a group: the accumulator is cleared before anything is added;
* kind B, the eight points in the middle: the accumulator is only added to;
* kind C, the last point of a group: after adding, the accumulator is copied into the 1 × 2 × 256
  block of the statistics output, which is written back to its array at these points only.

This file decides, over the twenty points, which point is of which kind, and runs the body once per
kind on arbitrary whole buffers: the run records, per output buffer and for the accumulator, the
list of rectangles the body stored into and what it stored there.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which point is of which kind -/

/-- The body clears the accumulator when the inner grid coordinate is 0. -/
abbrev cond1_0 (i : grid1.Coords) : Prop :=
  (Scalar.cmpi .ne (Scalar.extui (Scalar.cmpi .eq (BitVec.ofNat 32 (i 1).val) 0#32)) 0#32) = 1#1

/-- Over the twenty points: exactly at the points that are 0 modulo 10. -/
theorem hcond1_0 : ∀ t : Fin cfg1.N, cond1_0 (grid1.coords t) ↔ t.val % 10 = 0 :=
  (by decide +kernel : ∀ t : Fin grid1.N, cond1_0 (grid1.coords t) ↔ t.val % 10 = 0)

/-- The body copies the accumulator out when the inner grid coordinate is 9. -/
abbrev cond1_1 (i : grid1.Coords) : Prop := k1_cond2 i = 1#1

/-- Over the twenty points: exactly at the points that are 9 modulo 10. -/
theorem hcond1_1 : ∀ t : Fin cfg1.N, cond1_1 (grid1.coords t) ↔ t.val % 10 = 9 :=
  (by decide +kernel : ∀ t : Fin grid1.N, cond1_1 (grid1.coords t) ↔ t.val % 10 = 9)

/-! ## Where a window is left alone -/

/-- The five inputs and the block output are used at every point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Away from the last point of a group nothing is stored into the statistics block, -/
theorem idleAt1_6 : ∀ t : Fin cfg1.N, ¬cond1_1 (grid1.coords t) → cfg1.idle 6 (grid1.coords t) = true := by decide +kernel
/-- and the block is not written back there; -/
theorem noFlush1_6 : ∀ t : Fin cfg1.N, ¬cond1_1 (grid1.coords t) → (cfg1.win 6).flush t = false := by decide +kernel
/-- at the last point of a group it is stored into. -/
theorem liveAt1_6 : ∀ t : Fin cfg1.N, cond1_1 (grid1.coords t) → cfg1.idle 6 (grid1.coords t) = false := by decide +kernel

/-! ## The buffers the body is handed at a point -/

/-- The buffer each window is staged in at point `t`, and that it is a whole buffer. -/
abbrev ms1_0 (t : Fin cfg1.N) : Memref sig .tc .vmem S5000x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S5000x256 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x2x256 .f32 := win1_6.stage (cfg1.slots t 6)
abbrev hs1_6 (t : Fin cfg1.N) : (ms1_6 t).IsWhole := hstage1_6 ((cfg1.slots t 6).cast nbuf1_6)

/-- One staging buffer of each output, through which its contents are stated (which one does not matter: a
    covered buffer reads back the same whatever was there). -/
abbrev VO1_5 : View sig .tc .vmem S5000x256 .bf16 := (Memref.whole cc1_stg5_0 : Memref sig .tc .vmem S5000x256 .bf16).view
abbrev VO1_6 : View sig .tc .vmem S1x2x256 .f32 := (Memref.whole cc1_stg6_0 : Memref sig .tc .vmem S1x2x256 .f32).view
/-- The accumulator: a whole buffer of the call's own, handed to the body beside the windows. -/
abbrev scM1_0 : Memref sig .tc .vmem S2x256 .f32 := Memref.whole cc1_scratch0
abbrev VS1_0 : View sig .tc .vmem S2x256 .f32 := scM1_0.view

/-- What the call is handed besides its windows: every other buffer of the core's fast memory whole at some
    contents — the accumulator among them, written here as a buffer the body may use — and the random-number
    register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f)) ∗ (∃ r, prngReg c r)) := by
  unfold Pipeline.ΦA; rw [scopedRest1_eq]; simp only [scM1_0, owns_whole]; try rfl

set_option maxHeartbeats 4000000 in
/-- KIND A (the accumulator is cleared, nothing is copied out).  On whole buffers — the five inputs at contents
    `x0 … x4`, the block output and the accumulator at anything, the statistics block at `xi6` — the body runs
    and hands back: the inputs as they were, the block output with the rectangles `L5` written, the statistics
    block untouched, the accumulator with the rectangles `LS0` written.  The lists are found by running the body. -/
noncomputable def kernelRun1_A (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : cond1_0 i) (hc1 : ¬cond1_1 i)
    (x0 : Vec F S5000x256 .bf16) (x1 : Vec F S256 .f32) (x2 : Vec F S256 .f32) (x3 : Vec F S256x256 .f32) (x4 : Vec F S256 .f32) :
    Σ' (L5 : List (View.Piece (Elt F) S5000x256 .bf16)) (L6 : List (View.Piece (Elt F) S1x2x256 .f32)), { LS0 : List (View.Piece (Elt F) S2x256 .f32) //
      ∀ (xi6 : Vec F S1x2x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__linear_bn_kernel i arg2 harg2 arg3 harg3 arg4 harg4 arg5 harg5 arg6 harg6 arg7 harg7 arg8 harg8 arg9 harg9) K } := by
  refine ⟨?_, [], ?_, fun xi6 E K => ?run⟩
  case run =>
    simp only [cc1__linear_bn_kernel_eq_skeleton]; unfold cc1__linear_bn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact HS0

set_option maxHeartbeats 4000000 in
/-- KIND B (no clearing, nothing copied out): as kind A, but the accumulator comes in at the contents `xs0`
    the point before left, and what is added is added to that. -/
noncomputable def kernelRun1_B (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : ¬cond1_1 i)
    (x0 : Vec F S5000x256 .bf16) (x1 : Vec F S256 .f32) (x2 : Vec F S256 .f32) (x3 : Vec F S256x256 .f32) (x4 : Vec F S256 .f32) (xs0 : Vec F S2x256 .f32) :
    Σ' (L5 : List (View.Piece (Elt F) S5000x256 .bf16)) (L6 : List (View.Piece (Elt F) S1x2x256 .f32)), { LS0 : List (View.Piece (Elt F) S2x256 .f32) //
      ∀ (xi6 : Vec F S1x2x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__linear_bn_kernel i arg2 harg2 arg3 harg3 arg4 harg4 arg5 harg5 arg6 harg6 arg7 harg7 arg8 harg8 arg9 harg9) K } := by
  refine ⟨?_, [], ?_, fun xi6 E K => ?run⟩
  case run =>
    simp only [cc1__linear_bn_kernel_eq_skeleton]; unfold cc1__linear_bn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact HS0

set_option maxHeartbeats 4000000 in
/-- KIND C (no clearing; the accumulator is copied out): as kind B, and the statistics block, taken at anything,
    comes back with the rectangles `L6` written. -/
noncomputable def kernelRun1_C (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : cond1_1 i)
    (x0 : Vec F S5000x256 .bf16) (x1 : Vec F S256 .f32) (x2 : Vec F S256 .f32) (x3 : Vec F S256x256 .f32) (x4 : Vec F S256 .f32) (xs0 : Vec F S2x256 .f32) :
    Σ' (L5 : List (View.Piece (Elt F) S5000x256 .bf16)) (L6 : List (View.Piece (Elt F) S1x2x256 .f32)), { LS0 : List (View.Piece (Elt F) S2x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__linear_bn_kernel i arg2 harg2 arg3 harg3 arg4 harg4 arg5 harg5 arg6 harg6 arg7 harg7 arg8 harg8 arg9 harg9) K } := by
  refine ⟨?_, ?_, ?_, fun E K => ?run⟩
  case run =>
    simp only [cc1__linear_bn_kernel_eq_skeleton]; unfold cc1__linear_bn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.KernelIdeal.Hand

end
-- ==== Proof.KI.R1.lean ====
import proofs.«169417_j2877628089024_2_alg».proof.Proof.KI.R1Run

/-!
# The second pallas_call over its whole grid

Stated at a parameter `V`: what the core's arrays hold when the call is entered.

From the three runs of the body (one per kind of point) this file reads off what each output buffer and the
accumulator hold after the body, follows the accumulator from point to point by recursion on the point
(`outsAt1`), packs this as the proof data of the call's pipeline (`dat1`) and shows that the body, run at any
point on what the pipeline hands it, leaves what the proof data say (`body_obligation1`).

The accumulator's life: before the first point it holds anything; after point `n` it holds the third component
of `outsAt1 n`.  Within a group of ten points, that is zero plus the column sums (row 0) and column sums of
squares (row 1) of the blocks of the group's points so far.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, cut out of its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input 0's buffer holds its block at every point, whether it was fetched there or at an earlier point with the
    same block index — for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input 1's buffer holds its block at every point, whether it was fetched there or at an earlier point with the
    same block index — for any proof data over `V` whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input 2's buffer holds its block at every point, whether it was fetched there or at an earlier point with the
    same block index — for any proof data over `V` whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input 3's buffer holds its block at every point, whether it was fetched there or at an earlier point with the
    same block index — for any proof data over `V` whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input 4's buffer holds its block at every point, whether it was fetched there or at an earlier point with the
    same block index — for any proof data over `V` whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What one run of the body leaves, per kind of point -/

/-! ### Kind A: the first point of a group -/

/-- The rectangles stored into the block output at the first point of a group tile the 5000 × 256 block (one store of the whole block). -/
theorem cover1_A_5 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : cond1_0 i) (hc1 : ¬cond1_1 i)
    (x0 : Vec F S5000x256 .bf16) (x1 : Vec F S256 .f32) (x2 : Vec F S256 .f32) (x3 : Vec F S256x256 .f32) (x4 : Vec F S256 .f32) (y : S5000x256.Idx) :
    ∃ pc ∈ (kernelRun1_A c i arg2 harg2 arg3 harg3 arg4 harg4 arg5 harg5 arg6 harg6 arg7 harg7 arg8 harg8 arg9 harg9 hc0 hc1 x0 x1 x2 x3 x4).1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4).1 S5000x256.size (by sl_kernel_rfl) y

/-- What the block output's buffer holds after the body at the first point of a group: the stored rectangles read back (the
    buffer is covered, so what was there before does not matter).  The one rectangle is the whole block, and
    what is stored is `k1_pay5` of the five input blocks: relu(x·scale + shift) times the weights plus the bias. -/
def out1_A_5 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : cond1_0 i) (hc1 : ¬cond1_1 i)
    (x0 : Vec F S5000x256 .bf16) (x1 : Vec F S256 .f32) (x2 : Vec F S256 .f32) (x3 : Vec F S256x256 .f32) (x4 : Vec F S256 .f32) : Vec F S5000x256 .bf16 :=
  VO1_5.read (Elt F) (VO1_5.writes (Elt F) VO1_5.junk (kernelRun1_A c i arg2 harg2 arg3 harg3 arg4 harg4 arg5 harg5 arg6 harg6 arg7 harg7 arg8 harg8 arg9 harg9 hc0 hc1 x0 x1 x2 x3 x4).1)

/-- Nothing is stored into the statistics block at the first point of a group; this term (no rectangles read back) stands in
    the tuple below and is never looked at: the block is neither written back here nor read at the next point. -/
def out1_A_6 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : cond1_0 i) (hc1 : ¬cond1_1 i)
    (x0 : Vec F S5000x256 .bf16) (x1 : Vec F S256 .f32) (x2 : Vec F S256 .f32) (x3 : Vec F S256x256 .f32) (x4 : Vec F S256 .f32) : Vec F S1x2x256 .f32 :=
  VO1_6.read (Elt F) (VO1_6.writes (Elt F) VO1_6.junk (kernelRun1_A c i arg2 harg2 arg3 harg3 arg4 harg4 arg5 harg5 arg6 harg6 arg7 harg7 arg8 harg8 arg9 harg9 hc0 hc1 x0 x1 x2 x3 x4).2.1)

/-- The rectangles stored into the accumulator at the first point of a group cover it: its two rows are each stored once (after the clearing store of the whole). -/
theorem scover1_A_0 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : cond1_0 i) (hc1 : ¬cond1_1 i)
    (x0 : Vec F S5000x256 .bf16) (x1 : Vec F S256 .f32) (x2 : Vec F S256 .f32) (x3 : Vec F S256x256 .f32) (x4 : Vec F S256 .f32) (y : S2x256.Idx) :
    ∃ pc ∈ (kernelRun1_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4).2.2.1 S1x256.size (by sl_kernel_rfl) y

/-- What the accumulator holds after the body at the first point of a group: row 0 is `k1_pay6` (zero plus the
    block's column sums), row 1 is `k1_pay1` (zero plus the column sums of the squares). -/
def sout1_A_0 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : cond1_0 i) (hc1 : ¬cond1_1 i)
    (x0 : Vec F S5000x256 .bf16) (x1 : Vec F S256 .f32) (x2 : Vec F S256 .f32) (x3 : Vec F S256x256 .f32) (x4 : Vec F S256 .f32) : Vec F S2x256 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4).2.2.1)

/-! ### Kind B: a middle point of a group -/

/-- The rectangles stored into the block output at a middle point of a group tile the 5000 × 256 block (one store of the whole block). -/
theorem cover1_B_5 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : ¬cond1_1 i)
    (x0 : Vec F S5000x256 .bf16) (x1 : Vec F S256 .f32) (x2 : Vec F S256 .f32) (x3 : Vec F S256x256 .f32) (x4 : Vec F S256 .f32) (xs0 : Vec F S2x256 .f32) (y : S5000x256.Idx) :
    ∃ pc ∈ (kernelRun1_B c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 xs0).1 S5000x256.size (by sl_kernel_rfl) y

/-- What the block output's buffer holds after the body at a middle point of a group: the stored rectangles read back (the
    buffer is covered, so what was there before does not matter).  The one rectangle is the whole block, and
    what is stored is `k1_pay5` of the five input blocks: relu(x·scale + shift) times the weights plus the bias. -/
def out1_B_5 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : ¬cond1_1 i)
    (x0 : Vec F S5000x256 .bf16) (x1 : Vec F S256 .f32) (x2 : Vec F S256 .f32) (x3 : Vec F S256x256 .f32) (x4 : Vec F S256 .f32) (xs0 : Vec F S2x256 .f32) : Vec F S5000x256 .bf16 :=
  VO1_5.read (Elt F) (VO1_5.writes (Elt F) VO1_5.junk (kernelRun1_B c i arg2 harg2 arg3 harg3 arg4 harg4 arg5 harg5 arg6 harg6 arg7 harg7 arg8 harg8 arg9 harg9 hc0 hc1 x0 x1 x2 x3 x4 xs0).1)

/-- Nothing is stored into the statistics block at a middle point of a group; this term (no rectangles read back) stands in
    the tuple below and is never looked at: the block is neither written back here nor read at the next point. -/
def out1_B_6 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : ¬cond1_1 i)
    (x0 : Vec F S5000x256 .bf16) (x1 : Vec F S256 .f32) (x2 : Vec F S256 .f32) (x3 : Vec F S256x256 .f32) (x4 : Vec F S256 .f32) (xs0 : Vec F S2x256 .f32) : Vec F S1x2x256 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 xs0).2.1)

/-- The rectangles stored into the accumulator at a middle point of a group cover it: its two rows are each stored once. -/
theorem scover1_B_0 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : ¬cond1_1 i)
    (x0 : Vec F S5000x256 .bf16) (x1 : Vec F S256 .f32) (x2 : Vec F S256 .f32) (x3 : Vec F S256x256 .f32) (x4 : Vec F S256 .f32) (xs0 : Vec F S2x256 .f32) (y : S2x256.Idx) :
    ∃ pc ∈ (kernelRun1_B c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 xs0).2.2.1 S1x256.size (by sl_kernel_rfl) y

/-- What the accumulator holds after the body at a middle point of a group: row 0 is `k1_pay6` (row 0 of `xs0` plus the
    block's column sums), row 1 is `k1_pay1` (row 1 of `xs0` plus the column sums of the squares). -/
def sout1_B_0 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : ¬cond1_1 i)
    (x0 : Vec F S5000x256 .bf16) (x1 : Vec F S256 .f32) (x2 : Vec F S256 .f32) (x3 : Vec F S256x256 .f32) (x4 : Vec F S256 .f32) (xs0 : Vec F S2x256 .f32) : Vec F S2x256 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 xs0).2.2.1)

/-! ### Kind C: the last point of a group -/

/-- The rectangles stored into the block output at the last point of a group tile the 5000 × 256 block (one store of the whole block). -/
theorem cover1_C_5 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : cond1_1 i)
    (x0 : Vec F S5000x256 .bf16) (x1 : Vec F S256 .f32) (x2 : Vec F S256 .f32) (x3 : Vec F S256x256 .f32) (x4 : Vec F S256 .f32) (xs0 : Vec F S2x256 .f32) (y : S5000x256.Idx) :
    ∃ pc ∈ (kernelRun1_C c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 xs0).1 S5000x256.size (by sl_kernel_rfl) y

/-- What the block output's buffer holds after the body at the last point of a group: the stored rectangles read back (the
    buffer is covered, so what was there before does not matter).  The one rectangle is the whole block, and
    what is stored is `k1_pay5` of the five input blocks: relu(x·scale + shift) times the weights plus the bias. -/
def out1_C_5 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : cond1_1 i)
    (x0 : Vec F S5000x256 .bf16) (x1 : Vec F S256 .f32) (x2 : Vec F S256 .f32) (x3 : Vec F S256x256 .f32) (x4 : Vec F S256 .f32) (xs0 : Vec F S2x256 .f32) : Vec F S5000x256 .bf16 :=
  VO1_5.read (Elt F) (VO1_5.writes (Elt F) VO1_5.junk (kernelRun1_C c i arg2 harg2 arg3 harg3 arg4 harg4 arg5 harg5 arg6 harg6 arg7 harg7 arg8 harg8 arg9 harg9 hc0 hc1 x0 x1 x2 x3 x4 xs0).1)

/-- The rectangles stored into the statistics block at the last point of a group tile it (one store of the whole 1 × 2 × 256 block). -/
theorem cover1_C_6 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : cond1_1 i)
    (x0 : Vec F S5000x256 .bf16) (x1 : Vec F S256 .f32) (x2 : Vec F S256 .f32) (x3 : Vec F S256x256 .f32) (x4 : Vec F S256 .f32) (xs0 : Vec F S2x256 .f32) (y : S1x2x256.Idx) :
    ∃ pc ∈ (kernelRun1_C c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 xs0).2.1 S1x2x256.size (by sl_kernel_rfl) y

/-- What the statistics block holds after the body at the last point of a group: `k1_pay2` of the accumulator as
    this point leaves it — the accumulator's two rows, the sums and the sums of squares over the group. -/
def out1_C_6 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : cond1_1 i)
    (x0 : Vec F S5000x256 .bf16) (x1 : Vec F S256 .f32) (x2 : Vec F S256 .f32) (x3 : Vec F S256x256 .f32) (x4 : Vec F S256 .f32) (xs0 : Vec F S2x256 .f32) : Vec F S1x2x256 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 xs0).2.1)

/-- The rectangles stored into the accumulator at the last point of a group cover it: its two rows are each stored once. -/
theorem scover1_C_0 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : cond1_1 i)
    (x0 : Vec F S5000x256 .bf16) (x1 : Vec F S256 .f32) (x2 : Vec F S256 .f32) (x3 : Vec F S256x256 .f32) (x4 : Vec F S256 .f32) (xs0 : Vec F S2x256 .f32) (y : S2x256.Idx) :
    ∃ pc ∈ (kernelRun1_C c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 xs0).2.2.1 S1x256.size (by sl_kernel_rfl) y

/-- What the accumulator holds after the body at the last point of a group: row 0 is `k1_pay6` (row 0 of `xs0` plus the
    block's column sums), row 1 is `k1_pay1` (row 1 of `xs0` plus the column sums of the squares). -/
def sout1_C_0 (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : cond1_1 i)
    (x0 : Vec F S5000x256 .bf16) (x1 : Vec F S256 .f32) (x2 : Vec F S256 .f32) (x3 : Vec F S256x256 .f32) (x4 : Vec F S256 .f32) (xs0 : Vec F S2x256 .f32) : Vec F S2x256 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 xs0).2.2.1)

/-! ## From point to point -/

/-- The three buffers (block output, statistics block, accumulator) after the body at a point `t` of kind A: the
    run of that kind at the point's buffers and input blocks.  Nothing of the points before enters: the accumulator is cleared first. -/
def caseA1 (c : Dev nD) (t : Fin cfg1.N) (h0 : t.val % 10 = 0) (h1 : ¬t.val % 10 = 9) : Vec F S5000x256 .bf16 × Vec F S1x2x256 .f32 × Vec F S2x256 .f32 :=
  (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t),
   out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))

/-- The same at a point of kind B, from what the point before left in the accumulator (`xs0`). -/
def caseB1 (c : Dev nD) (t : Fin cfg1.N) (h0 : ¬t.val % 10 = 0) (h1 : ¬t.val % 10 = 9) (xs0 : Vec F S2x256 .f32) : Vec F S5000x256 .bf16 × Vec F S1x2x256 .f32 × Vec F S2x256 .f32 :=
  (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0,
   out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0)

/-- The same at a point of kind C. -/
def caseC1 (c : Dev nD) (t : Fin cfg1.N) (h0 : ¬t.val % 10 = 0) (h1 : t.val % 10 = 9) (xs0 : Vec F S2x256 .f32) : Vec F S5000x256 .bf16 × Vec F S1x2x256 .f32 × Vec F S2x256 .f32 :=
  (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0,
   out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0)

/-- THE ACCUMULATION.  What the block output's buffer, the statistics block's buffer and the accumulator hold after
    the body at position `n`: the kind is read off `n` modulo 10, and kinds B and C start from the accumulator as
    position `n - 1` left it (nothing touches it between two points). -/
def outsAt1 (c : Dev nD) : (n : ℕ) → n < cfg1.N → Vec F S5000x256 .bf16 × Vec F S1x2x256 .f32 × Vec F S2x256 .f32
  | 0, hn => caseA1 V c ⟨0, hn⟩ (Nat.zero_mod _) (by decide : ¬ 0 % 10 = 9)
  | n + 1, hn =>
    if h0 : (n + 1) % 10 = 0 then
      if h1 : (n + 1) % 10 = 9 then False.elim (by omega)
      else caseA1 V c ⟨n + 1, hn⟩ h0 h1
    else
      if h1 : (n + 1) % 10 = 9 then caseC1 V c ⟨n + 1, hn⟩ h0 h1 (outsAt1 c n (Nat.lt_of_succ_lt hn)).2.2
      else caseB1 V c ⟨n + 1, hn⟩ h0 h1 (outsAt1 c n (Nat.lt_of_succ_lt hn)).2.2

/-- `outsAt1` at a point of kind A. -/
theorem outsAt1_A (c : Dev nD) (t : Fin cfg1.N) (h0 : t.val % 10 = 0) (h1 : ¬t.val % 10 = 9) :
    outsAt1 V c t.val t.isLt = caseA1 V c t h0 h1 := by
  obtain ⟨n, hn⟩ := t
  cases n with
  | zero => exact rfl
  | succ n => exact (dif_pos h0).trans ((dif_neg h1).trans rfl)

/-- `outsAt1` at a point of kind B: over the accumulator of the point before. -/
theorem outsAt1_B (c : Dev nD) (t : Fin cfg1.N) (h0 : ¬t.val % 10 = 0) (h1 : ¬t.val % 10 = 9) :
    outsAt1 V c t.val t.isLt = caseB1 V c t h0 h1 (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

/-- `outsAt1` at a point of kind C: over the accumulator of the point before. -/
theorem outsAt1_C (c : Dev nD) (t : Fin cfg1.N) (h0 : ¬t.val % 10 = 0) (h1 : t.val % 10 = 9) :
    outsAt1 V c t.val t.isLt = caseC1 V c t h0 h1 (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-! ## The invariant between points -/

/-- What the call holds besides its windows before position `n`: before the first point what it was handed (the
    accumulator at anything); later the same with the accumulator at what the point before left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f)) ∗ (∃ r, prngReg c r))

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f)) ∗ (∃ r, prngReg c r)) := by
  cases n with
  | zero => exact absurd rfl hz
  | succ n => rfl

/-! ## The proof data of the call's pipeline -/

/-- The arrays as the call finds them; after the body at point `t` each input's buffer still at its block, the
    block output's and the statistics block's at `outsAt1`'s first two components; the invariant `PhiS1`; nothing owed; whole shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
  Φ t := PhiS1 V c t.val (Nat.le_of_lt_succ t.isLt)
  q _ := fullShare
  owed _ := 0

/-- The proof data's arrays are the entry contents. -/
theorem A_eq1 (c : Dev nD) (w : Fin cfg1.W) : (dat1 V c).A w = V c (Pipeline.arrRef spec1 w) := by
  dsimp only [dat1]

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]

/-- Each input's buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body at a generic point -/

/-- What the body is called with at point `t`: the invariant, the core's debts, each window's buffer at what it holds there; -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point.  The inputs' buffers hold their blocks; the point's number modulo 10 says which kind it is,
    and the run of that kind applies: the invariant hands over the accumulator (at anything before the first point,
    at what the point before left afterwards) and takes it back at this point's contents; the block output's buffer
    comes back covered; the statistics block's comes back covered at the last point of a group and untouched elsewhere. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  by_cases h0 : t.val % 10 = 0
  · by_cases h1 : t.val % 10 = 9
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [outsAt1_A V c t h0 h1]
      unfold caseA1 out1_A_5 sout1_A_0; (try dsimp only)
      by_cases hz : t.val = 0
      · rw [PhiS1_castSucc V c t, PhiS1_zero V c _ _ hz, PhiA1_eq]
        iintro ⟨⟨⟨HR0, HR1, HR2, HR3, HR4, HR5, HR6, HR7, HR8, HS0, HR10, HR11, HR12, HR13, HR14, HR15, HR16, HR17⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS0]; · iexact HS0
        iintro ⟨H0, H1, H2, H3, H4, ⟨%e5, H5⟩, H6, ⟨%es0, HS0⟩⟩
        isplitl [HR0 HR1 HR2 HR3 HR4 HR5 HR6 HR7 HR8 HS0 HR10 HR11 HR12 HR13 HR14 HR15 HR16 HR17 Hg]
        · isplitl [HR0 HR1 HR2 HR3 HR4 HR5 HR6 HR7 HR8 HS0 HR10 HR11 HR12 HR13 HR14 HR15 HR16 HR17]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _)
            isplitl [HR10]; · iexact HR10
            isplitl [HR11]; · iexact HR11
            isplitl [HR12]; · iexact HR12
            isplitl [HR13]; · iexact HR13
            isplitl [HR14]; · iexact HR14
            isplitl [HR15]; · iexact HR15
            isplitl [HR16]; · iexact HR16
            iexact HR17
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover1_A_5 c _ _ _ _ _ _ _ _ _ _ _ _ _ _ _ _ _ _ _ _ _ _ _ _)
        iexists _; iexact H6
      · rw [PhiS1_castSucc V c t, PhiS1_pos V c _ _ hz]
        iintro ⟨⟨⟨HR0, HR1, HR2, HR3, HR4, HR5, HR6, HR7, HR8, HS0, HR10, HR11, HR12, HR13, HR14, HR15, HR16, HR17⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS0]; · iexists _; iexact HS0
        iintro ⟨H0, H1, H2, H3, H4, ⟨%e5, H5⟩, H6, ⟨%es0, HS0⟩⟩
        isplitl [HR0 HR1 HR2 HR3 HR4 HR5 HR6 HR7 HR8 HS0 HR10 HR11 HR12 HR13 HR14 HR15 HR16 HR17 Hg]
        · isplitl [HR0 HR1 HR2 HR3 HR4 HR5 HR6 HR7 HR8 HS0 HR10 HR11 HR12 HR13 HR14 HR15 HR16 HR17]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _)
            isplitl [HR10]; · iexact HR10
            isplitl [HR11]; · iexact HR11
            isplitl [HR12]; · iexact HR12
            isplitl [HR13]; · iexact HR13
            isplitl [HR14]; · iexact HR14
            isplitl [HR15]; · iexact HR15
            isplitl [HR16]; · iexact HR16
            iexact HR17
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover1_A_5 c _ _ _ _ _ _ _ _ _ _ _ _ _ _ _ _ _ _ _ _ _ _ _ _)
        iexists _; iexact H6
  · by_cases h1 : t.val % 10 = 9
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold caseC1 out1_C_5 out1_C_6 sout1_C_0; (try dsimp only)
      by_cases hz : t.val = 0
      · exfalso; omega
      · rw [PhiS1_castSucc V c t, PhiS1_pos V c _ _ hz]
        iintro ⟨⟨⟨HR0, HR1, HR2, HR3, HR4, HR5, HR6, HR7, HR8, HS0, HR10, HR11, HR12, HR13, HR14, HR15, HR16, HR17⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        iintro ⟨H0, H1, H2, H3, H4, ⟨%e5, H5⟩, ⟨%e6, H6⟩, ⟨%es0, HS0⟩⟩
        isplitl [HR0 HR1 HR2 HR3 HR4 HR5 HR6 HR7 HR8 HS0 HR10 HR11 HR12 HR13 HR14 HR15 HR16 HR17 Hg]
        · isplitl [HR0 HR1 HR2 HR3 HR4 HR5 HR6 HR7 HR8 HS0 HR10 HR11 HR12 HR13 HR14 HR15 HR16 HR17]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _)
            isplitl [HR10]; · iexact HR10
            isplitl [HR11]; · iexact HR11
            isplitl [HR12]; · iexact HR12
            isplitl [HR13]; · iexact HR13
            isplitl [HR14]; · iexact HR14
            isplitl [HR15]; · iexact HR15
            isplitl [HR16]; · iexact HR16
            iexact HR17
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover1_C_5 c _ _ _ _ _ _ _ _ _ _ _ _ _ _ _ _ _ _ _ _ _ _ _ _ _)
        unfold owns; iexists _; isplitr
        swap; · iexact H6
        ipureintro; exact View.read_writes_of_cover _ _ _ _ _ (cover1_C_6 c _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [outsAt1_B V c t h0 h1]
      unfold caseB1 out1_B_5 sout1_B_0; (try dsimp only)
      by_cases hz : t.val = 0
      · exfalso; omega
      · rw [PhiS1_castSucc V c t, PhiS1_pos V c _ _ hz]
        iintro ⟨⟨⟨HR0, HR1, HR2, HR3, HR4, HR5, HR6, HR7, HR8, HS0, HR10, HR11, HR12, HR13, HR14, HR15, HR16, HR17⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS0]; · iexact HS0
        iintro ⟨H0, H1, H2, H3, H4, ⟨%e5, H5⟩, H6, ⟨%es0, HS0⟩⟩
        isplitl [HR0 HR1 HR2 HR3 HR4 HR5 HR6 HR7 HR8 HS0 HR10 HR11 HR12 HR13 HR14 HR15 HR16 HR17 Hg]
        · isplitl [HR0 HR1 HR2 HR3 HR4 HR5 HR6 HR7 HR8 HS0 HR10 HR11 HR12 HR13 HR14 HR15 HR16 HR17]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _)
            isplitl [HR10]; · iexact HR10
            isplitl [HR11]; · iexact HR11
            isplitl [HR12]; · iexact HR12
            isplitl [HR13]; · iexact HR13
            isplitl [HR14]; · iexact HR14
            isplitl [HR15]; · iexact HR15
            isplitl [HR16]; · iexact HR16
            iexact HR17
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover1_B_5 c _ _ _ _ _ _ _ _ _ _ _ _ _ _ _ _ _ _ _ _ _ _ _ _ _)
        iexists _; iexact H6

/-- The body obligation of the call's pipeline, at every point. -/
theorem body_obligation1 (c : Dev nD) : BodyObligation (dat1 (F := F) V c) (defs₀ (F := F)) Variants.none () Set.univ := fun t => by
  rw [bigSep_W1, bigSep_W1]
  exact sound_body1 V c t

/-- What the call is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the call was handed: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HS0, HR10, HR11, HR12, HR13, HR14, HR15, HR16, HR17⟩, Hg⟩
  isplitl [HR0 HR1 HR2 HR3 HR4 HR5 HR6 HR7 HR8 HS0 HR10 HR11 HR12 HR13 HR14 HR15 HR16 HR17]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HS0]; · iexists _; iexact HS0
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    iexact HR17
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end Cert.KernelIdeal.Hand

end
-- ==== Proof.KI.R2Run.lean ====
/- Region 2 of the program: the body of `cc2__linear_bn_final_kernel` run once on whole staging buffers.
   The body reads its five inputs whole (the activations' block, the scale and shift rows, the padded weight, the
   padded bias), reads the output buffer once without using what it finds, and stores one whole block: the affine
   map, clamped below at zero, contracted against the weight and shifted by the bias.  What the store leaves in the
   output buffer is named (`out2_5`) so that the value leg can read it as a term over the input blocks. -/
import proofs.«169417_j2877628089024_2_alg».proof.Proof.Gen.KernelIdeal.Skeleton
import proofs.«169417_j2877628089024_2_alg».proof.Proof.Gen.KernelIdeal.Launch
import Idealize.ShloMosaic.Lib.Pipeline.FrameBody
import Idealize.ShloMosaic.Lib.Ring
import Idealize.ShloMosaic.Lib.Tactic

-- deciding that one whole-block rectangle tiles a 5000-row shape recurses once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every one is the whole of its buffer -/

/-- The whole activations block, 5000 rows of 256 lanes. -/
abbrev r2_x : Rect S5000x256 := Rect.unit (s := S5000x256) ![0, 0] S5000x256.size inb_S5000x256_S5000x256_0_0
/-- A whole 256-lane row (the scale, the shift). -/
abbrev r2_v : Rect S256 := Rect.unit (s := S256) ![0] S256.size inb_S256_S256_0
/-- The whole padded weight, 256 by 128. -/
abbrev r2_w : Rect S256x128 := Rect.unit (s := S256x128) ![0, 0] S256x128.size inb_S256x128_S256x128_0_0
/-- The whole padded bias, 128 lanes. -/
abbrev r2_b : Rect S128 := Rect.unit (s := S128) ![0] S128.size inb_S128_S128_0
/-- The whole output block, 5000 rows of 128 lanes. -/
abbrev r2_o : Rect S5000x128 := Rect.unit (s := S5000x128) ![0, 0] S5000x128.size inb_S5000x128_S5000x128_0_0

/-! ## What the body leaves in the output window's buffer -/

/-- Window 5's staging buffer after the body, as a term over the five input blocks: the single whole-block store,
    whose payload `Gen.k2_pay1` is, lane by lane, `max (x * scale + shift) 0` contracted over the 256 lanes against
    the weight, plus the bias.  Arguments in window order: activations, scale, shift, weight, bias. -/
def out2_5 (x0 : Vec F S5000x256 .bf16) (x1 : Vec F S256 .f32) (x2 : Vec F S256 .f32) (x3 : Vec F S256x128 .f32)
    (x4 : Vec F S128 .f32) : Vec F S5000x128 .f32 :=
  View.canon [⟨r2_o, k2_pay1 (View.ld x0 r2_x) (View.ld x1 r2_v) (View.ld x2 r2_v) (View.ld x3 r2_w) (View.ld x4 r2_b)⟩]

/-- One store of the whole block covers the block. -/
theorem cover2_5 (p0 : Vec F S5000x128 .f32) (y : S5000x128.Idx) :
    ∃ pc ∈ ([⟨r2_o, p0⟩] : List (View.Piece (Elt F) S5000x128 .f32)), y ∈ pc.1.set :=
  View.cover_of_tiled [⟨r2_o, p0⟩] S5000x128.size (by rfl) y

/-! ## The body's triple -/

set_option maxHeartbeats 1000000 in
/-- The body on whole staging buffers — the five inputs' at contents `x0 … x4`, the output's at anything — runs to the
    continuation holding the inputs as they were and the output at `out2_5` of the inputs. -/
theorem sound_kernel2 (c : Dev nD) (E : Set ℕ) (i : grid2.Coords)
    (arg0 : Memref sig .tc .vmem S5000x256 .bf16) (harg0 : arg0.IsWhole)
    (arg1 : Memref sig .tc .vmem S256 .f32) (harg1 : arg1.IsWhole)
    (arg2 : Memref sig .tc .vmem S256 .f32) (harg2 : arg2.IsWhole)
    (arg3 : Memref sig .tc .vmem S256x128 .f32) (harg3 : arg3.IsWhole)
    (arg4 : Memref sig .tc .vmem S128 .f32) (harg4 : arg4.IsWhole)
    (arg5 : Memref sig .tc .vmem S5000x128 .f32) (harg5 : arg5.IsWhole)
    (x0 : Vec F S5000x256 .bf16) (x1 : Vec F S256 .f32) (x2 : Vec F S256 .f32) (x3 : Vec F S256x128 .f32)
    (x4 : Vec F S128 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4
            ∗ owns (c : Thread nD τ) arg5 fullShare (out2_5 x0 x1 x2 x3 x4)) -∗ K ⟨⟩))
      ⊢ wp frame (wpE (defs₀ (F := F)) Variants.none c none) E
          (cc2__linear_bn_final_kernel i arg0 harg0 arg1 harg1 arg2 harg2 arg3 harg3 arg4 harg4 arg5 harg5) K := by
  simp only [cc2__linear_bn_final_kernel_eq_skeleton]; unfold cc2__linear_bn_final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

end Cert.KernelIdeal.Hand

end
-- ==== Proof.KI.R2.lean ====
/- Region 2 of the program, `cc2__linear_bn_final_kernel` on its grid of 2 by 10 points run in sequence: the frame
   half, for any float model and at a PARAMETER `V` — the contents of the TensorCore's buffers when the region is
   entered.  The kernel is of the plain class: no scratch, no conditional, one control case.  Window 0 (the
   activations, one 5000-row block per point) is fetched at every point; windows 1–4 (scale, shift, padded weight,
   padded bias: one block each) are fetched at the first point only and stay in their buffers; window 5 (the
   output, one 5000-row block per point) is written back at every point.  So after the body at point `t` every
   input buffer still holds its block and the output buffer holds `out2_5` of the five input blocks at `t`. -/
import proofs.«169417_j2877628089024_2_alg».proof.Proof.KI.R2Run
import proofs.«169417_j2877628089024_2_alg».proof.Proof.Gen.KernelIdeal.Launch
import proofs.«169417_j2877628089024_2_alg».proof.Proof.Gen.KernelIdeal.Skeleton
import proofs.«169417_j2877628089024_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the activations): its current staging buffer holds its block at every point, fetched there or not, for any
    proof data whose array is `V`'s and whose body leaves the block in place.  Where the window is not fetched its
    block index has not moved since the fetch, so the buffer still holds that same block; the window is never cut and
    never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the scale row): its current staging buffer holds its block at every point, fetched there or not, for any
    proof data whose array is `V`'s and whose body leaves the block in place.  Where the window is not fetched its
    block index has not moved since the fetch, so the buffer still holds that same block; the window is never cut and
    never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the shift row): its current staging buffer holds its block at every point, fetched there or not, for any
    proof data whose array is `V`'s and whose body leaves the block in place.  Where the window is not fetched its
    block index has not moved since the fetch, so the buffer still holds that same block; the window is never cut and
    never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (the padded weight): its current staging buffer holds its block at every point, fetched there or not, for any
    proof data whose array is `V`'s and whose body leaves the block in place.  Where the window is not fetched its
    block index has not moved since the fetch, so the buffer still holds that same block; the window is never cut and
    never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (the padded bias): its current staging buffer holds its block at every point, fetched there or not, for any
    proof data whose array is `V`'s and whose body leaves the block in place.  Where the window is not fetched its
    block index has not moved since the fetch, so the buffer still holds that same block; the window is never cut and
    never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The region's proof data -/

/-- The proof data of the region on core `c`: the arrays as the region finds them (`V`); after the body at point `t`
    each input's buffer at its block and the output's at `out2_5` of the five input blocks; the invariant is the plain
    class's (the scoped rest and the generator register, untouched) at every position; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
/-- The output window's buffer after the body at point `t`: `out2_5` of the five input blocks at `t`. -/
theorem after2_5 (c : Dev nD) (t : Fin cfg2.N) :
    (dat2 V c).after 5 t = out2_5 (iblk2 V c 0 t) (iblk2 V c 1 t) (iblk2 V c 2 t) (iblk2 V c 3 t) (iblk2 V c 4 t) := by
  dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`: the invariant, the core's debts, and every window's current buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks (`before2_w`), so the body's triple applies; the
    invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the two ends -/

/-- What the launch hands the region is the invariant before the first point: they are the same proposition. -/
theorem hin2 (c : Dev nD) : Pipeline.ΦA spec2 c ⊢ (dat2 V c).Φ 0 := by
  rw [show (dat2 V c).Φ 0 = Pipeline.ΦA spec2 c from rfl]

/-- And the invariant after the last point is what the region hands back. -/
theorem hout2 (c : Dev nD) : (dat2 V c).Φ (Fin.last cfg2.N) ⊢ Pipeline.ΦA spec2 c := by
  rw [show (dat2 V c).Φ (Fin.last cfg2.N) = Pipeline.ΦA spec2 c from rfl]

end Region2

end Cert.KernelIdeal.Hand

end
-- ==== Proof.KI.MainRun.lean ====
/-
  The run of @main: twelve segments — nine stretches of host operations and the three kernel regions — launched from
  any memory with zero semaphore counters. The buffer contents at each boundary are a fold from the launch memory
  (`W0 … W12`); each region's arrays leave it at what its write-backs produce; the final state holds `W12`.
-/
import proofs.«169417_j2877628089024_2_alg».proof.Proof.KI.R0
import proofs.«169417_j2877628089024_2_alg».proof.Proof.KI.R1
import proofs.«169417_j2877628089024_2_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main's twelve segments: a fold from the launch memory

  `W k` is what core `c`'s buffers hold after the first `k` segments: a stretch of host operations applies
  them (`StableHlo.after`), a kernel region leaves its arrays at what its write-backs produce (`Dat.arrAt … N`)
  and every other buffer as it found it. -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
abbrev W7 : Dev nD → Valuation τ sig (Elt F) := fun c => StableHlo.after hostOps2 (W6 m ρ c)
abbrev W8 : Dev nD → Valuation τ sig (Elt F) := fun c => StableHlo.after hostOps2_1 (W7 m ρ c)
abbrev W9 : Dev nD → Valuation τ sig (Elt F) := fun c => StableHlo.after hostOps2_2 (W8 m ρ c)
abbrev W10 : Dev nD → Valuation τ sig (Elt F) := fun c => StableHlo.after hostOps2_3 (W9 m ρ c)
abbrev V10 : (c : Dev nD) → (b : Ref sig .tc) → Buf (Elt F) ((c : Thread nD τ).loc b) := fun c b => W10 m ρ c b
def W11 (c : Dev nD) : Valuation τ sig (Elt F) :=
  Pipeline.withArrays spec2 c (W10 m ρ c) fun w => (dat2 (V10 m ρ) c).arrAt w cfg2.N
theorem W11_arr (c : Dev nD) (w : Fin cfg2.W) :
    W11 m ρ c (Proc.devRef .tc (Pipeline.arrRef spec2 w)) = (dat2 (V10 m ρ) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ c (Proc.devRef .tc b) = W10 m ρ c (Proc.devRef .tc b) := by
  unfold W11; exact Pipeline.withArrays_of_ne spec2 c _ _ b hb
abbrev V11 : (c : Dev nD) → (b : Ref sig .tc) → Buf (Elt F) ((c : Thread nD τ).loc b) := fun c b => W11 m ρ c b
theorem hF2 (c : Dev nD) (w : Fin cfg2.W) : (dat2 (V10 m ρ) c).arrAt w cfg2.N = V11 m ρ c (Pipeline.arrRef spec2 w) :=
  (W11_arr m ρ c w).symm
theorem hrest2 (c : Dev nD) : ∀ b, b ∉ Finset.univ.image (Pipeline.arrRef spec2) → V11 m ρ c b = V10 m ρ c b :=
  fun b hb => W11_of_ne m ρ c b fun w e => hb (Finset.mem_image.mpr ⟨w, Finset.mem_univ _, e⟩)
abbrev W12 : Dev nD → Valuation τ sig (Elt F) := fun c => StableHlo.after hostOps3 (W11 m ρ c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V10 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem hostOps2_3_fresh : (hostOps2_3 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W12 m ρ c) ∗ ∃ r, prngReg c r)

/-! ## The regions as segments -/

set_option backward.isDefEq.respectTransparency.types false in
/-- Region 0: entered from every unscoped buffer at `W3`, left at `W4`; its arrays split out of the unscoped
    buffers and put back at the exit contents; the generator register into the region's invariant and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec0 c ⊢ (pdats m ρ 0 c).Φ 0 := hin0 (V3 m ρ) c
    unfold Pipeline.ΦA at h
    iintro ⟨Hp, -, Hr⟩
    iapply h
    isplitl [Hr]; · iexact Hr
    iexact Hp
  hout c := by
    rw [Pipeline.ownSems0_none]
    have h : (pdats m ρ 0 c).Φ (Fin.last _) ⊢ Pipeline.ΦA spec0 c := hout0 (V3 m ρ) c
    unfold Pipeline.ΦA at h
    iintro Hf
    ihave H := h $$ Hf
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W5`, left at `W6`; its arrays split out of the unscoped
    buffers and put back at the exit contents; the generator register into the region's invariant and out. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m ρ 1 c).Φ 0 := hin1 (V5 m ρ) c
    unfold Pipeline.ΦA at h
    iintro ⟨Hp, -, Hr⟩
    iapply h
    isplitl [Hr]; · iexact Hr
    iexact Hp
  hout c := by
    rw [Pipeline.ownSems0_none]
    have h : (pdats m ρ 1 c).Φ (Fin.last _) ⊢ Pipeline.ΦA spec1 c := hout1 (V5 m ρ) c
    unfold Pipeline.ΦA at h
    iintro Hf
    ihave H := h $$ Hf
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W10`, left at `W11`; its arrays split out of the unscoped
    buffers and put back at the exit contents; the generator register into the region's invariant and out. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V10 m ρ) c).loose
  hwaits := Pipeline.hwaits_of_owed_zero _ _ _ _ L lv 2 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec2 c (V10 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec2 c ⊢ (pdats m ρ 2 c).Φ 0 := hin2 (V10 m ρ) c
    unfold Pipeline.ΦA at h
    iintro ⟨Hp, -, Hr⟩
    iapply h
    isplitl [Hr]; · iexact Hr
    iexact Hp
  hout c := by
    rw [Pipeline.ownSems0_none]
    have h : (pdats m ρ 2 c).Φ (Fin.last _) ⊢ Pipeline.ΦA spec2 c := hout2 (V10 m ρ) c
    unfold Pipeline.ΦA at h
    iintro Hf
    ihave H := h $$ Hf
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V10 m ρ c) (V11 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .host (hseg hostOps2_1 hostOps2_1_sub hostOps2_1_fresh (W7 m ρ)),
    .host (hseg hostOps2_2 hostOps2_2_sub hostOps2_2_fresh (W8 m ρ)),
    .host (hseg hostOps2_3 hostOps2_3_sub hostOps2_3_fresh (W9 m ρ)),
    .region (reg2 m ρ),
    .host (hseg hostOps3 hostOps3_sub hostOps3_fresh (W11 m ρ)) ]

set_option maxHeartbeats 4000000 in
/-- @main is the run of the twelve segments. -/
theorem main_run (c : Dev nD) : main (F := F) c = Pipeline.Seg.run (segs m ρ) := (main_chain c).trans (by chain_rfl)

set_option backward.isDefEq.respectTransparency.types false in
set_option maxHeartbeats 4000000 in
/-- The run of @main at any `F`: from any memory with zero counters every weakly fair execution terminates, nothing
    faults, and in every final state each unscoped buffer holds the last boundary's contents `W12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun c => show iprop(StableHlo.held (c : Thread nD τ) (Pipeline.ucRefs τ sig) (W12 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.KernelIdeal.Hand

end
-- ==== Proof.KI.Kept.lean ====
/-
  No host operation of @main writes an argument buffer: each writes only its own result buffer.
-/
import proofs.«169417_j2877628089024_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The thirteen argument buffers. -/
def IsArg (b : Ref sig .tc) : Prop := b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11 ∨ b = main_arg12

/-- A stretch of host operations none of which writes `b` leaves `b` as it was. -/
theorem after_kept (ops : List (HloOp τ sig (Elt F))) (W : Valuation τ sig (Elt F)) (b : Ref sig .tc)
    (h : ops.Forall fun op => Proc.devRef .tc b ∉ op.writes) :
    StableHlo.after ops W (Proc.devRef .tc b) = W (Proc.devRef .tc b) :=
  StableHlo.after_of_forall_not_mem (b := Proc.devRef .tc b) _ _ (List.forall_iff_forall_mem.mp h)

/-- No operation of `hostOps0` writes an argument: each writes only its own result buffer. -/
theorem hostOps0_keeps_args (b : Ref sig .tc) (hb : IsArg b) : (hostOps0 : List (HloOp τ sig (Elt F))).Forall fun op => Proc.devRef .tc b ∉ op.writes := by
  rcases hb with rfl | rfl | rfl | rfl | rfl | rfl | rfl | rfl | rfl | rfl | rfl | rfl | rfl
  all_goals
    simp only [hostOps0, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.ternary, StableHlo.TRef.nullary, Finset.mem_singleton]
    repeat' apply And.intro
    all_goals exact StableHlo.devRef_ne_of_ne (by decide)

/-- No operation of `hostOps0_1` writes an argument: each writes only its own result buffer. -/
theorem hostOps0_1_keeps_args (b : Ref sig .tc) (hb : IsArg b) : (hostOps0_1 : List (HloOp τ sig (Elt F))).Forall fun op => Proc.devRef .tc b ∉ op.writes := by
  rcases hb with rfl | rfl | rfl | rfl | rfl | rfl | rfl | rfl | rfl | rfl | rfl | rfl | rfl
  all_goals
    simp only [hostOps0_1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.ternary, StableHlo.TRef.nullary, Finset.mem_singleton]
    repeat' apply And.intro
    all_goals exact StableHlo.devRef_ne_of_ne (by decide)

set_option maxHeartbeats 8000000 in
/-- No operation of `hostOps0_2` writes an argument: each writes only its own result buffer. -/
theorem hostOps0_2_keeps_args (b : Ref sig .tc) (hb : IsArg b) : (hostOps0_2 : List (HloOp τ sig (Elt F))).Forall fun op => Proc.devRef .tc b ∉ op.writes := by
  rcases hb with rfl | rfl | rfl | rfl | rfl | rfl | rfl | rfl | rfl | rfl | rfl | rfl | rfl
  all_goals
    simp only [hostOps0_2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.ternary, StableHlo.TRef.nullary, Finset.mem_singleton]
    repeat' apply And.intro
    all_goals exact StableHlo.devRef_ne_of_ne (by decide)

/-- No operation of `hostOps1` writes an argument: each writes only its own result buffer. -/
theorem hostOps1_keeps_args (b : Ref sig .tc) (hb : IsArg b) : (hostOps1 : List (HloOp τ sig (Elt F))).Forall fun op => Proc.devRef .tc b ∉ op.writes := by
  rcases hb with rfl | rfl | rfl | rfl | rfl | rfl | rfl | rfl | rfl | rfl | rfl | rfl | rfl
  all_goals
    simp only [hostOps1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.ternary, StableHlo.TRef.nullary, Finset.mem_singleton]
    repeat' apply And.intro
    all_goals exact StableHlo.devRef_ne_of_ne (by decide)

/-- No operation of `hostOps2` writes an argument: each writes only its own result buffer. -/
theorem hostOps2_keeps_args (b : Ref sig .tc) (hb : IsArg b) : (hostOps2 : List (HloOp τ sig (Elt F))).Forall fun op => Proc.devRef .tc b ∉ op.writes := by
  rcases hb with rfl | rfl | rfl | rfl | rfl | rfl | rfl | rfl | rfl | rfl | rfl | rfl | rfl
  all_goals
    simp only [hostOps2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.ternary, StableHlo.TRef.nullary, Finset.mem_singleton]
    repeat' apply And.intro
    all_goals exact StableHlo.devRef_ne_of_ne (by decide)

/-- No operation of `hostOps2_1` writes an argument: each writes only its own result buffer. -/
theorem hostOps2_1_keeps_args (b : Ref sig .tc) (hb : IsArg b) : (hostOps2_1 : List (HloOp τ sig (Elt F))).Forall fun op => Proc.devRef .tc b ∉ op.writes := by
  rcases hb with rfl | rfl | rfl | rfl | rfl | rfl | rfl | rfl | rfl | rfl | rfl | rfl | rfl
  all_goals
    simp only [hostOps2_1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.ternary, StableHlo.TRef.nullary, Finset.mem_singleton]
    repeat' apply And.intro
    all_goals exact StableHlo.devRef_ne_of_ne (by decide)

/-- No operation of `hostOps2_2` writes an argument: each writes only its own result buffer. -/
theorem hostOps2_2_keeps_args (b : Ref sig .tc) (hb : IsArg b) : (hostOps2_2 : List (HloOp τ sig (Elt F))).Forall fun op => Proc.devRef .tc b ∉ op.writes := by
  rcases hb with rfl | rfl | rfl | rfl | rfl | rfl | rfl | rfl | rfl | rfl | rfl | rfl | rfl
  all_goals
    simp only [hostOps2_2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.ternary, StableHlo.TRef.nullary, Finset.mem_singleton]
    repeat' apply And.intro
    all_goals exact StableHlo.devRef_ne_of_ne (by decide)

/-- No operation of `hostOps2_3` writes an argument: each writes only its own result buffer. -/
theorem hostOps2_3_keeps_args (b : Ref sig .tc) (hb : IsArg b) : (hostOps2_3 : List (HloOp τ sig (Elt F))).Forall fun op => Proc.devRef .tc b ∉ op.writes := by
  rcases hb with rfl | rfl | rfl | rfl | rfl | rfl | rfl | rfl | rfl | rfl | rfl | rfl | rfl
  all_goals
    simp only [hostOps2_3, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.ternary, StableHlo.TRef.nullary, Finset.mem_singleton]
    repeat' apply And.intro
    all_goals exact StableHlo.devRef_ne_of_ne (by decide)

/-- No operation of `hostOps3` writes an argument: each writes only its own result buffer. -/
theorem hostOps3_keeps_args (b : Ref sig .tc) (hb : IsArg b) : (hostOps3 : List (HloOp τ sig (Elt F))).Forall fun op => Proc.devRef .tc b ∉ op.writes := by
  rcases hb with rfl | rfl | rfl | rfl | rfl | rfl | rfl | rfl | rfl | rfl | rfl | rfl | rfl
  all_goals
    simp only [hostOps3, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.ternary, StableHlo.TRef.nullary, Finset.mem_singleton]
    repeat' apply And.intro
    all_goals exact StableHlo.devRef_ne_of_ne (by decide)

end Cert.KernelIdeal.Hand

end
-- ==== Proof.KI.Frame.lean ====
/-
  The frame of the kernel program from its run: every argument buffer is read back through the twelve boundaries to
  its launch contents.
-/
import proofs.«169417_j2877628089024_2_alg».proof.Proof.KI.MainRun
import proofs.«169417_j2877628089024_2_alg».proof.Proof.KI.Kept
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments at every boundary: no host operation writes one, and a region reads one through an input window or bypasses it -/

theorem W0_main_arg0 (c : Dev nD) : W0 m ρ c (Proc.devRef .tc main_arg0) = m ((c : Thread nD τ).loc main_arg0) := rfl
theorem W1_main_arg0 (c : Dev nD) : W1 m ρ c (Proc.devRef .tc main_arg0) = m ((c : Thread nD τ).loc main_arg0) :=
  (show W1 m ρ c (Proc.devRef .tc main_arg0) = W0 m ρ c (Proc.devRef .tc main_arg0) from after_kept _ _ main_arg0 (hostOps0_keeps_args main_arg0 (by unfold IsArg; simp))).trans (W0_main_arg0 m ρ c)
theorem W2_main_arg0 (c : Dev nD) : W2 m ρ c (Proc.devRef .tc main_arg0) = m ((c : Thread nD τ).loc main_arg0) :=
  (show W2 m ρ c (Proc.devRef .tc main_arg0) = W1 m ρ c (Proc.devRef .tc main_arg0) from after_kept _ _ main_arg0 (hostOps0_1_keeps_args main_arg0 (by unfold IsArg; simp))).trans (W1_main_arg0 m ρ c)
theorem W3_main_arg0 (c : Dev nD) : W3 m ρ c (Proc.devRef .tc main_arg0) = m ((c : Thread nD τ).loc main_arg0) :=
  (show W3 m ρ c (Proc.devRef .tc main_arg0) = W2 m ρ c (Proc.devRef .tc main_arg0) from after_kept _ _ main_arg0 (hostOps0_2_keeps_args main_arg0 (by unfold IsArg; simp))).trans (W2_main_arg0 m ρ c)
theorem W4_main_arg0 (c : Dev nD) : W4 m ρ c (Proc.devRef .tc main_arg0) = m ((c : Thread nD τ).loc main_arg0) :=
  (show W4 m ρ c (Proc.devRef .tc main_arg0) = W3 m ρ c (Proc.devRef .tc main_arg0) from W4_of_ne m ρ c main_arg0 (by decide)).trans (W3_main_arg0 m ρ c)
theorem W5_main_arg0 (c : Dev nD) : W5 m ρ c (Proc.devRef .tc main_arg0) = m ((c : Thread nD τ).loc main_arg0) :=
  (show W5 m ρ c (Proc.devRef .tc main_arg0) = W4 m ρ c (Proc.devRef .tc main_arg0) from after_kept _ _ main_arg0 (hostOps1_keeps_args main_arg0 (by unfold IsArg; simp))).trans (W4_main_arg0 m ρ c)
theorem W6_main_arg0 (c : Dev nD) : W6 m ρ c (Proc.devRef .tc main_arg0) = m ((c : Thread nD τ).loc main_arg0) :=
  (show W6 m ρ c (Proc.devRef .tc main_arg0) = W5 m ρ c (Proc.devRef .tc main_arg0) from W6_of_ne m ρ c main_arg0 (by decide)).trans (W5_main_arg0 m ρ c)
theorem W7_main_arg0 (c : Dev nD) : W7 m ρ c (Proc.devRef .tc main_arg0) = m ((c : Thread nD τ).loc main_arg0) :=
  (show W7 m ρ c (Proc.devRef .tc main_arg0) = W6 m ρ c (Proc.devRef .tc main_arg0) from after_kept _ _ main_arg0 (hostOps2_keeps_args main_arg0 (by unfold IsArg; simp))).trans (W6_main_arg0 m ρ c)
theorem W8_main_arg0 (c : Dev nD) : W8 m ρ c (Proc.devRef .tc main_arg0) = m ((c : Thread nD τ).loc main_arg0) :=
  (show W8 m ρ c (Proc.devRef .tc main_arg0) = W7 m ρ c (Proc.devRef .tc main_arg0) from after_kept _ _ main_arg0 (hostOps2_1_keeps_args main_arg0 (by unfold IsArg; simp))).trans (W7_main_arg0 m ρ c)
theorem W9_main_arg0 (c : Dev nD) : W9 m ρ c (Proc.devRef .tc main_arg0) = m ((c : Thread nD τ).loc main_arg0) :=
  (show W9 m ρ c (Proc.devRef .tc main_arg0) = W8 m ρ c (Proc.devRef .tc main_arg0) from after_kept _ _ main_arg0 (hostOps2_2_keeps_args main_arg0 (by unfold IsArg; simp))).trans (W8_main_arg0 m ρ c)
theorem W10_main_arg0 (c : Dev nD) : W10 m ρ c (Proc.devRef .tc main_arg0) = m ((c : Thread nD τ).loc main_arg0) :=
  (show W10 m ρ c (Proc.devRef .tc main_arg0) = W9 m ρ c (Proc.devRef .tc main_arg0) from after_kept _ _ main_arg0 (hostOps2_3_keeps_args main_arg0 (by unfold IsArg; simp))).trans (W9_main_arg0 m ρ c)
theorem W11_main_arg0 (c : Dev nD) : W11 m ρ c (Proc.devRef .tc main_arg0) = m ((c : Thread nD τ).loc main_arg0) :=
  (show W11 m ρ c (Proc.devRef .tc main_arg0) = W10 m ρ c (Proc.devRef .tc main_arg0) from W11_of_ne m ρ c main_arg0 (by decide)).trans (W10_main_arg0 m ρ c)
theorem W12_main_arg0 (c : Dev nD) : W12 m ρ c (Proc.devRef .tc main_arg0) = m ((c : Thread nD τ).loc main_arg0) :=
  (show W12 m ρ c (Proc.devRef .tc main_arg0) = W11 m ρ c (Proc.devRef .tc main_arg0) from after_kept _ _ main_arg0 (hostOps3_keeps_args main_arg0 (by unfold IsArg; simp))).trans (W11_main_arg0 m ρ c)

theorem W0_main_arg1 (c : Dev nD) : W0 m ρ c (Proc.devRef .tc main_arg1) = m ((c : Thread nD τ).loc main_arg1) := rfl
theorem W1_main_arg1 (c : Dev nD) : W1 m ρ c (Proc.devRef .tc main_arg1) = m ((c : Thread nD τ).loc main_arg1) :=
  (show W1 m ρ c (Proc.devRef .tc main_arg1) = W0 m ρ c (Proc.devRef .tc main_arg1) from after_kept _ _ main_arg1 (hostOps0_keeps_args main_arg1 (by unfold IsArg; simp))).trans (W0_main_arg1 m ρ c)
theorem W2_main_arg1 (c : Dev nD) : W2 m ρ c (Proc.devRef .tc main_arg1) = m ((c : Thread nD τ).loc main_arg1) :=
  (show W2 m ρ c (Proc.devRef .tc main_arg1) = W1 m ρ c (Proc.devRef .tc main_arg1) from after_kept _ _ main_arg1 (hostOps0_1_keeps_args main_arg1 (by unfold IsArg; simp))).trans (W1_main_arg1 m ρ c)
theorem W3_main_arg1 (c : Dev nD) : W3 m ρ c (Proc.devRef .tc main_arg1) = m ((c : Thread nD τ).loc main_arg1) :=
  (show W3 m ρ c (Proc.devRef .tc main_arg1) = W2 m ρ c (Proc.devRef .tc main_arg1) from after_kept _ _ main_arg1 (hostOps0_2_keeps_args main_arg1 (by unfold IsArg; simp))).trans (W2_main_arg1 m ρ c)
theorem W4_main_arg1 (c : Dev nD) : W4 m ρ c (Proc.devRef .tc main_arg1) = m ((c : Thread nD τ).loc main_arg1) :=
  (show W4 m ρ c (Proc.devRef .tc main_arg1) = W3 m ρ c (Proc.devRef .tc main_arg1) from W4_of_ne m ρ c main_arg1 (by decide)).trans (W3_main_arg1 m ρ c)
theorem W5_main_arg1 (c : Dev nD) : W5 m ρ c (Proc.devRef .tc main_arg1) = m ((c : Thread nD τ).loc main_arg1) :=
  (show W5 m ρ c (Proc.devRef .tc main_arg1) = W4 m ρ c (Proc.devRef .tc main_arg1) from after_kept _ _ main_arg1 (hostOps1_keeps_args main_arg1 (by unfold IsArg; simp))).trans (W4_main_arg1 m ρ c)
theorem W6_main_arg1 (c : Dev nD) : W6 m ρ c (Proc.devRef .tc main_arg1) = m ((c : Thread nD τ).loc main_arg1) :=
  (show W6 m ρ c (Proc.devRef .tc main_arg1) = W5 m ρ c (Proc.devRef .tc main_arg1) from W6_of_ne m ρ c main_arg1 (by decide)).trans (W5_main_arg1 m ρ c)
theorem W7_main_arg1 (c : Dev nD) : W7 m ρ c (Proc.devRef .tc main_arg1) = m ((c : Thread nD τ).loc main_arg1) :=
  (show W7 m ρ c (Proc.devRef .tc main_arg1) = W6 m ρ c (Proc.devRef .tc main_arg1) from after_kept _ _ main_arg1 (hostOps2_keeps_args main_arg1 (by unfold IsArg; simp))).trans (W6_main_arg1 m ρ c)
theorem W8_main_arg1 (c : Dev nD) : W8 m ρ c (Proc.devRef .tc main_arg1) = m ((c : Thread nD τ).loc main_arg1) :=
  (show W8 m ρ c (Proc.devRef .tc main_arg1) = W7 m ρ c (Proc.devRef .tc main_arg1) from after_kept _ _ main_arg1 (hostOps2_1_keeps_args main_arg1 (by unfold IsArg; simp))).trans (W7_main_arg1 m ρ c)
theorem W9_main_arg1 (c : Dev nD) : W9 m ρ c (Proc.devRef .tc main_arg1) = m ((c : Thread nD τ).loc main_arg1) :=
  (show W9 m ρ c (Proc.devRef .tc main_arg1) = W8 m ρ c (Proc.devRef .tc main_arg1) from after_kept _ _ main_arg1 (hostOps2_2_keeps_args main_arg1 (by unfold IsArg; simp))).trans (W8_main_arg1 m ρ c)
theorem W10_main_arg1 (c : Dev nD) : W10 m ρ c (Proc.devRef .tc main_arg1) = m ((c : Thread nD τ).loc main_arg1) :=
  (show W10 m ρ c (Proc.devRef .tc main_arg1) = W9 m ρ c (Proc.devRef .tc main_arg1) from after_kept _ _ main_arg1 (hostOps2_3_keeps_args main_arg1 (by unfold IsArg; simp))).trans (W9_main_arg1 m ρ c)
theorem W11_main_arg1 (c : Dev nD) : W11 m ρ c (Proc.devRef .tc main_arg1) = m ((c : Thread nD τ).loc main_arg1) :=
  (show W11 m ρ c (Proc.devRef .tc main_arg1) = W10 m ρ c (Proc.devRef .tc main_arg1) from W11_of_ne m ρ c main_arg1 (by decide)).trans (W10_main_arg1 m ρ c)
theorem W12_main_arg1 (c : Dev nD) : W12 m ρ c (Proc.devRef .tc main_arg1) = m ((c : Thread nD τ).loc main_arg1) :=
  (show W12 m ρ c (Proc.devRef .tc main_arg1) = W11 m ρ c (Proc.devRef .tc main_arg1) from after_kept _ _ main_arg1 (hostOps3_keeps_args main_arg1 (by unfold IsArg; simp))).trans (W11_main_arg1 m ρ c)

theorem W0_main_arg2 (c : Dev nD) : W0 m ρ c (Proc.devRef .tc main_arg2) = m ((c : Thread nD τ).loc main_arg2) := rfl
theorem W1_main_arg2 (c : Dev nD) : W1 m ρ c (Proc.devRef .tc main_arg2) = m ((c : Thread nD τ).loc main_arg2) :=
  (show W1 m ρ c (Proc.devRef .tc main_arg2) = W0 m ρ c (Proc.devRef .tc main_arg2) from after_kept _ _ main_arg2 (hostOps0_keeps_args main_arg2 (by unfold IsArg; simp))).trans (W0_main_arg2 m ρ c)
theorem W2_main_arg2 (c : Dev nD) : W2 m ρ c (Proc.devRef .tc main_arg2) = m ((c : Thread nD τ).loc main_arg2) :=
  (show W2 m ρ c (Proc.devRef .tc main_arg2) = W1 m ρ c (Proc.devRef .tc main_arg2) from after_kept _ _ main_arg2 (hostOps0_1_keeps_args main_arg2 (by unfold IsArg; simp))).trans (W1_main_arg2 m ρ c)
theorem W3_main_arg2 (c : Dev nD) : W3 m ρ c (Proc.devRef .tc main_arg2) = m ((c : Thread nD τ).loc main_arg2) :=
  (show W3 m ρ c (Proc.devRef .tc main_arg2) = W2 m ρ c (Proc.devRef .tc main_arg2) from after_kept _ _ main_arg2 (hostOps0_2_keeps_args main_arg2 (by unfold IsArg; simp))).trans (W2_main_arg2 m ρ c)
theorem W4_main_arg2 (c : Dev nD) : W4 m ρ c (Proc.devRef .tc main_arg2) = m ((c : Thread nD τ).loc main_arg2) :=
  (show W4 m ρ c (Proc.devRef .tc main_arg2) = W3 m ρ c (Proc.devRef .tc main_arg2) from W4_of_ne m ρ c main_arg2 (by decide)).trans (W3_main_arg2 m ρ c)
theorem W5_main_arg2 (c : Dev nD) : W5 m ρ c (Proc.devRef .tc main_arg2) = m ((c : Thread nD τ).loc main_arg2) :=
  (show W5 m ρ c (Proc.devRef .tc main_arg2) = W4 m ρ c (Proc.devRef .tc main_arg2) from after_kept _ _ main_arg2 (hostOps1_keeps_args main_arg2 (by unfold IsArg; simp))).trans (W4_main_arg2 m ρ c)
theorem W6_main_arg2 (c : Dev nD) : W6 m ρ c (Proc.devRef .tc main_arg2) = m ((c : Thread nD τ).loc main_arg2) :=
  (show W6 m ρ c (Proc.devRef .tc main_arg2) = W5 m ρ c (Proc.devRef .tc main_arg2) from W6_of_ne m ρ c main_arg2 (by decide)).trans (W5_main_arg2 m ρ c)
theorem W7_main_arg2 (c : Dev nD) : W7 m ρ c (Proc.devRef .tc main_arg2) = m ((c : Thread nD τ).loc main_arg2) :=
  (show W7 m ρ c (Proc.devRef .tc main_arg2) = W6 m ρ c (Proc.devRef .tc main_arg2) from after_kept _ _ main_arg2 (hostOps2_keeps_args main_arg2 (by unfold IsArg; simp))).trans (W6_main_arg2 m ρ c)
theorem W8_main_arg2 (c : Dev nD) : W8 m ρ c (Proc.devRef .tc main_arg2) = m ((c : Thread nD τ).loc main_arg2) :=
  (show W8 m ρ c (Proc.devRef .tc main_arg2) = W7 m ρ c (Proc.devRef .tc main_arg2) from after_kept _ _ main_arg2 (hostOps2_1_keeps_args main_arg2 (by unfold IsArg; simp))).trans (W7_main_arg2 m ρ c)
theorem W9_main_arg2 (c : Dev nD) : W9 m ρ c (Proc.devRef .tc main_arg2) = m ((c : Thread nD τ).loc main_arg2) :=
  (show W9 m ρ c (Proc.devRef .tc main_arg2) = W8 m ρ c (Proc.devRef .tc main_arg2) from after_kept _ _ main_arg2 (hostOps2_2_keeps_args main_arg2 (by unfold IsArg; simp))).trans (W8_main_arg2 m ρ c)
theorem W10_main_arg2 (c : Dev nD) : W10 m ρ c (Proc.devRef .tc main_arg2) = m ((c : Thread nD τ).loc main_arg2) :=
  (show W10 m ρ c (Proc.devRef .tc main_arg2) = W9 m ρ c (Proc.devRef .tc main_arg2) from after_kept _ _ main_arg2 (hostOps2_3_keeps_args main_arg2 (by unfold IsArg; simp))).trans (W9_main_arg2 m ρ c)
theorem W11_main_arg2 (c : Dev nD) : W11 m ρ c (Proc.devRef .tc main_arg2) = m ((c : Thread nD τ).loc main_arg2) :=
  (show W11 m ρ c (Proc.devRef .tc main_arg2) = W10 m ρ c (Proc.devRef .tc main_arg2) from W11_of_ne m ρ c main_arg2 (by decide)).trans (W10_main_arg2 m ρ c)
theorem W12_main_arg2 (c : Dev nD) : W12 m ρ c (Proc.devRef .tc main_arg2) = m ((c : Thread nD τ).loc main_arg2) :=
  (show W12 m ρ c (Proc.devRef .tc main_arg2) = W11 m ρ c (Proc.devRef .tc main_arg2) from after_kept _ _ main_arg2 (hostOps3_keeps_args main_arg2 (by unfold IsArg; simp))).trans (W11_main_arg2 m ρ c)

theorem W0_main_arg3 (c : Dev nD) : W0 m ρ c (Proc.devRef .tc main_arg3) = m ((c : Thread nD τ).loc main_arg3) := rfl
theorem W1_main_arg3 (c : Dev nD) : W1 m ρ c (Proc.devRef .tc main_arg3) = m ((c : Thread nD τ).loc main_arg3) :=
  (show W1 m ρ c (Proc.devRef .tc main_arg3) = W0 m ρ c (Proc.devRef .tc main_arg3) from after_kept _ _ main_arg3 (hostOps0_keeps_args main_arg3 (by unfold IsArg; simp))).trans (W0_main_arg3 m ρ c)
theorem W2_main_arg3 (c : Dev nD) : W2 m ρ c (Proc.devRef .tc main_arg3) = m ((c : Thread nD τ).loc main_arg3) :=
  (show W2 m ρ c (Proc.devRef .tc main_arg3) = W1 m ρ c (Proc.devRef .tc main_arg3) from after_kept _ _ main_arg3 (hostOps0_1_keeps_args main_arg3 (by unfold IsArg; simp))).trans (W1_main_arg3 m ρ c)
theorem W3_main_arg3 (c : Dev nD) : W3 m ρ c (Proc.devRef .tc main_arg3) = m ((c : Thread nD τ).loc main_arg3) :=
  (show W3 m ρ c (Proc.devRef .tc main_arg3) = W2 m ρ c (Proc.devRef .tc main_arg3) from after_kept _ _ main_arg3 (hostOps0_2_keeps_args main_arg3 (by unfold IsArg; simp))).trans (W2_main_arg3 m ρ c)
theorem W4_main_arg3 (c : Dev nD) : W4 m ρ c (Proc.devRef .tc main_arg3) = m ((c : Thread nD τ).loc main_arg3) :=
  (show W4 m ρ c (Proc.devRef .tc main_arg3) = W3 m ρ c (Proc.devRef .tc main_arg3) from (W4_arr m ρ c 1).trans (((dat0 (V3 m ρ) c).arrAt_in 1 rfl _).trans (A_eq0 (V3 m ρ) c 1))).trans (W3_main_arg3 m ρ c)
theorem W5_main_arg3 (c : Dev nD) : W5 m ρ c (Proc.devRef .tc main_arg3) = m ((c : Thread nD τ).loc main_arg3) :=
  (show W5 m ρ c (Proc.devRef .tc main_arg3) = W4 m ρ c (Proc.devRef .tc main_arg3) from after_kept _ _ main_arg3 (hostOps1_keeps_args main_arg3 (by unfold IsArg; simp))).trans (W4_main_arg3 m ρ c)
theorem W6_main_arg3 (c : Dev nD) : W6 m ρ c (Proc.devRef .tc main_arg3) = m ((c : Thread nD τ).loc main_arg3) :=
  (show W6 m ρ c (Proc.devRef .tc main_arg3) = W5 m ρ c (Proc.devRef .tc main_arg3) from W6_of_ne m ρ c main_arg3 (by decide)).trans (W5_main_arg3 m ρ c)
theorem W7_main_arg3 (c : Dev nD) : W7 m ρ c (Proc.devRef .tc main_arg3) = m ((c : Thread nD τ).loc main_arg3) :=
  (show W7 m ρ c (Proc.devRef .tc main_arg3) = W6 m ρ c (Proc.devRef .tc main_arg3) from after_kept _ _ main_arg3 (hostOps2_keeps_args main_arg3 (by unfold IsArg; simp))).trans (W6_main_arg3 m ρ c)
theorem W8_main_arg3 (c : Dev nD) : W8 m ρ c (Proc.devRef .tc main_arg3) = m ((c : Thread nD τ).loc main_arg3) :=
  (show W8 m ρ c (Proc.devRef .tc main_arg3) = W7 m ρ c (Proc.devRef .tc main_arg3) from after_kept _ _ main_arg3 (hostOps2_1_keeps_args main_arg3 (by unfold IsArg; simp))).trans (W7_main_arg3 m ρ c)
theorem W9_main_arg3 (c : Dev nD) : W9 m ρ c (Proc.devRef .tc main_arg3) = m ((c : Thread nD τ).loc main_arg3) :=
  (show W9 m ρ c (Proc.devRef .tc main_arg3) = W8 m ρ c (Proc.devRef .tc main_arg3) from after_kept _ _ main_arg3 (hostOps2_2_keeps_args main_arg3 (by unfold IsArg; simp))).trans (W8_main_arg3 m ρ c)
theorem W10_main_arg3 (c : Dev nD) : W10 m ρ c (Proc.devRef .tc main_arg3) = m ((c : Thread nD τ).loc main_arg3) :=
  (show W10 m ρ c (Proc.devRef .tc main_arg3) = W9 m ρ c (Proc.devRef .tc main_arg3) from after_kept _ _ main_arg3 (hostOps2_3_keeps_args main_arg3 (by unfold IsArg; simp))).trans (W9_main_arg3 m ρ c)
theorem W11_main_arg3 (c : Dev nD) : W11 m ρ c (Proc.devRef .tc main_arg3) = m ((c : Thread nD τ).loc main_arg3) :=
  (show W11 m ρ c (Proc.devRef .tc main_arg3) = W10 m ρ c (Proc.devRef .tc main_arg3) from W11_of_ne m ρ c main_arg3 (by decide)).trans (W10_main_arg3 m ρ c)
theorem W12_main_arg3 (c : Dev nD) : W12 m ρ c (Proc.devRef .tc main_arg3) = m ((c : Thread nD τ).loc main_arg3) :=
  (show W12 m ρ c (Proc.devRef .tc main_arg3) = W11 m ρ c (Proc.devRef .tc main_arg3) from after_kept _ _ main_arg3 (hostOps3_keeps_args main_arg3 (by unfold IsArg; simp))).trans (W11_main_arg3 m ρ c)

theorem W0_main_arg4 (c : Dev nD) : W0 m ρ c (Proc.devRef .tc main_arg4) = m ((c : Thread nD τ).loc main_arg4) := rfl
theorem W1_main_arg4 (c : Dev nD) : W1 m ρ c (Proc.devRef .tc main_arg4) = m ((c : Thread nD τ).loc main_arg4) :=
  (show W1 m ρ c (Proc.devRef .tc main_arg4) = W0 m ρ c (Proc.devRef .tc main_arg4) from after_kept _ _ main_arg4 (hostOps0_keeps_args main_arg4 (by unfold IsArg; simp))).trans (W0_main_arg4 m ρ c)
theorem W2_main_arg4 (c : Dev nD) : W2 m ρ c (Proc.devRef .tc main_arg4) = m ((c : Thread nD τ).loc main_arg4) :=
  (show W2 m ρ c (Proc.devRef .tc main_arg4) = W1 m ρ c (Proc.devRef .tc main_arg4) from after_kept _ _ main_arg4 (hostOps0_1_keeps_args main_arg4 (by unfold IsArg; simp))).trans (W1_main_arg4 m ρ c)
theorem W3_main_arg4 (c : Dev nD) : W3 m ρ c (Proc.devRef .tc main_arg4) = m ((c : Thread nD τ).loc main_arg4) :=
  (show W3 m ρ c (Proc.devRef .tc main_arg4) = W2 m ρ c (Proc.devRef .tc main_arg4) from after_kept _ _ main_arg4 (hostOps0_2_keeps_args main_arg4 (by unfold IsArg; simp))).trans (W2_main_arg4 m ρ c)
theorem W4_main_arg4 (c : Dev nD) : W4 m ρ c (Proc.devRef .tc main_arg4) = m ((c : Thread nD τ).loc main_arg4) :=
  (show W4 m ρ c (Proc.devRef .tc main_arg4) = W3 m ρ c (Proc.devRef .tc main_arg4) from (W4_arr m ρ c 2).trans (((dat0 (V3 m ρ) c).arrAt_in 2 rfl _).trans (A_eq0 (V3 m ρ) c 2))).trans (W3_main_arg4 m ρ c)
theorem W5_main_arg4 (c : Dev nD) : W5 m ρ c (Proc.devRef .tc main_arg4) = m ((c : Thread nD τ).loc main_arg4) :=
  (show W5 m ρ c (Proc.devRef .tc main_arg4) = W4 m ρ c (Proc.devRef .tc main_arg4) from after_kept _ _ main_arg4 (hostOps1_keeps_args main_arg4 (by unfold IsArg; simp))).trans (W4_main_arg4 m ρ c)
theorem W6_main_arg4 (c : Dev nD) : W6 m ρ c (Proc.devRef .tc main_arg4) = m ((c : Thread nD τ).loc main_arg4) :=
  (show W6 m ρ c (Proc.devRef .tc main_arg4) = W5 m ρ c (Proc.devRef .tc main_arg4) from W6_of_ne m ρ c main_arg4 (by decide)).trans (W5_main_arg4 m ρ c)
theorem W7_main_arg4 (c : Dev nD) : W7 m ρ c (Proc.devRef .tc main_arg4) = m ((c : Thread nD τ).loc main_arg4) :=
  (show W7 m ρ c (Proc.devRef .tc main_arg4) = W6 m ρ c (Proc.devRef .tc main_arg4) from after_kept _ _ main_arg4 (hostOps2_keeps_args main_arg4 (by unfold IsArg; simp))).trans (W6_main_arg4 m ρ c)
theorem W8_main_arg4 (c : Dev nD) : W8 m ρ c (Proc.devRef .tc main_arg4) = m ((c : Thread nD τ).loc main_arg4) :=
  (show W8 m ρ c (Proc.devRef .tc main_arg4) = W7 m ρ c (Proc.devRef .tc main_arg4) from after_kept _ _ main_arg4 (hostOps2_1_keeps_args main_arg4 (by unfold IsArg; simp))).trans (W7_main_arg4 m ρ c)
theorem W9_main_arg4 (c : Dev nD) : W9 m ρ c (Proc.devRef .tc main_arg4) = m ((c : Thread nD τ).loc main_arg4) :=
  (show W9 m ρ c (Proc.devRef .tc main_arg4) = W8 m ρ c (Proc.devRef .tc main_arg4) from after_kept _ _ main_arg4 (hostOps2_2_keeps_args main_arg4 (by unfold IsArg; simp))).trans (W8_main_arg4 m ρ c)
theorem W10_main_arg4 (c : Dev nD) : W10 m ρ c (Proc.devRef .tc main_arg4) = m ((c : Thread nD τ).loc main_arg4) :=
  (show W10 m ρ c (Proc.devRef .tc main_arg4) = W9 m ρ c (Proc.devRef .tc main_arg4) from after_kept _ _ main_arg4 (hostOps2_3_keeps_args main_arg4 (by unfold IsArg; simp))).trans (W9_main_arg4 m ρ c)
theorem W11_main_arg4 (c : Dev nD) : W11 m ρ c (Proc.devRef .tc main_arg4) = m ((c : Thread nD τ).loc main_arg4) :=
  (show W11 m ρ c (Proc.devRef .tc main_arg4) = W10 m ρ c (Proc.devRef .tc main_arg4) from W11_of_ne m ρ c main_arg4 (by decide)).trans (W10_main_arg4 m ρ c)
theorem W12_main_arg4 (c : Dev nD) : W12 m ρ c (Proc.devRef .tc main_arg4) = m ((c : Thread nD τ).loc main_arg4) :=
  (show W12 m ρ c (Proc.devRef .tc main_arg4) = W11 m ρ c (Proc.devRef .tc main_arg4) from after_kept _ _ main_arg4 (hostOps3_keeps_args main_arg4 (by unfold IsArg; simp))).trans (W11_main_arg4 m ρ c)

theorem W0_main_arg5 (c : Dev nD) : W0 m ρ c (Proc.devRef .tc main_arg5) = m ((c : Thread nD τ).loc main_arg5) := rfl
theorem W1_main_arg5 (c : Dev nD) : W1 m ρ c (Proc.devRef .tc main_arg5) = m ((c : Thread nD τ).loc main_arg5) :=
  (show W1 m ρ c (Proc.devRef .tc main_arg5) = W0 m ρ c (Proc.devRef .tc main_arg5) from after_kept _ _ main_arg5 (hostOps0_keeps_args main_arg5 (by unfold IsArg; simp))).trans (W0_main_arg5 m ρ c)
theorem W2_main_arg5 (c : Dev nD) : W2 m ρ c (Proc.devRef .tc main_arg5) = m ((c : Thread nD τ).loc main_arg5) :=
  (show W2 m ρ c (Proc.devRef .tc main_arg5) = W1 m ρ c (Proc.devRef .tc main_arg5) from after_kept _ _ main_arg5 (hostOps0_1_keeps_args main_arg5 (by unfold IsArg; simp))).trans (W1_main_arg5 m ρ c)
theorem W3_main_arg5 (c : Dev nD) : W3 m ρ c (Proc.devRef .tc main_arg5) = m ((c : Thread nD τ).loc main_arg5) :=
  (show W3 m ρ c (Proc.devRef .tc main_arg5) = W2 m ρ c (Proc.devRef .tc main_arg5) from after_kept _ _ main_arg5 (hostOps0_2_keeps_args main_arg5 (by unfold IsArg; simp))).trans (W2_main_arg5 m ρ c)
theorem W4_main_arg5 (c : Dev nD) : W4 m ρ c (Proc.devRef .tc main_arg5) = m ((c : Thread nD τ).loc main_arg5) :=
  (show W4 m ρ c (Proc.devRef .tc main_arg5) = W3 m ρ c (Proc.devRef .tc main_arg5) from W4_of_ne m ρ c main_arg5 (by decide)).trans (W3_main_arg5 m ρ c)
theorem W5_main_arg5 (c : Dev nD) : W5 m ρ c (Proc.devRef .tc main_arg5) = m ((c : Thread nD τ).loc main_arg5) :=
  (show W5 m ρ c (Proc.devRef .tc main_arg5) = W4 m ρ c (Proc.devRef .tc main_arg5) from after_kept _ _ main_arg5 (hostOps1_keeps_args main_arg5 (by unfold IsArg; simp))).trans (W4_main_arg5 m ρ c)
theorem W6_main_arg5 (c : Dev nD) : W6 m ρ c (Proc.devRef .tc main_arg5) = m ((c : Thread nD τ).loc main_arg5) :=
  (show W6 m ρ c (Proc.devRef .tc main_arg5) = W5 m ρ c (Proc.devRef .tc main_arg5) from W6_of_ne m ρ c main_arg5 (by decide)).trans (W5_main_arg5 m ρ c)
theorem W7_main_arg5 (c : Dev nD) : W7 m ρ c (Proc.devRef .tc main_arg5) = m ((c : Thread nD τ).loc main_arg5) :=
  (show W7 m ρ c (Proc.devRef .tc main_arg5) = W6 m ρ c (Proc.devRef .tc main_arg5) from after_kept _ _ main_arg5 (hostOps2_keeps_args main_arg5 (by unfold IsArg; simp))).trans (W6_main_arg5 m ρ c)
theorem W8_main_arg5 (c : Dev nD) : W8 m ρ c (Proc.devRef .tc main_arg5) = m ((c : Thread nD τ).loc main_arg5) :=
  (show W8 m ρ c (Proc.devRef .tc main_arg5) = W7 m ρ c (Proc.devRef .tc main_arg5) from after_kept _ _ main_arg5 (hostOps2_1_keeps_args main_arg5 (by unfold IsArg; simp))).trans (W7_main_arg5 m ρ c)
theorem W9_main_arg5 (c : Dev nD) : W9 m ρ c (Proc.devRef .tc main_arg5) = m ((c : Thread nD τ).loc main_arg5) :=
  (show W9 m ρ c (Proc.devRef .tc main_arg5) = W8 m ρ c (Proc.devRef .tc main_arg5) from after_kept _ _ main_arg5 (hostOps2_2_keeps_args main_arg5 (by unfold IsArg; simp))).trans (W8_main_arg5 m ρ c)
theorem W10_main_arg5 (c : Dev nD) : W10 m ρ c (Proc.devRef .tc main_arg5) = m ((c : Thread nD τ).loc main_arg5) :=
  (show W10 m ρ c (Proc.devRef .tc main_arg5) = W9 m ρ c (Proc.devRef .tc main_arg5) from after_kept _ _ main_arg5 (hostOps2_3_keeps_args main_arg5 (by unfold IsArg; simp))).trans (W9_main_arg5 m ρ c)
theorem W11_main_arg5 (c : Dev nD) : W11 m ρ c (Proc.devRef .tc main_arg5) = m ((c : Thread nD τ).loc main_arg5) :=
  (show W11 m ρ c (Proc.devRef .tc main_arg5) = W10 m ρ c (Proc.devRef .tc main_arg5) from W11_of_ne m ρ c main_arg5 (by decide)).trans (W10_main_arg5 m ρ c)
theorem W12_main_arg5 (c : Dev nD) : W12 m ρ c (Proc.devRef .tc main_arg5) = m ((c : Thread nD τ).loc main_arg5) :=
  (show W12 m ρ c (Proc.devRef .tc main_arg5) = W11 m ρ c (Proc.devRef .tc main_arg5) from after_kept _ _ main_arg5 (hostOps3_keeps_args main_arg5 (by unfold IsArg; simp))).trans (W11_main_arg5 m ρ c)

theorem W0_main_arg6 (c : Dev nD) : W0 m ρ c (Proc.devRef .tc main_arg6) = m ((c : Thread nD τ).loc main_arg6) := rfl
theorem W1_main_arg6 (c : Dev nD) : W1 m ρ c (Proc.devRef .tc main_arg6) = m ((c : Thread nD τ).loc main_arg6) :=
  (show W1 m ρ c (Proc.devRef .tc main_arg6) = W0 m ρ c (Proc.devRef .tc main_arg6) from after_kept _ _ main_arg6 (hostOps0_keeps_args main_arg6 (by unfold IsArg; simp))).trans (W0_main_arg6 m ρ c)
theorem W2_main_arg6 (c : Dev nD) : W2 m ρ c (Proc.devRef .tc main_arg6) = m ((c : Thread nD τ).loc main_arg6) :=
  (show W2 m ρ c (Proc.devRef .tc main_arg6) = W1 m ρ c (Proc.devRef .tc main_arg6) from after_kept _ _ main_arg6 (hostOps0_1_keeps_args main_arg6 (by unfold IsArg; simp))).trans (W1_main_arg6 m ρ c)
theorem W3_main_arg6 (c : Dev nD) : W3 m ρ c (Proc.devRef .tc main_arg6) = m ((c : Thread nD τ).loc main_arg6) :=
  (show W3 m ρ c (Proc.devRef .tc main_arg6) = W2 m ρ c (Proc.devRef .tc main_arg6) from after_kept _ _ main_arg6 (hostOps0_2_keeps_args main_arg6 (by unfold IsArg; simp))).trans (W2_main_arg6 m ρ c)
theorem W4_main_arg6 (c : Dev nD) : W4 m ρ c (Proc.devRef .tc main_arg6) = m ((c : Thread nD τ).loc main_arg6) :=
  (show W4 m ρ c (Proc.devRef .tc main_arg6) = W3 m ρ c (Proc.devRef .tc main_arg6) from W4_of_ne m ρ c main_arg6 (by decide)).trans (W3_main_arg6 m ρ c)
theorem W5_main_arg6 (c : Dev nD) : W5 m ρ c (Proc.devRef .tc main_arg6) = m ((c : Thread nD τ).loc main_arg6) :=
  (show W5 m ρ c (Proc.devRef .tc main_arg6) = W4 m ρ c (Proc.devRef .tc main_arg6) from after_kept _ _ main_arg6 (hostOps1_keeps_args main_arg6 (by unfold IsArg; simp))).trans (W4_main_arg6 m ρ c)
theorem W6_main_arg6 (c : Dev nD) : W6 m ρ c (Proc.devRef .tc main_arg6) = m ((c : Thread nD τ).loc main_arg6) :=
  (show W6 m ρ c (Proc.devRef .tc main_arg6) = W5 m ρ c (Proc.devRef .tc main_arg6) from W6_of_ne m ρ c main_arg6 (by decide)).trans (W5_main_arg6 m ρ c)
theorem W7_main_arg6 (c : Dev nD) : W7 m ρ c (Proc.devRef .tc main_arg6) = m ((c : Thread nD τ).loc main_arg6) :=
  (show W7 m ρ c (Proc.devRef .tc main_arg6) = W6 m ρ c (Proc.devRef .tc main_arg6) from after_kept _ _ main_arg6 (hostOps2_keeps_args main_arg6 (by unfold IsArg; simp))).trans (W6_main_arg6 m ρ c)
theorem W8_main_arg6 (c : Dev nD) : W8 m ρ c (Proc.devRef .tc main_arg6) = m ((c : Thread nD τ).loc main_arg6) :=
  (show W8 m ρ c (Proc.devRef .tc main_arg6) = W7 m ρ c (Proc.devRef .tc main_arg6) from after_kept _ _ main_arg6 (hostOps2_1_keeps_args main_arg6 (by unfold IsArg; simp))).trans (W7_main_arg6 m ρ c)
theorem W9_main_arg6 (c : Dev nD) : W9 m ρ c (Proc.devRef .tc main_arg6) = m ((c : Thread nD τ).loc main_arg6) :=
  (show W9 m ρ c (Proc.devRef .tc main_arg6) = W8 m ρ c (Proc.devRef .tc main_arg6) from after_kept _ _ main_arg6 (hostOps2_2_keeps_args main_arg6 (by unfold IsArg; simp))).trans (W8_main_arg6 m ρ c)
theorem W10_main_arg6 (c : Dev nD) : W10 m ρ c (Proc.devRef .tc main_arg6) = m ((c : Thread nD τ).loc main_arg6) :=
  (show W10 m ρ c (Proc.devRef .tc main_arg6) = W9 m ρ c (Proc.devRef .tc main_arg6) from after_kept _ _ main_arg6 (hostOps2_3_keeps_args main_arg6 (by unfold IsArg; simp))).trans (W9_main_arg6 m ρ c)
theorem W11_main_arg6 (c : Dev nD) : W11 m ρ c (Proc.devRef .tc main_arg6) = m ((c : Thread nD τ).loc main_arg6) :=
  (show W11 m ρ c (Proc.devRef .tc main_arg6) = W10 m ρ c (Proc.devRef .tc main_arg6) from W11_of_ne m ρ c main_arg6 (by decide)).trans (W10_main_arg6 m ρ c)
theorem W12_main_arg6 (c : Dev nD) : W12 m ρ c (Proc.devRef .tc main_arg6) = m ((c : Thread nD τ).loc main_arg6) :=
  (show W12 m ρ c (Proc.devRef .tc main_arg6) = W11 m ρ c (Proc.devRef .tc main_arg6) from after_kept _ _ main_arg6 (hostOps3_keeps_args main_arg6 (by unfold IsArg; simp))).trans (W11_main_arg6 m ρ c)

theorem W0_main_arg7 (c : Dev nD) : W0 m ρ c (Proc.devRef .tc main_arg7) = m ((c : Thread nD τ).loc main_arg7) := rfl
theorem W1_main_arg7 (c : Dev nD) : W1 m ρ c (Proc.devRef .tc main_arg7) = m ((c : Thread nD τ).loc main_arg7) :=
  (show W1 m ρ c (Proc.devRef .tc main_arg7) = W0 m ρ c (Proc.devRef .tc main_arg7) from after_kept _ _ main_arg7 (hostOps0_keeps_args main_arg7 (by unfold IsArg; simp))).trans (W0_main_arg7 m ρ c)
theorem W2_main_arg7 (c : Dev nD) : W2 m ρ c (Proc.devRef .tc main_arg7) = m ((c : Thread nD τ).loc main_arg7) :=
  (show W2 m ρ c (Proc.devRef .tc main_arg7) = W1 m ρ c (Proc.devRef .tc main_arg7) from after_kept _ _ main_arg7 (hostOps0_1_keeps_args main_arg7 (by unfold IsArg; simp))).trans (W1_main_arg7 m ρ c)
theorem W3_main_arg7 (c : Dev nD) : W3 m ρ c (Proc.devRef .tc main_arg7) = m ((c : Thread nD τ).loc main_arg7) :=
  (show W3 m ρ c (Proc.devRef .tc main_arg7) = W2 m ρ c (Proc.devRef .tc main_arg7) from after_kept _ _ main_arg7 (hostOps0_2_keeps_args main_arg7 (by unfold IsArg; simp))).trans (W2_main_arg7 m ρ c)
theorem W4_main_arg7 (c : Dev nD) : W4 m ρ c (Proc.devRef .tc main_arg7) = m ((c : Thread nD τ).loc main_arg7) :=
  (show W4 m ρ c (Proc.devRef .tc main_arg7) = W3 m ρ c (Proc.devRef .tc main_arg7) from W4_of_ne m ρ c main_arg7 (by decide)).trans (W3_main_arg7 m ρ c)
theorem W5_main_arg7 (c : Dev nD) : W5 m ρ c (Proc.devRef .tc main_arg7) = m ((c : Thread nD τ).loc main_arg7) :=
  (show W5 m ρ c (Proc.devRef .tc main_arg7) = W4 m ρ c (Proc.devRef .tc main_arg7) from after_kept _ _ main_arg7 (hostOps1_keeps_args main_arg7 (by unfold IsArg; simp))).trans (W4_main_arg7 m ρ c)
theorem W6_main_arg7 (c : Dev nD) : W6 m ρ c (Proc.devRef .tc main_arg7) = m ((c : Thread nD τ).loc main_arg7) :=
  (show W6 m ρ c (Proc.devRef .tc main_arg7) = W5 m ρ c (Proc.devRef .tc main_arg7) from (W6_arr m ρ c 3).trans (((dat1 (V5 m ρ) c).arrAt_in 3 rfl _).trans (A_eq1 (V5 m ρ) c 3))).trans (W5_main_arg7 m ρ c)
theorem W7_main_arg7 (c : Dev nD) : W7 m ρ c (Proc.devRef .tc main_arg7) = m ((c : Thread nD τ).loc main_arg7) :=
  (show W7 m ρ c (Proc.devRef .tc main_arg7) = W6 m ρ c (Proc.devRef .tc main_arg7) from after_kept _ _ main_arg7 (hostOps2_keeps_args main_arg7 (by unfold IsArg; simp))).trans (W6_main_arg7 m ρ c)
theorem W8_main_arg7 (c : Dev nD) : W8 m ρ c (Proc.devRef .tc main_arg7) = m ((c : Thread nD τ).loc main_arg7) :=
  (show W8 m ρ c (Proc.devRef .tc main_arg7) = W7 m ρ c (Proc.devRef .tc main_arg7) from after_kept _ _ main_arg7 (hostOps2_1_keeps_args main_arg7 (by unfold IsArg; simp))).trans (W7_main_arg7 m ρ c)
theorem W9_main_arg7 (c : Dev nD) : W9 m ρ c (Proc.devRef .tc main_arg7) = m ((c : Thread nD τ).loc main_arg7) :=
  (show W9 m ρ c (Proc.devRef .tc main_arg7) = W8 m ρ c (Proc.devRef .tc main_arg7) from after_kept _ _ main_arg7 (hostOps2_2_keeps_args main_arg7 (by unfold IsArg; simp))).trans (W8_main_arg7 m ρ c)
theorem W10_main_arg7 (c : Dev nD) : W10 m ρ c (Proc.devRef .tc main_arg7) = m ((c : Thread nD τ).loc main_arg7) :=
  (show W10 m ρ c (Proc.devRef .tc main_arg7) = W9 m ρ c (Proc.devRef .tc main_arg7) from after_kept _ _ main_arg7 (hostOps2_3_keeps_args main_arg7 (by unfold IsArg; simp))).trans (W9_main_arg7 m ρ c)
theorem W11_main_arg7 (c : Dev nD) : W11 m ρ c (Proc.devRef .tc main_arg7) = m ((c : Thread nD τ).loc main_arg7) :=
  (show W11 m ρ c (Proc.devRef .tc main_arg7) = W10 m ρ c (Proc.devRef .tc main_arg7) from W11_of_ne m ρ c main_arg7 (by decide)).trans (W10_main_arg7 m ρ c)
theorem W12_main_arg7 (c : Dev nD) : W12 m ρ c (Proc.devRef .tc main_arg7) = m ((c : Thread nD τ).loc main_arg7) :=
  (show W12 m ρ c (Proc.devRef .tc main_arg7) = W11 m ρ c (Proc.devRef .tc main_arg7) from after_kept _ _ main_arg7 (hostOps3_keeps_args main_arg7 (by unfold IsArg; simp))).trans (W11_main_arg7 m ρ c)

theorem W0_main_arg8 (c : Dev nD) : W0 m ρ c (Proc.devRef .tc main_arg8) = m ((c : Thread nD τ).loc main_arg8) := rfl
theorem W1_main_arg8 (c : Dev nD) : W1 m ρ c (Proc.devRef .tc main_arg8) = m ((c : Thread nD τ).loc main_arg8) :=
  (show W1 m ρ c (Proc.devRef .tc main_arg8) = W0 m ρ c (Proc.devRef .tc main_arg8) from after_kept _ _ main_arg8 (hostOps0_keeps_args main_arg8 (by unfold IsArg; simp))).trans (W0_main_arg8 m ρ c)
theorem W2_main_arg8 (c : Dev nD) : W2 m ρ c (Proc.devRef .tc main_arg8) = m ((c : Thread nD τ).loc main_arg8) :=
  (show W2 m ρ c (Proc.devRef .tc main_arg8) = W1 m ρ c (Proc.devRef .tc main_arg8) from after_kept _ _ main_arg8 (hostOps0_1_keeps_args main_arg8 (by unfold IsArg; simp))).trans (W1_main_arg8 m ρ c)
theorem W3_main_arg8 (c : Dev nD) : W3 m ρ c (Proc.devRef .tc main_arg8) = m ((c : Thread nD τ).loc main_arg8) :=
  (show W3 m ρ c (Proc.devRef .tc main_arg8) = W2 m ρ c (Proc.devRef .tc main_arg8) from after_kept _ _ main_arg8 (hostOps0_2_keeps_args main_arg8 (by unfold IsArg; simp))).trans (W2_main_arg8 m ρ c)
theorem W4_main_arg8 (c : Dev nD) : W4 m ρ c (Proc.devRef .tc main_arg8) = m ((c : Thread nD τ).loc main_arg8) :=
  (show W4 m ρ c (Proc.devRef .tc main_arg8) = W3 m ρ c (Proc.devRef .tc main_arg8) from W4_of_ne m ρ c main_arg8 (by decide)).trans (W3_main_arg8 m ρ c)
theorem W5_main_arg8 (c : Dev nD) : W5 m ρ c (Proc.devRef .tc main_arg8) = m ((c : Thread nD τ).loc main_arg8) :=
  (show W5 m ρ c (Proc.devRef .tc main_arg8) = W4 m ρ c (Proc.devRef .tc main_arg8) from after_kept _ _ main_arg8 (hostOps1_keeps_args main_arg8 (by unfold IsArg; simp))).trans (W4_main_arg8 m ρ c)
theorem W6_main_arg8 (c : Dev nD) : W6 m ρ c (Proc.devRef .tc main_arg8) = m ((c : Thread nD τ).loc main_arg8) :=
  (show W6 m ρ c (Proc.devRef .tc main_arg8) = W5 m ρ c (Proc.devRef .tc main_arg8) from (W6_arr m ρ c 4).trans (((dat1 (V5 m ρ) c).arrAt_in 4 rfl _).trans (A_eq1 (V5 m ρ) c 4))).trans (W5_main_arg8 m ρ c)
theorem W7_main_arg8 (c : Dev nD) : W7 m ρ c (Proc.devRef .tc main_arg8) = m ((c : Thread nD τ).loc main_arg8) :=
  (show W7 m ρ c (Proc.devRef .tc main_arg8) = W6 m ρ c (Proc.devRef .tc main_arg8) from after_kept _ _ main_arg8 (hostOps2_keeps_args main_arg8 (by unfold IsArg; simp))).trans (W6_main_arg8 m ρ c)
theorem W8_main_arg8 (c : Dev nD) : W8 m ρ c (Proc.devRef .tc main_arg8) = m ((c : Thread nD τ).loc main_arg8) :=
  (show W8 m ρ c (Proc.devRef .tc main_arg8) = W7 m ρ c (Proc.devRef .tc main_arg8) from after_kept _ _ main_arg8 (hostOps2_1_keeps_args main_arg8 (by unfold IsArg; simp))).trans (W7_main_arg8 m ρ c)
theorem W9_main_arg8 (c : Dev nD) : W9 m ρ c (Proc.devRef .tc main_arg8) = m ((c : Thread nD τ).loc main_arg8) :=
  (show W9 m ρ c (Proc.devRef .tc main_arg8) = W8 m ρ c (Proc.devRef .tc main_arg8) from after_kept _ _ main_arg8 (hostOps2_2_keeps_args main_arg8 (by unfold IsArg; simp))).trans (W8_main_arg8 m ρ c)
theorem W10_main_arg8 (c : Dev nD) : W10 m ρ c (Proc.devRef .tc main_arg8) = m ((c : Thread nD τ).loc main_arg8) :=
  (show W10 m ρ c (Proc.devRef .tc main_arg8) = W9 m ρ c (Proc.devRef .tc main_arg8) from after_kept _ _ main_arg8 (hostOps2_3_keeps_args main_arg8 (by unfold IsArg; simp))).trans (W9_main_arg8 m ρ c)
theorem W11_main_arg8 (c : Dev nD) : W11 m ρ c (Proc.devRef .tc main_arg8) = m ((c : Thread nD τ).loc main_arg8) :=
  (show W11 m ρ c (Proc.devRef .tc main_arg8) = W10 m ρ c (Proc.devRef .tc main_arg8) from W11_of_ne m ρ c main_arg8 (by decide)).trans (W10_main_arg8 m ρ c)
theorem W12_main_arg8 (c : Dev nD) : W12 m ρ c (Proc.devRef .tc main_arg8) = m ((c : Thread nD τ).loc main_arg8) :=
  (show W12 m ρ c (Proc.devRef .tc main_arg8) = W11 m ρ c (Proc.devRef .tc main_arg8) from after_kept _ _ main_arg8 (hostOps3_keeps_args main_arg8 (by unfold IsArg; simp))).trans (W11_main_arg8 m ρ c)

theorem W0_main_arg9 (c : Dev nD) : W0 m ρ c (Proc.devRef .tc main_arg9) = m ((c : Thread nD τ).loc main_arg9) := rfl
theorem W1_main_arg9 (c : Dev nD) : W1 m ρ c (Proc.devRef .tc main_arg9) = m ((c : Thread nD τ).loc main_arg9) :=
  (show W1 m ρ c (Proc.devRef .tc main_arg9) = W0 m ρ c (Proc.devRef .tc main_arg9) from after_kept _ _ main_arg9 (hostOps0_keeps_args main_arg9 (by unfold IsArg; simp))).trans (W0_main_arg9 m ρ c)
theorem W2_main_arg9 (c : Dev nD) : W2 m ρ c (Proc.devRef .tc main_arg9) = m ((c : Thread nD τ).loc main_arg9) :=
  (show W2 m ρ c (Proc.devRef .tc main_arg9) = W1 m ρ c (Proc.devRef .tc main_arg9) from after_kept _ _ main_arg9 (hostOps0_1_keeps_args main_arg9 (by unfold IsArg; simp))).trans (W1_main_arg9 m ρ c)
theorem W3_main_arg9 (c : Dev nD) : W3 m ρ c (Proc.devRef .tc main_arg9) = m ((c : Thread nD τ).loc main_arg9) :=
  (show W3 m ρ c (Proc.devRef .tc main_arg9) = W2 m ρ c (Proc.devRef .tc main_arg9) from after_kept _ _ main_arg9 (hostOps0_2_keeps_args main_arg9 (by unfold IsArg; simp))).trans (W2_main_arg9 m ρ c)
theorem W4_main_arg9 (c : Dev nD) : W4 m ρ c (Proc.devRef .tc main_arg9) = m ((c : Thread nD τ).loc main_arg9) :=
  (show W4 m ρ c (Proc.devRef .tc main_arg9) = W3 m ρ c (Proc.devRef .tc main_arg9) from W4_of_ne m ρ c main_arg9 (by decide)).trans (W3_main_arg9 m ρ c)
theorem W5_main_arg9 (c : Dev nD) : W5 m ρ c (Proc.devRef .tc main_arg9) = m ((c : Thread nD τ).loc main_arg9) :=
  (show W5 m ρ c (Proc.devRef .tc main_arg9) = W4 m ρ c (Proc.devRef .tc main_arg9) from after_kept _ _ main_arg9 (hostOps1_keeps_args main_arg9 (by unfold IsArg; simp))).trans (W4_main_arg9 m ρ c)
theorem W6_main_arg9 (c : Dev nD) : W6 m ρ c (Proc.devRef .tc main_arg9) = m ((c : Thread nD τ).loc main_arg9) :=
  (show W6 m ρ c (Proc.devRef .tc main_arg9) = W5 m ρ c (Proc.devRef .tc main_arg9) from W6_of_ne m ρ c main_arg9 (by decide)).trans (W5_main_arg9 m ρ c)
theorem W7_main_arg9 (c : Dev nD) : W7 m ρ c (Proc.devRef .tc main_arg9) = m ((c : Thread nD τ).loc main_arg9) :=
  (show W7 m ρ c (Proc.devRef .tc main_arg9) = W6 m ρ c (Proc.devRef .tc main_arg9) from after_kept _ _ main_arg9 (hostOps2_keeps_args main_arg9 (by unfold IsArg; simp))).trans (W6_main_arg9 m ρ c)
theorem W8_main_arg9 (c : Dev nD) : W8 m ρ c (Proc.devRef .tc main_arg9) = m ((c : Thread nD τ).loc main_arg9) :=
  (show W8 m ρ c (Proc.devRef .tc main_arg9) = W7 m ρ c (Proc.devRef .tc main_arg9) from after_kept _ _ main_arg9 (hostOps2_1_keeps_args main_arg9 (by unfold IsArg; simp))).trans (W7_main_arg9 m ρ c)
theorem W9_main_arg9 (c : Dev nD) : W9 m ρ c (Proc.devRef .tc main_arg9) = m ((c : Thread nD τ).loc main_arg9) :=
  (show W9 m ρ c (Proc.devRef .tc main_arg9) = W8 m ρ c (Proc.devRef .tc main_arg9) from after_kept _ _ main_arg9 (hostOps2_2_keeps_args main_arg9 (by unfold IsArg; simp))).trans (W8_main_arg9 m ρ c)
theorem W10_main_arg9 (c : Dev nD) : W10 m ρ c (Proc.devRef .tc main_arg9) = m ((c : Thread nD τ).loc main_arg9) :=
  (show W10 m ρ c (Proc.devRef .tc main_arg9) = W9 m ρ c (Proc.devRef .tc main_arg9) from after_kept _ _ main_arg9 (hostOps2_3_keeps_args main_arg9 (by unfold IsArg; simp))).trans (W9_main_arg9 m ρ c)
theorem W11_main_arg9 (c : Dev nD) : W11 m ρ c (Proc.devRef .tc main_arg9) = m ((c : Thread nD τ).loc main_arg9) :=
  (show W11 m ρ c (Proc.devRef .tc main_arg9) = W10 m ρ c (Proc.devRef .tc main_arg9) from W11_of_ne m ρ c main_arg9 (by decide)).trans (W10_main_arg9 m ρ c)
theorem W12_main_arg9 (c : Dev nD) : W12 m ρ c (Proc.devRef .tc main_arg9) = m ((c : Thread nD τ).loc main_arg9) :=
  (show W12 m ρ c (Proc.devRef .tc main_arg9) = W11 m ρ c (Proc.devRef .tc main_arg9) from after_kept _ _ main_arg9 (hostOps3_keeps_args main_arg9 (by unfold IsArg; simp))).trans (W11_main_arg9 m ρ c)

theorem W0_main_arg10 (c : Dev nD) : W0 m ρ c (Proc.devRef .tc main_arg10) = m ((c : Thread nD τ).loc main_arg10) := rfl
theorem W1_main_arg10 (c : Dev nD) : W1 m ρ c (Proc.devRef .tc main_arg10) = m ((c : Thread nD τ).loc main_arg10) :=
  (show W1 m ρ c (Proc.devRef .tc main_arg10) = W0 m ρ c (Proc.devRef .tc main_arg10) from after_kept _ _ main_arg10 (hostOps0_keeps_args main_arg10 (by unfold IsArg; simp))).trans (W0_main_arg10 m ρ c)
theorem W2_main_arg10 (c : Dev nD) : W2 m ρ c (Proc.devRef .tc main_arg10) = m ((c : Thread nD τ).loc main_arg10) :=
  (show W2 m ρ c (Proc.devRef .tc main_arg10) = W1 m ρ c (Proc.devRef .tc main_arg10) from after_kept _ _ main_arg10 (hostOps0_1_keeps_args main_arg10 (by unfold IsArg; simp))).trans (W1_main_arg10 m ρ c)
theorem W3_main_arg10 (c : Dev nD) : W3 m ρ c (Proc.devRef .tc main_arg10) = m ((c : Thread nD τ).loc main_arg10) :=
  (show W3 m ρ c (Proc.devRef .tc main_arg10) = W2 m ρ c (Proc.devRef .tc main_arg10) from after_kept _ _ main_arg10 (hostOps0_2_keeps_args main_arg10 (by unfold IsArg; simp))).trans (W2_main_arg10 m ρ c)
theorem W4_main_arg10 (c : Dev nD) : W4 m ρ c (Proc.devRef .tc main_arg10) = m ((c : Thread nD τ).loc main_arg10) :=
  (show W4 m ρ c (Proc.devRef .tc main_arg10) = W3 m ρ c (Proc.devRef .tc main_arg10) from W4_of_ne m ρ c main_arg10 (by decide)).trans (W3_main_arg10 m ρ c)
theorem W5_main_arg10 (c : Dev nD) : W5 m ρ c (Proc.devRef .tc main_arg10) = m ((c : Thread nD τ).loc main_arg10) :=
  (show W5 m ρ c (Proc.devRef .tc main_arg10) = W4 m ρ c (Proc.devRef .tc main_arg10) from after_kept _ _ main_arg10 (hostOps1_keeps_args main_arg10 (by unfold IsArg; simp))).trans (W4_main_arg10 m ρ c)
theorem W6_main_arg10 (c : Dev nD) : W6 m ρ c (Proc.devRef .tc main_arg10) = m ((c : Thread nD τ).loc main_arg10) :=
  (show W6 m ρ c (Proc.devRef .tc main_arg10) = W5 m ρ c (Proc.devRef .tc main_arg10) from W6_of_ne m ρ c main_arg10 (by decide)).trans (W5_main_arg10 m ρ c)
theorem W7_main_arg10 (c : Dev nD) : W7 m ρ c (Proc.devRef .tc main_arg10) = m ((c : Thread nD τ).loc main_arg10) :=
  (show W7 m ρ c (Proc.devRef .tc main_arg10) = W6 m ρ c (Proc.devRef .tc main_arg10) from after_kept _ _ main_arg10 (hostOps2_keeps_args main_arg10 (by unfold IsArg; simp))).trans (W6_main_arg10 m ρ c)
theorem W8_main_arg10 (c : Dev nD) : W8 m ρ c (Proc.devRef .tc main_arg10) = m ((c : Thread nD τ).loc main_arg10) :=
  (show W8 m ρ c (Proc.devRef .tc main_arg10) = W7 m ρ c (Proc.devRef .tc main_arg10) from after_kept _ _ main_arg10 (hostOps2_1_keeps_args main_arg10 (by unfold IsArg; simp))).trans (W7_main_arg10 m ρ c)
theorem W9_main_arg10 (c : Dev nD) : W9 m ρ c (Proc.devRef .tc main_arg10) = m ((c : Thread nD τ).loc main_arg10) :=
  (show W9 m ρ c (Proc.devRef .tc main_arg10) = W8 m ρ c (Proc.devRef .tc main_arg10) from after_kept _ _ main_arg10 (hostOps2_2_keeps_args main_arg10 (by unfold IsArg; simp))).trans (W8_main_arg10 m ρ c)
theorem W10_main_arg10 (c : Dev nD) : W10 m ρ c (Proc.devRef .tc main_arg10) = m ((c : Thread nD τ).loc main_arg10) :=
  (show W10 m ρ c (Proc.devRef .tc main_arg10) = W9 m ρ c (Proc.devRef .tc main_arg10) from after_kept _ _ main_arg10 (hostOps2_3_keeps_args main_arg10 (by unfold IsArg; simp))).trans (W9_main_arg10 m ρ c)
theorem W11_main_arg10 (c : Dev nD) : W11 m ρ c (Proc.devRef .tc main_arg10) = m ((c : Thread nD τ).loc main_arg10) :=
  (show W11 m ρ c (Proc.devRef .tc main_arg10) = W10 m ρ c (Proc.devRef .tc main_arg10) from W11_of_ne m ρ c main_arg10 (by decide)).trans (W10_main_arg10 m ρ c)
theorem W12_main_arg10 (c : Dev nD) : W12 m ρ c (Proc.devRef .tc main_arg10) = m ((c : Thread nD τ).loc main_arg10) :=
  (show W12 m ρ c (Proc.devRef .tc main_arg10) = W11 m ρ c (Proc.devRef .tc main_arg10) from after_kept _ _ main_arg10 (hostOps3_keeps_args main_arg10 (by unfold IsArg; simp))).trans (W11_main_arg10 m ρ c)

theorem W0_main_arg11 (c : Dev nD) : W0 m ρ c (Proc.devRef .tc main_arg11) = m ((c : Thread nD τ).loc main_arg11) := rfl
theorem W1_main_arg11 (c : Dev nD) : W1 m ρ c (Proc.devRef .tc main_arg11) = m ((c : Thread nD τ).loc main_arg11) :=
  (show W1 m ρ c (Proc.devRef .tc main_arg11) = W0 m ρ c (Proc.devRef .tc main_arg11) from after_kept _ _ main_arg11 (hostOps0_keeps_args main_arg11 (by unfold IsArg; simp))).trans (W0_main_arg11 m ρ c)
theorem W2_main_arg11 (c : Dev nD) : W2 m ρ c (Proc.devRef .tc main_arg11) = m ((c : Thread nD τ).loc main_arg11) :=
  (show W2 m ρ c (Proc.devRef .tc main_arg11) = W1 m ρ c (Proc.devRef .tc main_arg11) from after_kept _ _ main_arg11 (hostOps0_1_keeps_args main_arg11 (by unfold IsArg; simp))).trans (W1_main_arg11 m ρ c)
theorem W3_main_arg11 (c : Dev nD) : W3 m ρ c (Proc.devRef .tc main_arg11) = m ((c : Thread nD τ).loc main_arg11) :=
  (show W3 m ρ c (Proc.devRef .tc main_arg11) = W2 m ρ c (Proc.devRef .tc main_arg11) from after_kept _ _ main_arg11 (hostOps0_2_keeps_args main_arg11 (by unfold IsArg; simp))).trans (W2_main_arg11 m ρ c)
theorem W4_main_arg11 (c : Dev nD) : W4 m ρ c (Proc.devRef .tc main_arg11) = m ((c : Thread nD τ).loc main_arg11) :=
  (show W4 m ρ c (Proc.devRef .tc main_arg11) = W3 m ρ c (Proc.devRef .tc main_arg11) from W4_of_ne m ρ c main_arg11 (by decide)).trans (W3_main_arg11 m ρ c)
theorem W5_main_arg11 (c : Dev nD) : W5 m ρ c (Proc.devRef .tc main_arg11) = m ((c : Thread nD τ).loc main_arg11) :=
  (show W5 m ρ c (Proc.devRef .tc main_arg11) = W4 m ρ c (Proc.devRef .tc main_arg11) from after_kept _ _ main_arg11 (hostOps1_keeps_args main_arg11 (by unfold IsArg; simp))).trans (W4_main_arg11 m ρ c)
theorem W6_main_arg11 (c : Dev nD) : W6 m ρ c (Proc.devRef .tc main_arg11) = m ((c : Thread nD τ).loc main_arg11) :=
  (show W6 m ρ c (Proc.devRef .tc main_arg11) = W5 m ρ c (Proc.devRef .tc main_arg11) from W6_of_ne m ρ c main_arg11 (by decide)).trans (W5_main_arg11 m ρ c)
theorem W7_main_arg11 (c : Dev nD) : W7 m ρ c (Proc.devRef .tc main_arg11) = m ((c : Thread nD τ).loc main_arg11) :=
  (show W7 m ρ c (Proc.devRef .tc main_arg11) = W6 m ρ c (Proc.devRef .tc main_arg11) from after_kept _ _ main_arg11 (hostOps2_keeps_args main_arg11 (by unfold IsArg; simp))).trans (W6_main_arg11 m ρ c)
theorem W8_main_arg11 (c : Dev nD) : W8 m ρ c (Proc.devRef .tc main_arg11) = m ((c : Thread nD τ).loc main_arg11) :=
  (show W8 m ρ c (Proc.devRef .tc main_arg11) = W7 m ρ c (Proc.devRef .tc main_arg11) from after_kept _ _ main_arg11 (hostOps2_1_keeps_args main_arg11 (by unfold IsArg; simp))).trans (W7_main_arg11 m ρ c)
theorem W9_main_arg11 (c : Dev nD) : W9 m ρ c (Proc.devRef .tc main_arg11) = m ((c : Thread nD τ).loc main_arg11) :=
  (show W9 m ρ c (Proc.devRef .tc main_arg11) = W8 m ρ c (Proc.devRef .tc main_arg11) from after_kept _ _ main_arg11 (hostOps2_2_keeps_args main_arg11 (by unfold IsArg; simp))).trans (W8_main_arg11 m ρ c)
theorem W10_main_arg11 (c : Dev nD) : W10 m ρ c (Proc.devRef .tc main_arg11) = m ((c : Thread nD τ).loc main_arg11) :=
  (show W10 m ρ c (Proc.devRef .tc main_arg11) = W9 m ρ c (Proc.devRef .tc main_arg11) from after_kept _ _ main_arg11 (hostOps2_3_keeps_args main_arg11 (by unfold IsArg; simp))).trans (W9_main_arg11 m ρ c)
theorem W11_main_arg11 (c : Dev nD) : W11 m ρ c (Proc.devRef .tc main_arg11) = m ((c : Thread nD τ).loc main_arg11) :=
  (show W11 m ρ c (Proc.devRef .tc main_arg11) = W10 m ρ c (Proc.devRef .tc main_arg11) from W11_of_ne m ρ c main_arg11 (by decide)).trans (W10_main_arg11 m ρ c)
theorem W12_main_arg11 (c : Dev nD) : W12 m ρ c (Proc.devRef .tc main_arg11) = m ((c : Thread nD τ).loc main_arg11) :=
  (show W12 m ρ c (Proc.devRef .tc main_arg11) = W11 m ρ c (Proc.devRef .tc main_arg11) from after_kept _ _ main_arg11 (hostOps3_keeps_args main_arg11 (by unfold IsArg; simp))).trans (W11_main_arg11 m ρ c)

theorem W0_main_arg12 (c : Dev nD) : W0 m ρ c (Proc.devRef .tc main_arg12) = m ((c : Thread nD τ).loc main_arg12) := rfl
theorem W1_main_arg12 (c : Dev nD) : W1 m ρ c (Proc.devRef .tc main_arg12) = m ((c : Thread nD τ).loc main_arg12) :=
  (show W1 m ρ c (Proc.devRef .tc main_arg12) = W0 m ρ c (Proc.devRef .tc main_arg12) from after_kept _ _ main_arg12 (hostOps0_keeps_args main_arg12 (by unfold IsArg; simp))).trans (W0_main_arg12 m ρ c)
theorem W2_main_arg12 (c : Dev nD) : W2 m ρ c (Proc.devRef .tc main_arg12) = m ((c : Thread nD τ).loc main_arg12) :=
  (show W2 m ρ c (Proc.devRef .tc main_arg12) = W1 m ρ c (Proc.devRef .tc main_arg12) from after_kept _ _ main_arg12 (hostOps0_1_keeps_args main_arg12 (by unfold IsArg; simp))).trans (W1_main_arg12 m ρ c)
theorem W3_main_arg12 (c : Dev nD) : W3 m ρ c (Proc.devRef .tc main_arg12) = m ((c : Thread nD τ).loc main_arg12) :=
  (show W3 m ρ c (Proc.devRef .tc main_arg12) = W2 m ρ c (Proc.devRef .tc main_arg12) from after_kept _ _ main_arg12 (hostOps0_2_keeps_args main_arg12 (by unfold IsArg; simp))).trans (W2_main_arg12 m ρ c)
theorem W4_main_arg12 (c : Dev nD) : W4 m ρ c (Proc.devRef .tc main_arg12) = m ((c : Thread nD τ).loc main_arg12) :=
  (show W4 m ρ c (Proc.devRef .tc main_arg12) = W3 m ρ c (Proc.devRef .tc main_arg12) from W4_of_ne m ρ c main_arg12 (by decide)).trans (W3_main_arg12 m ρ c)
theorem W5_main_arg12 (c : Dev nD) : W5 m ρ c (Proc.devRef .tc main_arg12) = m ((c : Thread nD τ).loc main_arg12) :=
  (show W5 m ρ c (Proc.devRef .tc main_arg12) = W4 m ρ c (Proc.devRef .tc main_arg12) from after_kept _ _ main_arg12 (hostOps1_keeps_args main_arg12 (by unfold IsArg; simp))).trans (W4_main_arg12 m ρ c)
theorem W6_main_arg12 (c : Dev nD) : W6 m ρ c (Proc.devRef .tc main_arg12) = m ((c : Thread nD τ).loc main_arg12) :=
  (show W6 m ρ c (Proc.devRef .tc main_arg12) = W5 m ρ c (Proc.devRef .tc main_arg12) from W6_of_ne m ρ c main_arg12 (by decide)).trans (W5_main_arg12 m ρ c)
theorem W7_main_arg12 (c : Dev nD) : W7 m ρ c (Proc.devRef .tc main_arg12) = m ((c : Thread nD τ).loc main_arg12) :=
  (show W7 m ρ c (Proc.devRef .tc main_arg12) = W6 m ρ c (Proc.devRef .tc main_arg12) from after_kept _ _ main_arg12 (hostOps2_keeps_args main_arg12 (by unfold IsArg; simp))).trans (W6_main_arg12 m ρ c)
theorem W8_main_arg12 (c : Dev nD) : W8 m ρ c (Proc.devRef .tc main_arg12) = m ((c : Thread nD τ).loc main_arg12) :=
  (show W8 m ρ c (Proc.devRef .tc main_arg12) = W7 m ρ c (Proc.devRef .tc main_arg12) from after_kept _ _ main_arg12 (hostOps2_1_keeps_args main_arg12 (by unfold IsArg; simp))).trans (W7_main_arg12 m ρ c)
theorem W9_main_arg12 (c : Dev nD) : W9 m ρ c (Proc.devRef .tc main_arg12) = m ((c : Thread nD τ).loc main_arg12) :=
  (show W9 m ρ c (Proc.devRef .tc main_arg12) = W8 m ρ c (Proc.devRef .tc main_arg12) from after_kept _ _ main_arg12 (hostOps2_2_keeps_args main_arg12 (by unfold IsArg; simp))).trans (W8_main_arg12 m ρ c)
theorem W10_main_arg12 (c : Dev nD) : W10 m ρ c (Proc.devRef .tc main_arg12) = m ((c : Thread nD τ).loc main_arg12) :=
  (show W10 m ρ c (Proc.devRef .tc main_arg12) = W9 m ρ c (Proc.devRef .tc main_arg12) from after_kept _ _ main_arg12 (hostOps2_3_keeps_args main_arg12 (by unfold IsArg; simp))).trans (W9_main_arg12 m ρ c)
theorem W11_main_arg12 (c : Dev nD) : W11 m ρ c (Proc.devRef .tc main_arg12) = m ((c : Thread nD τ).loc main_arg12) :=
  (show W11 m ρ c (Proc.devRef .tc main_arg12) = W10 m ρ c (Proc.devRef .tc main_arg12) from W11_of_ne m ρ c main_arg12 (by decide)).trans (W10_main_arg12 m ρ c)
theorem W12_main_arg12 (c : Dev nD) : W12 m ρ c (Proc.devRef .tc main_arg12) = m ((c : Thread nD τ).loc main_arg12) :=
  (show W12 m ρ c (Proc.devRef .tc main_arg12) = W11 m ρ c (Proc.devRef .tc main_arg12) from after_kept _ _ main_arg12 (hostOps3_keeps_args main_arg12 (by unfold IsArg; simp))).trans (W11_main_arg12 m ρ c)
/-- THE FRAME, at any `F`: @main terminates, nothing faults, and the thirteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W12_main_arg0 m ρ c),
    (h c _ (mem_uc main_arg1 (by decide))).trans (W12_main_arg1 m ρ c),
    (h c _ (mem_uc main_arg2 (by decide))).trans (W12_main_arg2 m ρ c),
    (h c _ (mem_uc main_arg3 (by decide))).trans (W12_main_arg3 m ρ c),
    (h c _ (mem_uc main_arg4 (by decide))).trans (W12_main_arg4 m ρ c),
    (h c _ (mem_uc main_arg5 (by decide))).trans (W12_main_arg5 m ρ c),
    (h c _ (mem_uc main_arg6 (by decide))).trans (W12_main_arg6 m ρ c),
    (h c _ (mem_uc main_arg7 (by decide))).trans (W12_main_arg7 m ρ c),
    (h c _ (mem_uc main_arg8 (by decide))).trans (W12_main_arg8 m ρ c),
    (h c _ (mem_uc main_arg9 (by decide))).trans (W12_main_arg9 m ρ c),
    (h c _ (mem_uc main_arg10 (by decide))).trans (W12_main_arg10 m ρ c),
    (h c _ (mem_uc main_arg11 (by decide))).trans (W12_main_arg11 m ρ c),
    (h c _ (mem_uc main_arg12 (by decide))).trans (W12_main_arg12 m ρ c)⟩) (run_all m ρ)

/-- The same run with the result buffer named: it ends at the last boundary's contents. -/
theorem run_value : θ_run defs (onTc (τ := τ) (main (F := F))) ⟨m, fun _ => 0, ρ⟩ (fun r => ∀ c : Dev nD,
      r.2.mem ((c.tc : Thread nD τ).loc main_v117) = W12 m ρ c (Proc.devRef .tc main_v117)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨h c _ (mem_uc main_v117 (by decide)), (h c _ (mem_uc main_arg0 (by decide))).trans (W12_main_arg0 m ρ c),
    (h c _ (mem_uc main_arg1 (by decide))).trans (W12_main_arg1 m ρ c),
    (h c _ (mem_uc main_arg2 (by decide))).trans (W12_main_arg2 m ρ c),
    (h c _ (mem_uc main_arg3 (by decide))).trans (W12_main_arg3 m ρ c),
    (h c _ (mem_uc main_arg4 (by decide))).trans (W12_main_arg4 m ρ c),
    (h c _ (mem_uc main_arg5 (by decide))).trans (W12_main_arg5 m ρ c),
    (h c _ (mem_uc main_arg6 (by decide))).trans (W12_main_arg6 m ρ c),
    (h c _ (mem_uc main_arg7 (by decide))).trans (W12_main_arg7 m ρ c),
    (h c _ (mem_uc main_arg8 (by decide))).trans (W12_main_arg8 m ρ c),
    (h c _ (mem_uc main_arg9 (by decide))).trans (W12_main_arg9 m ρ c),
    (h c _ (mem_uc main_arg10 (by decide))).trans (W12_main_arg10 m ρ c),
    (h c _ (mem_uc main_arg11 (by decide))).trans (W12_main_arg11 m ρ c),
    (h c _ (mem_uc main_arg12 (by decide))).trans (W12_main_arg12 m ρ c)⟩) (run_all m ρ)

end Cert.KernelIdeal.Hand

end
-- ==== Proof.Spec.lean ====
/-
  The network both programs compute after the graph aggregation, as plain functions on the extended reals.

  Arrays are read at coordinates: a matrix is a function `Fin n → Fin d → EReal`, a vector `Fin h → EReal`
  (`cur2`, `cur1` read a program's array, indexed by its shape's index type, at coordinates).
  `lin x W b` is the affine layer `x·W + b`. For a pre-activation `y` (rows `r`, columns `j`), row count `N` and `ε`:
  the ONE-PASS batch norm `bnK` forms per column `Σ y` and `Σ y·y`, `mean = Σ y / N`, the clamped variance
  `max (Σ y·y / N − mean·mean) 0`, `scale = γ · rsqrt (var + ε)`, `shift = β − mean · scale` and returns
  `max (y · scale + shift) 0`; the TWO-PASS batch norm `bnR` forms `mean`, the centred variance
  `Σ (y − mean)·(y − mean) / N` and returns `max (γ · (y − mean) · rsqrt (var + ε) + β) 0`.
  `netK` / `netR` are Linear → BN → ReLU twice, then Linear, with the one-pass / two-pass norm.
-/
import Idealize.ShloMosaic.PureOps.Ideal
import Idealize.ShloMosaic.Lib.ValueIdx

noncomputable section

namespace MlpSpec

open Idealize.ShloMosaic Idealize.ShloMosaic.ValueIdx

variable {n d h : ℕ}

/-- A program's rank-2 array read at coordinates. -/
def cur2 {a b : ℕ} (x : (⟨2, ![a, b]⟩ : Shape).Idx → EReal) (r : Fin a) (k : Fin b) : EReal := x (ix2 r k)
/-- A program's rank-1 array read at a coordinate. -/
def cur1 {a : ℕ} (x : (⟨1, ![a]⟩ : Shape).Idx → EReal) (k : Fin a) : EReal := x (ix1 k)

/-- The affine layer `x·W + b`. -/
def lin (x : Fin n → Fin d → EReal) (W : Fin d → Fin h → EReal) (b : Fin h → EReal) (r : Fin n) (j : Fin h) : EReal :=
  (∑ k : Fin d, x r k * W k j) + b j

/-- Column sum and column sum of squares. -/
def sum1 (y : Fin n → Fin h → EReal) (j : Fin h) : EReal := ∑ r : Fin n, y r j
def sum2 (y : Fin n → Fin h → EReal) (j : Fin h) : EReal := ∑ r : Fin n, y r j * y r j

/-- The column mean `Σ y / N`. -/
def mean (N : EReal) (y : Fin n → Fin h → EReal) (j : Fin h) : EReal := Ideal.div (sum1 y j) N

/-- One pass: the clamped variance, the scale and the shift. -/
def varK (N : EReal) (y : Fin n → Fin h → EReal) (j : Fin h) : EReal :=
  max (Ideal.div (sum2 y j) N - mean N y j * mean N y j) 0
def scaleK (N ε : EReal) (y : Fin n → Fin h → EReal) (g : Fin h → EReal) (j : Fin h) : EReal :=
  g j * Ideal.rsqrt (varK N y j + ε)
def shiftK (N ε : EReal) (y : Fin n → Fin h → EReal) (g β : Fin h → EReal) (j : Fin h) : EReal :=
  β j - mean N y j * scaleK N ε y g j
/-- One-pass batch norm followed by ReLU. -/
def bnK (N ε : EReal) (y : Fin n → Fin h → EReal) (g β : Fin h → EReal) (r : Fin n) (j : Fin h) : EReal :=
  max (y r j * scaleK N ε y g j + shiftK N ε y g β j) 0

/-- Two passes: the centred variance. -/
def varR (N : EReal) (y : Fin n → Fin h → EReal) (j : Fin h) : EReal :=
  Ideal.div (∑ r : Fin n, (y r j - mean N y j) * (y r j - mean N y j)) N
/-- Two-pass batch norm followed by ReLU. -/
def bnR (N ε : EReal) (y : Fin n → Fin h → EReal) (g β : Fin h → EReal) (r : Fin n) (j : Fin h) : EReal :=
  max (g j * (y r j - mean N y j) * Ideal.rsqrt (varR N y j + ε) + β j) 0

variable {h₁ h₂ h₃ : ℕ}

/-- The network with the one-pass norm (the kernel program). -/
def netK (N ε : EReal) (X : Fin n → Fin d → EReal)
    (W1 : Fin d → Fin h₁ → EReal) (b1 g1 be1 : Fin h₁ → EReal)
    (W2 : Fin h₁ → Fin h₂ → EReal) (b2 g2 be2 : Fin h₂ → EReal)
    (W3 : Fin h₂ → Fin h₃ → EReal) (b3 : Fin h₃ → EReal) : Fin n → Fin h₃ → EReal :=
  lin (bnK N ε (lin (bnK N ε (lin X W1 b1) g1 be1) W2 b2) g2 be2) W3 b3

/-- The network with the two-pass norm (the reference). -/
def netR (N ε : EReal) (X : Fin n → Fin d → EReal)
    (W1 : Fin d → Fin h₁ → EReal) (b1 g1 be1 : Fin h₁ → EReal)
    (W2 : Fin h₁ → Fin h₂ → EReal) (b2 g2 be2 : Fin h₂ → EReal)
    (W3 : Fin h₂ → Fin h₃ → EReal) (b3 : Fin h₃ → EReal) : Fin n → Fin h₃ → EReal :=
  lin (bnR N ε (lin (bnR N ε (lin X W1 b1) g1 be1) W2 b2) g2 be2) W3 b3

/-- Every entry is (the coercion of) a real number. -/
def Real2 {a b : ℕ} (x : Fin a → Fin b → EReal) : Prop := ∀ r k, ∃ v : ℝ, x r k = (v : EReal)
def Real1 {a : ℕ} (x : Fin a → EReal) : Prop := ∀ k, ∃ v : ℝ, x k = (v : EReal)

/-- Row `(g·10 + s)·5000 + q` of the 100000: block `s` of group `g`, row `q` inside the block. -/
def row3 (g : Fin 2) (s : Fin 10) (q : Fin 5000) : Fin 100000 := ⟨(g.val * 10 + s.val) * 5000 + q.val, by omega⟩

end MlpSpec

end
-- ==== Proof.KIV.R0Pay.lean ====
import proofs.«169417_j2877628089024_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue.R0

open Cert.KernelIdeal Cert.KernelIdeal.Gen
open Idealize.ShloMosaic Idealize.ShloMosaic.TcCoe Idealize.SL.Sem
open Idealize.ShloMosaic.ValueIdx
open scoped BigOperators

/-! # Region 0 at the ideal values: the body's payloads read at an index

The block product `y = x·W + b` of a 5000 × 64 block `x`, the 64 × 256 weights `W` and the bias `b`; its column
sums and column sums of squares added to a row of the accumulator. Roundings to bf16 are the identity at the ideal
values. -/

/-- The kernel's one contraction: 5000 × 64 by 64 × 256. -/
abbrev D0 : DotDims S5000x64 S64x256 S5000x256 := dot_S5000x64_S64x256_S5000x256_1_0_0_1_n_n

/-- The pre-activation of a block at row `q` and column `j`: `∑ₖ x q k · W k j + b j`. -/
def yblk (x0 : Vec Ideal S5000x64 .f32) (x1 : Vec Ideal S64x256 .f32) (x2 : Vec Ideal S256 .f32) (q : Fin 5000) (j : Fin 256) : EReal :=
  (∑ k : Fin 64, x0 (ix2 q k) * x1 (ix2 k j)) + x2 (ix1 j)

/-- The left operand's index at output `(q, j)` and contraction coordinate `k` is `(q, k)`. -/
theorem lhsIdx_D0 (q : Fin 5000) (j : Fin 256) (k : Fin 64) :
    D0.lhsIdx (ix2 q j) ((contrEquiv1 D0 64 rfl rfl).symm k) = ix2 q k := by
  funext a
  match a with
  | ⟨0, _⟩ => exact Fin.ext rfl
  | ⟨1, _⟩ => exact Fin.ext ((D0.lhsIdx_val_of_single (cl := 1) rfl (ix2 q j) _).trans (contrEquiv1_symm_val D0 64 rfl rfl k))

/-- The right operand's is `(k, j)`. -/
theorem rhsIdx_D0 (q : Fin 5000) (j : Fin 256) (k : Fin 64) :
    D0.rhsIdx (ix2 q j) ((contrEquiv1 D0 64 rfl rfl).symm k) = ix2 k j := by
  funext a
  match a with
  | ⟨0, _⟩ => exact Fin.ext ((D0.rhsIdx_val_of_single (cr := 0) rfl (ix2 q j) _).trans (contrEquiv1_symm_val D0 64 rfl rfl k))
  | ⟨1, _⟩ => exact Fin.ext rfl

/-- The block product with the bias, at an index. -/
theorem pay3_apply (x0 : Vec Ideal S5000x64 .f32) (x1 : Vec Ideal S64x256 .f32) (x2 : Vec Ideal S256 .f32) (q : Fin 5000) (j : Fin 256) :
    k0_pay3 (F := Ideal) x0 x1 x2 (ix2 q j) = yblk x0 x1 x2 q j := by
  unfold k0_pay3 yblk
  refine congrArg₂ (· + ·) ?_ ?_
  · refine (Ideal.matmul_constant_zero_apply D0 none _ _ (ix2 q j)).trans ?_
    refine (Equiv.sum_comp (contrEquiv1 D0 64 rfl rfl).symm _).symm.trans ?_
    refine Finset.sum_congr rfl fun k _ => ?_
    rw [lhsIdx_D0, rhsIdx_D0, shapeCast_self]
    rfl
  · refine (broadcastTo_1b_ab_apply _ _ q j).trans ?_
    exact shapeCast_a_1a_apply _ _ 0 j

/-- The stored product block (rounded to bf16: the identity at the ideal values), at an index. -/
theorem pay4_apply (x0 : Vec Ideal S5000x64 .f32) (x1 : Vec Ideal S64x256 .f32) (x2 : Vec Ideal S256 .f32) (q : Fin 5000) (j : Fin 256) :
    k0_pay4 (F := Ideal) x0 x1 x2 (ix2 q j) = yblk x0 x1 x2 q j :=
  pay3_apply x0 x1 x2 q j

/-- The column sum over a block's 5000 rows, as the lane reduction reads. -/
theorem colsum_apply (v : FVec Ideal S5000x256 .f32) (hacc : (0x00000000#32 : BitVec 32) = 0x00000000#32) (j : Fin 256) :
    multiReduction (F := Ideal) .add [0] S256 v 0x00000000#32 reduces_S5000x256_S256 (.inl rfl) hacc (ix1 j) = ∑ q : Fin 5000, v (ix2 q j) := by
  refine (Ideal.multiReduction_add_single v 0x00000000#32 reduces_S5000x256_S256 (.inl rfl) hacc (ix1 j)).trans ?_
  refine Finset.sum_congr rfl fun q _ => congrArg v ?_
  funext a
  match a with
  | ⟨0, _⟩ => exact Fin.ext rfl
  | ⟨1, _⟩ => exact Fin.ext rfl

/-- Row 0's new contents: what it held plus the block's column sums. -/
theorem pay5_apply (x0 : Vec Ideal S5000x64 .f32) (x1 : Vec Ideal S64x256 .f32) (x2 : Vec Ideal S256 .f32) (v15 : Vec Ideal S1x256 .f32) (j : Fin 256) :
    k0_pay5 (F := Ideal) x0 x1 x2 v15 (ix2 (0 : Fin 1) j) = v15 (ix2 (0 : Fin 1) j) + ∑ q : Fin 5000, yblk x0 x1 x2 q j := by
  unfold k0_pay5
  refine (shapeCast_a_1a_apply _ _ 0 j).trans ?_
  refine congrArg₂ (· + ·) ?_ ?_
  · exact shapeCast_1a_a_apply _ _ j
  · refine (colsum_apply _ rfl j).trans ?_
    exact Finset.sum_congr rfl fun q _ => pay3_apply x0 x1 x2 q j

/-- Row 1's new contents: what it held plus the block's column sums of squares. -/
theorem pay6_apply (x0 : Vec Ideal S5000x64 .f32) (x1 : Vec Ideal S64x256 .f32) (x2 : Vec Ideal S256 .f32) (v22 : Vec Ideal S1x256 .f32) (j : Fin 256) :
    k0_pay6 (F := Ideal) x0 x1 x2 v22 (ix2 (0 : Fin 1) j) = v22 (ix2 (0 : Fin 1) j) + ∑ q : Fin 5000, yblk x0 x1 x2 q j * yblk x0 x1 x2 q j := by
  unfold k0_pay6
  refine (shapeCast_a_1a_apply _ _ 0 j).trans ?_
  refine congrArg₂ (· + ·) ?_ ?_
  · exact shapeCast_1a_a_apply _ _ j
  · refine (colsum_apply _ rfl j).trans ?_
    exact Finset.sum_congr rfl fun q _ => congrArg₂ (· * ·) (pay3_apply x0 x1 x2 q j) (pay3_apply x0 x1 x2 q j)

/-- The reset stores zero everywhere. -/
theorem pay2_apply (i : S2x256.Idx) : k0_pay2 (F := Ideal) i = 0 := by
  unfold k0_pay2
  rw [shapeCast_self]
  exact Ideal.ofBits_zero_f32

/-- The copy-out: the accumulator under a leading unit axis. -/
theorem pay1_apply (v33 : Vec Ideal S2x256 .f32) (u : Fin 1) (a : Fin 2) (j : Fin 256) :
    k0_pay1 (F := Ideal) v33 (ix3 u a j) = v33 (ix2 a j) := by
  unfold k0_pay1
  exact shapeCast_ab_1ab_apply _ _ u a j

end Cert.KernelIdeal.HandValue.R0

end
-- ==== Proof.KIV.R0Pieces.lean ====
import proofs.«169417_j2877628089024_2_alg».proof.Proof.KI.R0
import proofs.«169417_j2877628089024_2_alg».proof.Proof.KIV.R0Pay

set_option maxRecDepth 16384

noncomputable section

namespace Cert.KernelIdeal.HandValue.R0

open Cert.KernelIdeal Cert.KernelIdeal.Gen
open Cert.KernelIdeal.Hand
open Idealize.ShloMosaic Idealize.ShloMosaic.TcCoe Idealize.ShloMosaic.Tactic Idealize.SL.Sem
open Idealize.ShloMosaic.ValueIdx
open scoped BigOperators

/-! # Region 0 at the ideal values: what each case leaves, read at an index

The pieces the body's runs found, read back: the product block is `y`; after cases B and C row 0 of the accumulator
is what it held plus the block's column sums of `y`, row 1 what it held plus those of `y·y`; after case A the same
over zero; case C's statistics block is the accumulator it leaves. -/

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Row 0, row 1 and the whole of the 2 × 256 accumulator, as the body's accesses name them. -/
abbrev R0r : Rect S2x256 := Rect.unit (s := S2x256) ![0, 0] S1x256.size inb_S2x256_S1x256_0_0
abbrev R1r : Rect S2x256 := Rect.unit (s := S2x256) ![1, 0] S1x256.size inb_S2x256_S1x256_1_0
abbrev Rw : Rect S2x256 := Rect.unit (s := S2x256) ![0, 0] S2x256.size inb_S2x256_S2x256_0_0

theorem R0r_idx (j : Fin 256) : R0r.idx (ix2 (0 : Fin 1) j) = ix2 (0 : Fin 2) j := by
  funext a
  match a with
  | ⟨0, _⟩ => exact Fin.ext rfl
  | ⟨1, _⟩ => exact Fin.ext (by show 0 + 1 * j.val = j.val; omega)
theorem R1r_idx (j : Fin 256) : R1r.idx (ix2 (0 : Fin 1) j) = ix2 (1 : Fin 2) j := by
  funext a
  match a with
  | ⟨0, _⟩ => exact Fin.ext rfl
  | ⟨1, _⟩ => exact Fin.ext (by show 0 + 1 * j.val = j.val; omega)
theorem Rw_idx (a : Fin 2) (j : Fin 256) : Rw.idx (ix2 a j) = ix2 a j := by
  funext b
  match b with
  | ⟨0, _⟩ => exact Fin.ext (by show 0 + 1 * a.val = a.val; omega)
  | ⟨1, _⟩ => exact Fin.ext (by show 0 + 1 * j.val = j.val; omega)

theorem not_mem_R1r (j : Fin 256) : ix2 (0 : Fin 2) j ∉ R1r.set := by
  rw [Rect.mem_set_unit]; intro h
  have h1 : 1 ≤ 0 := (h 0).1
  exact absurd h1 (Nat.not_succ_le_zero 0)
theorem idx_R1r_not_mem_R0r (x : S1x256.Idx) : R1r.idx x ∉ R0r.set := by
  rw [Rect.mem_set_unit]; intro h
  have h2 := (h 0).2
  have e : ((R1r.idx x) 0 : Nat) = 1 + 1 * (x 0).val := rfl
  rw [e] at h2
  have : (![0, 0] : Fin 2 → Nat) 0 + S1x256.size 0 = 1 := rfl
  omega

/-- Under two row stores (row 1 last) the accumulator's row 0 is the row-0 store's payload, -/
theorem canon_row0 (w1 w0 : Vec Ideal S1x256 .f32) (L : List (View.Piece (Elt Ideal) S2x256 .f32)) (j : Fin 256) :
    View.canon (Val := Elt Ideal) (⟨R1r, w1⟩ :: ⟨R0r, w0⟩ :: L) (ix2 (0 : Fin 2) j) = w0 (ix2 (0 : Fin 1) j) := by
  refine (View.canon_cons_of_not_mem (Val := Elt Ideal) (⟨R1r, w1⟩ : View.Piece (Elt Ideal) S2x256 .f32) (⟨R0r, w0⟩ :: L) (not_mem_R1r j)).trans ?_
  exact (congrArg (View.canon (Val := Elt Ideal) (⟨R0r, w0⟩ :: L)) (R0r_idx j).symm).trans (View.canon_cons_emb (Val := Elt Ideal) R0r w0 L (ix2 (0 : Fin 1) j))
/-- and its row 1 the row-1 store's. -/
theorem canon_row1 (w1 : Vec Ideal S1x256 .f32) (L : List (View.Piece (Elt Ideal) S2x256 .f32)) (j : Fin 256) :
    View.canon (Val := Elt Ideal) (⟨R1r, w1⟩ :: L) (ix2 (1 : Fin 2) j) = w1 (ix2 (0 : Fin 1) j) := by
  exact (congrArg (View.canon (Val := Elt Ideal) (⟨R1r, w1⟩ :: L)) (R1r_idx j).symm).trans (View.canon_cons_emb (Val := Elt Ideal) R1r w1 L (ix2 (0 : Fin 1) j))

/-- The reset's store: zero over the whole accumulator. -/
abbrev Pw : View.Piece (Elt Ideal) S2x256 .f32 := ⟨Rw, k0_pay2 (F := Ideal)⟩

/-- Two row stores cover the accumulator. -/
theorem cover_rows (w1 w0 : Vec Ideal S1x256 .f32) (y : S2x256.Idx) :
    ∃ p ∈ ([⟨R1r, w1⟩, ⟨R0r, w0⟩] : List (View.Piece (Elt Ideal) S2x256 .f32)), y ∈ p.1.set :=
  View.cover_of_tiledL (s := S2x256) ([⟨R1r, w1⟩, ⟨R0r, w0⟩] : List (View.Piece (Elt Ideal) S2x256 .f32)) S1x256.size (by sl_kernel_rfl) y

/-- After the reset a load of row 0 reads zero, -/
theorem readCov_reset_row0 (v : View sig .tc .vmem S2x256 .f32) (x : S1x256.Idx) :
    v.readCov (Val := Elt Ideal) [Pw] R0r.toLoadRect x = 0 := by
  refine (congrFun (View.readCov_eq_canon (Val := Elt Ideal) v [Pw] R0r.toLoadRect
    (fun y => ⟨Pw, List.mem_singleton_self _, View.mem_set_unit_zero hz2 inb_S2x256_S2x256_0_0 _⟩)) x).trans ?_
  show View.canon (Val := Elt Ideal) [Pw] _ = 0
  rw [View.canon_unit_zero hz2]
  exact pay2_apply _
/-- and, after row 0 has been stored, a load of row 1 still reads zero. -/
theorem readCov_reset_row1 (v : View sig .tc .vmem S2x256 .f32) (w0 : Vec Ideal S1x256 .f32) (x : S1x256.Idx) :
    v.readCov (Val := Elt Ideal) [⟨R0r, w0⟩, Pw] R1r.toLoadRect x = 0 := by
  refine (congrFun (View.readCov_eq_canon (Val := Elt Ideal) v [⟨R0r, w0⟩, Pw] R1r.toLoadRect
    (fun y => ⟨Pw, List.mem_cons_of_mem _ (List.mem_singleton_self _), View.mem_set_unit_zero hz2 inb_S2x256_S2x256_0_0 _⟩)) x).trans ?_
  show View.canon (Val := Elt Ideal) (⟨R0r, w0⟩ :: [Pw]) (R1r.idx x) = 0
  refine (View.canon_cons_of_not_mem (Val := Elt Ideal) (⟨R0r, w0⟩ : View.Piece (Elt Ideal) S2x256 .f32) [Pw] (idx_R1r_not_mem_R0r x)).trans ?_
  rw [View.canon_unit_zero hz2]
  exact pay2_apply _

/-! ## The product block -/

theorem out_A_3 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : cond0_0 i) (hc1 : ¬cond0_1 i)
    (x0 : Vec Ideal S5000x64 .f32) (x1 : Vec Ideal S64x256 .f32) (x2 : Vec Ideal S256 .f32) :
    out0_A_3 (F := Ideal) c i arg2 harg2 arg3 harg3 arg4 harg4 arg5 harg5 arg6 harg6 arg7 harg7 hc0 hc1 x0 x1 x2 = k0_pay4 (F := Ideal) x0 x1 x2 := by
  unfold out0_A_3
  rw [View.read_writes_eq_canon _ _ _ (cover0_A_3 c i arg2 harg2 arg3 harg3 arg4 harg4 arg5 harg5 arg6 harg6 arg7 harg7 hc0 hc1 x0 x1 x2)]
  unfold kernelRun0_A
  dsimp only
  sl_unfold_words
  rw [View.canon_unit_zero hz2]
  simp only [View.readAt_eq_ld, harg2.read_unread, harg3.read_unread, harg4.read_unread, View.ld_unit_zero (S := S5000x64) hz2, View.ld_unit_zero (S := S64x256) hz2, View.ld_unit_zero (S := S256) hz1]

theorem out_B_3 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : ¬cond0_1 i)
    (x0 : Vec Ideal S5000x64 .f32) (x1 : Vec Ideal S64x256 .f32) (x2 : Vec Ideal S256 .f32) (xs0 : Vec Ideal S2x256 .f32) :
    out0_B_3 (F := Ideal) c i arg2 harg2 arg3 harg3 arg4 harg4 arg5 harg5 arg6 harg6 arg7 harg7 hc0 hc1 x0 x1 x2 xs0 = k0_pay4 (F := Ideal) x0 x1 x2 := by
  unfold out0_B_3
  rw [View.read_writes_eq_canon _ _ _ (cover0_B_3 c i arg2 harg2 arg3 harg3 arg4 harg4 arg5 harg5 arg6 harg6 arg7 harg7 hc0 hc1 x0 x1 x2 xs0)]
  unfold kernelRun0_B
  dsimp only
  sl_unfold_words
  rw [View.canon_unit_zero hz2]
  simp only [View.readAt_eq_ld, harg2.read_unread, harg3.read_unread, harg4.read_unread, View.ld_unit_zero (S := S5000x64) hz2, View.ld_unit_zero (S := S64x256) hz2, View.ld_unit_zero (S := S256) hz1]

theorem out_C_3 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : cond0_1 i)
    (x0 : Vec Ideal S5000x64 .f32) (x1 : Vec Ideal S64x256 .f32) (x2 : Vec Ideal S256 .f32) (xs0 : Vec Ideal S2x256 .f32) :
    out0_C_3 (F := Ideal) c i arg2 harg2 arg3 harg3 arg4 harg4 arg5 harg5 arg6 harg6 arg7 harg7 hc0 hc1 x0 x1 x2 xs0 = k0_pay4 (F := Ideal) x0 x1 x2 := by
  unfold out0_C_3
  rw [View.read_writes_eq_canon _ _ _ (cover0_C_3 c i arg2 harg2 arg3 harg3 arg4 harg4 arg5 harg5 arg6 harg6 arg7 harg7 hc0 hc1 x0 x1 x2 xs0)]
  unfold kernelRun0_C
  dsimp only
  sl_unfold_words
  rw [View.canon_unit_zero hz2]
  simp only [View.readAt_eq_ld, harg2.read_unread, harg3.read_unread, harg4.read_unread, View.ld_unit_zero (S := S5000x64) hz2, View.ld_unit_zero (S := S64x256) hz2, View.ld_unit_zero (S := S256) hz1]

/-! ## The accumulator -/

theorem sout_B_row0 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : ¬cond0_1 i)
    (x0 : Vec Ideal S5000x64 .f32) (x1 : Vec Ideal S64x256 .f32) (x2 : Vec Ideal S256 .f32) (xs0 : Vec Ideal S2x256 .f32) (j : Fin 256) :
    sout0_B_0 (F := Ideal) c i arg2 harg2 arg3 harg3 arg4 harg4 arg5 harg5 arg6 harg6 arg7 harg7 hc0 hc1 x0 x1 x2 xs0 (ix2 (0 : Fin 2) j) = xs0 (ix2 (0 : Fin 2) j) + ∑ q : Fin 5000, yblk x0 x1 x2 q j := by
  unfold sout0_B_0
  rw [View.read_writes_eq_canon _ _ _ (scover0_B_0 c i arg2 harg2 arg3 harg3 arg4 harg4 arg5 harg5 arg6 harg6 arg7 harg7 hc0 hc1 x0 x1 x2 xs0)]
  unfold kernelRun0_B
  dsimp only
  sl_unfold_words
  simp only [View.readAt_eq_ld, harg2.read_unread, harg3.read_unread, harg4.read_unread, harg7.read_unread, View.ld_unit_zero (S := S5000x64) hz2, View.ld_unit_zero (S := S64x256) hz2, View.ld_unit_zero (S := S256) hz1]
  refine (canon_row0 _ _ _ j).trans ?_
  refine (pay5_apply x0 x1 x2 _ j).trans ?_
  exact congrArg (· + _) (congrArg xs0 (R0r_idx j))

theorem sout_B_row1 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : ¬cond0_1 i)
    (x0 : Vec Ideal S5000x64 .f32) (x1 : Vec Ideal S64x256 .f32) (x2 : Vec Ideal S256 .f32) (xs0 : Vec Ideal S2x256 .f32) (j : Fin 256) :
    sout0_B_0 (F := Ideal) c i arg2 harg2 arg3 harg3 arg4 harg4 arg5 harg5 arg6 harg6 arg7 harg7 hc0 hc1 x0 x1 x2 xs0 (ix2 (1 : Fin 2) j) = xs0 (ix2 (1 : Fin 2) j) + ∑ q : Fin 5000, yblk x0 x1 x2 q j * yblk x0 x1 x2 q j := by
  unfold sout0_B_0
  rw [View.read_writes_eq_canon _ _ _ (scover0_B_0 c i arg2 harg2 arg3 harg3 arg4 harg4 arg5 harg5 arg6 harg6 arg7 harg7 hc0 hc1 x0 x1 x2 xs0)]
  unfold kernelRun0_B
  dsimp only
  sl_unfold_words
  simp only [View.readAt_eq_ld, harg2.read_unread, harg3.read_unread, harg4.read_unread, harg7.read_unread, View.ld_unit_zero (S := S5000x64) hz2, View.ld_unit_zero (S := S64x256) hz2, View.ld_unit_zero (S := S256) hz1]
  refine (canon_row1 _ _ j).trans ?_
  refine (pay6_apply x0 x1 x2 _ j).trans ?_
  exact congrArg (· + _) (congrArg xs0 (R1r_idx j))

theorem sout_C_row0 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : cond0_1 i)
    (x0 : Vec Ideal S5000x64 .f32) (x1 : Vec Ideal S64x256 .f32) (x2 : Vec Ideal S256 .f32) (xs0 : Vec Ideal S2x256 .f32) (j : Fin 256) :
    sout0_C_0 (F := Ideal) c i arg2 harg2 arg3 harg3 arg4 harg4 arg5 harg5 arg6 harg6 arg7 harg7 hc0 hc1 x0 x1 x2 xs0 (ix2 (0 : Fin 2) j) = xs0 (ix2 (0 : Fin 2) j) + ∑ q : Fin 5000, yblk x0 x1 x2 q j := by
  unfold sout0_C_0
  rw [View.read_writes_eq_canon _ _ _ (scover0_C_0 c i arg2 harg2 arg3 harg3 arg4 harg4 arg5 harg5 arg6 harg6 arg7 harg7 hc0 hc1 x0 x1 x2 xs0)]
  unfold kernelRun0_C
  dsimp only
  sl_unfold_words
  simp only [View.readAt_eq_ld, harg2.read_unread, harg3.read_unread, harg4.read_unread, harg7.read_unread, View.ld_unit_zero (S := S5000x64) hz2, View.ld_unit_zero (S := S64x256) hz2, View.ld_unit_zero (S := S256) hz1]
  refine (canon_row0 _ _ _ j).trans ?_
  refine (pay5_apply x0 x1 x2 _ j).trans ?_
  exact congrArg (· + _) (congrArg xs0 (R0r_idx j))

theorem sout_C_row1 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : cond0_1 i)
    (x0 : Vec Ideal S5000x64 .f32) (x1 : Vec Ideal S64x256 .f32) (x2 : Vec Ideal S256 .f32) (xs0 : Vec Ideal S2x256 .f32) (j : Fin 256) :
    sout0_C_0 (F := Ideal) c i arg2 harg2 arg3 harg3 arg4 harg4 arg5 harg5 arg6 harg6 arg7 harg7 hc0 hc1 x0 x1 x2 xs0 (ix2 (1 : Fin 2) j) = xs0 (ix2 (1 : Fin 2) j) + ∑ q : Fin 5000, yblk x0 x1 x2 q j * yblk x0 x1 x2 q j := by
  unfold sout0_C_0
  rw [View.read_writes_eq_canon _ _ _ (scover0_C_0 c i arg2 harg2 arg3 harg3 arg4 harg4 arg5 harg5 arg6 harg6 arg7 harg7 hc0 hc1 x0 x1 x2 xs0)]
  unfold kernelRun0_C
  dsimp only
  sl_unfold_words
  simp only [View.readAt_eq_ld, harg2.read_unread, harg3.read_unread, harg4.read_unread, harg7.read_unread, View.ld_unit_zero (S := S5000x64) hz2, View.ld_unit_zero (S := S64x256) hz2, View.ld_unit_zero (S := S256) hz1]
  refine (canon_row1 _ _ j).trans ?_
  refine (pay6_apply x0 x1 x2 _ j).trans ?_
  exact congrArg (· + _) (congrArg xs0 (R1r_idx j))

theorem sout_A_row0 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : cond0_0 i) (hc1 : ¬cond0_1 i)
    (x0 : Vec Ideal S5000x64 .f32) (x1 : Vec Ideal S64x256 .f32) (x2 : Vec Ideal S256 .f32) (j : Fin 256) :
    sout0_A_0 (F := Ideal) c i arg2 harg2 arg3 harg3 arg4 harg4 arg5 harg5 arg6 harg6 arg7 harg7 hc0 hc1 x0 x1 x2 (ix2 (0 : Fin 2) j) = ∑ q : Fin 5000, yblk x0 x1 x2 q j := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  simp only [View.readAt_eq_ld, harg2.read_unread, harg3.read_unread, harg4.read_unread, View.ld_unit_zero (S := S5000x64) hz2, View.ld_unit_zero (S := S64x256) hz2, View.ld_unit_zero (S := S256) hz1]
  refine (canon_row0 _ _ _ j).trans ?_
  refine (pay5_apply x0 x1 x2 _ j).trans ?_
  rw [readCov_reset_row0, zero_add]

theorem sout_A_row1 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : cond0_0 i) (hc1 : ¬cond0_1 i)
    (x0 : Vec Ideal S5000x64 .f32) (x1 : Vec Ideal S64x256 .f32) (x2 : Vec Ideal S256 .f32) (j : Fin 256) :
    sout0_A_0 (F := Ideal) c i arg2 harg2 arg3 harg3 arg4 harg4 arg5 harg5 arg6 harg6 arg7 harg7 hc0 hc1 x0 x1 x2 (ix2 (1 : Fin 2) j) = ∑ q : Fin 5000, yblk x0 x1 x2 q j * yblk x0 x1 x2 q j := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  simp only [View.readAt_eq_ld, harg2.read_unread, harg3.read_unread, harg4.read_unread, View.ld_unit_zero (S := S5000x64) hz2, View.ld_unit_zero (S := S64x256) hz2, View.ld_unit_zero (S := S256) hz1]
  refine (canon_row1 _ _ j).trans ?_
  refine (pay6_apply x0 x1 x2 _ j).trans ?_
  rw [readCov_reset_row1, zero_add]

/-! ## The statistics block (case C): the accumulator the case leaves, under a leading unit axis -/

theorem out_C_4_row0 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : cond0_1 i)
    (x0 : Vec Ideal S5000x64 .f32) (x1 : Vec Ideal S64x256 .f32) (x2 : Vec Ideal S256 .f32) (xs0 : Vec Ideal S2x256 .f32) (u : Fin 1) (j : Fin 256) :
    out0_C_4 (F := Ideal) c i arg2 harg2 arg3 harg3 arg4 harg4 arg5 harg5 arg6 harg6 arg7 harg7 hc0 hc1 x0 x1 x2 xs0 (ix3 u (0 : Fin 2) j) = xs0 (ix2 (0 : Fin 2) j) + ∑ q : Fin 5000, yblk x0 x1 x2 q j := by
  unfold out0_C_4
  rw [View.read_writes_eq_canon _ _ _ (cover0_C_4 c i arg2 harg2 arg3 harg3 arg4 harg4 arg5 harg5 arg6 harg6 arg7 harg7 hc0 hc1 x0 x1 x2 xs0)]
  unfold kernelRun0_C
  dsimp only
  sl_unfold_words
  rw [View.canon_unit_zero hz3]
  simp only [View.readAt_eq_ld, harg2.read_unread, harg3.read_unread, harg4.read_unread, harg7.read_unread, View.ld_unit_zero (S := S5000x64) hz2, View.ld_unit_zero (S := S64x256) hz2, View.ld_unit_zero (S := S256) hz1]
  refine (pay1_apply _ u 0 j).trans ?_
  refine (congrFun (View.readCov_eq_canon (Val := Elt Ideal) arg7.view _ Rw.toLoadRect
    (fun y => cover_rows _ _ _)) (ix2 (0 : Fin 2) j)).trans ?_
  show View.canon (Val := Elt Ideal) _ (Rw.idx (ix2 (0 : Fin 2) j)) = _
  rw [Rw_idx]
  refine (canon_row0 _ _ _ j).trans ?_
  refine (pay5_apply x0 x1 x2 _ j).trans ?_
  exact congrArg (· + _) (congrArg xs0 (R0r_idx j))

theorem out_C_4_row1 (c : Dev nD) (i : grid0.Coords) (arg2 : Memref sig .tc .vmem S5000x64 .f32) (harg2 : arg2.IsWhole) (arg3 : Memref sig .tc .vmem S64x256 .f32) (harg3 : arg3.IsWhole) (arg4 : Memref sig .tc .vmem S256 .f32) (harg4 : arg4.IsWhole) (arg5 : Memref sig .tc .vmem S5000x256 .bf16) (harg5 : arg5.IsWhole) (arg6 : Memref sig .tc .vmem S1x2x256 .f32) (harg6 : arg6.IsWhole) (arg7 : Memref sig .tc .vmem S2x256 .f32) (harg7 : arg7.IsWhole) (hc0 : ¬cond0_0 i) (hc1 : cond0_1 i)
    (x0 : Vec Ideal S5000x64 .f32) (x1 : Vec Ideal S64x256 .f32) (x2 : Vec Ideal S256 .f32) (xs0 : Vec Ideal S2x256 .f32) (u : Fin 1) (j : Fin 256) :
    out0_C_4 (F := Ideal) c i arg2 harg2 arg3 harg3 arg4 harg4 arg5 harg5 arg6 harg6 arg7 harg7 hc0 hc1 x0 x1 x2 xs0 (ix3 u (1 : Fin 2) j) = xs0 (ix2 (1 : Fin 2) j) + ∑ q : Fin 5000, yblk x0 x1 x2 q j * yblk x0 x1 x2 q j := by
  unfold out0_C_4
  rw [View.read_writes_eq_canon _ _ _ (cover0_C_4 c i arg2 harg2 arg3 harg3 arg4 harg4 arg5 harg5 arg6 harg6 arg7 harg7 hc0 hc1 x0 x1 x2 xs0)]
  unfold kernelRun0_C
  dsimp only
  sl_unfold_words
  rw [View.canon_unit_zero hz3]
  simp only [View.readAt_eq_ld, harg2.read_unread, harg3.read_unread, harg4.read_unread, harg7.read_unread, View.ld_unit_zero (S := S5000x64) hz2, View.ld_unit_zero (S := S64x256) hz2, View.ld_unit_zero (S := S256) hz1]
  refine (pay1_apply _ u 1 j).trans ?_
  refine (congrFun (View.readCov_eq_canon (Val := Elt Ideal) arg7.view _ Rw.toLoadRect
    (fun y => cover_rows _ _ _)) (ix2 (1 : Fin 2) j)).trans ?_
  show View.canon (Val := Elt Ideal) _ (Rw.idx (ix2 (1 : Fin 2) j)) = _
  rw [Rw_idx]
  refine (canon_row1 _ _ j).trans ?_
  refine (pay6_apply x0 x1 x2 _ j).trans ?_
  exact congrArg (· + _) (congrArg xs0 (R1r_idx j))

end Cert.KernelIdeal.HandValue.R0

end
-- ==== Proof.KIV.R0Acc.lean ====
import proofs.«169417_j2877628089024_2_alg».proof.Proof.KIV.R0Pieces
import proofs.«169417_j2877628089024_2_alg».proof.Proof.Spec

set_option maxRecDepth 16384

noncomputable section

namespace Cert.KernelIdeal.HandValue.R0

open Cert.KernelIdeal Cert.KernelIdeal.Gen
open Cert.KernelIdeal.Hand MlpSpec
open Idealize.ShloMosaic Idealize.ShloMosaic.TcCoe Idealize.ShloMosaic.Tactic Idealize.SL.Sem
open Idealize.ShloMosaic.Pipeline (Dat)
open Idealize.ShloMosaic.ValueIdx
open scoped BigOperators

/-! # Region 0 at the ideal values: the accumulator point by point

The blocks the body reads are blocks of the region's arrays; so the pre-activation of a block is a block of rows of
`y = X·W + b`, and after point `t = 10·g + s` the accumulator holds, per column, the sums of `y` and of `y·y` over
the rows of blocks `10·g … 10·g + s`. -/

variable (V : (c : Dev nD) → (b : Ref sig .tc) → Buf (Elt Ideal) ((c : Thread nD τ).loc b))

/-- The first layer's pre-activation `X·W + b` of the arrays the region finds. -/
abbrev y0 (c : Dev nD) : Fin 100000 → Fin 256 → EReal :=
  lin (cur2 (V c main_v73)) (cur2 (V c main_arg3)) (cur1 (V c main_arg4))

/-- The printed index maps, decided over the grid: the feature and product blocks move with the point, the weights and
    the bias stay, the statistics block moves with the point's group. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 3) = t.val / 10 ∧ win0_4.index t (1 : Fin 3) = 0 ∧ win0_4.index t (2 : Fin 3) = 0 :=
  (by decide +kernel : ∀ t : Fin grid0.N, _)

/-- Row `q` of the feature block at point `t` is row `5000·t + q` of the features. -/
theorem iblk0_0_apply (c : Dev nD) (t : Fin cfg0.N) (q : Fin 5000) (k : Fin 64) (r : Fin 100000) (hr : r.val = t.val * 5000 + q.val) :
    iblk0 V c 0 t (ix2 q k) = cur2 (V c main_v73) r k := by
  show V c main_v73 (((cfg0.win 0).blk t).view.emb (ix2 q k)) = V c main_v73 (ix2 r k)
  refine congrArg _ ?_
  obtain ⟨e0, e1, -⟩ := idx_facts0 t
  funext a; apply Fin.ext
  match a with
  | ⟨0, _⟩ => show win0_0.index t (0 : Fin 2) * 5000 + 1 * q.val = r.val; omega
  | ⟨1, _⟩ => show win0_0.index t (1 : Fin 2) * 64 + 1 * k.val = k.val; omega

/-- The weights' block is the weights. -/
theorem iblk0_1_apply (c : Dev nD) (t : Fin cfg0.N) (k : Fin 64) (j : Fin 256) :
    iblk0 V c 1 t (ix2 k j) = cur2 (V c main_arg3) k j := by
  show V c main_arg3 (((cfg0.win 1).blk t).view.emb (ix2 k j)) = V c main_arg3 (ix2 k j)
  refine congrArg _ ?_
  obtain ⟨-, -, e2, e3, -⟩ := idx_facts0 t
  funext a; apply Fin.ext
  match a with
  | ⟨0, _⟩ => show win0_1.index t (0 : Fin 2) * 64 + 1 * k.val = k.val; omega
  | ⟨1, _⟩ => show win0_1.index t (1 : Fin 2) * 256 + 1 * j.val = j.val; omega

/-- The bias's block is the bias. -/
theorem iblk0_2_apply (c : Dev nD) (t : Fin cfg0.N) (j : Fin 256) :
    iblk0 V c 2 t (ix1 j) = cur1 (V c main_arg4) j := by
  show V c main_arg4 (((cfg0.win 2).blk t).view.emb (ix1 j)) = V c main_arg4 (ix1 j)
  refine congrArg _ ?_
  obtain ⟨-, -, -, -, e4, -⟩ := idx_facts0 t
  funext a; apply Fin.ext
  match a with
  | ⟨0, _⟩ => show win0_2.index t (0 : Fin 1) * 256 + 1 * j.val = j.val; omega

/-- The pre-activation of the block at point `t` is rows `5000·t …` of `y`. -/
theorem yblk_iblk (c : Dev nD) (t : Fin cfg0.N) (q : Fin 5000) (j : Fin 256) (r : Fin 100000) (hr : r.val = t.val * 5000 + q.val) :
    yblk (iblk0 V c 0 t) (iblk0 V c 1 t) (iblk0 V c 2 t) q j = y0 V c r j := by
  unfold yblk
  show _ = (∑ k : Fin 64, cur2 (V c main_v73) r k * cur2 (V c main_arg3) k j) + cur1 (V c main_arg4) j
  refine congrArg₂ (· + ·) (Finset.sum_congr rfl fun k _ => congrArg₂ (· * ·) ?_ ?_) ?_
  · exact iblk0_0_apply V c t q k r hr
  · exact iblk0_1_apply V c t k j
  · exact iblk0_2_apply V c t j

/-- Row `q` of block `m` of `y` (zero past the array: never read). -/
def Y (c : Dev nD) (m : ℕ) (q : Fin 5000) (j : Fin 256) : EReal :=
  if h : m * 5000 + q.val < 100000 then y0 V c ⟨m * 5000 + q.val, h⟩ j else 0

theorem yblk_eq_Y (c : Dev nD) (t : Fin cfg0.N) (q : Fin 5000) (j : Fin 256) :
    yblk (iblk0 V c 0 t) (iblk0 V c 1 t) (iblk0 V c 2 t) q j = Y V c t.val q j := by
  have hN : t.val < 20 := lt_of_lt_of_eq t.isLt (show cfg0.N = 20 from N_0)
  have h : t.val * 5000 + q.val < 100000 := by have := q.isLt; omega
  unfold Y
  rw [dif_pos h]
  exact yblk_iblk V c t q j ⟨t.val * 5000 + q.val, h⟩ rfl

/-! ## One point's step -/

/-- At a point that opens a group the accumulator is left at the block's column sums; -/
theorem acc_reset (c : Dev nD) (t : Fin cfg0.N) (h0 : t.val % 10 = 0) (j : Fin 256) :
    (outsAt0 V c t.val t.isLt).2.2 (ix2 (0 : Fin 2) j) = ∑ q : Fin 5000, Y V c t.val q j
    ∧ (outsAt0 V c t.val t.isLt).2.2 (ix2 (1 : Fin 2) j) = ∑ q : Fin 5000, Y V c t.val q j * Y V c t.val q j := by
  have h1 : ¬t.val % 10 = 9 := by omega
  rw [outsAt0_A V c t h0 h1]
  dsimp only
  constructor
  · refine (sout_A_row0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) j).trans ?_
    exact Finset.sum_congr rfl fun q _ => yblk_eq_Y V c t q j
  · refine (sout_A_row1 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) j).trans ?_
    exact Finset.sum_congr rfl fun q _ => congrArg₂ (· * ·) (yblk_eq_Y V c t q j) (yblk_eq_Y V c t q j)

/-- at any other point, at what the point before left plus the block's column sums. -/
theorem acc_step (c : Dev nD) (t : Fin cfg0.N) (h0 : ¬t.val % 10 = 0) (j : Fin 256) :
    (outsAt0 V c t.val t.isLt).2.2 (ix2 (0 : Fin 2) j) = (outsAt0 V c (t.val - 1) (Nat.lt_of_le_of_lt (Nat.sub_le _ _) t.isLt)).2.2 (ix2 (0 : Fin 2) j) + ∑ q : Fin 5000, Y V c t.val q j
    ∧ (outsAt0 V c t.val t.isLt).2.2 (ix2 (1 : Fin 2) j) = (outsAt0 V c (t.val - 1) (Nat.lt_of_le_of_lt (Nat.sub_le _ _) t.isLt)).2.2 (ix2 (1 : Fin 2) j) + ∑ q : Fin 5000, Y V c t.val q j * Y V c t.val q j := by
  by_cases h1 : t.val % 10 = 9
  · rw [outsAt0_C V c t h0 h1]
    dsimp only
    constructor
    · refine (sout_C_row0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2 j).trans ?_
      exact congrArg (_ + ·) (Finset.sum_congr rfl fun q _ => yblk_eq_Y V c t q j)
    · refine (sout_C_row1 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2 j).trans ?_
      exact congrArg (_ + ·) (Finset.sum_congr rfl fun q _ => congrArg₂ (· * ·) (yblk_eq_Y V c t q j) (yblk_eq_Y V c t q j))
  · rw [outsAt0_B V c t h0 h1]
    dsimp only
    constructor
    · refine (sout_B_row0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2 j).trans ?_
      exact congrArg (_ + ·) (Finset.sum_congr rfl fun q _ => yblk_eq_Y V c t q j)
    · refine (sout_B_row1 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2 j).trans ?_
      exact congrArg (_ + ·) (Finset.sum_congr rfl fun q _ => congrArg₂ (· * ·) (yblk_eq_Y V c t q j) (yblk_eq_Y V c t q j))

/-- At the point that closes a group the statistics block is left at the accumulator. -/
theorem stats_eq_acc (c : Dev nD) (t : Fin cfg0.N) (h1 : t.val % 10 = 9) (u : Fin 1) (j : Fin 256) :
    (outsAt0 V c t.val t.isLt).2.1 (ix3 u (0 : Fin 2) j) = (outsAt0 V c t.val t.isLt).2.2 (ix2 (0 : Fin 2) j)
    ∧ (outsAt0 V c t.val t.isLt).2.1 (ix3 u (1 : Fin 2) j) = (outsAt0 V c t.val t.isLt).2.2 (ix2 (1 : Fin 2) j) := by
  have h0 : ¬t.val % 10 = 0 := by omega
  rw [outsAt0_C V c t h0 h1]
  dsimp only
  constructor
  · exact (out_C_4_row0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2 u j).trans
      (sout_C_row0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2 j).symm
  · exact (out_C_4_row1 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2 u j).trans
      (sout_C_row1 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2 j).symm

/-! ## The accumulator after every point -/

/-- After point `n` the accumulator's rows hold the column sums of `y` and of `y·y` over the blocks of `n`'s group up
    to `n`. -/
theorem acc_inv (c : Dev nD) : ∀ (n : ℕ) (h : n < cfg0.N) (j : Fin 256),
    (outsAt0 V c n h).2.2 (ix2 (0 : Fin 2) j) = ∑ s ∈ Finset.range (n % 10 + 1), ∑ q : Fin 5000, Y V c (n / 10 * 10 + s) q j
    ∧ (outsAt0 V c n h).2.2 (ix2 (1 : Fin 2) j) = ∑ s ∈ Finset.range (n % 10 + 1), ∑ q : Fin 5000, Y V c (n / 10 * 10 + s) q j * Y V c (n / 10 * 10 + s) q j := by
  intro n
  induction n with
  | zero =>
    intro h j
    have e := acc_reset V c ⟨0, h⟩ rfl j
    simpa using e
  | succ m ih =>
    intro h j
    by_cases h0 : (m + 1) % 10 = 0
    · have e := acc_reset V c ⟨m + 1, h⟩ h0 j
      have hd : (m + 1) / 10 * 10 = m + 1 := by omega
      rw [h0, zero_add, Finset.sum_range_one, Finset.sum_range_one, add_zero, hd]
      exact e
    · have e := acc_step V c ⟨m + 1, h⟩ h0 j
      have ih' := ih (Nat.lt_of_succ_lt h) j
      have hm : (m + 1) % 10 = m % 10 + 1 := by omega
      have hd : (m + 1) / 10 = m / 10 := by omega
      have hs : m / 10 * 10 + (m % 10 + 1) = m + 1 := by omega
      rw [hm, hd, Finset.sum_range_succ, Finset.sum_range_succ _ (m % 10 + 1), hs]
      refine ⟨e.1.trans (congrArg (· + _) ?_), e.2.trans (congrArg (· + _) ?_)⟩
      · exact ih'.1
      · exact ih'.2

end Cert.KernelIdeal.HandValue.R0

end
-- ==== Proof.KIV.R0Value.lean ====
import proofs.«169417_j2877628089024_2_alg».proof.Proof.KIV.R0Acc
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue.R0

open Cert.KernelIdeal Cert.KernelIdeal.Gen
open Cert.KernelIdeal.Hand MlpSpec
open Idealize.ShloMosaic Idealize.ShloMosaic.TcCoe Idealize.ShloMosaic.Tactic Idealize.SL.Sem
open Idealize.ShloMosaic.Pipeline (Dat)
open Idealize.ShloMosaic.ValueIdx
open scoped BigOperators

/-! # Region 0 at the ideal values: the two result arrays

The product array ends holding `y = X·W + b` (every point writes its block of 5000 rows back); the statistics array
ends holding, per group `g` and column, the sums of `y` and of `y·y` over the group's 50000 rows (the point that closes
the group writes the accumulator back). -/

variable (V : (c : Dev nD) → (b : Ref sig .tc) → Buf (Elt Ideal) ((c : Thread nD τ).loc b))

/-! ## The product array -/

/-- `y` as contents of the product array. -/
def G3 (c : Dev nD) : S100000x256.Idx → EReal := fun i => y0 V c ⟨(i 0).val, (i 0).isLt⟩ ⟨(i 1).val, (i 1).isLt⟩

/-- After every point the product block's staging buffer holds the block's stored payload. -/
theorem out3_eq (c : Dev nD) (t : Fin cfg0.N) :
    (outsAt0 V c t.val t.isLt).1 = k0_pay4 (F := Ideal) (iblk0 V c 0 t) (iblk0 V c 1 t) (iblk0 V c 2 t) := by
  by_cases h0 : t.val % 10 = 0
  · have h1 : ¬t.val % 10 = 9 := by omega
    rw [outsAt0_A V c t h0 h1]
    dsimp only
    have e := out_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t)
    exact e
  · by_cases h1 : t.val % 10 = 9
    · rw [outsAt0_C V c t h0 h1]
      dsimp only
      have e := out_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2
      exact e
    · rw [outsAt0_B V c t h0 h1]
      dsimp only
      have e := out_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2
      exact e

/-- What point `t` writes back to the product array is block `t` of `y`. -/
theorem flushed3_eq (c : Dev nD) (t : Fin cfg0.N) :
    (dat0 V c).flushed 3 t = ((cfg0.win 3).blk t).view.read (Elt Ideal) (G3 V c) := by
  show (cfg0.win 3).cut (grid0.coords t) ((dat0 V c).after 3 t) = _
  rw [after0_3, out3_eq]
  funext y
  obtain ⟨q, j, rfl⟩ : ∃ (q : Fin 5000) (j : Fin 256), y = ix2 q j := ⟨y 0, y 1, eq_ix2 y⟩
  show k0_pay4 (F := Ideal) (iblk0 V c 0 t) (iblk0 V c 1 t) (iblk0 V c 2 t) (ix2 q j) = G3 V c (((cfg0.win 3).blk t).view.emb (ix2 q j))
  have hN : t.val < 20 := lt_of_lt_of_eq t.isLt (show cfg0.N = 20 from N_0)
  have hr : t.val * 5000 + q.val < 100000 := by have := q.isLt; omega
  obtain ⟨-, -, -, -, -, e5, e6, -⟩ := idx_facts0 t
  refine (pay4_apply (iblk0 V c 0 t) (iblk0 V c 1 t) (iblk0 V c 2 t) q j).trans ?_
  refine (yblk_iblk V c t q j ⟨t.val * 5000 + q.val, hr⟩ rfl).trans ?_
  unfold G3
  refine congrArg₂ (y0 V c) (Fin.ext ?_) (Fin.ext ?_)
  · show t.val * 5000 + q.val = win0_3.index t (0 : Fin 2) * 5000 + 1 * q.val; omega
  · show j.val = win0_3.index t (1 : Fin 2) * 256 + 1 * j.val; omega

/-- An index of the product array is in point `t`'s block iff each coordinate is in the block's range. -/
theorem mem_blk3 (t : Fin cfg0.N) (i : S100000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v74_0).slice (win0_3.rect t)).set ↔ _
  rw [View.set_slice_whole, Rect.mem_set_unit]
  exact Iff.rfl

/-- Row `r` is in the block of point `r / 5000`. -/
theorem cover3 (i : S100000x256.Idx) : ∃ t : Fin cfg0.N, (cfg0.win 3).flush t = true ∧ i ∈ ((cfg0.win 3).blk t).view.set := by
  have hi0 : (i 0).val < 100000 := (i 0).isLt
  have hi1 : (i 1).val < 256 := (i 1).isLt
  obtain ⟨t, ht⟩ : ∃ t : Fin cfg0.N, t.val = (i 0).val / 5000 := ⟨⟨(i 0).val / 5000, by rw [show cfg0.N = 20 from N_0]; omega⟩, rfl⟩
  refine ⟨t, flush0_3 t, ?_⟩
  rw [mem_blk3]
  obtain ⟨-, -, -, -, -, e5, e6, -⟩ := idx_facts0 t
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 256 ≤ (i 1).val ∧ (i 1).val < win0_3.index t (1 : Fin 2) * 256 + 256; omega

/-- The product array after the region. -/
theorem final3 (c : Dev nD) : (dat0 V c).arrAt 3 cfg0.N = G3 V c :=
  (dat0 V c).arrAt_eq_of_cover 3 (G3 V c) (fun t _ => flushed3_eq V c t) cover3

/-! ## The statistics array -/

/-- A group's column sums of `y` and of `y·y`. -/
def S1tot (c : Dev nD) (g : Fin 2) (j : Fin 256) : EReal := ∑ s : Fin 10, ∑ q : Fin 5000, y0 V c (row3 g s q) j
def S2tot (c : Dev nD) (g : Fin 2) (j : Fin 256) : EReal := ∑ s : Fin 10, ∑ q : Fin 5000, y0 V c (row3 g s q) j * y0 V c (row3 g s q) j

/-- The statistics at natural coordinates (zero outside the array: never read). -/
def statAt (c : Dev nD) (g a j : ℕ) : EReal :=
  if hg : g < 2 then if hj : j < 256 then (if a = 0 then S1tot V c ⟨g, hg⟩ ⟨j, hj⟩ else S2tot V c ⟨g, hg⟩ ⟨j, hj⟩) else 0 else 0

/-- The statistics as contents of their array. -/
def G4 (c : Dev nD) : S2x2x256.Idx → EReal := fun i => statAt V c (i 0).val (i 1).val (i 2).val

theorem G4_apply (c : Dev nD) (i : S2x2x256.Idx) (g a j : ℕ) (h0 : (i 0).val = g) (h1 : (i 1).val = a) (h2 : (i 2).val = j) :
    G4 V c i = statAt V c g a j := by
  subst h0 h1 h2; rfl

/-- After the point that closes group `g` the accumulator holds the group's sums. -/
theorem acc_total (c : Dev nD) (t : Fin cfg0.N) (h1 : t.val % 10 = 9) (g : Fin 2) (hg : g.val = t.val / 10) (j : Fin 256) :
    (outsAt0 V c t.val t.isLt).2.2 (ix2 (0 : Fin 2) j) = S1tot V c g j
    ∧ (outsAt0 V c t.val t.isLt).2.2 (ix2 (1 : Fin 2) j) = S2tot V c g j := by
  have hN : t.val < 20 := lt_of_lt_of_eq t.isLt (show cfg0.N = 20 from N_0)
  obtain ⟨e1, e2⟩ := acc_inv V c t.val t.isLt j
  rw [h1] at e1 e2
  have hY : ∀ (s : Fin 10) (q : Fin 5000), Y V c (t.val / 10 * 10 + s.val) q j = y0 V c (row3 g s q) j := fun s q => by
    have hs := s.isLt; have hq := q.isLt
    have hlt : (t.val / 10 * 10 + s.val) * 5000 + q.val < 100000 := by omega
    unfold Y
    rw [dif_pos hlt]
    exact congrArg (fun r => y0 V c r j) (Fin.ext (by show (t.val / 10 * 10 + s.val) * 5000 + q.val = (g.val * 10 + s.val) * 5000 + q.val; rw [hg]))
  constructor
  · refine e1.trans ?_
    refine (Finset.sum_range (n := 10) fun s => ∑ q : Fin 5000, Y V c (t.val / 10 * 10 + s) q j).trans ?_
    exact Finset.sum_congr rfl fun s _ => Finset.sum_congr rfl fun q _ => hY s q
  · refine e2.trans ?_
    refine (Finset.sum_range (n := 10) fun s => ∑ q : Fin 5000, Y V c (t.val / 10 * 10 + s) q j * Y V c (t.val / 10 * 10 + s) q j).trans ?_
    exact Finset.sum_congr rfl fun s _ => Finset.sum_congr rfl fun q _ => congrArg₂ (· * ·) (hY s q) (hY s q)

/-- What a group's closing point writes back to the statistics array is the group's block of the statistics. -/
theorem flushed4_eq (c : Dev nD) (t : Fin cfg0.N) (hf : (cfg0.win 4).flush t = true) :
    (dat0 V c).flushed 4 t = ((cfg0.win 4).blk t).view.read (Elt Ideal) (G4 V c) := by
  have h1 : t.val % 10 = 9 := (flush0_4 t).mp hf
  have hN : t.val < 20 := lt_of_lt_of_eq t.isLt (show cfg0.N = 20 from N_0)
  show (cfg0.win 4).cut (grid0.coords t) ((dat0 V c).after 4 t) = _
  rw [after0_4]
  funext y
  obtain ⟨u, a, j, rfl⟩ : ∃ (u : Fin 1) (a : Fin 2) (j : Fin 256), y = ix3 u a j := ⟨y 0, y 1, y 2, eq_ix3 y⟩
  show (outsAt0 V c t.val t.isLt).2.1 (ix3 u a j) = G4 V c (((cfg0.win 4).blk t).view.emb (ix3 u a j))
  obtain ⟨-, -, -, -, -, -, -, e7, e8, e9⟩ := idx_facts0 t
  have hu : u.val = 0 := by omega
  have hgl : t.val / 10 < 2 := by omega
  rw [G4_apply V c _ (t.val / 10) a.val j.val
    (by show win0_4.index t (0 : Fin 3) * 1 + 1 * u.val = t.val / 10; omega)
    (by show win0_4.index t (1 : Fin 3) * 2 + 1 * a.val = a.val; omega)
    (by show win0_4.index t (2 : Fin 3) * 256 + 1 * j.val = j.val; omega)]
  obtain ⟨s0, s1⟩ := stats_eq_acc V c t h1 u j
  obtain ⟨a0, a1⟩ := acc_total V c t h1 ⟨t.val / 10, hgl⟩ rfl j
  unfold statAt
  rw [dif_pos hgl, dif_pos j.isLt]
  match a with
  | ⟨0, _⟩ => exact s0.trans (a0.trans (if_pos rfl).symm)
  | ⟨1, _⟩ => exact s1.trans (a1.trans (if_neg Nat.one_ne_zero).symm)

/-- An index of the statistics array is in point `t`'s block iff each coordinate is in the block's range. -/
theorem mem_blk4 (t : Fin cfg0.N) (i : S2x2x256.Idx) :
    i ∈ ((cfg0.win 4).blk t).view.set ↔ ∀ a : Fin 3, win0_4.index t a * S1x2x256.size a ≤ (i a).val ∧ (i a).val < win0_4.index t a * S1x2x256.size a + S1x2x256.size a := by
  show i ∈ ((View.whole main_v74_1).slice (win0_4.rect t)).set ↔ _
  rw [View.set_slice_whole, Rect.mem_set_unit]
  exact Iff.rfl

/-- Group `g`'s statistics are in the block of the point that closes the group. -/
theorem cover4 (i : S2x2x256.Idx) : ∃ t : Fin cfg0.N, (cfg0.win 4).flush t = true ∧ i ∈ ((cfg0.win 4).blk t).view.set := by
  have hi0 : (i 0).val < 2 := (i 0).isLt
  have hi1 : (i 1).val < 2 := (i 1).isLt
  have hi2 : (i 2).val < 256 := (i 2).isLt
  obtain ⟨t, ht⟩ : ∃ t : Fin cfg0.N, t.val = (i 0).val * 10 + 9 := ⟨⟨(i 0).val * 10 + 9, by rw [show cfg0.N = 20 from N_0]; omega⟩, rfl⟩
  refine ⟨t, (flush0_4 t).mpr (by omega), ?_⟩
  rw [mem_blk4]
  obtain ⟨-, -, -, -, -, -, -, e7, e8, e9⟩ := idx_facts0 t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2 ≤ (i 1).val ∧ (i 1).val < win0_4.index t (1 : Fin 3) * 2 + 2; omega
  | ⟨2, _⟩ => show win0_4.index t (2 : Fin 3) * 256 ≤ (i 2).val ∧ (i 2).val < win0_4.index t (2 : Fin 3) * 256 + 256; omega

/-- The statistics array after the region. -/
theorem final4 (c : Dev nD) : (dat0 V c).arrAt 4 cfg0.N = G4 V c :=
  (dat0 V c).arrAt_eq_of_cover 4 (G4 V c) (flushed4_eq V c) cover4

end Cert.KernelIdeal.HandValue.R0

namespace Cert.KernelIdeal.HandValue

open Cert.KernelIdeal Cert.KernelIdeal.Gen
open Cert.KernelIdeal.Hand MlpSpec Cert.KernelIdeal.HandValue.R0
open Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- THE PRODUCT ARRAY after region 0: the first layer's pre-activation `X·W + b`. -/
theorem x1_value (c : Dev nD) (r : Fin 100000) (j : Fin 256) :
    (dat0 (F := Ideal) V c).arrAt 3 cfg0.N (ix2 r j)
      = lin (cur2 (V c main_v73)) (cur2 (V c main_arg3)) (cur1 (V c main_arg4)) r j :=
  congrFun (final3 V c) (ix2 r j)

/-- THE STATISTICS ARRAY after region 0: per group and column, the sums of the pre-activation and of its square over
    the group's rows. -/
theorem stats1_value (c : Dev nD) (g : Fin 2) (j : Fin 256) :
    (dat0 (F := Ideal) V c).arrAt 4 cfg0.N (ix3 g (0 : Fin 2) j)
        = ∑ s : Fin 10, ∑ q : Fin 5000, lin (cur2 (V c main_v73)) (cur2 (V c main_arg3)) (cur1 (V c main_arg4)) (row3 g s q) j
    ∧ (dat0 (F := Ideal) V c).arrAt 4 cfg0.N (ix3 g (1 : Fin 2) j)
        = ∑ s : Fin 10, ∑ q : Fin 5000, lin (cur2 (V c main_v73)) (cur2 (V c main_arg3)) (cur1 (V c main_arg4)) (row3 g s q) j
            * lin (cur2 (V c main_v73)) (cur2 (V c main_arg3)) (cur1 (V c main_arg4)) (row3 g s q) j := by
  constructor
  · refine (congrFun (final4 V c) (ix3 g (0 : Fin 2) j)).trans ?_
    show statAt V c g.val 0 j.val = _
    unfold statAt
    rw [dif_pos g.isLt, dif_pos j.isLt, if_pos rfl]
    rfl
  · refine (congrFun (final4 V c) (ix3 g (1 : Fin 2) j)).trans ?_
    show statAt V c g.val 1 j.val = _
    unfold statAt
    rw [dif_pos g.isLt, dif_pos j.isLt, if_neg Nat.one_ne_zero]
    rfl

end Cert.KernelIdeal.HandValue

end
-- ==== Proof.KIV.R1Pay.lean ====
import proofs.«169417_j2877628089024_2_alg».proof.Proof.Gen.KernelIdeal.Skeleton
import proofs.«169417_j2877628089024_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The second pallas_call's arithmetic, entry by entry

Over the extended reals a change of float format is the identity, a matrix product onto a zero accumulator is
the plain sum of products, and a reduction along the rows is the plain sum.  So, for one 5000 × 256 block `x0` of
activations and the four parameter arrays `x1` (scale), `x2` (shift), `x3` (weights), `x4` (bias):

* the block the body computes (`k1_pay4`, stored as `k1_pay5`) is, at row `q` and column `j`,
  `Σ_k max (x0 q k · x1 k + x2 k) 0 · x3 k j + x4 j`;
* the accumulator's row 0 gains that block's column sums (`k1_pay6`), its row 1 the column sums of the squares (`k1_pay1`);
* clearing stores zeros (`k1_pay3`), and copying out only re-indexes (`k1_pay2`).
-/

set_option maxRecDepth 16384

noncomputable section

namespace Cert.KernelIdeal.HandValue.R1

open Cert.KernelIdeal Cert.KernelIdeal.Gen
open MlpSpec Idealize.ShloMosaic Idealize.ShloMosaic.ValueIdx

/-- relu(x·scale + shift) of one block, by coordinates. -/
def act1 (x0 : Vec Ideal S5000x256 .bf16) (x1 x2 : Vec Ideal S256 .f32) : Fin 5000 → Fin 256 → EReal :=
  fun q k => max (cur2 x0 q k * cur1 x1 k + cur1 x2 k) 0

/-- The affine layer applied to it: the block the body computes. -/
def yblk1 (x0 : Vec Ideal S5000x256 .bf16) (x1 x2 : Vec Ideal S256 .f32) (x3 : Vec Ideal S256x256 .f32) (x4 : Vec Ideal S256 .f32) :
    Fin 5000 → Fin 256 → EReal :=
  lin (act1 x0 x1 x2) (cur2 x3) (cur1 x4)

/-- The product of a 5000 × 256 by a 256 × 256 matrix onto zeros, at an entry: the sum over the shared coordinate. -/
theorem matmul1_apply (A : FVec Ideal S5000x256 .bf16) (B : FVec Ideal S256x256 .bf16) (q : Fin 5000) (j : Fin 256) :
    FloatOps.matmul dot_S5000x256_S256x256_S5000x256_1_0_0_1_n_n none A B (constant (F := Ideal) S5000x256 .f32 0x00000000#32) (ix2 q j)
      = ∑ k : Fin 256, A (ix2 q k) * B (ix2 k j) := by
  rw [Ideal.matmul_constant_zero_apply, ← Equiv.sum_comp (contrEquiv1 dot_S5000x256_S256x256_S5000x256_1_0_0_1_n_n 256 rfl rfl).symm]
  refine Finset.sum_congr rfl fun k _ => ?_
  have ck := contrEquiv1_symm_val dot_S5000x256_S256x256_S5000x256_1_0_0_1_n_n 256 rfl rfl k
  have l2 : (dot_S5000x256_S256x256_S5000x256_1_0_0_1_n_n).lhsIdx (ix2 q j) ((contrEquiv1 _ 256 rfl rfl).symm k) = ix2 q k := by
    funext ax; apply Fin.ext
    match ax with
    | ⟨0, _⟩ => simp [DotDims.lhsIdx, dot_S5000x256_S256x256_S5000x256_1_0_0_1_n_n]; rfl
    | ⟨1, _⟩ => simp [DotDims.lhsIdx, dot_S5000x256_S256x256_S5000x256_1_0_0_1_n_n]; exact ck
  have r2 : (dot_S5000x256_S256x256_S5000x256_1_0_0_1_n_n).rhsIdx (ix2 q j) ((contrEquiv1 _ 256 rfl rfl).symm k) = ix2 k j := by
    funext ax; apply Fin.ext
    match ax with
    | ⟨0, _⟩ => simp [DotDims.rhsIdx, dot_S5000x256_S256x256_S5000x256_1_0_0_1_n_n]; exact ck
    | ⟨1, _⟩ => simp [DotDims.rhsIdx, dot_S5000x256_S256x256_S5000x256_1_0_0_1_n_n]; rfl
  rw [l2, r2]

/-- A sum along the rows of a 5000 × 256 array from zero, at a column: the sum of the column. -/
theorem colsum1_apply (Y : FVec Ideal S5000x256 .f32) (hacc : (0x00000000#32 : BitVec 32) = 0x00000000#32) (hφ) (j : Fin 256) :
    multiReduction (F := Ideal) .add [0] S256 Y 0x00000000#32 reduces_S5000x256_S256 hφ hacc (ix1 j) = ∑ q : Fin 5000, Y (ix2 q j) := by
  refine (Ideal.multiReduction_add_single Y 0x00000000#32 reduces_S5000x256_S256 hφ hacc (ix1 j)).trans ?_
  refine Finset.sum_congr rfl fun q _ => congrArg Y ?_
  funext ax; apply Fin.ext
  match ax with
  | ⟨0, _⟩ => rfl
  | ⟨1, _⟩ => rfl

/-- The block the body computes, at an entry. -/
theorem pay4_apply (x0 : Vec Ideal S5000x256 .bf16) (x1 x2 : Vec Ideal S256 .f32) (x3 : Vec Ideal S256x256 .f32) (x4 : Vec Ideal S256 .f32)
    (q : Fin 5000) (j : Fin 256) :
    k1_pay4 (F := Ideal) x0 x1 x2 x3 x4 (ix2 q j) = yblk1 x0 x1 x2 x3 x4 q j := by
  unfold k1_pay4 yblk1 lin
  refine congrArg₂ (· + ·) ?_ ?_
  · refine (matmul1_apply _ _ q j).trans ?_
    refine Finset.sum_congr rfl fun k _ => congrArg₂ (· * ·) ?_ rfl
    unfold act1 cur2 cur1
    simp only [truncf_apply, maximumf_apply, addf_apply, mulf_apply, extf_apply, broadcast_apply, shapeCast_self,
      broadcastTo_1b_ab_apply, shapeCast_a_1a_apply]
    exact congrArg (fun z => max (x0 (ix2 q k) * x1 (ix1 k) + x2 (ix1 k)) z) Ideal.ofBits_zero_f32
  · unfold cur1
    simp only [broadcastTo_1b_ab_apply, shapeCast_a_1a_apply]

/-- What is stored into the block output is the same block (the change of format is the identity). -/
theorem pay5_apply (x0 : Vec Ideal S5000x256 .bf16) (x1 x2 : Vec Ideal S256 .f32) (x3 : Vec Ideal S256x256 .f32) (x4 : Vec Ideal S256 .f32)
    (q : Fin 5000) (j : Fin 256) :
    k1_pay5 (F := Ideal) x0 x1 x2 x3 x4 (ix2 q j) = yblk1 x0 x1 x2 x3 x4 q j := by
  unfold k1_pay5
  exact pay4_apply x0 x1 x2 x3 x4 q j

/-- The accumulator's row 0 after the body: what it held plus the block's column sums. -/
theorem pay6_apply (x0 : Vec Ideal S5000x256 .bf16) (x1 x2 : Vec Ideal S256 .f32) (x3 : Vec Ideal S256x256 .f32) (x4 : Vec Ideal S256 .f32)
    (v28 : Vec Ideal S1x256 .f32) (j : Fin 256) :
    k1_pay6 (F := Ideal) x0 x1 x2 x3 x4 v28 (ix2 (0 : Fin 1) j) = v28 (ix2 (0 : Fin 1) j) + ∑ q : Fin 5000, yblk1 x0 x1 x2 x3 x4 q j := by
  unfold k1_pay6
  simp only [shapeCast_a_1a_apply, addf_apply, shapeCast_1a_a_apply]
  exact congrArg₂ (· + ·) rfl ((colsum1_apply _ _ _ j).trans (Finset.sum_congr rfl fun q _ => pay4_apply x0 x1 x2 x3 x4 q j))

/-- The accumulator's row 1 after the body: what it held plus the column sums of the block's squares. -/
theorem pay1_apply (v25 : FVec Ideal S5000x256 .f32) (v35 : Vec Ideal S1x256 .f32) (j : Fin 256) :
    k1_pay1 (F := Ideal) v25 v35 (ix2 (0 : Fin 1) j) = v35 (ix2 (0 : Fin 1) j) + ∑ q : Fin 5000, v25 (ix2 q j) * v25 (ix2 q j) := by
  unfold k1_pay1
  simp only [shapeCast_a_1a_apply, addf_apply, shapeCast_1a_a_apply]
  exact congrArg₂ (· + ·) rfl ((colsum1_apply _ _ _ j).trans (Finset.sum_congr rfl fun q _ => rfl))

/-- Clearing stores zeros. -/
theorem pay3_apply (r : Fin 2) (j : Fin 256) : k1_pay3 (F := Ideal) (ix2 r j) = 0 := by
  unfold k1_pay3
  simp only [shapeCast_self, broadcast_apply]
  exact Ideal.ofBits_zero_f32

/-- Copying the accumulator out only re-indexes it. -/
theorem pay2_apply (v46 : Vec Ideal S2x256 .f32) (r : Fin 2) (j : Fin 256) :
    k1_pay2 (F := Ideal) v46 (ix3 (0 : Fin 1) r j) = v46 (ix2 r j) := by
  unfold k1_pay2
  exact shapeCast_ab_1ab_apply v46 _ 0 r j

end Cert.KernelIdeal.HandValue.R1

end
-- ==== Proof.KIV.R1Pieces.lean ====
import proofs.«169417_j2877628089024_2_alg».proof.Proof.KI.R1
import proofs.«169417_j2877628089024_2_alg».proof.Proof.KIV.R1Pay
import Idealize.ShloMosaic.Lib.Pipeline.Value
import Idealize.ShloMosaic.Lib.Tactic

/-!
# What one run of the body leaves, entry by entry

For each of the three kinds of grid point, the contents the run leaves in the block output, in the accumulator and
(at the last point of a group) in the statistics block, read at an entry over the extended reals:

* the block output holds the computed block `yblk1` of the point's inputs;
* the accumulator's row 0 holds what it held before (zero, at the first point of a group) plus the block's column
  sums, its row 1 what it held before plus the column sums of the squares;
* the statistics block, when it is written, holds the accumulator's two rows.
-/

set_option maxRecDepth 16384

noncomputable section

namespace Cert.KernelIdeal.HandValue.R1

open Cert.KernelIdeal Cert.KernelIdeal.Gen Cert.KernelIdeal.Hand
open MlpSpec Idealize.ShloMosaic Idealize.ShloMosaic.TcCoe Idealize.ShloMosaic.Tactic Idealize.ShloMosaic.ValueIdx Idealize.SL.Sem

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The accumulator's two rows as rectangles -/

/-- Row 0 and row 1 of the 2 × 256 accumulator. -/
abbrev row0 : Rect S2x256 := Rect.unit (s := S2x256) ![0, 0] S1x256.size inb_S2x256_S1x256_0_0
abbrev row1 : Rect S2x256 := Rect.unit (s := S2x256) ![1, 0] S1x256.size inb_S2x256_S1x256_1_0
abbrev full2 : Rect S2x256 := Rect.unit (s := S2x256) ![0, 0] S2x256.size inb_S2x256_S2x256_0_0

/-- Entry `j` of row 0 sits at (0, j) of the accumulator, -/
theorem row0_idx (j : Fin 256) : row0.idx (ix2 (0 : Fin 1) j) = ix2 (0 : Fin 2) j := by
  funext a; apply Fin.ext
  match a with
  | ⟨0, _⟩ => rfl
  | ⟨1, _⟩ => show 0 + 1 * j.val = j.val; omega
/-- entry `j` of row 1 at (1, j), -/
theorem row1_idx (j : Fin 256) : row1.idx (ix2 (0 : Fin 1) j) = ix2 (1 : Fin 2) j := by
  funext a; apply Fin.ext
  match a with
  | ⟨0, _⟩ => rfl
  | ⟨1, _⟩ => show 0 + 1 * j.val = j.val; omega
/-- and the whole accumulator read as a rectangle is itself. -/
theorem full2_idx (r : Fin 2) (j : Fin 256) : full2.idx (ix2 r j) = ix2 r j := by
  funext a; apply Fin.ext
  match a with
  | ⟨0, _⟩ => show 0 + 1 * r.val = r.val; omega
  | ⟨1, _⟩ => show 0 + 1 * j.val = j.val; omega

/-- After a store of row 1, the accumulator reads that store on row 1; -/
theorem canon_row1 (w1 : row1.shape.Idx → Elt Ideal .f32) (L : List (View.Piece (Elt Ideal) S2x256 .f32)) (j : Fin 256) :
    View.canon (⟨row1, w1⟩ :: L) (ix2 (1 : Fin 2) j) = w1 (ix2 (0 : Fin 1) j) := by
  rw [← row1_idx j]; exact View.canon_cons_emb row1 w1 L (ix2 (0 : Fin 1) j)
/-- and, the store of row 0 having come just before, that one on row 0. -/
theorem canon_row0 (w1 : row1.shape.Idx → Elt Ideal .f32) (w0 : row0.shape.Idx → Elt Ideal .f32)
    (L : List (View.Piece (Elt Ideal) S2x256 .f32)) (j : Fin 256) :
    View.canon (⟨row1, w1⟩ :: ⟨row0, w0⟩ :: L) (ix2 (0 : Fin 2) j) = w0 (ix2 (0 : Fin 1) j) := by
  rw [View.canon_cons_of_not_mem _ _ (fun hm => by
    have h := (Rect.mem_set_unit (s := S2x256) (off := ![1, 0]) (size := S1x256.size) (inb := inb_S2x256_S1x256_1_0)
      (i := ix2 (0 : Fin 2) j)).mp hm (0 : Fin 2)
    have h1 : (1 : ℕ) ≤ 0 := h.1
    omega)]
  rw [← row0_idx j]; exact View.canon_cons_emb row0 w0 L (ix2 (0 : Fin 1) j)

/-- A store of row 0 leaves row 1 as the earlier stores had it. -/
theorem canon_row0_at1 (w0 : row0.shape.Idx → Elt Ideal .f32) (L : List (View.Piece (Elt Ideal) S2x256 .f32)) (j : Fin 256) :
    View.canon (⟨row0, w0⟩ :: L) (ix2 (1 : Fin 2) j) = View.canon L (ix2 (1 : Fin 2) j) :=
  View.canon_cons_of_not_mem _ _ (fun hm => by
    have h := (Rect.mem_set_unit (s := S2x256) (off := ![0, 0]) (size := S1x256.size) (inb := inb_S2x256_S1x256_0_0)
      (i := ix2 (1 : Fin 2) j)).mp hm (0 : Fin 2)
    have h1 : (1 : ℕ) < 0 + 1 := h.2
    omega)

/-! ## The block output -/

theorem out5A_at (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : cond1_0 i) (hc1 : ¬cond1_1 i)
    (x0 : Vec Ideal S5000x256 .bf16) (x1 : Vec Ideal S256 .f32) (x2 : Vec Ideal S256 .f32) (x3 : Vec Ideal S256x256 .f32) (x4 : Vec Ideal S256 .f32) (q : Fin 5000) (j : Fin 256) :
    out1_A_5 c i arg2 harg2 arg3 harg3 arg4 harg4 arg5 harg5 arg6 harg6 arg7 harg7 arg8 harg8 arg9 harg9 hc0 hc1 x0 x1 x2 x3 x4 (ix2 q j) = yblk1 x0 x1 x2 x3 x4 q j := by
  unfold out1_A_5
  rw [View.read_writes_junk_eq_canon]
  unfold kernelRun1_A
  dsimp only
  rw [View.canon_unit_zero hz2]
  simp only [View.readAt_eq_ld, harg2.read_unread, harg3.read_unread, harg4.read_unread, harg5.read_unread, harg6.read_unread,
    View.ld_unit_zero (S := S5000x256) hz2, View.ld_unit_zero (S := S256) hz1, View.ld_unit_zero (S := S256x256) hz2]
  exact pay5_apply x0 x1 x2 x3 x4 q j

theorem out5B_at (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : ¬cond1_1 i)
    (x0 : Vec Ideal S5000x256 .bf16) (x1 : Vec Ideal S256 .f32) (x2 : Vec Ideal S256 .f32) (x3 : Vec Ideal S256x256 .f32) (x4 : Vec Ideal S256 .f32) (xs0 : Vec Ideal S2x256 .f32) (q : Fin 5000) (j : Fin 256) :
    out1_B_5 c i arg2 harg2 arg3 harg3 arg4 harg4 arg5 harg5 arg6 harg6 arg7 harg7 arg8 harg8 arg9 harg9 hc0 hc1 x0 x1 x2 x3 x4 xs0 (ix2 q j) = yblk1 x0 x1 x2 x3 x4 q j := by
  unfold out1_B_5
  rw [View.read_writes_junk_eq_canon]
  unfold kernelRun1_B
  dsimp only
  rw [View.canon_unit_zero hz2]
  simp only [View.readAt_eq_ld, harg2.read_unread, harg3.read_unread, harg4.read_unread, harg5.read_unread, harg6.read_unread,
    View.ld_unit_zero (S := S5000x256) hz2, View.ld_unit_zero (S := S256) hz1, View.ld_unit_zero (S := S256x256) hz2]
  exact pay5_apply x0 x1 x2 x3 x4 q j

theorem out5C_at (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : cond1_1 i)
    (x0 : Vec Ideal S5000x256 .bf16) (x1 : Vec Ideal S256 .f32) (x2 : Vec Ideal S256 .f32) (x3 : Vec Ideal S256x256 .f32) (x4 : Vec Ideal S256 .f32) (xs0 : Vec Ideal S2x256 .f32) (q : Fin 5000) (j : Fin 256) :
    out1_C_5 c i arg2 harg2 arg3 harg3 arg4 harg4 arg5 harg5 arg6 harg6 arg7 harg7 arg8 harg8 arg9 harg9 hc0 hc1 x0 x1 x2 x3 x4 xs0 (ix2 q j) = yblk1 x0 x1 x2 x3 x4 q j := by
  unfold out1_C_5
  rw [View.read_writes_junk_eq_canon]
  unfold kernelRun1_C
  dsimp only
  rw [View.canon_unit_zero hz2]
  simp only [View.readAt_eq_ld, harg2.read_unread, harg3.read_unread, harg4.read_unread, harg5.read_unread, harg6.read_unread,
    View.ld_unit_zero (S := S5000x256) hz2, View.ld_unit_zero (S := S256) hz1, View.ld_unit_zero (S := S256x256) hz2]
  exact pay5_apply x0 x1 x2 x3 x4 q j

/-! ## The accumulator -/

theorem soutB_at (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : ¬cond1_1 i)
    (x0 : Vec Ideal S5000x256 .bf16) (x1 : Vec Ideal S256 .f32) (x2 : Vec Ideal S256 .f32) (x3 : Vec Ideal S256x256 .f32) (x4 : Vec Ideal S256 .f32) (xs0 : Vec Ideal S2x256 .f32) (j : Fin 256) :
    sout1_B_0 c i arg2 harg2 arg3 harg3 arg4 harg4 arg5 harg5 arg6 harg6 arg7 harg7 arg8 harg8 arg9 harg9 hc0 hc1 x0 x1 x2 x3 x4 xs0 (ix2 (0 : Fin 2) j) = xs0 (ix2 (0 : Fin 2) j) + ∑ q : Fin 5000, yblk1 x0 x1 x2 x3 x4 q j
    ∧ sout1_B_0 c i arg2 harg2 arg3 harg3 arg4 harg4 arg5 harg5 arg6 harg6 arg7 harg7 arg8 harg8 arg9 harg9 hc0 hc1 x0 x1 x2 x3 x4 xs0 (ix2 (1 : Fin 2) j)
        = xs0 (ix2 (1 : Fin 2) j) + ∑ q : Fin 5000, yblk1 x0 x1 x2 x3 x4 q j * yblk1 x0 x1 x2 x3 x4 q j := by
  unfold sout1_B_0
  rw [View.read_writes_junk_eq_canon]
  unfold kernelRun1_B
  dsimp only
  sl_unfold_words
  simp only [View.readAt_eq_ld, harg2.read_unread, harg3.read_unread, harg4.read_unread, harg5.read_unread, harg6.read_unread, harg9.read_unread,
    View.ld_unit_zero (S := S5000x256) hz2, View.ld_unit_zero (S := S256) hz1, View.ld_unit_zero (S := S256x256) hz2]
  constructor
  · refine (canon_row0 _ _ _ j).trans ?_
    refine (pay6_apply x0 x1 x2 x3 x4 _ j).trans ?_
    exact congrArg₂ (· + ·) (congrArg xs0 (row0_idx j)) rfl
  · refine (canon_row1 _ _ j).trans ?_
    refine (pay1_apply _ _ j).trans ?_
    exact congrArg₂ (· + ·) (congrArg xs0 (row1_idx j)) (Finset.sum_congr rfl fun q _ => by rw [pay4_apply])

theorem soutC_at (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : cond1_1 i)
    (x0 : Vec Ideal S5000x256 .bf16) (x1 : Vec Ideal S256 .f32) (x2 : Vec Ideal S256 .f32) (x3 : Vec Ideal S256x256 .f32) (x4 : Vec Ideal S256 .f32) (xs0 : Vec Ideal S2x256 .f32) (j : Fin 256) :
    sout1_C_0 c i arg2 harg2 arg3 harg3 arg4 harg4 arg5 harg5 arg6 harg6 arg7 harg7 arg8 harg8 arg9 harg9 hc0 hc1 x0 x1 x2 x3 x4 xs0 (ix2 (0 : Fin 2) j) = xs0 (ix2 (0 : Fin 2) j) + ∑ q : Fin 5000, yblk1 x0 x1 x2 x3 x4 q j
    ∧ sout1_C_0 c i arg2 harg2 arg3 harg3 arg4 harg4 arg5 harg5 arg6 harg6 arg7 harg7 arg8 harg8 arg9 harg9 hc0 hc1 x0 x1 x2 x3 x4 xs0 (ix2 (1 : Fin 2) j)
        = xs0 (ix2 (1 : Fin 2) j) + ∑ q : Fin 5000, yblk1 x0 x1 x2 x3 x4 q j * yblk1 x0 x1 x2 x3 x4 q j := by
  unfold sout1_C_0
  rw [View.read_writes_junk_eq_canon]
  unfold kernelRun1_C
  dsimp only
  sl_unfold_words
  simp only [View.readAt_eq_ld, harg2.read_unread, harg3.read_unread, harg4.read_unread, harg5.read_unread, harg6.read_unread, harg9.read_unread,
    View.ld_unit_zero (S := S5000x256) hz2, View.ld_unit_zero (S := S256) hz1, View.ld_unit_zero (S := S256x256) hz2]
  constructor
  · refine (canon_row0 _ _ _ j).trans ?_
    refine (pay6_apply x0 x1 x2 x3 x4 _ j).trans ?_
    exact congrArg₂ (· + ·) (congrArg xs0 (row0_idx j)) rfl
  · refine (canon_row1 _ _ j).trans ?_
    refine (pay1_apply _ _ j).trans ?_
    exact congrArg₂ (· + ·) (congrArg xs0 (row1_idx j)) (Finset.sum_congr rfl fun q _ => by rw [pay4_apply])

theorem soutA_at (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : cond1_0 i) (hc1 : ¬cond1_1 i)
    (x0 : Vec Ideal S5000x256 .bf16) (x1 : Vec Ideal S256 .f32) (x2 : Vec Ideal S256 .f32) (x3 : Vec Ideal S256x256 .f32) (x4 : Vec Ideal S256 .f32) (j : Fin 256) :
    sout1_A_0 c i arg2 harg2 arg3 harg3 arg4 harg4 arg5 harg5 arg6 harg6 arg7 harg7 arg8 harg8 arg9 harg9 hc0 hc1 x0 x1 x2 x3 x4 (ix2 (0 : Fin 2) j) = ∑ q : Fin 5000, yblk1 x0 x1 x2 x3 x4 q j
    ∧ sout1_A_0 c i arg2 harg2 arg3 harg3 arg4 harg4 arg5 harg5 arg6 harg6 arg7 harg7 arg8 harg8 arg9 harg9 hc0 hc1 x0 x1 x2 x3 x4 (ix2 (1 : Fin 2) j)
        = ∑ q : Fin 5000, yblk1 x0 x1 x2 x3 x4 q j * yblk1 x0 x1 x2 x3 x4 q j := by
  unfold sout1_A_0
  rw [View.read_writes_junk_eq_canon]
  unfold kernelRun1_A
  dsimp only
  sl_unfold_words
  simp only [View.readAt_eq_ld, harg2.read_unread, harg3.read_unread, harg4.read_unread, harg5.read_unread, harg6.read_unread,
    View.ld_unit_zero (S := S5000x256) hz2, View.ld_unit_zero (S := S256) hz1, View.ld_unit_zero (S := S256x256) hz2,
    View.readCov_eq_canon']
  constructor
  · refine (canon_row0 _ _ _ j).trans ?_
    refine (pay6_apply x0 x1 x2 x3 x4 _ j).trans ?_
    have h0 : View.canon [(⟨full2, k1_pay3 (F := Ideal)⟩ : View.Piece (Elt Ideal) S2x256 .f32)] (row0.idx (ix2 (0 : Fin 1) j)) = 0 := by
      rw [View.canon_unit_zero hz2, row0_idx j]; exact pay3_apply 0 j
    exact (congrArg₂ (· + ·) h0 rfl).trans (zero_add _)
  · refine (canon_row1 _ _ j).trans ?_
    refine (pay1_apply _ _ j).trans ?_
    have h1 : ∀ w0 : row0.shape.Idx → Elt Ideal .f32,
        View.canon [(⟨row0, w0⟩ : View.Piece (Elt Ideal) S2x256 .f32), ⟨full2, k1_pay3 (F := Ideal)⟩] (row1.idx (ix2 (0 : Fin 1) j)) = 0 := fun w0 => by
      rw [row1_idx j, canon_row0_at1, View.canon_unit_zero hz2]; exact pay3_apply 1 j
    exact (congrArg₂ (· + ·) (h1 _) (Finset.sum_congr rfl fun q _ => by rw [pay4_apply])).trans (zero_add _)

/-! ## The statistics block -/

theorem out6C_at (c : Dev nD) (i : grid1.Coords) (arg2 : Memref sig .tc .vmem S5000x256 .bf16) (harg2 : arg2.IsWhole) (arg3 : Memref sig .tc .vmem S256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S5000x256 .bf16) (harg7 : arg7.IsWhole) (arg8 : Memref sig .tc .vmem S1x2x256 .f32) (harg8 : arg8.IsWhole) (arg9 : Memref sig .tc .vmem S2x256 .f32) (harg9 : arg9.IsWhole) (hc0 : ¬cond1_0 i) (hc1 : cond1_1 i)
    (x0 : Vec Ideal S5000x256 .bf16) (x1 : Vec Ideal S256 .f32) (x2 : Vec Ideal S256 .f32) (x3 : Vec Ideal S256x256 .f32) (x4 : Vec Ideal S256 .f32) (xs0 : Vec Ideal S2x256 .f32) (r : Fin 2) (j : Fin 256) :
    out1_C_6 c i arg2 harg2 arg3 harg3 arg4 harg4 arg5 harg5 arg6 harg6 arg7 harg7 arg8 harg8 arg9 harg9 hc0 hc1 x0 x1 x2 x3 x4 xs0 (ix3 (0 : Fin 1) r j) = sout1_C_0 c i arg2 harg2 arg3 harg3 arg4 harg4 arg5 harg5 arg6 harg6 arg7 harg7 arg8 harg8 arg9 harg9 hc0 hc1 x0 x1 x2 x3 x4 xs0 (ix2 r j) := by
  unfold out1_C_6 sout1_C_0
  rw [View.read_writes_junk_eq_canon, View.read_writes_junk_eq_canon]
  unfold kernelRun1_C
  dsimp only
  sl_unfold_words
  rw [View.canon_unit_zero hz3]
  refine (pay2_apply _ r j).trans ?_
  rw [View.readCov_eq_canon']
  exact congrArg (View.canon _) (full2_idx r j)

end Cert.KernelIdeal.HandValue.R1

end
-- ==== Proof.KIV.R1Value.lean ====
import proofs.«169417_j2877628089024_2_alg».proof.Proof.KI.R1
import proofs.«169417_j2877628089024_2_alg».proof.Proof.KIV.R1Pieces
import Idealize.ShloMosaic.Lib.Pipeline.Value
import Idealize.ShloMosaic.Lib.Tactic

/-!
# The second pallas_call's two results as functions of the arrays it finds

`V` is what the core's arrays hold when the call is entered.  Write `a` for relu(x·scale + shift) of the 100000 × 256
input and `y = a·W + b` for the affine layer applied to it.  Then, after the call:

* the block output's array holds `y`, row by row: grid point `t` computes rows `5000·t … 5000·t + 4999` and writes
  them back, and the twenty blocks tile the array;
* the statistics array holds, for each of the two groups of ten points, the column sums of `y` over the group's
  50000 rows (row 0) and the column sums of `y²` (row 1): the accumulator is cleared at the group's first point,
  gains one block's sums per point, and is copied out and written back at the group's last point.
-/

set_option maxRecDepth 16384

noncomputable section

namespace Cert.KernelIdeal.HandValue

open Cert.KernelIdeal Cert.KernelIdeal.Gen Cert.KernelIdeal.Hand
open MlpSpec Idealize.ShloMosaic Idealize.ShloMosaic.TcCoe Idealize.ShloMosaic.Tactic Idealize.ShloMosaic.ValueIdx Idealize.SL.Sem
open Idealize.ShloMosaic.Pipeline (Dat)
open Cert.KernelIdeal.HandValue.R1

variable (V : (c : Dev nD) → (b : Ref sig .tc) → Buf (Elt Ideal) ((c : Thread nD τ).loc b))

/-- relu(x·scale + shift) of the whole input, by coordinates. -/
def a1 (c : Dev nD) : Fin 100000 → Fin 256 → EReal :=
  fun r k => max (cur2 (V c main_v74_0) r k * cur1 (V c main_v91) k + cur1 (V c main_v93) k) 0

/-- The affine layer applied to it. -/
def y1 (c : Dev nD) : Fin 100000 → Fin 256 → EReal :=
  lin (a1 V c) (cur2 (V c main_arg7)) (cur1 (V c main_arg8))

namespace R1

/-! ## The windows' blocks, read off the arrays -/

/-- Where each window's block sits at point `t`: the two 5000-row windows at block `t`, the four parameter windows
    at their one block, the statistics window at block `t / 10` (decided over the twenty points). -/
theorem idx_facts1 : ∀ t : Fin cfg1.N,
    win1_0.index t (0 : Fin 2) = t.val ∧ win1_0.index t (1 : Fin 2) = 0
    ∧ win1_1.index t (0 : Fin 1) = 0 ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0
    ∧ win1_6.index t (0 : Fin 3) = t.val / 10 ∧ win1_6.index t (1 : Fin 3) = 0 ∧ win1_6.index t (2 : Fin 3) = 0 :=
  (by decide +kernel : ∀ t : Fin grid1.N, _)

/-- Row `q` of the input block at point `t` is row `5000·t + q` of the input. -/
theorem iblk0_at (c : Dev nD) (t : Fin cfg1.N) (q : Fin 5000) (k : Fin 256) (r : Fin 100000) (hr : r.val = t.val * 5000 + q.val) :
    (iblk1 V c 0 t : Vec Ideal S5000x256 .bf16) (ix2 q k) = V c main_v74_0 (ix2 r k) := by
  obtain ⟨e0, e1, -⟩ := idx_facts1 t
  unfold iblk1
  rw [View.read_apply]
  show V c main_v74_0 _ = V c main_v74_0 _
  refine congrArg _ ?_
  funext a; apply Fin.ext
  match a with
  | ⟨0, _⟩ => show win1_0.index t (0 : Fin 2) * 5000 + 1 * q.val = r.val; rw [e0, hr]; omega
  | ⟨1, _⟩ => show win1_0.index t (1 : Fin 2) * 256 + 1 * k.val = k.val; rw [e1]; omega

/-- The four parameter windows' blocks are the whole parameter arrays. -/
theorem iblk1_at (c : Dev nD) (t : Fin cfg1.N) (k : Fin 256) :
    (iblk1 V c 1 t : Vec Ideal S256 .f32) (ix1 k) = V c main_v91 (ix1 k) := by
  obtain ⟨-, -, e2, -⟩ := idx_facts1 t
  unfold iblk1
  rw [View.read_apply]
  show V c main_v91 _ = V c main_v91 _
  refine congrArg _ ?_
  funext a; apply Fin.ext
  match a with
  | ⟨0, _⟩ => show win1_1.index t (0 : Fin 1) * 256 + 1 * k.val = k.val; rw [e2]; omega
theorem iblk2_at (c : Dev nD) (t : Fin cfg1.N) (k : Fin 256) :
    (iblk1 V c 2 t : Vec Ideal S256 .f32) (ix1 k) = V c main_v93 (ix1 k) := by
  obtain ⟨-, -, -, e3, -⟩ := idx_facts1 t
  unfold iblk1
  rw [View.read_apply]
  show V c main_v93 _ = V c main_v93 _
  refine congrArg _ ?_
  funext a; apply Fin.ext
  match a with
  | ⟨0, _⟩ => show win1_2.index t (0 : Fin 1) * 256 + 1 * k.val = k.val; rw [e3]; omega
theorem iblk3_at (c : Dev nD) (t : Fin cfg1.N) (k j : Fin 256) :
    (iblk1 V c 3 t : Vec Ideal S256x256 .f32) (ix2 k j) = V c main_arg7 (ix2 k j) := by
  obtain ⟨-, -, -, -, e4, e5, -⟩ := idx_facts1 t
  unfold iblk1
  rw [View.read_apply]
  show V c main_arg7 _ = V c main_arg7 _
  refine congrArg _ ?_
  funext a; apply Fin.ext
  match a with
  | ⟨0, _⟩ => show win1_3.index t (0 : Fin 2) * 256 + 1 * k.val = k.val; rw [e4]; omega
  | ⟨1, _⟩ => show win1_3.index t (1 : Fin 2) * 256 + 1 * j.val = j.val; rw [e5]; omega
theorem iblk4_at (c : Dev nD) (t : Fin cfg1.N) (k : Fin 256) :
    (iblk1 V c 4 t : Vec Ideal S256 .f32) (ix1 k) = V c main_arg8 (ix1 k) := by
  obtain ⟨-, -, -, -, -, -, e6, -⟩ := idx_facts1 t
  unfold iblk1
  rw [View.read_apply]
  show V c main_arg8 _ = V c main_arg8 _
  refine congrArg _ ?_
  funext a; apply Fin.ext
  match a with
  | ⟨0, _⟩ => show win1_4.index t (0 : Fin 1) * 256 + 1 * k.val = k.val; rw [e6]; omega

/-- So the block computed at point `t = 10·g + s` is rows `row3 g s ·` of `y`. -/
theorem yblk_eq (c : Dev nD) (t : Fin cfg1.N) (g : Fin 2) (s : Fin 10) (ht : t.val = g.val * 10 + s.val) (q : Fin 5000) (j : Fin 256) :
    yblk1 (iblk1 V c 0 t) (iblk1 V c 1 t) (iblk1 V c 2 t) (iblk1 V c 3 t) (iblk1 V c 4 t) q j = y1 V c (row3 g s q) j := by
  unfold yblk1 y1 lin
  refine congrArg₂ (· + ·) (Finset.sum_congr rfl fun k _ => congrArg₂ (· * ·) ?_ ?_) ?_
  · unfold act1 a1 cur2 cur1
    rw [iblk0_at V c t q k (row3 g s q) (by unfold row3; dsimp only; rw [ht]), iblk1_at V c t k, iblk2_at V c t k]
  · unfold cur2; exact iblk3_at V c t k j
  · unfold cur1; exact iblk4_at V c t j

/-! ## One point, in terms of the arrays -/

/-- The block computed at point `t`, over the point's input blocks. -/
def yAt (c : Dev nD) (t : Fin cfg1.N) : Fin 5000 → Fin 256 → EReal :=
  yblk1 (iblk1 V c 0 t) (iblk1 V c 1 t) (iblk1 V c 2 t) (iblk1 V c 3 t) (iblk1 V c 4 t)

theorem yAt_eq (c : Dev nD) (t : Fin cfg1.N) (g : Fin 2) (s : Fin 10) (ht : t.val = g.val * 10 + s.val) (q : Fin 5000) (j : Fin 256) :
    yAt V c t q j = y1 V c (row3 g s q) j := yblk_eq V c t g s ht q j

/-! What each kind of point leaves in the block output and in the accumulator, at an entry. -/

theorem caseA_vals (c : Dev nD) (t : Fin cfg1.N) (h0 : t.val % 10 = 0) (h1 : ¬t.val % 10 = 9) (j : Fin 256) :
    (∀ q : Fin 5000, (caseA1 V c t h0 h1).1 (ix2 q j) = yAt V c t q j)
    ∧ (caseA1 V c t h0 h1).2.2 (ix2 (0 : Fin 2) j) = ∑ q : Fin 5000, yAt V c t q j
    ∧ (caseA1 V c t h0 h1).2.2 (ix2 (1 : Fin 2) j) = ∑ q : Fin 5000, yAt V c t q j * yAt V c t q j := by
  unfold caseA1 yAt
  dsimp only
  exact ⟨fun q => out5A_at c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) q j,
    (soutA_at c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) j).1,
    (soutA_at c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) j).2⟩

theorem caseB_vals (c : Dev nD) (t : Fin cfg1.N) (h0 : ¬t.val % 10 = 0) (h1 : ¬t.val % 10 = 9) (xs0 : Vec Ideal S2x256 .f32) (j : Fin 256) :
    (∀ q : Fin 5000, (caseB1 V c t h0 h1 xs0).1 (ix2 q j) = yAt V c t q j)
    ∧ (caseB1 V c t h0 h1 xs0).2.2 (ix2 (0 : Fin 2) j) = xs0 (ix2 (0 : Fin 2) j) + ∑ q : Fin 5000, yAt V c t q j
    ∧ (caseB1 V c t h0 h1 xs0).2.2 (ix2 (1 : Fin 2) j) = xs0 (ix2 (1 : Fin 2) j) + ∑ q : Fin 5000, yAt V c t q j * yAt V c t q j := by
  unfold caseB1 yAt
  dsimp only
  exact ⟨fun q => out5B_at c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0 q j,
    (soutB_at c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0 j).1,
    (soutB_at c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0 j).2⟩

theorem caseC_vals (c : Dev nD) (t : Fin cfg1.N) (h0 : ¬t.val % 10 = 0) (h1 : t.val % 10 = 9) (xs0 : Vec Ideal S2x256 .f32) (j : Fin 256) :
    (∀ q : Fin 5000, (caseC1 V c t h0 h1 xs0).1 (ix2 q j) = yAt V c t q j)
    ∧ (caseC1 V c t h0 h1 xs0).2.2 (ix2 (0 : Fin 2) j) = xs0 (ix2 (0 : Fin 2) j) + ∑ q : Fin 5000, yAt V c t q j
    ∧ (caseC1 V c t h0 h1 xs0).2.2 (ix2 (1 : Fin 2) j) = xs0 (ix2 (1 : Fin 2) j) + ∑ q : Fin 5000, yAt V c t q j * yAt V c t q j := by
  unfold caseC1 yAt
  dsimp only
  exact ⟨fun q => out5C_at c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0 q j,
    (soutC_at c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0 j).1,
    (soutC_at c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0 j).2⟩

/-- At the last point of a group the statistics block is left holding the accumulator. -/
theorem caseC_stats (c : Dev nD) (t : Fin cfg1.N) (h0 : ¬t.val % 10 = 0) (h1 : t.val % 10 = 9) (xs0 : Vec Ideal S2x256 .f32) (r : Fin 2) (j : Fin 256) :
    (caseC1 V c t h0 h1 xs0).2.1 (ix3 (0 : Fin 1) r j) = (caseC1 V c t h0 h1 xs0).2.2 (ix2 r j) := by
  unfold caseC1
  dsimp only
  exact out6C_at c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0 r j

/-! ## The accumulation -/

/-- Column `j`'s sum over block `s` of group `g` (zero outside the grid), and the same for the squares. -/
def blkS (c : Dev nD) (j : Fin 256) (g s : ℕ) : EReal :=
  if h : g < 2 ∧ s < 10 then ∑ q : Fin 5000, y1 V c (row3 ⟨g, h.1⟩ ⟨s, h.2⟩ q) j else 0
def blkQ (c : Dev nD) (j : Fin 256) (g s : ℕ) : EReal :=
  if h : g < 2 ∧ s < 10 then ∑ q : Fin 5000, y1 V c (row3 ⟨g, h.1⟩ ⟨s, h.2⟩ q) j * y1 V c (row3 ⟨g, h.1⟩ ⟨s, h.2⟩ q) j else 0

/-- The column sums of the block computed at point `t` are those of block `t % 10` of group `t / 10`. -/
theorem sum_yAt (c : Dev nD) (t : Fin cfg1.N) (j : Fin 256) :
    ∑ q : Fin 5000, yAt V c t q j = blkS V c j (t.val / 10) (t.val % 10) := by
  have hN : t.val < 20 := lt_of_lt_of_eq t.isLt (show cfg1.N = 20 from N_1)
  have hg : t.val / 10 < 2 ∧ t.val % 10 < 10 := by omega
  unfold blkS
  rw [dif_pos hg]
  exact Finset.sum_congr rfl fun q _ => yAt_eq V c t ⟨t.val / 10, hg.1⟩ ⟨t.val % 10, hg.2⟩ (by dsimp only; omega) q j
theorem sumsq_yAt (c : Dev nD) (t : Fin cfg1.N) (j : Fin 256) :
    ∑ q : Fin 5000, yAt V c t q j * yAt V c t q j = blkQ V c j (t.val / 10) (t.val % 10) := by
  have hN : t.val < 20 := lt_of_lt_of_eq t.isLt (show cfg1.N = 20 from N_1)
  have hg : t.val / 10 < 2 ∧ t.val % 10 < 10 := by omega
  unfold blkQ
  rw [dif_pos hg]
  exact Finset.sum_congr rfl fun q _ => by
    rw [yAt_eq V c t ⟨t.val / 10, hg.1⟩ ⟨t.val % 10, hg.2⟩ (by dsimp only; omega) q j]

/-- One more block joins the partial sum of its group. -/
theorem range_step (f : ℕ → EReal) (n : ℕ) (h0 : ¬ (n + 1) % 10 = 0) :
    (∑ s ∈ Finset.range (n % 10 + 1), f s) + f ((n + 1) % 10) = ∑ s ∈ Finset.range ((n + 1) % 10 + 1), f s := by
  have e : (n + 1) % 10 = n % 10 + 1 := by omega
  rw [e, Finset.sum_range_succ f (n % 10 + 1)]

/-- THE ACCUMULATOR after point `n`: in row 0 the column sums, in row 1 the column sums of squares, of the blocks
    `0 … n % 10` of group `n / 10` — by induction on the point: cleared and restarted at a group's first point,
    one block added at every other point. -/
theorem acc_inv (c : Dev nD) (j : Fin 256) : ∀ (n : ℕ) (hn : n < cfg1.N),
    (outsAt1 V c n hn).2.2 (ix2 (0 : Fin 2) j) = ∑ s ∈ Finset.range (n % 10 + 1), blkS V c j (n / 10) s
    ∧ (outsAt1 V c n hn).2.2 (ix2 (1 : Fin 2) j) = ∑ s ∈ Finset.range (n % 10 + 1), blkQ V c j (n / 10) s := by
  intro n
  induction n with
  | zero =>
    intro hn
    have hA := outsAt1_A V c ⟨0, hn⟩ (Nat.zero_mod _) (by decide : ¬ 0 % 10 = 9)
    obtain ⟨-, hS, hQ⟩ := caseA_vals V c ⟨0, hn⟩ (Nat.zero_mod _) (by decide : ¬ 0 % 10 = 9) j
    rw [sum_yAt] at hS
    rw [sumsq_yAt] at hQ
    refine ⟨((congrArg (fun p => p.2.2 (ix2 (0 : Fin 2) j)) hA).trans hS).trans ?_,
      ((congrArg (fun p => p.2.2 (ix2 (1 : Fin 2) j)) hA).trans hQ).trans ?_⟩
    · show blkS V c j (0 / 10) (0 % 10) = _
      simp [Finset.sum_range_one]
    · show blkQ V c j (0 / 10) (0 % 10) = _
      simp [Finset.sum_range_one]
  | succ n ih =>
    intro hn
    have hN : n + 1 < 20 := lt_of_lt_of_eq hn (show cfg1.N = 20 from N_1)
    obtain ⟨ih0, ih1⟩ := ih (Nat.lt_of_succ_lt hn)
    by_cases h0 : (n + 1) % 10 = 0
    · have h1 : ¬ (n + 1) % 10 = 9 := by omega
      have hA := outsAt1_A V c ⟨n + 1, hn⟩ h0 h1
      obtain ⟨-, hS, hQ⟩ := caseA_vals V c ⟨n + 1, hn⟩ h0 h1 j
      rw [sum_yAt] at hS
      rw [sumsq_yAt] at hQ
      refine ⟨((congrArg (fun p => p.2.2 (ix2 (0 : Fin 2) j)) hA).trans hS).trans ?_,
        ((congrArg (fun p => p.2.2 (ix2 (1 : Fin 2) j)) hA).trans hQ).trans ?_⟩
      · show blkS V c j ((n + 1) / 10) ((n + 1) % 10) = _
        rw [h0]; simp [Finset.sum_range_one]
      · show blkQ V c j ((n + 1) / 10) ((n + 1) % 10) = _
        rw [h0]; simp [Finset.sum_range_one]
    · have hdiv : (n + 1) / 10 = n / 10 := by omega
      by_cases h1 : (n + 1) % 10 = 9
      · have hC := outsAt1_C V c ⟨n + 1, hn⟩ h0 h1
        obtain ⟨-, hS, hQ⟩ := caseC_vals V c ⟨n + 1, hn⟩ h0 h1 (outsAt1 V c n (Nat.lt_of_succ_lt hn)).2.2 j
        rw [sum_yAt, ih0] at hS
        rw [sumsq_yAt, ih1] at hQ
        refine ⟨((congrArg (fun p => p.2.2 (ix2 (0 : Fin 2) j)) hC).trans hS).trans ?_,
          ((congrArg (fun p => p.2.2 (ix2 (1 : Fin 2) j)) hC).trans hQ).trans ?_⟩
        · show _ + blkS V c j ((n + 1) / 10) ((n + 1) % 10) = _
          rw [hdiv]; exact range_step _ n h0
        · show _ + blkQ V c j ((n + 1) / 10) ((n + 1) % 10) = _
          rw [hdiv]; exact range_step _ n h0
      · have hB := outsAt1_B V c ⟨n + 1, hn⟩ h0 h1
        obtain ⟨-, hS, hQ⟩ := caseB_vals V c ⟨n + 1, hn⟩ h0 h1 (outsAt1 V c n (Nat.lt_of_succ_lt hn)).2.2 j
        rw [sum_yAt, ih0] at hS
        rw [sumsq_yAt, ih1] at hQ
        refine ⟨((congrArg (fun p => p.2.2 (ix2 (0 : Fin 2) j)) hB).trans hS).trans ?_,
          ((congrArg (fun p => p.2.2 (ix2 (1 : Fin 2) j)) hB).trans hQ).trans ?_⟩
        · show _ + blkS V c j ((n + 1) / 10) ((n + 1) % 10) = _
          rw [hdiv]; exact range_step _ n h0
        · show _ + blkQ V c j ((n + 1) / 10) ((n + 1) % 10) = _
          rw [hdiv]; exact range_step _ n h0

/-! ## The block output's array -/

/-- What the block output's buffer holds after point `t`: rows `5000·t …` of `y`. -/
theorem out5_all (c : Dev nD) (t : Fin cfg1.N) (q : Fin 5000) (j : Fin 256) (r : Fin 100000) (hr : r.val = t.val * 5000 + q.val) :
    (outsAt1 V c t.val t.isLt).1 (ix2 q j) = y1 V c r j := by
  have hN : t.val < 20 := lt_of_lt_of_eq t.isLt (show cfg1.N = 20 from N_1)
  have hg : t.val / 10 < 2 ∧ t.val % 10 < 10 := by omega
  have hy : yAt V c t q j = y1 V c r j := by
    rw [yAt_eq V c t ⟨t.val / 10, hg.1⟩ ⟨t.val % 10, hg.2⟩ (by dsimp only; omega) q j]
    exact congrArg (fun r' => y1 V c r' j) (Fin.ext (by unfold row3; dsimp only; omega))
  by_cases h0 : t.val % 10 = 0
  · have h1 : ¬ t.val % 10 = 9 := by omega
    rw [outsAt1_A V c t h0 h1]
    exact ((caseA_vals V c t h0 h1 j).1 q).trans hy
  · by_cases h1 : t.val % 10 = 9
    · rw [outsAt1_C V c t h0 h1]
      exact ((caseC_vals V c t h0 h1 _ j).1 q).trans hy
    · rw [outsAt1_B V c t h0 h1]
      exact ((caseB_vals V c t h0 h1 _ j).1 q).trans hy

/-- The affine layer's output as contents of the block output's array. -/
def G5 (c : Dev nD) : (⟨2, ![100000, 256]⟩ : Shape).Idx → EReal := fun i => y1 V c (i 0) (i 1)

/-- What point `t` writes back to the block output's array is block `t` of `y`. -/
theorem flushed5_eq (c : Dev nD) (t : Fin cfg1.N) :
    (dat1 V c).flushed 5 t = ((cfg1.win 5).blk t).view.read (Elt Ideal) (G5 V c) := by
  show (cfg1.win 5).cut (grid1.coords t) ((dat1 V c).after 5 t) = _
  rw [after1_5]
  obtain ⟨-, -, -, -, -, -, -, e7, e8, -⟩ := idx_facts1 t
  have hN : t.val < 20 := lt_of_lt_of_eq t.isLt (show cfg1.N = 20 from N_1)
  funext y
  obtain ⟨q, j, rfl⟩ : ∃ (q : Fin 5000) (j : Fin 256), y = ix2 q j := ⟨y 0, y 1, eq_ix2 y⟩
  show (outsAt1 V c t.val t.isLt).1 (ix2 q j) = G5 V c (((cfg1.win 5).blk t).view.emb (ix2 q j))
  rw [out5_all V c t q j ⟨t.val * 5000 + q.val, by omega⟩ rfl]
  unfold G5
  refine congrArg₂ (y1 V c) (Fin.ext ?_) (Fin.ext ?_)
  · show t.val * 5000 + q.val = win1_5.index t (0 : Fin 2) * 5000 + 1 * q.val
    rw [e7]; omega
  · show j.val = win1_5.index t (1 : Fin 2) * 256 + 1 * j.val
    rw [e8]; omega

/-- An index of the block output's array is in point `t`'s block iff each coordinate is in the block's range. -/
theorem mem_blk5 (t : Fin cfg1.N) (i : S100000x256.Idx) :
    i ∈ ((cfg1.win 5).blk t).view.set ↔ ∀ a : Fin 2, win1_5.index t a * S5000x256.size a ≤ (i a).val ∧ (i a).val < win1_5.index t a * S5000x256.size a + S5000x256.size a := by
  show i ∈ ((View.whole main_v94_0).slice (win1_5.rect t)).set ↔ _
  rw [View.set_slice_whole, Rect.mem_set_unit]
  exact Iff.rfl

/-- The twenty blocks tile the array: row `r` is in the block of point `r / 5000`. -/
theorem cover5 (i : S100000x256.Idx) : ∃ t : Fin cfg1.N, (cfg1.win 5).flush t = true ∧ i ∈ ((cfg1.win 5).blk t).view.set := by
  have hi0 : (i 0).val < 100000 := (i 0).isLt
  have hi1 : (i 1).val < 256 := (i 1).isLt
  have hN : cfg1.N = 20 := N_1
  refine ⟨⟨(i 0).val / 5000, by rw [hN]; omega⟩, flush1_5 _, ?_⟩
  rw [mem_blk5]
  obtain ⟨-, -, -, -, -, -, -, e7, e8, -⟩ := idx_facts1 ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e7]; dsimp only; omega
  | ⟨1, _⟩ =>
    show win1_5.index _ (1 : Fin 2) * 256 ≤ (i 1).val ∧ (i 1).val < win1_5.index _ (1 : Fin 2) * 256 + 256
    rw [e8]; omega

/-! ## The statistics array -/

/-- At the last point of a group the statistics block's buffer holds the accumulator. -/
theorem out6_all (c : Dev nD) (t : Fin cfg1.N) (h1 : t.val % 10 = 9) (r : Fin 2) (j : Fin 256) :
    (outsAt1 V c t.val t.isLt).2.1 (ix3 (0 : Fin 1) r j) = (outsAt1 V c t.val t.isLt).2.2 (ix2 r j) := by
  have h0 : ¬ t.val % 10 = 0 := by omega
  rw [outsAt1_C V c t h0 h1]
  exact caseC_stats V c t h0 h1 _ r j

/-- A group's ten partial sums are the sum over its ten blocks. -/
theorem sum_group (c : Dev nD) (j : Fin 256) (g : Fin 2) :
    ∑ s ∈ Finset.range (9 + 1), blkS V c j g.val s = ∑ s : Fin 10, ∑ q : Fin 5000, y1 V c (row3 g s q) j := by
  rw [Finset.sum_range]
  refine Finset.sum_congr rfl fun s _ => ?_
  unfold blkS
  rw [dif_pos ⟨g.isLt, s.isLt⟩]
theorem sumsq_group (c : Dev nD) (j : Fin 256) (g : Fin 2) :
    ∑ s ∈ Finset.range (9 + 1), blkQ V c j g.val s
      = ∑ s : Fin 10, ∑ q : Fin 5000, y1 V c (row3 g s q) j * y1 V c (row3 g s q) j := by
  rw [Finset.sum_range]
  refine Finset.sum_congr rfl fun s _ => ?_
  unfold blkQ
  rw [dif_pos ⟨g.isLt, s.isLt⟩]

/-- The two groups' column sums and column sums of squares as contents of the statistics array. -/
def G6 (c : Dev nD) : (⟨3, ![2, 2, 256]⟩ : Shape).Idx → EReal := fun i =>
  if (i 1).val = 0 then ∑ s : Fin 10, ∑ q : Fin 5000, y1 V c (row3 (i 0) s q) (i 2)
  else ∑ s : Fin 10, ∑ q : Fin 5000, y1 V c (row3 (i 0) s q) (i 2) * y1 V c (row3 (i 0) s q) (i 2)

theorem G6_0 (c : Dev nD) (g : Fin 2) (j : Fin 256) :
    G6 V c (ix3 g (0 : Fin 2) j) = ∑ s : Fin 10, ∑ q : Fin 5000, y1 V c (row3 g s q) j := if_pos rfl
theorem G6_1 (c : Dev nD) (g : Fin 2) (j : Fin 256) :
    G6 V c (ix3 g (1 : Fin 2) j) = ∑ s : Fin 10, ∑ q : Fin 5000, y1 V c (row3 g s q) j * y1 V c (row3 g s q) j :=
  if_neg (fun h => absurd h Nat.one_ne_zero)

/-- What the last point of group `g` writes back to the statistics array is block `g` of those sums. -/
theorem flushed6_eq (c : Dev nD) (t : Fin cfg1.N) (hf : (cfg1.win 6).flush t = true) :
    (dat1 V c).flushed 6 t = ((cfg1.win 6).blk t).view.read (Elt Ideal) (G6 V c) := by
  have h1 : t.val % 10 = 9 := (flush1_6 t).mp hf
  have hN : t.val < 20 := lt_of_lt_of_eq t.isLt (show cfg1.N = 20 from N_1)
  show (cfg1.win 6).cut (grid1.coords t) ((dat1 V c).after 6 t) = _
  rw [after1_6]
  obtain ⟨-, -, -, -, -, -, -, -, -, e9, e10, e11⟩ := idx_facts1 t
  funext y
  obtain ⟨u, r, j, rfl⟩ : ∃ (u : Fin 1) (r : Fin 2) (j : Fin 256), y = ix3 u r j := ⟨y 0, y 1, y 2, eq_ix3 y⟩
  obtain rfl : u = 0 := Fin.ext (by omega)
  show (outsAt1 V c t.val t.isLt).2.1 (ix3 (0 : Fin 1) r j) = G6 V c (((cfg1.win 6).blk t).view.emb (ix3 (0 : Fin 1) r j))
  have hi : ((cfg1.win 6).blk t).view.emb (ix3 (0 : Fin 1) r j) = ix3 (⟨t.val / 10, by omega⟩ : Fin 2) r j := by
    funext a; apply Fin.ext
    match a with
    | ⟨0, _⟩ => show win1_6.index t (0 : Fin 3) * 1 + 1 * 0 = t.val / 10; rw [e9]; omega
    | ⟨1, _⟩ => show win1_6.index t (1 : Fin 3) * 2 + 1 * r.val = r.val; rw [e10]; omega
    | ⟨2, _⟩ => show win1_6.index t (2 : Fin 3) * 256 + 1 * j.val = j.val; rw [e11]; omega
  rw [hi, out6_all V c t h1 r j]
  obtain ⟨a0, a1⟩ := acc_inv V c j t.val t.isLt
  rw [h1] at a0 a1
  match r with
  | ⟨0, _⟩ => exact (a0.trans (sum_group V c j ⟨t.val / 10, by omega⟩)).trans (G6_0 V c _ j).symm
  | ⟨1, _⟩ => exact (a1.trans (sumsq_group V c j ⟨t.val / 10, by omega⟩)).trans (G6_1 V c _ j).symm

theorem mem_blk6 (t : Fin cfg1.N) (i : S2x2x256.Idx) :
    i ∈ ((cfg1.win 6).blk t).view.set ↔ ∀ a : Fin 3, win1_6.index t a * S1x2x256.size a ≤ (i a).val ∧ (i a).val < win1_6.index t a * S1x2x256.size a + S1x2x256.size a := by
  show i ∈ ((View.whole main_v94_1).slice (win1_6.rect t)).set ↔ _
  rw [View.set_slice_whole, Rect.mem_set_unit]
  exact Iff.rfl

/-- Group `g`'s block of the statistics array is written back at the group's last point, `10·g + 9`. -/
theorem cover6 (i : S2x2x256.Idx) : ∃ t : Fin cfg1.N, (cfg1.win 6).flush t = true ∧ i ∈ ((cfg1.win 6).blk t).view.set := by
  have hi0 : (i 0).val < 2 := (i 0).isLt
  have hi1 : (i 1).val < 2 := (i 1).isLt
  have hi2 : (i 2).val < 256 := (i 2).isLt
  have hN : cfg1.N = 20 := N_1
  refine ⟨⟨(i 0).val * 10 + 9, by rw [hN]; omega⟩, (flush1_6 _).mpr (by dsimp only; omega), ?_⟩
  rw [mem_blk6]
  obtain ⟨-, -, -, -, -, -, -, -, -, e9, e10, e11⟩ := idx_facts1 ⟨(i 0).val * 10 + 9, by rw [hN]; omega⟩
  intro a
  match a with
  | ⟨0, _⟩ =>
    show win1_6.index _ (0 : Fin 3) * 1 ≤ (i 0).val ∧ (i 0).val < win1_6.index _ (0 : Fin 3) * 1 + 1
    rw [e9]; dsimp only; omega
  | ⟨1, _⟩ =>
    show win1_6.index _ (1 : Fin 3) * 2 ≤ (i 1).val ∧ (i 1).val < win1_6.index _ (1 : Fin 3) * 2 + 2
    rw [e10]; omega
  | ⟨2, _⟩ =>
    show win1_6.index _ (2 : Fin 3) * 256 ≤ (i 2).val ∧ (i 2).val < win1_6.index _ (2 : Fin 3) * 256 + 256
    rw [e11]; omega

end R1

open R1

/-! ## The two results -/

/-- THE BLOCK OUTPUT after the call: the affine layer of relu(x·scale + shift), entry by entry. -/
theorem x2_value (c : Dev nD) (r : Fin 100000) (j : Fin 256) :
    (dat1 (F := Ideal) V c).arrAt 5 cfg1.N (ix2 r j) = y1 V c r j :=
  congrFun ((dat1 (F := Ideal) V c).arrAt_eq_of_cover 5 (G5 V c) (fun t _ => flushed5_eq V c t) cover5) (ix2 r j)

/-- THE STATISTICS after the call: per group of 50000 rows, the column sums of the affine layer's output and the
    column sums of its squares. -/
theorem stats2_value (c : Dev nD) (g : Fin 2) (j : Fin 256) :
    (dat1 (F := Ideal) V c).arrAt 6 cfg1.N (ix3 g 0 j) = ∑ s : Fin 10, ∑ q : Fin 5000, y1 V c (row3 g s q) j
    ∧ (dat1 (F := Ideal) V c).arrAt 6 cfg1.N (ix3 g 1 j) = ∑ s : Fin 10, ∑ q : Fin 5000, y1 V c (row3 g s q) j * y1 V c (row3 g s q) j := by
  have hfin := (dat1 (F := Ideal) V c).arrAt_eq_of_cover 6 (G6 V c) (fun t hf => flushed6_eq V c t hf) cover6
  exact ⟨(congrFun hfin (ix3 g (0 : Fin 2) j)).trans (G6_0 V c g j), (congrFun hfin (ix3 g (1 : Fin 2) j)).trans (G6_1 V c g j)⟩

end Cert.KernelIdeal.HandValue

end
-- ==== Proof.KIV.R2Pay.lean ====
/- The payload of region 2's one store, read at an index, at the ideal values: row `q`, lane `j` of the stored block
   is the affine map of the activations' row, clamped below at zero, contracted over the 256 lanes against column `j`
   of the weight, plus lane `j` of the bias.  The format changes to and from the narrow float are the identity on
   the extended reals, the shape casts only add a unit axis, and the product accumulates into the zero splat. -/
import proofs.«169417_j2877628089024_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen
open Idealize.ShloMosaic Idealize.ShloMosaic.ValueIdx

/-- The dimension numbers of the body's one product: 5000x256 by 256x128, contracting the left operand's lanes
    against the right operand's rows. -/
abbrev dot2 : DotDims S5000x256 S256x128 S5000x128 := dot_S5000x256_S256x128_S5000x128_1_0_0_1_n_n

/-- The product into the zero splat, read at row `q`, lane `j`: the sum over the contracted coordinate. -/
theorem matmul2_apply {φ₁ φ₂ : FTy} (A : FVec Ideal S5000x256 φ₁) (B : FVec Ideal S256x128 φ₂) (q : Fin 5000) (j : Fin 128) :
    FloatOps.matmul dot2 none A B (constant (F := Ideal) S5000x128 .f32 0x00000000#32) (ix2 q j)
      = ∑ k : Fin 256, A (ix2 q k) * B (ix2 k j) := by
  rw [Ideal.matmul_constant_zero_apply, ← Equiv.sum_comp (contrEquiv1 dot2 256 rfl rfl).symm]
  refine Finset.sum_congr rfl fun k _ => ?_
  have ck := contrEquiv1_symm_val dot2 256 rfl rfl k
  have hl : dot2.lhsIdx (ix2 q j) ((contrEquiv1 dot2 256 rfl rfl).symm k) = ix2 q k := by
    funext ax; apply Fin.ext
    match ax with
    | ⟨0, _⟩ => simp [DotDims.lhsIdx, dot2, dot_S5000x256_S256x128_S5000x128_1_0_0_1_n_n]; rfl
    | ⟨1, _⟩ => simp [DotDims.lhsIdx, dot2, dot_S5000x256_S256x128_S5000x128_1_0_0_1_n_n]; exact ck
  have hr : dot2.rhsIdx (ix2 q j) ((contrEquiv1 dot2 256 rfl rfl).symm k) = ix2 k j := by
    funext ax; apply Fin.ext
    match ax with
    | ⟨0, _⟩ => simp [DotDims.rhsIdx, dot2, dot_S5000x256_S256x128_S5000x128_1_0_0_1_n_n]; exact ck
    | ⟨1, _⟩ => simp [DotDims.rhsIdx, dot2, dot_S5000x256_S256x128_S5000x128_1_0_0_1_n_n]; rfl
  rw [hl, hr]

/-- A 256-lane row, cast to one row of a matrix and broadcast down 5000 rows, read at row `q`, lane `k`, is the
    row's lane `k`. -/
theorem rowBroadcast256_apply (v : FVec Ideal S256 .f32) (q : Fin 5000) (k : Fin 256) :
    broadcastTo S5000x256 (shapeCast S1x256 v shapeCasts_S256_S1x256) broadcasts_S1x256_S5000x256 (ix2 q k) = v (ix1 k) := by
  rw [broadcastTo_1b_ab_apply, shapeCast_a_1a_apply]

/-- The same for a 128-lane row. -/
theorem rowBroadcast128_apply (v : FVec Ideal S128 .f32) (q : Fin 5000) (j : Fin 128) :
    broadcastTo S5000x128 (shapeCast S1x128 v shapeCasts_S128_S1x128) broadcasts_S1x128_S5000x128 (ix2 q j) = v (ix1 j) := by
  rw [broadcastTo_1b_ab_apply, shapeCast_a_1a_apply]

/-- THE PAYLOAD AT AN INDEX.  Arguments in window order: the activations' block `x0`, the scale `x1`, the shift `x2`,
    the padded weight `x3`, the padded bias `x4`. -/
theorem pay2_apply (x0 : Vec Ideal S5000x256 .bf16) (x1 x2 : Vec Ideal S256 .f32) (x3 : Vec Ideal S256x128 .f32)
    (x4 : Vec Ideal S128 .f32) (q : Fin 5000) (j : Fin 128) :
    (k2_pay1 (F := Ideal) x0 x1 x2 x3 x4 (ix2 q j) : EReal)
      = (∑ k : Fin 256, max ((x0 (ix2 q k) : EReal) * (x1 (ix1 k) : EReal) + (x2 (ix1 k) : EReal)) 0 * (x3 (ix2 k j) : EReal))
        + (x4 (ix1 j) : EReal) := by
  unfold k2_pay1
  simp only [shapeCast_self]
  rw [addf_apply, rowBroadcast128_apply]
  refine congrArg (· + (x4 (ix1 j) : EReal)) ?_
  simp only [matmul]
  rw [matmul2_apply]
  refine Finset.sum_congr rfl fun k _ => ?_
  rw [truncf_apply, truncf_apply, maximumf_apply, addf_apply, mulf_apply, extf_apply,
    rowBroadcast256_apply, rowBroadcast256_apply, broadcast_apply]
  show max _ (Ideal.ofBits .f32 0x00000000#32) * _ = _
  rw [Ideal.ofBits_zero_f32]

end Cert.KernelIdeal.HandValue

end
-- ==== Proof.KIV.R2Value.lean ====
/- Region 2 of the program at the ideal values: what its output array holds when the region ends, index by index,
   as a function of the arrays the region finds when it is entered (`V`).
   The output's twenty blocks of 5000 rows tile the 100000 rows; block `b` is written at the one point whose
   coordinates are `(b / 10, b % 10)`, from block `b` of the activations and the whole scale, shift, weight and bias.
   So row `r`, lane `j` of the array is the last affine layer applied to the normalised, clamped activations:
   `(∑ k, max (x r k * scale k + shift k) 0 * W k j) + bias j`. -/
import proofs.«169417_j2877628089024_2_alg».proof.Proof.KI.R2
import proofs.«169417_j2877628089024_2_alg».proof.Proof.KIV.R2Pay
import proofs.«169417_j2877628089024_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx MlpSpec
open Idealize.ShloMosaic.Pipeline (Dat)

/-! ## One block's payload is the affine layer on the block's rows -/

/-- For a block `x0` that is rows `b * 5000 …` of an array `X0`, and `x1 … x4` the whole of `X1 … X4`, the payload at
    row `q`, lane `j` of the block is the affine layer at row `b * 5000 + q`, lane `j`. -/
theorem blockValue2 (X0 : S100000x256.Idx → EReal) (X1 X2 : S256.Idx → EReal) (X3 : S256x128.Idx → EReal)
    (X4 : S128.Idx → EReal)
    (x0 : Vec Ideal S5000x256 .bf16) (x1 x2 : Vec Ideal S256 .f32) (x3 : Vec Ideal S256x128 .f32)
    (x4 : Vec Ideal S128 .f32) (b : ℕ) (hb : b < 20)
    (h0 : ∀ (q : Fin 5000) (k : Fin 256), (x0 (ix2 q k) : EReal) = X0 (ix2 (⟨b * 5000 + q.val, by omega⟩ : Fin 100000) k))
    (h1 : ∀ k : Fin 256, (x1 (ix1 k) : EReal) = X1 (ix1 k)) (h2 : ∀ k : Fin 256, (x2 (ix1 k) : EReal) = X2 (ix1 k))
    (h3 : ∀ (k : Fin 256) (j : Fin 128), (x3 (ix2 k j) : EReal) = X3 (ix2 k j))
    (h4 : ∀ j : Fin 128, (x4 (ix1 j) : EReal) = X4 (ix1 j)) (q : Fin 5000) (j : Fin 128) :
    (k2_pay1 (F := Ideal) x0 x1 x2 x3 x4 (ix2 q j) : EReal)
      = lin (fun r k => max (cur2 X0 r k * cur1 X1 k + cur1 X2 k) 0) (cur2 X3) (cur1 X4)
          (⟨b * 5000 + q.val, by omega⟩ : Fin 100000) j := by
  rw [pay2_apply]
  unfold lin cur2 cur1
  rw [h4 j]
  refine congrArg (· + X4 (ix1 j)) (Finset.sum_congr rfl fun k _ => ?_)
  rw [h0 q k, h1 k, h2 k, h3 k j]

/-! ## The array as one function of the region-entry arrays -/

section AtEntry
variable (V : (c : Dev nD) → (b : Ref sig .tc) → Buf (Elt Ideal) ((c : Thread nD τ).loc b))

/-- The normalised, clamped activations: `max (x * scale + shift) 0`, row by row, lane by lane. -/
def a2 (c : Dev nD) : Fin 100000 → Fin 256 → EReal := fun r k =>
  max (cur2 (V c main_v94_0 : S100000x256.Idx → EReal) r k * cur1 (V c main_v111 : S256.Idx → EReal) k
    + cur1 (V c main_v113 : S256.Idx → EReal) k) 0

/-- What the output array ends holding: the affine layer of `a2` with the padded weight and bias. -/
def G2 (c : Dev nD) : S100000x128.Idx → EReal := fun i =>
  lin (a2 V c) (cur2 (V c main_v114 : S256x128.Idx → EReal)) (cur1 (V c main_v115 : S128.Idx → EReal)) (i 0) (i 1)

theorem G2_ix2 (c : Dev nD) (r : Fin 100000) (j : Fin 128) :
    G2 V c (ix2 r j) = lin (a2 V c) (cur2 (V c main_v114 : S256x128.Idx → EReal)) (cur1 (V c main_v115 : S128.Idx → EReal)) r j := rfl

theorem hz2 : (![0, 0] : Fin 2 → Nat) = fun _ => 0 := funext fun a => by fin_cases a <;> rfl
theorem hz1 : (![0] : Fin 1 → Nat) = fun _ => 0 := funext fun a => by fin_cases a <;> rfl

/-- The printed index maps, decided once over the twenty points: the activations' block moves with the output's along
    the rows; every other block index is zero; the output's row-block index is below twenty. -/
theorem idx_facts2 : ∀ t : Fin cfg2.N,
    win2_0.index t (0 : Fin 2) = win2_5.index t (0 : Fin 2) ∧ win2_0.index t (1 : Fin 2) = 0
    ∧ win2_5.index t (1 : Fin 2) = 0 ∧ win2_5.index t (0 : Fin 2) < 20
    ∧ win2_1.index t (0 : Fin 1) = 0 ∧ win2_2.index t (0 : Fin 1) = 0
    ∧ win2_3.index t (0 : Fin 2) = 0 ∧ win2_3.index t (1 : Fin 2) = 0 ∧ win2_4.index t (0 : Fin 1) = 0 :=
  (by decide +kernel : ∀ t : Fin grid2.N, _)

/-- Every one of the twenty row blocks is some point's. -/
theorem idx_onto2 : ∀ b : Fin 20, ∃ t : Fin cfg2.N, win2_5.index t = ![b.val, 0] :=
  (by decide +kernel : ∀ b : Fin 20, ∃ t : Fin grid2.N, win2_5.index t = ![b.val, 0])

/-! ## The input blocks, read where the region-entry arrays hold them -/

/-- The activations' block at point `t` is rows `index * 5000 …` of the array. -/
theorem iblk2_0_apply (c : Dev nD) (t : Fin cfg2.N) (b : ℕ) (hb : b < 20) (hidx : win2_0.index t (0 : Fin 2) = b)
    (hidx1 : win2_0.index t (1 : Fin 2) = 0) (q : Fin 5000) (k : Fin 256) :
    (iblk2 V c 0 t (ix2 q k) : EReal)
      = (V c main_v94_0 : S100000x256.Idx → EReal) (ix2 (⟨b * 5000 + q.val, by omega⟩ : Fin 100000) k) := by
  show (V c main_v94_0 : S100000x256.Idx → EReal) (((cfg2.win 0).blk t).view.emb (ix2 q k)) = _
  refine congrArg (V c main_v94_0 : S100000x256.Idx → EReal) (funext fun a => Fin.ext ?_)
  match a with
  | ⟨0, _⟩ => show win2_0.index t (0 : Fin 2) * 5000 + 1 * q.val = b * 5000 + q.val; rw [hidx]; omega
  | ⟨1, _⟩ => show win2_0.index t (1 : Fin 2) * 256 + 1 * k.val = k.val; rw [hidx1]; omega

/-- The scale's one block is the whole row. -/
theorem iblk2_1_apply (c : Dev nD) (t : Fin cfg2.N) (hidx : win2_1.index t (0 : Fin 1) = 0) (k : Fin 256) :
    (iblk2 V c 1 t (ix1 k) : EReal) = (V c main_v111 : S256.Idx → EReal) (ix1 k) := by
  show (V c main_v111 : S256.Idx → EReal) (((cfg2.win 1).blk t).view.emb (ix1 k)) = _
  refine congrArg (V c main_v111 : S256.Idx → EReal) (funext fun a => Fin.ext ?_)
  match a with
  | ⟨0, _⟩ => show win2_1.index t (0 : Fin 1) * 256 + 1 * k.val = k.val; rw [hidx]; omega

/-- The shift's one block is the whole row. -/
theorem iblk2_2_apply (c : Dev nD) (t : Fin cfg2.N) (hidx : win2_2.index t (0 : Fin 1) = 0) (k : Fin 256) :
    (iblk2 V c 2 t (ix1 k) : EReal) = (V c main_v113 : S256.Idx → EReal) (ix1 k) := by
  show (V c main_v113 : S256.Idx → EReal) (((cfg2.win 2).blk t).view.emb (ix1 k)) = _
  refine congrArg (V c main_v113 : S256.Idx → EReal) (funext fun a => Fin.ext ?_)
  match a with
  | ⟨0, _⟩ => show win2_2.index t (0 : Fin 1) * 256 + 1 * k.val = k.val; rw [hidx]; omega

/-- The weight's one block is the whole matrix. -/
theorem iblk2_3_apply (c : Dev nD) (t : Fin cfg2.N) (hidx0 : win2_3.index t (0 : Fin 2) = 0)
    (hidx1 : win2_3.index t (1 : Fin 2) = 0) (k : Fin 256) (j : Fin 128) :
    (iblk2 V c 3 t (ix2 k j) : EReal) = (V c main_v114 : S256x128.Idx → EReal) (ix2 k j) := by
  show (V c main_v114 : S256x128.Idx → EReal) (((cfg2.win 3).blk t).view.emb (ix2 k j)) = _
  refine congrArg (V c main_v114 : S256x128.Idx → EReal) (funext fun a => Fin.ext ?_)
  match a with
  | ⟨0, _⟩ => show win2_3.index t (0 : Fin 2) * 256 + 1 * k.val = k.val; rw [hidx0]; omega
  | ⟨1, _⟩ => show win2_3.index t (1 : Fin 2) * 128 + 1 * j.val = j.val; rw [hidx1]; omega

/-- The bias's one block is the whole row. -/
theorem iblk2_4_apply (c : Dev nD) (t : Fin cfg2.N) (hidx : win2_4.index t (0 : Fin 1) = 0) (j : Fin 128) :
    (iblk2 V c 4 t (ix1 j) : EReal) = (V c main_v115 : S128.Idx → EReal) (ix1 j) := by
  show (V c main_v115 : S128.Idx → EReal) (((cfg2.win 4).blk t).view.emb (ix1 j)) = _
  refine congrArg (V c main_v115 : S128.Idx → EReal) (funext fun a => Fin.ext ?_)
  match a with
  | ⟨0, _⟩ => show win2_4.index t (0 : Fin 1) * 128 + 1 * j.val = j.val; rw [hidx]; omega

/-! ## What each point writes back -/

/-- WHAT POINT `t` WRITES BACK to the output array is block `t` of `G2`. -/
theorem flushed2_5_eq (c : Dev nD) (t : Fin cfg2.N) :
    (dat2 (F := Ideal) V c).flushed 5 t = ((cfg2.win 5).blk t).view.read (Elt Ideal) (G2 V c) := by
  show (cfg2.win 5).cut (grid2.coords t) ((dat2 V c).after 5 t) = _
  rw [after2_5]
  unfold out2_5
  rw [View.canon_unit_zero hz2]
  simp only [View.ld_unit_zero (S := S5000x256) hz2, View.ld_unit_zero (S := S256) hz1,
    View.ld_unit_zero (S := S256x128) hz2, View.ld_unit_zero (S := S128) hz1]
  obtain ⟨e0, e1, e2, e3, e4, e5, e6, e7, e8⟩ := idx_facts2 t
  funext y
  obtain ⟨q, j, rfl⟩ : ∃ (q : Fin 5000) (j : Fin 128), y = (ix2 q j : S5000x128.Idx) :=
    ⟨(y : S5000x128.Idx) 0, (y : S5000x128.Idx) 1, eq_ix2 (y : S5000x128.Idx)⟩
  have hemb : ((cfg2.win 5).blk t).view.emb (ix2 q j : S5000x128.Idx)
      = (ix2 (⟨win2_5.index t (0 : Fin 2) * 5000 + q.val, by omega⟩ : Fin 100000) j : S100000x128.Idx) := by
    funext a; apply Fin.ext
    match a with
    | ⟨0, _⟩ => show win2_5.index t (0 : Fin 2) * 5000 + 1 * q.val = win2_5.index t (0 : Fin 2) * 5000 + q.val; omega
    | ⟨1, _⟩ => show win2_5.index t (1 : Fin 2) * 128 + 1 * j.val = j.val; rw [e2]; omega
  show (k2_pay1 (F := Ideal) (iblk2 V c 0 t) (iblk2 V c 1 t) (iblk2 V c 2 t) (iblk2 V c 3 t) (iblk2 V c 4 t) (ix2 q j : S5000x128.Idx) : EReal)
      = G2 V c (((cfg2.win 5).blk t).view.emb (ix2 q j : S5000x128.Idx))
  rw [hemb, G2_ix2]
  exact blockValue2 (V c main_v94_0 : S100000x256.Idx → EReal) (V c main_v111 : S256.Idx → EReal)
    (V c main_v113 : S256.Idx → EReal) (V c main_v114 : S256x128.Idx → EReal) (V c main_v115 : S128.Idx → EReal)
    (iblk2 V c 0 t) (iblk2 V c 1 t) (iblk2 V c 2 t) (iblk2 V c 3 t) (iblk2 V c 4 t)
    (win2_5.index t (0 : Fin 2)) e3
    (iblk2_0_apply V c t (win2_5.index t (0 : Fin 2)) e3 e0 e1)
    (iblk2_1_apply V c t e4) (iblk2_2_apply V c t e5) (iblk2_3_apply V c t e6 e7) (iblk2_4_apply V c t e8)
    q j

/-! ## From blocks to the array -/

/-- An index of the array is in point `t`'s block iff each coordinate is in the block's range on its axis. -/
theorem mem_blk2_5 (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v116).slice (win2_5.rect t)).set ↔ _
  rw [View.set_slice_whole, Rect.mem_set_unit]
  exact Iff.rfl

/-- Every index of the array is in the block of the point that writes row block `row / 5000`. -/
theorem covered2_5 (i : S100000x128.Idx) :
    ∃ t : Fin cfg2.N, (cfg2.win 5).flush t = true ∧ i ∈ ((cfg2.win 5).blk t).view.set := by
  have hi0 : (i 0).val < 100000 := idx2_lt0 i
  have hi1 : (i 1).val < 128 := idx2_lt1 i
  obtain ⟨t, ht⟩ := idx_onto2 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk2_5]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE ARRAY when the region ends: `G2` of the region-entry arrays, everywhere. -/
theorem final2_5 (c : Dev nD) : (dat2 (F := Ideal) V c).arrAt 5 cfg2.N = G2 V c :=
  (dat2 (F := Ideal) V c).arrAt_eq_of_cover 5 (G2 V c) (fun t _ => flushed2_5_eq V c t) covered2_5

/-- The same, index by index: row `r`, lane `j` of the output array is the affine layer of the normalised, clamped
    activations with the padded weight and bias. -/
theorem out_value (c : Dev nD) (r : Fin 100000) (j : Fin 128) :
    (dat2 (F := Ideal) V c).arrAt 5 cfg2.N (ix2 r j)
      = lin (a2 V c) (cur2 (V c main_v114 : S256x128.Idx → EReal)) (cur1 (V c main_v115 : S128.Idx → EReal)) r j := by
  rw [final2_5]
  rfl

end AtEntry

end Cert.KernelIdeal.HandValue

end
-- ==== Proof.KIV.Pad.lean ====
/- Host glue around region 2, at the ideal values and over an arbitrary valuation of the buffers: the weight and
   the bias are padded with forty kept columns followed by eighty-eight columns of the padding value, and the result
   is cut back to its first forty columns.  On the kept columns a padded array is the array it was padded from,
   whatever the padding value; the cut reads the array at the same coordinates. -/
import proofs.«169417_j2877628089024_2_alg».proof.Proof.Gen.KernelIdeal.Launch
import proofs.«169417_j2877628089024_2_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HandValue

open Cert.KernelIdeal Cert.KernelIdeal.Gen
open Idealize.ShloMosaic Idealize.ShloMosaic.TcCoe Idealize.ShloMosaic.ValueIdx MlpSpec

/-! ## A padded array on its kept columns, a cut array on the columns it keeps -/

/-- A 256 by 40 matrix padded on the right to 128 columns, read at a column below 40, is the matrix there. -/
theorem padW_apply {α : Type} (x : S256x40.Idx → α) {u : Shape} (v : u.Idx → α)
    (h : S256x40.Pads ![0, 0] ![0, 88] ![0, 0] S256x128) (hu : 0 < u.numel) (k : Fin 256) (j : Fin 40) :
    pad S256x128 ![0, 0] ![0, 88] ![0, 0] x v h hu (ix2 k (⟨j.val, by omega⟩ : Fin 128)) = x (ix2 k j) := by
  unfold pad
  split
  · refine congrArg x (funext fun a => Fin.ext ?_)
    match a with
    | ⟨0, _⟩ => show (k.val - 0) / (0 + 1) = k.val; simp
    | ⟨1, _⟩ => show (j.val - 0) / (0 + 1) = j.val; simp
  · rename_i hout
    refine absurd (fun a => ?_) hout
    match a with
    | ⟨0, _⟩ => show 0 ≤ k.val ∧ (k.val - 0) % (0 + 1) = 0 ∧ (k.val - 0) / (0 + 1) < 256; have := k.isLt; simp; omega
    | ⟨1, _⟩ => show 0 ≤ j.val ∧ (j.val - 0) % (0 + 1) = 0 ∧ (j.val - 0) / (0 + 1) < 40; have := j.isLt; simp; omega

/-- A 40-lane row padded on the right to 128 lanes, read at a lane below 40, is the row there. -/
theorem padB_apply {α : Type} (x : S40.Idx → α) {u : Shape} (v : u.Idx → α)
    (h : S40.Pads ![0] ![88] ![0] S128) (hu : 0 < u.numel) (j : Fin 40) :
    pad S128 ![0] ![88] ![0] x v h hu (ix1 (⟨j.val, by omega⟩ : Fin 128)) = x (ix1 j) := by
  unfold pad
  split
  · refine congrArg x (funext fun a => Fin.ext ?_)
    match a with
    | ⟨0, _⟩ => show (j.val - 0) / (0 + 1) = j.val; simp
  · rename_i hout
    refine absurd (fun a => ?_) hout
    match a with
    | ⟨0, _⟩ => show 0 ≤ j.val ∧ (j.val - 0) % (0 + 1) = 0 ∧ (j.val - 0) / (0 + 1) < 40; have := j.isLt; simp; omega

/-- The first forty columns cut out of a 100000 by 128 matrix, read at an index, are the matrix at the same coordinates. -/
theorem sliceOut_apply {α : Type} (x : S100000x128.Idx → α) (h : S100000x128.Slices ![0, 0] S100000x40)
    (r : Fin 100000) (j : Fin 40) :
    extractStridedSlice S100000x40 ![0, 0] x h (ix2 r j) = x (ix2 r (⟨j.val, by omega⟩ : Fin 128)) := by
  refine extractStridedSlice_apply ![0, 0] x h (ix2 r j) (ix2 r (⟨j.val, by omega⟩ : Fin 128)) fun a => ?_
  match a with
  | ⟨0, _⟩ => show r.val = 0 + r.val; omega
  | ⟨1, _⟩ => show j.val = 0 + j.val; omega

/-! ## The three stretches of host operations -/

section Glue
variable (Wd : Valuation τ sig (Elt Ideal))

/-- After the weight's padding call, its result buffer holds the argument padded with the converted constant. -/
theorem after_v114 :
    (StableHlo.after hostOps2_1 Wd (Proc.devRef .tc main_v114) : S256x128.Idx → EReal)
      = pad S256x128 ![0, 0] ![0, 88] ![0, 0] (Wd (Proc.devRef .tc main_arg11) : S256x40.Idx → EReal)
          (sitofp (F := Ideal) .f32 (Wd (Proc.devRef .tc main_c_27))) pads_S256x40_S256x128_000_0880 h_S_ := by
  after_results
  rfl

/-- After the bias's padding call, its result buffer holds the argument padded with the converted constant. -/
theorem after_v115 :
    (StableHlo.after hostOps2_3 Wd (Proc.devRef .tc main_v115) : S128.Idx → EReal)
      = pad S128 ![0] ![88] ![0] (Wd (Proc.devRef .tc main_arg12) : S40.Idx → EReal)
          (sitofp (F := Ideal) .f32 (Wd (Proc.devRef .tc main_c_28))) pads_S40_S128_0880 h_S_ := by
  after_results
  rfl

/-- After the final cut, its result buffer holds the first forty columns of the region's output array. -/
theorem after_v117 :
    (StableHlo.after hostOps3 Wd (Proc.devRef .tc main_v117) : S100000x40.Idx → EReal)
      = extractStridedSlice S100000x40 ![0, 0] (Wd (Proc.devRef .tc main_v116) : S100000x128.Idx → EReal)
          slices_S100000x128_S100000x40_0_0 := by
  after_results

/-- The stretch before the weight's padding call does not write the weight argument. -/
theorem arg11_kept : StableHlo.after hostOps2 Wd (Proc.devRef .tc main_arg11) = Wd (Proc.devRef .tc main_arg11) := by
  after_results

/-- THE PADDED WEIGHT on its kept columns is the weight argument, from any valuation the padding call starts from. -/
theorem pad_W3' (k : Fin 256) (j : Fin 40) :
    cur2 (StableHlo.after hostOps2_1 Wd (Proc.devRef .tc main_v114) : S256x128.Idx → EReal) k (⟨j.val, by omega⟩ : Fin 128)
      = cur2 (Wd (Proc.devRef .tc main_arg11) : S256x40.Idx → EReal) k j := by
  unfold cur2
  rw [after_v114]
  exact padW_apply _ _ _ _ k j

/-- The same through the stretch of host operations before the call, which leaves the weight argument alone. -/
theorem pad_W3 (k : Fin 256) (j : Fin 40) :
    cur2 (StableHlo.after hostOps2_1 (StableHlo.after hostOps2 Wd) (Proc.devRef .tc main_v114) : S256x128.Idx → EReal) k
        (⟨j.val, by omega⟩ : Fin 128)
      = cur2 (Wd (Proc.devRef .tc main_arg11) : S256x40.Idx → EReal) k j := by
  rw [pad_W3' (StableHlo.after hostOps2 Wd) k j, arg11_kept]

/-- THE PADDED BIAS on its kept lanes is the bias argument. -/
theorem pad_b3 (j : Fin 40) :
    cur1 (StableHlo.after hostOps2_3 Wd (Proc.devRef .tc main_v115) : S128.Idx → EReal) (⟨j.val, by omega⟩ : Fin 128)
      = cur1 (Wd (Proc.devRef .tc main_arg12) : S40.Idx → EReal) j := by
  unfold cur1
  rw [after_v115]
  exact padB_apply _ _ _ _ j

/-- THE RESULT, cut to its first forty columns, is the region's output array there. -/
theorem slice_out (r : Fin 100000) (j : Fin 40) :
    cur2 (StableHlo.after hostOps3 Wd (Proc.devRef .tc main_v117) : S100000x40.Idx → EReal) r j
      = cur2 (Wd (Proc.devRef .tc main_v116) : S100000x128.Idx → EReal) r (⟨j.val, by omega⟩ : Fin 128) := by
  unfold cur2
  rw [after_v117]
  exact sliceOut_apply _ _ r j

end Glue

end Cert.KernelIdeal.HandValue

end
-- ==== Proof.KIV.Glue.lean ====
/-
  The host operations between the kernel's three regions, read at an index over the extended reals.

  After the first (resp. second) region the statistics array `T : [2, 2, 256]` holds, for each of the two groups
  `g`, the column sums `T[g, 0, j]` and the column sums of squares `T[g, 1, j]`. The host adds the two groups,
  `S₀ j = Σ_g T[g, 0, j]`, `S₁ j = Σ_g T[g, 1, j]`, and forms
  `mean = S₀ / N`, `var = max (S₁ / N − mean · mean) 0`, `scale = γ · rsqrt (var + ε)`, `shift = β − mean · scale`.
  Each lemma reads one stretch of operations, from arbitrary buffer contents `Wd` at its start, at one index.
-/
import proofs.«169417_j2877628089024_2_alg».proof.Proof.Gen.KernelIdeal.Launch
import proofs.«169417_j2877628089024_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Cert.KernelIdeal Cert.KernelIdeal.Gen Idealize.ShloMosaic Idealize.ShloMosaic.ValueIdx

/-! ### The pieces -/

/-- The host's sum over the leading axis of a `[2, 2, 256]` array, at `(a, j)`: the initial value plus the two groups' entries. -/
theorem groupSum_apply (X : S2x2x256.Idx → EReal) (init : S_.Idx → EReal)
    (h' : S2x2x256.ReducesTo [0] S2x256) (hu : 0 < S_.numel) (a : Fin 2) (j : Fin 256) :
    Host.reduceAdd (F := Ideal) (φ := .f32) X init h' hu (ix2 a j)
      = init (Shape.Idx.first hu) + ∑ g : Fin 2, X (ix3 g a j) := by
  have h : S2x2x256.Reduces [0] S2x256 := by decide
  refine (Ideal.hostReduceAdd_single h' h X _ (ix2 a j)).trans ?_
  show init (Shape.Idx.first hu) + ∑ g : Fin 2, X (h.lift (ix2 a j) g) = _
  refine congrArg (init (Shape.Idx.first hu) + ·) (Finset.sum_congr rfl fun g _ => congrArg X ?_)
  funext d
  match d with
  | ⟨0, _⟩ => exact Fin.ext rfl
  | ⟨1, _⟩ => exact Fin.ext rfl
  | ⟨2, _⟩ => exact Fin.ext rfl

/-- Row `a` of a `[2, 256]` array, cut out as a `[1, 256]` slice and reshaped to `[256]`, read at `j`. -/
theorem row_apply {α : Type} (A : S2x256.Idx → α) (o : Nat) (a : Fin 2) (ha : a.val = o)
    (hs : S2x256.Slices ![o, 0] S1x256) (hc : S1x256.ShapeCasts S256) (j : Fin 256) :
    shapeCast S256 (extractStridedSlice S1x256 ![o, 0] A hs) hc (ix1 j) = A (ix2 a j) :=
  (shapeCast_1a_a_apply _ hc j).trans (slice2_axis0_apply o A hs (0 : Fin 1) j a (by rw [ha]; rfl))

/-- The statistic `a` (0: sums, 1: sums of squares) summed over the two groups, as the host reads it at column `j`. -/
def stat (X : S2x2x256.Idx → EReal) (o : Nat) (hs : S2x256.Slices ![o, 0] S1x256) (j : Fin 256) : EReal :=
  shapeCast S256 (extractStridedSlice S1x256 ![o, 0]
    (Host.reduceAdd (F := Ideal) (φ := .f32) X (constant (F := Ideal) S_ .f32 0x00000000#32)
      Facts₀.reducesTo_S2x2x256_S2x256_d0 Facts₀.h_S_) hs) Facts₀.shapeCasts_S1x256_S256 (ix1 j)

theorem stat_eq (X : S2x2x256.Idx → EReal) (o : Nat) (hs : S2x256.Slices ![o, 0] S1x256) (a : Fin 2) (ha : a.val = o)
    (j : Fin 256) : stat X o hs j = ∑ g : Fin 2, X (ix3 g a j) := by
  unfold stat
  refine (row_apply _ o a ha hs _ j).trans ?_
  refine (groupSum_apply X _ _ _ a j).trans ?_
  show Ideal.ofBits .f32 0x00000000#32 + _ = _
  rw [Ideal.ofBits_zero_f32, zero_add]

/-- The scale as the host computes it from the summed statistics, with the statistics written as sums over the two groups. -/
theorem scale_read (T : S2x2x256.Idx → EReal) (γ N ε : EReal) (j : Fin 256) :
    γ * Ideal.rsqrt (max (Ideal.div (stat T 1 Facts₀.slices_S2x256_S1x256_1_0 j) N
          - Ideal.div (stat T 0 Facts₀.slices_S2x256_S1x256_0_0 j) N
            * Ideal.div (stat T 0 Facts₀.slices_S2x256_S1x256_0_0 j) N)
          (Ideal.ofBits .f32 0x00000000#32) + ε)
      = γ * Ideal.rsqrt (max (Ideal.div (∑ g : Fin 2, T (ix3 g (1 : Fin 2) j)) N
          - Ideal.div (∑ g : Fin 2, T (ix3 g (0 : Fin 2) j)) N * Ideal.div (∑ g : Fin 2, T (ix3 g (0 : Fin 2) j)) N) 0 + ε) := by
  rw [stat_eq T 0 Facts₀.slices_S2x256_S1x256_0_0 (0 : Fin 2) rfl j,
    stat_eq T 1 Facts₀.slices_S2x256_S1x256_1_0 (1 : Fin 2) rfl j, Ideal.ofBits_zero_f32]

/-! ### The statistics after the first region -/

/-- With `S₀`, `S₁` the two statistics summed over the groups: the stretch leaves `γ · rsqrt (max (S₁/N − (S₀/N)²) 0 + ε)`
    in the scale buffer and `β − (S₀/N) · scale` in the shift buffer. (`N`, `ε` are the two float constants the stretch
    spells; they and the sums are named by equations so that a caller may give them in whatever form it has.) -/
theorem glue1 (Wd : Valuation τ sig (Elt Ideal)) (j : Fin 256) (N ε S0 S1 : EReal)
    (hN : N = Ideal.ofBits .f32 0x47C35000#32) (hε : ε = Ideal.ofBits .f32 0x3727C5AC#32)
    (h0 : Eq (α := EReal) S0 (∑ g : Fin 2, Wd (Proc.devRef .tc main_v74_1) (ix3 g (0 : Fin 2) j)))
    (h1 : Eq (α := EReal) S1 (∑ g : Fin 2, Wd (Proc.devRef .tc main_v74_1) (ix3 g (1 : Fin 2) j))) :
    MlpSpec.cur1 (StableHlo.after (hostOps1 (F := Ideal)) Wd (Proc.devRef .tc main_v91)) j
        = MlpSpec.cur1 (Wd (Proc.devRef .tc main_arg5)) j
            * Ideal.rsqrt (max (Ideal.div S1 N - Ideal.div S0 N * Ideal.div S0 N) 0 + ε)
    ∧ MlpSpec.cur1 (StableHlo.after (hostOps1 (F := Ideal)) Wd (Proc.devRef .tc main_v93)) j
        = MlpSpec.cur1 (Wd (Proc.devRef .tc main_arg6)) j
            - Ideal.div S0 N * (MlpSpec.cur1 (Wd (Proc.devRef .tc main_arg5)) j
                * Ideal.rsqrt (max (Ideal.div S1 N - Ideal.div S0 N * Ideal.div S0 N) 0 + ε)) := by
  subst hN hε h0 h1
  constructor
  · after_results_simp
    exact scale_read (Wd (Proc.devRef .tc main_v74_1)) (MlpSpec.cur1 (Wd (Proc.devRef .tc main_arg5)) j) _ _ j
  · after_results_simp
    show MlpSpec.cur1 (Wd (Proc.devRef .tc main_arg6)) j
        - Ideal.div (stat (Wd (Proc.devRef .tc main_v74_1)) 0 Facts₀.slices_S2x256_S1x256_0_0 j) (Ideal.ofBits .f32 0x47C35000#32)
        * (MlpSpec.cur1 (Wd (Proc.devRef .tc main_arg5)) j
          * Ideal.rsqrt (max (Ideal.div (stat (Wd (Proc.devRef .tc main_v74_1)) 1 Facts₀.slices_S2x256_S1x256_1_0 j) (Ideal.ofBits .f32 0x47C35000#32)
          - Ideal.div (stat (Wd (Proc.devRef .tc main_v74_1)) 0 Facts₀.slices_S2x256_S1x256_0_0 j) (Ideal.ofBits .f32 0x47C35000#32)
            * Ideal.div (stat (Wd (Proc.devRef .tc main_v74_1)) 0 Facts₀.slices_S2x256_S1x256_0_0 j) (Ideal.ofBits .f32 0x47C35000#32))
          (Ideal.ofBits .f32 0x00000000#32) + Ideal.ofBits .f32 0x3727C5AC#32)) = _
    rw [scale_read, stat_eq (Wd (Proc.devRef .tc main_v74_1)) 0 Facts₀.slices_S2x256_S1x256_0_0 (0 : Fin 2) rfl j]

/-! ### The statistics after the second region -/

/-- With `S₀`, `S₁` the two statistics summed over the groups: the stretch leaves `γ · rsqrt (max (S₁/N − (S₀/N)²) 0 + ε)`
    in the scale buffer and `β − (S₀/N) · scale` in the shift buffer. (`N`, `ε` are the two float constants the stretch
    spells; they and the sums are named by equations so that a caller may give them in whatever form it has.) -/
theorem glue2 (Wd : Valuation τ sig (Elt Ideal)) (j : Fin 256) (N ε S0 S1 : EReal)
    (hN : N = Ideal.ofBits .f32 0x47C35000#32) (hε : ε = Ideal.ofBits .f32 0x3727C5AC#32)
    (h0 : Eq (α := EReal) S0 (∑ g : Fin 2, Wd (Proc.devRef .tc main_v94_1) (ix3 g (0 : Fin 2) j)))
    (h1 : Eq (α := EReal) S1 (∑ g : Fin 2, Wd (Proc.devRef .tc main_v94_1) (ix3 g (1 : Fin 2) j))) :
    MlpSpec.cur1 (StableHlo.after (hostOps2 (F := Ideal)) Wd (Proc.devRef .tc main_v111)) j
        = MlpSpec.cur1 (Wd (Proc.devRef .tc main_arg9)) j
            * Ideal.rsqrt (max (Ideal.div S1 N - Ideal.div S0 N * Ideal.div S0 N) 0 + ε)
    ∧ MlpSpec.cur1 (StableHlo.after (hostOps2 (F := Ideal)) Wd (Proc.devRef .tc main_v113)) j
        = MlpSpec.cur1 (Wd (Proc.devRef .tc main_arg10)) j
            - Ideal.div S0 N * (MlpSpec.cur1 (Wd (Proc.devRef .tc main_arg9)) j
                * Ideal.rsqrt (max (Ideal.div S1 N - Ideal.div S0 N * Ideal.div S0 N) 0 + ε)) := by
  subst hN hε h0 h1
  constructor
  · after_results_simp
    exact scale_read (Wd (Proc.devRef .tc main_v94_1)) (MlpSpec.cur1 (Wd (Proc.devRef .tc main_arg9)) j) _ _ j
  · after_results_simp
    show MlpSpec.cur1 (Wd (Proc.devRef .tc main_arg10)) j
        - Ideal.div (stat (Wd (Proc.devRef .tc main_v94_1)) 0 Facts₀.slices_S2x256_S1x256_0_0 j) (Ideal.ofBits .f32 0x47C35000#32)
        * (MlpSpec.cur1 (Wd (Proc.devRef .tc main_arg9)) j
          * Ideal.rsqrt (max (Ideal.div (stat (Wd (Proc.devRef .tc main_v94_1)) 1 Facts₀.slices_S2x256_S1x256_1_0 j) (Ideal.ofBits .f32 0x47C35000#32)
          - Ideal.div (stat (Wd (Proc.devRef .tc main_v94_1)) 0 Facts₀.slices_S2x256_S1x256_0_0 j) (Ideal.ofBits .f32 0x47C35000#32)
            * Ideal.div (stat (Wd (Proc.devRef .tc main_v94_1)) 0 Facts₀.slices_S2x256_S1x256_0_0 j) (Ideal.ofBits .f32 0x47C35000#32))
          (Ideal.ofBits .f32 0x00000000#32) + Ideal.ofBits .f32 0x3727C5AC#32)) = _
    rw [scale_read, stat_eq (Wd (Proc.devRef .tc main_v94_1)) 0 Facts₀.slices_S2x256_S1x256_0_0 (0 : Fin 2) rfl j]

end Cert.KernelIdeal.HandValue

end
-- ==== Proof.LibBatchNorm.lean ====
/-
  Batch normalisation on the extended reals, over real (finite) data.

  For a column `y : ι → ℝ` of `n` entries, write `S₁ = Σ y`, `S₂ = Σ y²`, `μ = S₁ / n`.

  * The one-pass variance `S₂ / n − μ²` is the two-pass variance `(Σ (y − μ)²) / n`; it is nonnegative, so
    clamping it below at `0` changes nothing.
  * With `r = (v + ε)^(-1/2)` (`ε > 0`) the scale-and-shift form `y · (g · r) + (β − μ · (g · r))` is the
    centred form `g · (y − μ) · r + β`.

  Both are stated on `EReal` with the operations a float program means at the exact instance (`Ideal.div`,
  `Ideal.rsqrt`, `max`, EReal's `+ − ·`), for data that are coercions of reals: distributivity and
  cancellation fail at the infinities, so finiteness of the data is a hypothesis of every statement here.
-/
import Idealize.ShloMosaic.PureOps.Ideal

noncomputable section

namespace LibBatchNorm

open Idealize.ShloMosaic

variable {ι : Type} [Fintype ι]

/-- The coercion `ℝ → EReal` commutes with finite sums. -/
theorem coe_sum {κ : Type} (s : Finset κ) (f : κ → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division of a real by a nonzero real, at the exact instance, is the real quotient. -/
theorem div_coe_coe (x : ℝ) {n : ℝ} (hn : n ≠ 0) : Ideal.div (x : EReal) (n : EReal) = ((x / n : ℝ) : EReal) := by
  rw [Ideal.div_coe hn, ← EReal.coe_mul, mul_one_div]

/-- The reciprocal square root of a positive real, at the exact instance, is the real one. -/
theorem rsqrt_coe_pos {r : ℝ} (hr : 0 < r) : Ideal.rsqrt (r : EReal) = (((Real.sqrt r)⁻¹ : ℝ) : EReal) := by
  rw [Ideal.rsqrt_coe, if_neg (not_lt.2 hr.le), if_neg hr.ne']

/-- The maximum of two reals, on the extended reals. -/
theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The one-pass variance is the two-pass variance (over the reals): with `μ = (Σ y) / n` and `n` the number of
    entries, `(Σ (y − μ)²) / n = (Σ y²) / n − μ²`. -/
theorem var_two_pass_eq_one_pass (y : ι → ℝ) {n : ℝ} (hn : n = (Fintype.card ι : ℝ)) (h0 : n ≠ 0) :
    (∑ i, (y i - (∑ k, y k) / n) * (y i - (∑ k, y k) / n)) / n
      = (∑ i, y i * y i) / n - ((∑ k, y k) / n) * ((∑ k, y k) / n) := by
  set μ := (∑ k, y k) / n with hμ
  have hS : ∑ k, y k = μ * n := by rw [hμ, div_mul_cancel₀ _ h0]
  have h1 : ∑ i, (y i - μ) * (y i - μ) = (∑ i, y i * y i) - 2 * μ * (∑ i, y i) + n * (μ * μ) := by
    have : ∀ i, (y i - μ) * (y i - μ) = y i * y i - 2 * μ * y i + μ * μ := fun i => by ring
    simp only [this, Finset.sum_add_distrib, Finset.sum_sub_distrib, ← Finset.mul_sum, Finset.sum_const,
      Finset.card_univ, nsmul_eq_mul, hn]
    ring
  rw [h1, hS]
  field_simp
  ring

/-- The two-pass variance is nonnegative. -/
theorem var_two_pass_nonneg (y : ι → ℝ) (μ : ℝ) {n : ℝ} (h0 : 0 < n) :
    0 ≤ (∑ i, (y i - μ) * (y i - μ)) / n :=
  div_nonneg (Finset.sum_nonneg fun i _ => mul_self_nonneg _) h0.le

/-- Scale-and-shift against the centred form (over the reals). -/
theorem affine_eq_centred (y μ g β r : ℝ) : y * (g * r) + (β - μ * (g * r)) = g * (y - μ) * r + β := by ring

/-- **Batch normalisation, one pass against two passes, on the extended reals.**
    For a real column `y` of `n = card ι > 0` entries, `ε > 0`, real `g`, `β`:
    from the sums `S₁ = Σ y`, `S₂ = Σ y·y` form `mean = S₁ / n`, `var₁ = max (S₂ / n − mean·mean) 0`,
    `scale = g · rsqrt (var₁ + ε)`, `shift = β − mean · scale`; from the centred squares form
    `var₂ = (Σ (y − mean)·(y − mean)) / n`. Then at every entry
    `y · scale + shift = g · (y − mean) · rsqrt (var₂ + ε) + β`. -/
theorem scale_shift_eq_centred (y : ι → ℝ) (g β ε n : ℝ) (hn : n = (Fintype.card ι : ℝ)) (hpos : 0 < n)
    (hε : 0 < ε) (j : ι) :
    (y j : EReal) * ((g : EReal) * Ideal.rsqrt
        (max (Ideal.div (∑ i, (y i : EReal) * (y i : EReal)) (n : EReal)
              - Ideal.div (∑ i, (y i : EReal)) (n : EReal) * Ideal.div (∑ i, (y i : EReal)) (n : EReal)) 0
          + (ε : EReal)))
      + ((β : EReal) - Ideal.div (∑ i, (y i : EReal)) (n : EReal) * ((g : EReal) * Ideal.rsqrt
        (max (Ideal.div (∑ i, (y i : EReal) * (y i : EReal)) (n : EReal)
              - Ideal.div (∑ i, (y i : EReal)) (n : EReal) * Ideal.div (∑ i, (y i : EReal)) (n : EReal)) 0
          + (ε : EReal))))
    = (g : EReal) * ((y j : EReal) - Ideal.div (∑ i, (y i : EReal)) (n : EReal)) * Ideal.rsqrt
        (Ideal.div (∑ i, ((y i : EReal) - Ideal.div (∑ k, (y k : EReal)) (n : EReal))
                        * ((y i : EReal) - Ideal.div (∑ k, (y k : EReal)) (n : EReal))) (n : EReal)
          + (ε : EReal))
      + (β : EReal) := by
  have h0 : n ≠ 0 := hpos.ne'
  -- every intermediate is a real
  have hS1 : (∑ i, (y i : EReal)) = ((∑ i, y i : ℝ) : EReal) := (coe_sum _ _).symm
  have hS2 : (∑ i, (y i : EReal) * (y i : EReal)) = ((∑ i, y i * y i : ℝ) : EReal) := by
    rw [coe_sum]; exact Finset.sum_congr rfl fun i _ => (EReal.coe_mul _ _).symm
  rw [hS1, hS2, div_coe_coe _ h0, div_coe_coe _ h0]
  set μ : ℝ := (∑ i, y i) / n with hμ
  have hC : (∑ i, ((y i : EReal) - (μ : EReal)) * ((y i : EReal) - (μ : EReal)))
      = ((∑ i, (y i - μ) * (y i - μ) : ℝ) : EReal) := by
    rw [coe_sum]; exact Finset.sum_congr rfl fun i _ => by rw [← EReal.coe_sub, ← EReal.coe_mul]
  rw [hC, div_coe_coe _ h0, var_two_pass_eq_one_pass y hn h0, ← hμ]
  have hv : 0 ≤ (∑ i, y i * y i) / n - μ * μ := by
    rw [hμ, ← var_two_pass_eq_one_pass y hn h0]; exact var_two_pass_nonneg y _ hpos
  rw [← EReal.coe_mul, ← EReal.coe_sub, ← EReal.coe_zero, max_coe, max_eq_left hv, ← EReal.coe_add,
    rsqrt_coe_pos (add_pos_of_nonneg_of_pos hv hε)]
  simp only [← EReal.coe_mul, ← EReal.coe_sub, ← EReal.coe_add]
  exact congrArg _ (affine_eq_centred _ _ _ _ _)

end LibBatchNorm

end
-- ==== Proof.Ref.Agg.lean ====
/-
  The graph aggregation that both programs perform on the host before the network, as one function of the
  node features and the two edge-index arrays, and the fact that it maps real (finite) features to real features.

  With N = 100000 nodes, E = 1250000 edges, features feat : N × 64, edge ends src, dst : E:

    deg  = the number of edges arriving at each node (ones accumulated at dst, from zero),
    norm = (max 1 deg) ^ (−1/2),
    one propagation step   h ↦ ( Σ_{e : dst e = ·} (h · norm)[src' e] ) · norm,
        where src' e = src e + N if src e < 0 and src e otherwise, read clamped into the rows,
    h₁ … h₄ the first four iterates of the step from feat,
    agg  = 0.2375 · (0 + h₁ + h₂ + h₃ + h₄) + 0.05 · feat.

  Every operation used is closed on the reals inside the extended reals: a constant whose word is neither an
  infinity nor a NaN is a real; a broadcast and a gather only re-read entries; products, sums and maxima of reals
  are reals; a real to a real power is a real (Real.rpow); an accumulation adds finitely many reals to a real.
-/
import proofs.«169417_j2877628089024_2_alg».proof.ReferenceIdeal
import proofs.«169417_j2877628089024_2_alg».proof.Proof.Spec
import proofs.«169417_j2877628089024_2_alg».proof.Proof.LibBatchNorm
import Idealize.ShloMosaic.PureOps.Ideal
import Idealize.ShloMosaic.Lib.ValueIdx

noncomputable section

namespace Cert.ReferenceIdeal.Hand

open Cert.ReferenceIdeal Idealize.ShloMosaic
open Cert.ReferenceIdeal.Facts₀

/-! ## The aggregation as a term over the program's own operations -/

section Term

variable {F : FTy → Type} [FloatOps F] [Facts]

/-- The zero array of the features' shape: what every accumulation starts from. -/
def zero64 : (⟨S100000x64, .f32⟩ : BufTy).Contents (Elt F) :=
  (broadcastInDim S100000x64 ![] bcast_S_S100000x64 : (⟨S_, .f32⟩ : BufTy).Contents (Elt F) → (⟨S100000x64, .f32⟩ : BufTy).Contents (Elt F))
    (constant S_ .f32 0x00000000#32)

/-- The edge ends dst as a column of scatter indices. -/
def dstIdx (dst : (⟨S1250000, .i32⟩ : BufTy).Contents (Elt F)) : (⟨S1250000x1, .i32⟩ : BufTy).Contents (Elt F) :=
  (broadcastInDim S1250000x1 ![0] bcast_S1250000_S1250000x1_0 : (⟨S1250000, .i32⟩ : BufTy).Contents (Elt F) → (⟨S1250000x1, .i32⟩ : BufTy).Contents (Elt F)) dst

/-- The in-degree: a one accumulated at dst e for every edge e, from zero. -/
def deg (dst : (⟨S1250000, .i32⟩ : BufTy).Contents (Elt F)) : (⟨S100000, .f32⟩ : BufTy).Contents (Elt F) :=
  Host.scatterAdd scatter_S100000_S1250000x1_S1250000_n_0_0_1
    ((broadcastInDim S100000 ![] bcast_S_S100000 : (⟨S_, .f32⟩ : BufTy).Contents (Elt F) → (⟨S100000, .f32⟩ : BufTy).Contents (Elt F))
      (constant S_ .f32 0x00000000#32))
    (dstIdx (F := F) dst)
    ((broadcastInDim S1250000 ![] bcast_S_S1250000 : (⟨S_, .f32⟩ : BufTy).Contents (Elt F) → (⟨S1250000, .f32⟩ : BufTy).Contents (Elt F))
      (constant S_ .f32 0x3F800000#32))

/-- The normalisation (max 1 deg) ^ (−1/2), one entry per node. -/
def norm (dst : (⟨S1250000, .i32⟩ : BufTy).Contents (Elt F)) : (⟨S100000, .f32⟩ : BufTy).Contents (Elt F) :=
  Host.powf
    (maximumf
      ((broadcastInDim S100000 ![] bcast_S_S100000 : (⟨S_, .f32⟩ : BufTy).Contents (Elt F) → (⟨S100000, .f32⟩ : BufTy).Contents (Elt F))
        (id (constant S_ .f32 0x3F800000#32 : (⟨S_, .f32⟩ : BufTy).Contents (Elt F))))
      (deg dst))
    ((broadcastInDim S100000 ![] bcast_S_S100000 : (⟨S_, .f32⟩ : BufTy).Contents (Elt F) → (⟨S100000, .f32⟩ : BufTy).Contents (Elt F))
      (constant S_ .f32 0xBF000000#32))

/-- The normalisation spread along each node's 64 features. -/
def norm9 (dst : (⟨S1250000, .i32⟩ : BufTy).Contents (Elt F)) : (⟨S100000x64, .f32⟩ : BufTy).Contents (Elt F) :=
  (broadcastInDim S100000x64 ![0, 1] bcast_S100000x1_S100000x64_0_1 : (⟨S100000x1, .f32⟩ : BufTy).Contents (Elt F) → (⟨S100000x64, .f32⟩ : BufTy).Contents (Elt F))
    ((broadcastInDim S100000x1 ![0] bcast_S100000_S100000x1_0 : (⟨S100000, .f32⟩ : BufTy).Contents (Elt F) → (⟨S100000x1, .f32⟩ : BufTy).Contents (Elt F))
      (norm dst))

/-- The edge starts with a negative index moved up by the number of nodes, as a column of gather indices. -/
def srcIdx (src : (⟨S1250000, .i32⟩ : BufTy).Contents (Elt F)) : (⟨S1250000x1, .i32⟩ : BufTy).Contents (Elt F) :=
  (broadcastInDim S1250000x1 ![0] bcast_S1250000_S1250000x1_0 : (⟨S1250000, .i32⟩ : BufTy).Contents (Elt F) → (⟨S1250000x1, .i32⟩ : BufTy).Contents (Elt F))
    (select
      (cmpi .slt src
        ((broadcastInDim S1250000 ![] bcast_S_S1250000 : (⟨S_, .i32⟩ : BufTy).Contents (Elt F) → (⟨S1250000, .i32⟩ : BufTy).Contents (Elt F))
          (constantI S_ 32 0#32)))
      (addi src
        ((broadcastInDim S1250000 ![] bcast_S_S1250000 : (⟨S_, .i32⟩ : BufTy).Contents (Elt F) → (⟨S1250000, .i32⟩ : BufTy).Contents (Elt F))
          (constantI S_ 32 100000#32)))
      src)

/-- One propagation step: scale by the normalisation, gather along the edges' starts, accumulate at their ends
    from zero, scale by the normalisation again. -/
def hop (n9 : (⟨S100000x64, .f32⟩ : BufTy).Contents (Elt F)) (s16 d19 : (⟨S1250000x1, .i32⟩ : BufTy).Contents (Elt F))
    (h : (⟨S100000x64, .f32⟩ : BufTy).Contents (Elt F)) : (⟨S100000x64, .f32⟩ : BufTy).Contents (Elt F) :=
  mulf
    (Host.scatterAdd scatter_S100000x64_S1250000x1_S1250000x64_1_0_0_1 (zero64 (F := F)) d19
      (Host.gather gather_S100000x64_S1250000x1_S1250000x64_1_0_n_n_0_1_164 (mulf h n9) s16))
    n9

/-- The aggregated features: 0.2375 times the sum of the first four propagation steps of feat, plus 0.05 times feat. -/
def agg (feat : (⟨S100000x64, .f32⟩ : BufTy).Contents (Elt F)) (src dst : (⟨S1250000, .i32⟩ : BufTy).Contents (Elt F)) :
    (⟨S100000x64, .f32⟩ : BufTy).Contents (Elt F) :=
  let n9 := norm9 (F := F) dst
  let s16 := srcIdx (F := F) src
  let d19 := dstIdx (F := F) dst
  let h1 := hop n9 s16 d19 feat
  let h2 := hop n9 s16 d19 h1
  let h3 := hop n9 s16 d19 h2
  let h4 := hop n9 s16 d19 h3
  addf
    (mulf
      ((broadcastInDim S100000x64 ![] bcast_S_S100000x64 : (⟨S_, .f32⟩ : BufTy).Contents (Elt F) → (⟨S100000x64, .f32⟩ : BufTy).Contents (Elt F))
        (constant S_ .f32 0x3E733333#32))
      (addf (addf (addf (addf (zero64 (F := F)) h1) h2) h3) h4))
    (mulf
      ((broadcastInDim S100000x64 ![] bcast_S_S100000x64 : (⟨S_, .f32⟩ : BufTy).Contents (Elt F) → (⟨S100000x64, .f32⟩ : BufTy).Contents (Elt F))
        (constant S_ .f32 0x3D4CCCCD#32))
      feat)

end Term

/-! ## Real data stay real -/

section Real

open Idealize.ShloMosaic.ValueIdx

/-- Every entry of an array of extended reals is a real number. -/
def AllReal {s : Shape} (x : s.Idx → EReal) : Prop := ∀ i, ∃ v : ℝ, x i = (v : EReal)

/-- A pattern whose exponent field is not all ones denotes a real: a zero, a subnormal or a normal number. -/
theorem ieee_real (e m : Nat) {w : Nat} (b : BitVec w) (h : (b.extractLsb' m e).toNat ≠ 2 ^ e - 1) :
    ∃ v : ℝ, Ideal.ieee e m b = (v : EReal) := by
  unfold Ideal.ieee
  dsimp only
  rw [if_neg h]
  split_ifs <;> exact ⟨_, rfl⟩

/-- At single precision: 8 exponent bits above 23 significand bits. -/
theorem f32_real (b : BitVec 32) (h : (b.extractLsb' 23 8).toNat ≠ 2 ^ 8 - 1) :
    ∃ v : ℝ, Ideal.ofBits .f32 b = (v : EReal) := ieee_real 8 23 b h

/-! The five float constants of the aggregation are reals: 1, 0, −1/2, 0.2375 and 0.05 (as single-precision words). -/

theorem one_real : ∃ v : ℝ, Ideal.ofBits .f32 0x3F800000#32 = (v : EReal) := f32_real _ (by decide)
theorem zero_real : ∃ v : ℝ, Ideal.ofBits .f32 0x00000000#32 = (v : EReal) := f32_real _ (by decide)
theorem neg_half_real : ∃ v : ℝ, Ideal.ofBits .f32 0xBF000000#32 = (v : EReal) := f32_real _ (by decide)
theorem c2375_real : ∃ v : ℝ, Ideal.ofBits .f32 0x3E733333#32 = (v : EReal) := f32_real _ (by decide)
theorem c05_real : ∃ v : ℝ, Ideal.ofBits .f32 0x3D4CCCCD#32 = (v : EReal) := f32_real _ (by decide)

variable {s t : Shape}

/-- A splat of a real constant. -/
theorem allReal_constant {b : BitVec 32} (hb : ∃ v : ℝ, Ideal.ofBits .f32 b = (v : EReal)) :
    AllReal (constant (F := Ideal) s .f32 b) := fun _ => hb

/-- A broadcast re-reads entries of its operand. -/
theorem allReal_broadcastInDim {dims : Fin s.rank → Fin t.rank} (h : s.BroadcastsInDim t dims) {x : s.Idx → EReal}
    (hx : AllReal x) : AllReal (broadcastInDim t dims h x) := fun _ => hx _

/-- A gather re-reads entries of its operand. -/
theorem allReal_gather {si : Shape} {w : Nat} (d : GatherDims s si t) {x : s.Idx → EReal} (idx : IVec si w)
    (hx : AllReal x) : AllReal (Host.gather d x idx) := fun _ => hx _

/-- Entrywise product. -/
theorem allReal_mulf {x y : FVec Ideal s .f32} (hx : AllReal x) (hy : AllReal y) : AllReal (mulf x y) := fun i => by
  obtain ⟨a, ha⟩ := hx i
  obtain ⟨b, hb⟩ := hy i
  exact ⟨a * b, by rw [mulf_apply, ha, hb, EReal.coe_mul]⟩

/-- Entrywise sum. -/
theorem allReal_addf {x y : FVec Ideal s .f32} (hx : AllReal x) (hy : AllReal y) : AllReal (addf x y) := fun i => by
  obtain ⟨a, ha⟩ := hx i
  obtain ⟨b, hb⟩ := hy i
  exact ⟨a + b, by rw [addf_apply, ha, hb, EReal.coe_add]⟩

/-- Entrywise maximum. -/
theorem allReal_maximumf {x y : FVec Ideal s .f32} (hx : AllReal x) (hy : AllReal y) : AllReal (maximumf x y) := fun i => by
  obtain ⟨a, ha⟩ := hx i
  obtain ⟨b, hb⟩ := hy i
  exact ⟨max a b, by rw [maximumf_apply, ha, hb, LibBatchNorm.max_coe]⟩

/-- Entrywise power: a real to a real power is Real.rpow of the two. -/
theorem allReal_powf {x y : FVec Ideal s .f32} (hx : AllReal x) (hy : AllReal y) : AllReal (Host.powf x y) := fun i => by
  obtain ⟨a, ha⟩ := hx i
  obtain ⟨b, hb⟩ := hy i
  refine ⟨Real.rpow a b, ?_⟩
  show Ideal.pow (x i) (y i) = _
  rw [ha, hb]
  rfl

/-- A finite sum of reals is a real. -/
theorem exists_real_sum {κ : Type} (S : Finset κ) (g : κ → EReal) (hg : ∀ j, ∃ v : ℝ, g j = (v : EReal)) :
    ∃ v : ℝ, ∑ j ∈ S, g j = (v : EReal) := by
  choose f hf using hg
  exact ⟨∑ j ∈ S, f j, by rw [LibBatchNorm.coe_sum]; exact Finset.sum_congr rfl fun j _ => hf j⟩

/-- An accumulating scatter adds to each entry of the operand the updates that land on it: finitely many reals. -/
theorem allReal_scatterAdd {si su : Shape} {w : Nat} (d : ScatterDims s si su) {x : FVec Ideal s .f32} (idx : IVec si w)
    {upd : FVec Ideal su .f32} (hx : AllReal x) (hu : AllReal upd) : AllReal (Host.scatterAdd d x idx upd) := fun i => by
  obtain ⟨a, ha⟩ := hx i
  obtain ⟨b, hb⟩ := exists_real_sum (Finset.univ.filter fun j => d.resultIdx? j idx = some i) upd hu
  refine ⟨a + b, ?_⟩
  show x i + ∑ j ∈ Finset.univ.filter (fun j => d.resultIdx? j idx = some i), upd j = _
  rw [ha, hb, EReal.coe_add]

variable [Facts]

theorem allReal_zero64 : AllReal (zero64 (F := Ideal)) :=
  allReal_broadcastInDim _ (allReal_constant zero_real)

theorem allReal_deg (dst : (⟨S1250000, .i32⟩ : BufTy).Contents (Elt Ideal)) : AllReal (deg (F := Ideal) dst) :=
  allReal_scatterAdd _ _ (allReal_broadcastInDim _ (allReal_constant zero_real))
    (allReal_broadcastInDim _ (allReal_constant one_real))

theorem allReal_norm (dst : (⟨S1250000, .i32⟩ : BufTy).Contents (Elt Ideal)) : AllReal (norm (F := Ideal) dst) :=
  allReal_powf (allReal_maximumf (allReal_broadcastInDim _ (allReal_constant one_real)) (allReal_deg dst))
    (allReal_broadcastInDim _ (allReal_constant neg_half_real))

theorem allReal_norm9 (dst : (⟨S1250000, .i32⟩ : BufTy).Contents (Elt Ideal)) : AllReal (norm9 (F := Ideal) dst) :=
  allReal_broadcastInDim _ (allReal_broadcastInDim _ (allReal_norm dst))

theorem allReal_hop {n9 h : (⟨S100000x64, .f32⟩ : BufTy).Contents (Elt Ideal)}
    (s16 d19 : (⟨S1250000x1, .i32⟩ : BufTy).Contents (Elt Ideal)) (hn : AllReal n9) (hh : AllReal h) :
    AllReal (hop (F := Ideal) n9 s16 d19 h) :=
  allReal_mulf (allReal_scatterAdd _ _ allReal_zero64 (allReal_gather _ _ (allReal_mulf hh hn))) hn

/-- The aggregation of real features is real, entry by entry over the array's own indices. -/
theorem agg_allReal {feat : (⟨S100000x64, .f32⟩ : BufTy).Contents (Elt Ideal)}
    (src dst : (⟨S1250000, .i32⟩ : BufTy).Contents (Elt Ideal)) (hf : AllReal feat) :
    AllReal (agg (F := Ideal) feat src dst) := by
  have hn := allReal_norm9 dst
  have h1 := allReal_hop (srcIdx (F := Ideal) src) (dstIdx (F := Ideal) dst) hn hf
  have h2 := allReal_hop (srcIdx (F := Ideal) src) (dstIdx (F := Ideal) dst) hn h1
  have h3 := allReal_hop (srcIdx (F := Ideal) src) (dstIdx (F := Ideal) dst) hn h2
  have h4 := allReal_hop (srcIdx (F := Ideal) src) (dstIdx (F := Ideal) dst) hn h3
  exact allReal_addf
    (allReal_mulf (allReal_broadcastInDim _ (allReal_constant c2375_real))
      (allReal_addf (allReal_addf (allReal_addf (allReal_addf allReal_zero64 h1) h2) h3) h4))
    (allReal_mulf (allReal_broadcastInDim _ (allReal_constant c05_real)) hf)

/-- Read at coordinates: the aggregation of real features is real. -/
theorem agg_real (feat : (⟨S100000x64, .f32⟩ : BufTy).Contents (Elt Ideal))
    (src dst : (⟨S1250000, .i32⟩ : BufTy).Contents (Elt Ideal)) (h : MlpSpec.Real2 (MlpSpec.cur2 feat)) :
    MlpSpec.Real2 (MlpSpec.cur2 (agg (F := Ideal) feat src dst)) := by
  have hf : AllReal feat := fun i => by rw [eq_ix2 i]; exact h (i 0) (i 1)
  exact fun r k => agg_allReal src dst hf (ix2 r k)

end Real

end Cert.ReferenceIdeal.Hand

end
-- ==== Proof.KIV.AggK.lean ====
/-
  The kernel program's first 95 host operations are the reference's: the same degree count, clamp and power,
  the same four propagation steps and the same blend with the features, over the kernel program's own buffers.
  Hence the fold of those operations, read at the buffer of %73, is the graph aggregation of the contents of the
  three graph inputs — the very function the reference's run produces there.
-/
import proofs.«169417_j2877628089024_2_alg».proof.Proof.Gen.KernelIdeal.Launch
import proofs.«169417_j2877628089024_2_alg».proof.Proof.Gen.ReferenceIdeal
import proofs.«169417_j2877628089024_2_alg».proof.Proof.Ref.Agg
import Idealize.ShloMosaic.Lib.StableHlo.Run

noncomputable section

namespace Cert.KernelIdeal.HandValue

open Cert.KernelIdeal Cert.KernelIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- After the three aggregation stretches the buffer of %73 holds the aggregation of the contents of the three graph inputs. -/
theorem v73_eq_agg (V : Valuation τ sig (Elt F)) :
    StableHlo.after hostOps0_2 (StableHlo.after hostOps0_1 (StableHlo.after hostOps0 V)) (Proc.devRef .tc main_v73)
      = Cert.ReferenceIdeal.Hand.agg (F := F) (V (Proc.devRef .tc main_arg0)) (V (Proc.devRef .tc main_arg1))
          (V (Proc.devRef .tc main_arg2)) := by
  after_results_simp
  rfl

end Cert.KernelIdeal.HandValue

end
-- ==== Proof.LibBlockSum.lean ====
/-
  A sum over `a · b` consecutive rows, taken block by block.

  A kernel that walks an array of `a · b` rows in `a` blocks of `b` rows and accumulates one partial sum per block
  computes `Σ_p Σ_q f (p · b + q)`; a reference that reduces the whole axis at once computes `Σ_r f r`.
  In any commutative additive monoid (the extended reals included: their addition is commutative and associative
  at the infinities too) the two are equal, and so is the three-level form `a · b · c` rows walked as
  `a` groups of `b` blocks of `c` rows.
-/
import Mathlib.Algebra.BigOperators.Fin
import Mathlib.Logic.Equiv.Fin.Basic

namespace LibBlockSum

variable {M : Type} [AddCommMonoid M]

/-- Rows `0 … a·b − 1` summed at once are the `a` blocks of `b` rows summed one after the other. -/
theorem sum_blocks (a b : ℕ) (f : ℕ → M) :
    ∑ r : Fin (a * b), f r.val = ∑ p : Fin a, ∑ q : Fin b, f (p.val * b + q.val) := by
  rw [← Fintype.sum_prod_type' (f := fun (p : Fin a) (q : Fin b) => f (p.val * b + q.val))]
  refine (Fintype.sum_equiv finProdFinEquiv _ _ fun x => ?_).symm
  rw [finProdFinEquiv_apply_val, Nat.mul_comm b, Nat.add_comm]

/-- Three levels: `a` groups of `b` blocks of `c` rows. -/
theorem sum_blocks₃ (a b c : ℕ) (f : ℕ → M) :
    ∑ r : Fin (a * b * c), f r.val
      = ∑ p : Fin a, ∑ q : Fin b, ∑ s : Fin c, f ((p.val * b + q.val) * c + s.val) := by
  rw [sum_blocks (a * b) c f, sum_blocks a b fun k => ∑ s : Fin c, f (k * c + s.val)]

end LibBlockSum
-- ==== Proof.KIV.MainValue.lean ====
/-
  The kernel program's result as a function of its arguments, at the exact instance: the last boundary's contents at
  the result buffer, read at an index, is the network `netK` of the aggregated features and the weights.
  Boundary by boundary: region 0 leaves `Y₁ = X·W₁ + b₁` and, per group, the column sums of `Y₁` and `Y₁²` over
  its ten blocks; the host operations after it turn the two groups' sums into the scale and shift of the one-pass
  norm; region 1 leaves `Y₂ = relu(Y₁·scale + shift)·W₂ + b₂` and its sums; again scale and shift; the last
  layer's weight and bias are padded with zero columns; region 2 leaves `relu(Y₂·scale + shift)·W₃' + b₃'`; the
  final slice keeps the first forty columns, where the padding is invisible.
-/
import proofs.«169417_j2877628089024_2_alg».proof.Proof.KI.Frame
import proofs.«169417_j2877628089024_2_alg».proof.Proof.Spec
import proofs.«169417_j2877628089024_2_alg».proof.Proof.KIV.R0Value
import proofs.«169417_j2877628089024_2_alg».proof.Proof.KIV.R1Value
import proofs.«169417_j2877628089024_2_alg».proof.Proof.KIV.R2Value
import proofs.«169417_j2877628089024_2_alg».proof.Proof.KIV.Pad
import proofs.«169417_j2877628089024_2_alg».proof.Proof.KIV.Glue
import proofs.«169417_j2877628089024_2_alg».proof.Proof.KIV.AggK
import proofs.«169417_j2877628089024_2_alg».proof.Proof.Ref.Agg
import proofs.«169417_j2877628089024_2_alg».proof.Proof.Gen.ReferenceIdeal
import proofs.«169417_j2877628089024_2_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open MlpSpec

/-- No operation of the named stretch writes the buffer: each writes only its own result buffer. -/
macro "notw_tac" l:ident : tactic => `(tactic| (simp only [$l:ident, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.ternary, StableHlo.TRef.nullary, Finset.mem_singleton] <;> (repeat' apply And.intro) <;> exact StableHlo.devRef_ne_of_ne (by decide)))

/-- The row count `1.0e5` and the `ε` of the norm, as the programs' words. -/
abbrev Nw : EReal := Ideal.ofBits .f32 0x47C35000#32
abbrev εw : EReal := Ideal.ofBits .f32 0x3727C5AC#32

variable (m : (ℓ : Loc nD τ sig) → Buf (Elt Ideal) ℓ) (ρ : Dev nD → PrngReg) (c : Dev nD)

/-- The aggregated features, read at coordinates. -/
abbrev X : Fin 100000 → Fin 64 → EReal :=
  cur2 (Cert.ReferenceIdeal.Hand.agg (F := Ideal) (m ((c : Thread nD τ).loc main_arg0)) (m ((c : Thread nD τ).loc main_arg1)) (m ((c : Thread nD τ).loc main_arg2)))
/-- The first layer's pre-activation. -/
abbrev Y1 : Fin 100000 → Fin 256 → EReal := lin (X m c) (cur2 (m ((c : Thread nD τ).loc main_arg3))) (cur1 (m ((c : Thread nD τ).loc main_arg4)))
/-- The first hidden activation. -/
abbrev A1 : Fin 100000 → Fin 256 → EReal := bnK Nw εw (Y1 m c) (cur1 (m ((c : Thread nD τ).loc main_arg5))) (cur1 (m ((c : Thread nD τ).loc main_arg6)))
/-- The second layer's pre-activation. -/
abbrev Y2 : Fin 100000 → Fin 256 → EReal := lin (A1 m c) (cur2 (m ((c : Thread nD τ).loc main_arg7))) (cur1 (m ((c : Thread nD τ).loc main_arg8)))
/-- The second hidden activation. -/
abbrev A2 : Fin 100000 → Fin 256 → EReal := bnK Nw εw (Y2 m c) (cur1 (m ((c : Thread nD τ).loc main_arg9))) (cur1 (m ((c : Thread nD τ).loc main_arg10)))

/-- A sum over the two groups, their ten blocks and the blocks' 5000 rows is the sum over all 100000 rows. -/
theorem sum_rows (f : Fin 100000 → EReal) : ∑ g : Fin 2, ∑ s : Fin 10, ∑ q : Fin 5000, f (row3 g s q) = ∑ r : Fin 100000, f r := by
  have h := LibBlockSum.sum_blocks₃ 2 10 5000 (fun n => if h : n < 100000 then f ⟨n, h⟩ else 0)
  have e : (∑ r : Fin 100000, f r) = ∑ r : Fin (2 * 10 * 5000), (fun n => if h : n < 100000 then f ⟨n, h⟩ else 0) r.val :=
    Finset.sum_congr rfl fun r _ => by simp only [dif_pos (show r.val < 100000 from r.isLt)]
  rw [e, h]
  refine Finset.sum_congr rfl fun g _ => Finset.sum_congr rfl fun s _ => Finset.sum_congr rfl fun q _ => ?_
  have hq : (g.val * 10 + s.val) * 5000 + q.val < 100000 := by omega
  simp only [dif_pos hq]; rfl

/-! ## Region 0 -/

theorem V3_v73 : W3 (F := Ideal) m ρ c (Proc.devRef .tc main_v73) = Cert.ReferenceIdeal.Hand.agg (F := Ideal) (m ((c : Thread nD τ).loc main_arg0)) (m ((c : Thread nD τ).loc main_arg1)) (m ((c : Thread nD τ).loc main_arg2)) :=
  v73_eq_agg (F := Ideal) (W0 (F := Ideal) m ρ c)

theorem y0_eq : lin (cur2 (V3 (F := Ideal) m ρ c main_v73)) (cur2 (V3 (F := Ideal) m ρ c main_arg3)) (cur1 (V3 (F := Ideal) m ρ c main_arg4)) = Y1 m c := by
  unfold Y1 X
  rw [show V3 (F := Ideal) m ρ c main_v73 = _ from V3_v73 m ρ c, show V3 (F := Ideal) m ρ c main_arg3 = _ from W3_main_arg3 m ρ c,
    show V3 (F := Ideal) m ρ c main_arg4 = _ from W3_main_arg4 m ρ c]

theorem W4_x1 (r : Fin 100000) (j : Fin 256) : cur2 (W4 (F := Ideal) m ρ c (Proc.devRef .tc main_v74_0)) r j = Y1 m c r j := by
  show Eq (α := EReal) (W4 (F := Ideal) m ρ c (Proc.devRef .tc main_v74_0) (ix2 r j)) _
  rw [show W4 (F := Ideal) m ρ c (Proc.devRef .tc main_v74_0) = (dat0 (V3 (F := Ideal) m ρ) c).arrAt 3 cfg0.N from W4_arr m ρ c 3]
  exact (x1_value (V3 (F := Ideal) m ρ) c r j).trans (congrFun (congrFun (y0_eq m ρ c) r) j)

theorem W4_stats (g : Fin 2) (j : Fin 256) :
    Eq (α := EReal) (W4 (F := Ideal) m ρ c (Proc.devRef .tc main_v74_1) (ix3 g (0 : Fin 2) j)) (∑ s : Fin 10, ∑ q : Fin 5000, Y1 m c (row3 g s q) j)
    ∧ Eq (α := EReal) (W4 (F := Ideal) m ρ c (Proc.devRef .tc main_v74_1) (ix3 g (1 : Fin 2) j)) (∑ s : Fin 10, ∑ q : Fin 5000, Y1 m c (row3 g s q) j * Y1 m c (row3 g s q) j) := by
  rw [show W4 (F := Ideal) m ρ c (Proc.devRef .tc main_v74_1) = (dat0 (V3 (F := Ideal) m ρ) c).arrAt 4 cfg0.N from W4_arr m ρ c 4]
  have h := stats1_value (V3 (F := Ideal) m ρ) c g j
  rw [y0_eq] at h
  exact h

theorem W5_scale_shift (j : Fin 256) :
    cur1 (W5 (F := Ideal) m ρ c (Proc.devRef .tc main_v91)) j = scaleK Nw εw (Y1 m c) (cur1 (m ((c : Thread nD τ).loc main_arg5))) j
    ∧ cur1 (W5 (F := Ideal) m ρ c (Proc.devRef .tc main_v93)) j = shiftK Nw εw (Y1 m c) (cur1 (m ((c : Thread nD τ).loc main_arg5))) (cur1 (m ((c : Thread nD τ).loc main_arg6))) j := by
  have hS0 : Eq (α := EReal) (sum1 (Y1 m c) j) (∑ g : Fin 2, W4 (F := Ideal) m ρ c (Proc.devRef .tc main_v74_1) (ix3 g (0 : Fin 2) j)) :=
    ((Finset.sum_congr rfl fun g _ => (W4_stats m ρ c g j).1).trans (sum_rows fun r => Y1 m c r j)).symm
  have hS1 : Eq (α := EReal) (sum2 (Y1 m c) j) (∑ g : Fin 2, W4 (F := Ideal) m ρ c (Proc.devRef .tc main_v74_1) (ix3 g (1 : Fin 2) j)) :=
    ((Finset.sum_congr rfl fun g _ => (W4_stats m ρ c g j).2).trans (sum_rows fun r => Y1 m c r j * Y1 m c r j)).symm
  obtain ⟨h1, h2⟩ := glue1 (W4 (F := Ideal) m ρ c) j Nw εw (sum1 (Y1 m c) j) (sum2 (Y1 m c) j) rfl rfl hS0 hS1
  rw [show W4 (F := Ideal) m ρ c (Proc.devRef .tc main_arg5) = _ from W4_main_arg5 m ρ c] at h1 h2
  rw [show W4 (F := Ideal) m ρ c (Proc.devRef .tc main_arg6) = _ from W4_main_arg6 m ρ c] at h2
  exact ⟨h1, h2⟩

/-! ## Region 1 -/

theorem W5_x1 (r : Fin 100000) (j : Fin 256) : cur2 (W5 (F := Ideal) m ρ c (Proc.devRef .tc main_v74_0)) r j = Y1 m c r j := by
  have hk : W5 (F := Ideal) m ρ c (Proc.devRef .tc main_v74_0) = W4 (F := Ideal) m ρ c (Proc.devRef .tc main_v74_0) := after_kept _ _ main_v74_0 (by notw_tac hostOps1)
  rw [hk]; exact W4_x1 m ρ c r j

theorem a1_eq : a1 (V5 (F := Ideal) m ρ) c = A1 m c := by
  funext r k
  have hx := W5_x1 m ρ c r k
  obtain ⟨hs, ht⟩ := W5_scale_shift m ρ c k
  show max (cur2 (W5 (F := Ideal) m ρ c (Proc.devRef .tc main_v74_0)) r k * cur1 (W5 (F := Ideal) m ρ c (Proc.devRef .tc main_v91)) k + cur1 (W5 (F := Ideal) m ρ c (Proc.devRef .tc main_v93)) k) 0 = _
  rw [hx, hs, ht]; rfl

theorem y1_eq : y1 (V5 (F := Ideal) m ρ) c = Y2 m c := by
  unfold y1 Y2
  rw [a1_eq, show V5 (F := Ideal) m ρ c main_arg7 = _ from W5_main_arg7 m ρ c, show V5 (F := Ideal) m ρ c main_arg8 = _ from W5_main_arg8 m ρ c]

theorem W6_x2 (r : Fin 100000) (j : Fin 256) : cur2 (W6 (F := Ideal) m ρ c (Proc.devRef .tc main_v94_0)) r j = Y2 m c r j := by
  show Eq (α := EReal) (W6 (F := Ideal) m ρ c (Proc.devRef .tc main_v94_0) (ix2 r j)) _
  rw [show W6 (F := Ideal) m ρ c (Proc.devRef .tc main_v94_0) = (dat1 (V5 (F := Ideal) m ρ) c).arrAt 5 cfg1.N from W6_arr m ρ c 5,
    x2_value, y1_eq]

theorem W6_stats (g : Fin 2) (j : Fin 256) :
    Eq (α := EReal) (W6 (F := Ideal) m ρ c (Proc.devRef .tc main_v94_1) (ix3 g (0 : Fin 2) j)) (∑ s : Fin 10, ∑ q : Fin 5000, Y2 m c (row3 g s q) j)
    ∧ Eq (α := EReal) (W6 (F := Ideal) m ρ c (Proc.devRef .tc main_v94_1) (ix3 g (1 : Fin 2) j)) (∑ s : Fin 10, ∑ q : Fin 5000, Y2 m c (row3 g s q) j * Y2 m c (row3 g s q) j) := by
  rw [show W6 (F := Ideal) m ρ c (Proc.devRef .tc main_v94_1) = (dat1 (V5 (F := Ideal) m ρ) c).arrAt 6 cfg1.N from W6_arr m ρ c 6]
  have h := stats2_value (V5 (F := Ideal) m ρ) c g j
  rw [y1_eq] at h
  exact h

theorem W7_scale_shift (j : Fin 256) :
    cur1 (W7 (F := Ideal) m ρ c (Proc.devRef .tc main_v111)) j = scaleK Nw εw (Y2 m c) (cur1 (m ((c : Thread nD τ).loc main_arg9))) j
    ∧ cur1 (W7 (F := Ideal) m ρ c (Proc.devRef .tc main_v113)) j = shiftK Nw εw (Y2 m c) (cur1 (m ((c : Thread nD τ).loc main_arg9))) (cur1 (m ((c : Thread nD τ).loc main_arg10))) j := by
  have hS0 : Eq (α := EReal) (sum1 (Y2 m c) j) (∑ g : Fin 2, W6 (F := Ideal) m ρ c (Proc.devRef .tc main_v94_1) (ix3 g (0 : Fin 2) j)) :=
    ((Finset.sum_congr rfl fun g _ => (W6_stats m ρ c g j).1).trans (sum_rows fun r => Y2 m c r j)).symm
  have hS1 : Eq (α := EReal) (sum2 (Y2 m c) j) (∑ g : Fin 2, W6 (F := Ideal) m ρ c (Proc.devRef .tc main_v94_1) (ix3 g (1 : Fin 2) j)) :=
    ((Finset.sum_congr rfl fun g _ => (W6_stats m ρ c g j).2).trans (sum_rows fun r => Y2 m c r j * Y2 m c r j)).symm
  obtain ⟨h1, h2⟩ := glue2 (W6 (F := Ideal) m ρ c) j Nw εw (sum1 (Y2 m c) j) (sum2 (Y2 m c) j) rfl rfl hS0 hS1
  rw [show W6 (F := Ideal) m ρ c (Proc.devRef .tc main_arg9) = _ from W6_main_arg9 m ρ c] at h1 h2
  rw [show W6 (F := Ideal) m ρ c (Proc.devRef .tc main_arg10) = _ from W6_main_arg10 m ρ c] at h2
  exact ⟨h1, h2⟩

/-! ## Region 2 and the final slice -/

theorem W10_x2 (r : Fin 100000) (j : Fin 256) : cur2 (W10 (F := Ideal) m ρ c (Proc.devRef .tc main_v94_0)) r j = Y2 m c r j := by
  have k1 : W7 (F := Ideal) m ρ c (Proc.devRef .tc main_v94_0) = W6 (F := Ideal) m ρ c (Proc.devRef .tc main_v94_0) := after_kept _ _ main_v94_0 (by notw_tac hostOps2)
  have k2 : W8 (F := Ideal) m ρ c (Proc.devRef .tc main_v94_0) = W7 (F := Ideal) m ρ c (Proc.devRef .tc main_v94_0) := after_kept _ _ main_v94_0 (by notw_tac hostOps2_1)
  have k3 : W9 (F := Ideal) m ρ c (Proc.devRef .tc main_v94_0) = W8 (F := Ideal) m ρ c (Proc.devRef .tc main_v94_0) := after_kept _ _ main_v94_0 (by notw_tac hostOps2_2)
  have k4 : W10 (F := Ideal) m ρ c (Proc.devRef .tc main_v94_0) = W9 (F := Ideal) m ρ c (Proc.devRef .tc main_v94_0) := after_kept _ _ main_v94_0 (by notw_tac hostOps2_3)
  rw [k4, k3, k2, k1]; exact W6_x2 m ρ c r j

theorem W10_scale_shift (j : Fin 256) :
    cur1 (W10 (F := Ideal) m ρ c (Proc.devRef .tc main_v111)) j = scaleK Nw εw (Y2 m c) (cur1 (m ((c : Thread nD τ).loc main_arg9))) j
    ∧ cur1 (W10 (F := Ideal) m ρ c (Proc.devRef .tc main_v113)) j = shiftK Nw εw (Y2 m c) (cur1 (m ((c : Thread nD τ).loc main_arg9))) (cur1 (m ((c : Thread nD τ).loc main_arg10))) j := by
  have a2 : W8 (F := Ideal) m ρ c (Proc.devRef .tc main_v111) = W7 (F := Ideal) m ρ c (Proc.devRef .tc main_v111) := after_kept _ _ main_v111 (by notw_tac hostOps2_1)
  have a3 : W9 (F := Ideal) m ρ c (Proc.devRef .tc main_v111) = W8 (F := Ideal) m ρ c (Proc.devRef .tc main_v111) := after_kept _ _ main_v111 (by notw_tac hostOps2_2)
  have a4 : W10 (F := Ideal) m ρ c (Proc.devRef .tc main_v111) = W9 (F := Ideal) m ρ c (Proc.devRef .tc main_v111) := after_kept _ _ main_v111 (by notw_tac hostOps2_3)
  have b2 : W8 (F := Ideal) m ρ c (Proc.devRef .tc main_v113) = W7 (F := Ideal) m ρ c (Proc.devRef .tc main_v113) := after_kept _ _ main_v113 (by notw_tac hostOps2_1)
  have b3 : W9 (F := Ideal) m ρ c (Proc.devRef .tc main_v113) = W8 (F := Ideal) m ρ c (Proc.devRef .tc main_v113) := after_kept _ _ main_v113 (by notw_tac hostOps2_2)
  have b4 : W10 (F := Ideal) m ρ c (Proc.devRef .tc main_v113) = W9 (F := Ideal) m ρ c (Proc.devRef .tc main_v113) := after_kept _ _ main_v113 (by notw_tac hostOps2_3)
  rw [a4, a3, a2, b4, b3, b2]; exact W7_scale_shift m ρ c j

theorem a2_eq : a2 (V10 (F := Ideal) m ρ) c = A2 m c := by
  funext r k
  have hx := W10_x2 m ρ c r k
  obtain ⟨hs, ht⟩ := W10_scale_shift m ρ c k
  show max (cur2 (W10 (F := Ideal) m ρ c (Proc.devRef .tc main_v94_0)) r k * cur1 (W10 (F := Ideal) m ρ c (Proc.devRef .tc main_v111)) k + cur1 (W10 (F := Ideal) m ρ c (Proc.devRef .tc main_v113)) k) 0 = _
  rw [hx, hs, ht]; rfl

theorem W10_W3 (k : Fin 256) (j : Fin 40) :
    cur2 (W10 (F := Ideal) m ρ c (Proc.devRef .tc main_v114)) k ⟨j.val, by omega⟩ = cur2 (m ((c : Thread nD τ).loc main_arg11)) k j := by
  have k3 : W9 (F := Ideal) m ρ c (Proc.devRef .tc main_v114) = W8 (F := Ideal) m ρ c (Proc.devRef .tc main_v114) := after_kept _ _ main_v114 (by notw_tac hostOps2_2)
  have k4 : W10 (F := Ideal) m ρ c (Proc.devRef .tc main_v114) = W9 (F := Ideal) m ρ c (Proc.devRef .tc main_v114) := after_kept _ _ main_v114 (by notw_tac hostOps2_3)
  rw [k4, k3]
  refine (pad_W3 (W6 (F := Ideal) m ρ c) k j).trans ?_
  rw [show W6 (F := Ideal) m ρ c (Proc.devRef .tc main_arg11) = _ from W6_main_arg11 m ρ c]

theorem W10_b3 (j : Fin 40) :
    cur1 (W10 (F := Ideal) m ρ c (Proc.devRef .tc main_v115)) ⟨j.val, by omega⟩ = cur1 (m ((c : Thread nD τ).loc main_arg12)) j := by
  refine (pad_b3 (W9 (F := Ideal) m ρ c) j).trans ?_
  rw [show W9 (F := Ideal) m ρ c (Proc.devRef .tc main_arg12) = _ from W9_main_arg12 m ρ c]

theorem W11_out (r : Fin 100000) (j : Fin 128) :
    cur2 (W11 (F := Ideal) m ρ c (Proc.devRef .tc main_v116)) r j
      = lin (A2 m c) (cur2 (W10 (F := Ideal) m ρ c (Proc.devRef .tc main_v114))) (cur1 (W10 (F := Ideal) m ρ c (Proc.devRef .tc main_v115))) r j := by
  show Eq (α := EReal) (W11 (F := Ideal) m ρ c (Proc.devRef .tc main_v116) (ix2 r j)) _
  rw [show W11 (F := Ideal) m ρ c (Proc.devRef .tc main_v116) = (dat2 (V10 (F := Ideal) m ρ) c).arrAt 5 cfg2.N from W11_arr m ρ c 5,
    out_value, a2_eq]

/-- The network is its last layer applied to the second hidden activation. -/
theorem netK_last : netK Nw εw (X m c) (cur2 (m ((c : Thread nD τ).loc main_arg3))) (cur1 (m ((c : Thread nD τ).loc main_arg4))) (cur1 (m ((c : Thread nD τ).loc main_arg5))) (cur1 (m ((c : Thread nD τ).loc main_arg6))) (cur2 (m ((c : Thread nD τ).loc main_arg7))) (cur1 (m ((c : Thread nD τ).loc main_arg8))) (cur1 (m ((c : Thread nD τ).loc main_arg9))) (cur1 (m ((c : Thread nD τ).loc main_arg10))) (cur2 (m ((c : Thread nD τ).loc main_arg11))) (cur1 (m ((c : Thread nD τ).loc main_arg12)))
    = lin (A2 m c) (cur2 (m ((c : Thread nD τ).loc main_arg11))) (cur1 (m ((c : Thread nD τ).loc main_arg12))) := rfl

/-- The padded last layer agrees with the unpadded one on the first forty columns. -/
theorem lin_pad (a : Fin 100000 → Fin 256 → EReal) (Wp : Fin 256 → Fin 128 → EReal) (bp : Fin 128 → EReal)
    (W : Fin 256 → Fin 40 → EReal) (b : Fin 40 → EReal) (hW : ∀ k (j : Fin 40), Wp k ⟨j.val, by omega⟩ = W k j)
    (hb : ∀ j : Fin 40, bp ⟨j.val, by omega⟩ = b j) (r : Fin 100000) (j : Fin 40) :
    lin a Wp bp r ⟨j.val, by omega⟩ = lin a W b r j := by
  unfold lin
  rw [hb j]
  exact congrArg (· + b j) (Finset.sum_congr rfl fun k _ => by rw [hW k j])

/-- THE KERNEL PROGRAM'S VALUE: the result buffer after the run, read at row `r` and column `j`, is the one-pass network
    of the aggregated features and the weights. -/
theorem kernel_value (r : Fin 100000) (j : Fin 40) :
    cur2 (W12 (F := Ideal) m ρ c (Proc.devRef .tc main_v117)) r j
      = netK Nw εw (X m c) (cur2 (m ((c : Thread nD τ).loc main_arg3))) (cur1 (m ((c : Thread nD τ).loc main_arg4))) (cur1 (m ((c : Thread nD τ).loc main_arg5))) (cur1 (m ((c : Thread nD τ).loc main_arg6))) (cur2 (m ((c : Thread nD τ).loc main_arg7))) (cur1 (m ((c : Thread nD τ).loc main_arg8))) (cur1 (m ((c : Thread nD τ).loc main_arg9))) (cur1 (m ((c : Thread nD τ).loc main_arg10))) (cur2 (m ((c : Thread nD τ).loc main_arg11))) (cur1 (m ((c : Thread nD τ).loc main_arg12))) r j := by
  rw [netK_last]
  refine (slice_out (W11 (F := Ideal) m ρ c) r j).trans ?_
  rw [W11_out]
  exact lin_pad (A2 m c) _ _ _ _ (W10_W3 m ρ c) (W10_b3 m ρ c) r j

end Cert.KernelIdeal.HandValue

end
-- ==== Proof.Ref.Ops.lean ====
/-
  The reference program's @main as lists of its host operations, the calls' bodies written out at the call
  sites over the calls' own buffers: seven consecutive stretches (the graph aggregation in two; the first affine
  layer with its column mean and variance; the first normalisation; the rectifier and the second affine layer
  with its mean; the second variance; the second normalisation, rectifier and the last affine layer).
-/
import proofs.«169417_j2877628089024_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Running two lists one after the other is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem scopedRefs_eq : (Finset.univ.filter fun b : Ref sig .tc => b.isScoped) = ∅ := by decide
theorem scopedSems_eq : (Finset.univ.filter fun sm : SemLoc sig => sm.isScoped .tc) = ∅ := by decide

/-- @main's operations 1 … 62: the degree count, its clamp and power, and the first two propagation steps up to the third gather's index. -/
abbrev w0 : List (HloOp τ sig (Elt F)) :=
  ( StableHlo.nullary main_cst (constant S_ .f32 0x3F800000#32)
  :: StableHlo.unary main_cst main_v0 (broadcastInDim S1250000 ![] bcast_S_S1250000 : (⟨S_, .f32⟩ : BufTy).Contents (Elt F) → (⟨S1250000, .f32⟩ : BufTy).Contents (Elt F))
  :: StableHlo.nullary main_cst_0 (constant S_ .f32 0x00000000#32)
  :: StableHlo.unary main_cst_0 main_v1 (broadcastInDim S100000 ![] bcast_S_S100000 : (⟨S_, .f32⟩ : BufTy).Contents (Elt F) → (⟨S100000, .f32⟩ : BufTy).Contents (Elt F))
  :: StableHlo.unary main_arg2 main_v2 (broadcastInDim S1250000x1 ![0] bcast_S1250000_S1250000x1_0 : (⟨S1250000, .i32⟩ : BufTy).Contents (Elt F) → (⟨S1250000x1, .i32⟩ : BufTy).Contents (Elt F))
  :: StableHlo.ternary main_v1 main_v2 main_v0 main_v3 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F))
  :: StableHlo.nullary main_cst_1 (constant S_ .f32 0x3F800000#32)
  :: StableHlo.TRef.unary (.of main_cst_1 : StableHlo.TRef sig ⟨S_, .f32⟩) (.of main_call0_v0 : StableHlo.TRef sig ⟨S_, .f32⟩) id
  :: StableHlo.TRef.unary (.of main_call0_v0 : StableHlo.TRef sig ⟨S_, .f32⟩) (.of main_call0_v1 : StableHlo.TRef sig ⟨S100000, .f32⟩) (broadcastInDim S100000 ![] bcast_S_S100000)
  :: StableHlo.TRef.binary (.of main_call0_v1 : StableHlo.TRef sig ⟨S100000, .f32⟩) (.of main_v3 : StableHlo.TRef sig ⟨S100000, .f32⟩) (.of main_v4 : StableHlo.TRef sig ⟨S100000, .f32⟩) maximumf
  :: StableHlo.nullary main_cst_2 (constant S_ .f32 0xBF000000#32)
  :: StableHlo.unary main_cst_2 main_v5 (broadcastInDim S100000 ![] bcast_S_S100000 : (⟨S_, .f32⟩ : BufTy).Contents (Elt F) → (⟨S100000, .f32⟩ : BufTy).Contents (Elt F))
  :: StableHlo.binary main_v4 main_v5 main_v6 (Host.powf : (⟨S100000, .f32⟩ : BufTy).Contents (Elt F) → (⟨S100000, .f32⟩ : BufTy).Contents (Elt F) → (⟨S100000, .f32⟩ : BufTy).Contents (Elt F))
  :: StableHlo.unary main_v6 main_v7 (broadcastInDim S100000x1 ![0] bcast_S100000_S100000x1_0 : (⟨S100000, .f32⟩ : BufTy).Contents (Elt F) → (⟨S100000x1, .f32⟩ : BufTy).Contents (Elt F))
  :: StableHlo.nullary main_cst_3 (constant S_ .f32 0x00000000#32)
  :: StableHlo.unary main_cst_3 main_v8 (broadcastInDim S100000x64 ![] bcast_S_S100000x64 : (⟨S_, .f32⟩ : BufTy).Contents (Elt F) → (⟨S100000x64, .f32⟩ : BufTy).Contents (Elt F))
  :: StableHlo.unary main_v7 main_v9 (broadcastInDim S100000x64 ![0, 1] bcast_S100000x1_S100000x64_0_1 : (⟨S100000x1, .f32⟩ : BufTy).Contents (Elt F) → (⟨S100000x64, .f32⟩ : BufTy).Contents (Elt F))
  :: StableHlo.binary main_arg0 main_v9 main_v10 (mulf : (⟨S100000x64, .f32⟩ : BufTy).Contents (Elt F) → (⟨S100000x64, .f32⟩ : BufTy).Contents (Elt F) → (⟨S100000x64, .f32⟩ : BufTy).Contents (Elt F))
  :: StableHlo.nullary main_c (constantI S_ 32 0#32)
  :: StableHlo.unary main_c main_v11 (broadcastInDim S1250000 ![] bcast_S_S1250000 : (⟨S_, .i32⟩ : BufTy).Contents (Elt F) → (⟨S1250000, .i32⟩ : BufTy).Contents (Elt F))
  :: StableHlo.binary main_arg1 main_v11 main_v12 (cmpi .slt : (⟨S1250000, .i32⟩ : BufTy).Contents (Elt F) → (⟨S1250000, .i32⟩ : BufTy).Contents (Elt F) → (⟨S1250000, .i1⟩ : BufTy).Contents (Elt F))
  :: StableHlo.nullary main_c_4 (constantI S_ 32 100000#32)
  :: StableHlo.unary main_c_4 main_v13 (broadcastInDim S1250000 ![] bcast_S_S1250000 : (⟨S_, .i32⟩ : BufTy).Contents (Elt F) → (⟨S1250000, .i32⟩ : BufTy).Contents (Elt F))
  :: StableHlo.binary main_arg1 main_v13 main_v14 (addi : (⟨S1250000, .i32⟩ : BufTy).Contents (Elt F) → (⟨S1250000, .i32⟩ : BufTy).Contents (Elt F) → (⟨S1250000, .i32⟩ : BufTy).Contents (Elt F))
  :: StableHlo.ternary main_v12 main_v14 main_arg1 main_v15 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F))
  :: StableHlo.unary main_v15 main_v16 (broadcastInDim S1250000x1 ![0] bcast_S1250000_S1250000x1_0 : (⟨S1250000, .i32⟩ : BufTy).Contents (Elt F) → (⟨S1250000x1, .i32⟩ : BufTy).Contents (Elt F))
  :: StableHlo.binary main_v10 main_v16 main_v17 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F))
  :: StableHlo.nullary main_cst_5 (constant S_ .f32 0x00000000#32)
  :: StableHlo.unary main_cst_5 main_v18 (broadcastInDim S100000x64 ![] bcast_S_S100000x64 : (⟨S_, .f32⟩ : BufTy).Contents (Elt F) → (⟨S100000x64, .f32⟩ : BufTy).Contents (Elt F))
  :: StableHlo.unary main_arg2 main_v19 (broadcastInDim S1250000x1 ![0] bcast_S1250000_S1250000x1_0 : (⟨S1250000, .i32⟩ : BufTy).Contents (Elt F) → (⟨S1250000x1, .i32⟩ : BufTy).Contents (Elt F))
  :: StableHlo.ternary main_v18 main_v19 main_v17 main_v20 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F))
  :: StableHlo.unary main_v7 main_v21 (broadcastInDim S100000x64 ![0, 1] bcast_S100000x1_S100000x64_0_1 : (⟨S100000x1, .f32⟩ : BufTy).Contents (Elt F) → (⟨S100000x64, .f32⟩ : BufTy).Contents (Elt F))
  :: StableHlo.binary main_v20 main_v21 main_v22 (mulf : (⟨S100000x64, .f32⟩ : BufTy).Contents (Elt F) → (⟨S100000x64, .f32⟩ : BufTy).Contents (Elt F) → (⟨S100000x64, .f32⟩ : BufTy).Contents (Elt F))
  :: StableHlo.binary main_v8 main_v22 main_v23 (addf : (⟨S100000x64, .f32⟩ : BufTy).Contents (Elt F) → (⟨S100000x64, .f32⟩ : BufTy).Contents (Elt F) → (⟨S100000x64, .f32⟩ : BufTy).Contents (Elt F))
  :: StableHlo.unary main_v7 main_v24 (broadcastInDim S100000x64 ![0, 1] bcast_S100000x1_S100000x64_0_1 : (⟨S100000x1, .f32⟩ : BufTy).Contents (Elt F) → (⟨S100000x64, .f32⟩ : BufTy).Contents (Elt F))
  :: StableHlo.binary main_v22 main_v24 main_v25 (mulf : (⟨S100000x64, .f32⟩ : BufTy).Contents (Elt F) → (⟨S100000x64, .f32⟩ : BufTy).Contents (Elt F) → (⟨S100000x64, .f32⟩ : BufTy).Contents (Elt F))
  :: StableHlo.nullary main_c_6 (constantI S_ 32 0#32)
  :: StableHlo.unary main_c_6 main_v26 (broadcastInDim S1250000 ![] bcast_S_S1250000 : (⟨S_, .i32⟩ : BufTy).Contents (Elt F) → (⟨S1250000, .i32⟩ : BufTy).Contents (Elt F))
  :: StableHlo.binary main_arg1 main_v26 main_v27 (cmpi .slt : (⟨S1250000, .i32⟩ : BufTy).Contents (Elt F) → (⟨S1250000, .i32⟩ : BufTy).Contents (Elt F) → (⟨S1250000, .i1⟩ : BufTy).Contents (Elt F))
  :: StableHlo.nullary main_c_7 (constantI S_ 32 100000#32)
  :: StableHlo.unary main_c_7 main_v28 (broadcastInDim S1250000 ![] bcast_S_S1250000 : (⟨S_, .i32⟩ : BufTy).Contents (Elt F) → (⟨S1250000, .i32⟩ : BufTy).Contents (Elt F))
  :: StableHlo.binary main_arg1 main_v28 main_v29 (addi : (⟨S1250000, .i32⟩ : BufTy).Contents (Elt F) → (⟨S1250000, .i32⟩ : BufTy).Contents (Elt F) → (⟨S1250000, .i32⟩ : BufTy).Contents (Elt F))
  :: StableHlo.ternary main_v27 main_v29 main_arg1 main_v30 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F))
  :: StableHlo.unary main_v30 main_v31 (broadcastInDim S1250000x1 ![0] bcast_S1250000_S1250000x1_0 : (⟨S1250000, .i32⟩ : BufTy).Contents (Elt F) → (⟨S1250000x1, .i32⟩ : BufTy).Contents (Elt F))
  :: StableHlo.binary main_v25 main_v31 main_v32 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F))
  :: StableHlo.nullary main_cst_8 (constant S_ .f32 0x00000000#32)
  :: StableHlo.unary main_cst_8 main_v33 (broadcastInDim S100000x64 ![] bcast_S_S100000x64 : (⟨S_, .f32⟩ : BufTy).Contents (Elt F) → (⟨S100000x64, .f32⟩ : BufTy).Contents (Elt F))
  :: StableHlo.unary main_arg2 main_v34 (broadcastInDim S1250000x1 ![0] bcast_S1250000_S1250000x1_0 : (⟨S1250000, .i32⟩ : BufTy).Contents (Elt F) → (⟨S1250000x1, .i32⟩ : BufTy).Contents (Elt F))
  :: StableHlo.ternary main_v33 main_v34 main_v32 main_v35 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F))
  :: StableHlo.unary main_v7 main_v36 (broadcastInDim S100000x64 ![0, 1] bcast_S100000x1_S100000x64_0_1 : (⟨S100000x1, .f32⟩ : BufTy).Contents (Elt F) → (⟨S100000x64, .f32⟩ : BufTy).Contents (Elt F))
  :: StableHlo.binary main_v35 main_v36 main_v37 (mulf : (⟨S100000x64, .f32⟩ : BufTy).Contents (Elt F) → (⟨S100000x64, .f32⟩ : BufTy).Contents (Elt F) → (⟨S100000x64, .f32⟩ : BufTy).Contents (Elt F))
  :: StableHlo.binary main_v23 main_v37 main_v38 (addf : (⟨S100000x64, .f32⟩ : BufTy).Contents (Elt F) → (⟨S100000x64, .f32⟩ : BufTy).Contents (Elt F) → (⟨S100000x64, .f32⟩ : BufTy).Contents (Elt F))
  :: StableHlo.unary main_v7 main_v39 (broadcastInDim S100000x64 ![0, 1] bcast_S100000x1_S100000x64_0_1 : (⟨S100000x1, .f32⟩ : BufTy).Contents (Elt F) → (⟨S100000x64, .f32⟩ : BufTy).Contents (Elt F))
  :: StableHlo.binary main_v37 main_v39 main_v40 (mulf : (⟨S100000x64, .f32⟩ : BufTy).Contents (Elt F) → (⟨S100000x64, .f32⟩ : BufTy).Contents (Elt F) → (⟨S100000x64, .f32⟩ : BufTy).Contents (Elt F))
  :: StableHlo.nullary main_c_9 (constantI S_ 32 0#32)
  :: StableHlo.unary main_c_9 main_v41 (broadcastInDim S1250000 ![] bcast_S_S1250000 : (⟨S_, .i32⟩ : BufTy).Contents (Elt F) → (⟨S1250000, .i32⟩ : BufTy).Contents (Elt F))
  :: StableHlo.binary main_arg1 main_v41 main_v42 (cmpi .slt : (⟨S1250000, .i32⟩ : BufTy).Contents (Elt F) → (⟨S1250000, .i32⟩ : BufTy).Contents (Elt F) → (⟨S1250000, .i1⟩ : BufTy).Contents (Elt F))
  :: StableHlo.nullary main_c_10 (constantI S_ 32 100000#32)
  :: StableHlo.unary main_c_10 main_v43 (broadcastInDim S1250000 ![] bcast_S_S1250000 : (⟨S_, .i32⟩ : BufTy).Contents (Elt F) → (⟨S1250000, .i32⟩ : BufTy).Contents (Elt F))
  :: StableHlo.binary main_arg1 main_v43 main_v44 (addi : (⟨S1250000, .i32⟩ : BufTy).Contents (Elt F) → (⟨S1250000, .i32⟩ : BufTy).Contents (Elt F) → (⟨S1250000, .i32⟩ : BufTy).Contents (Elt F))
  :: StableHlo.ternary main_v42 main_v44 main_arg1 main_v45 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F))
  :: StableHlo.unary main_v45 main_v46 (broadcastInDim S1250000x1 ![0] bcast_S1250000_S1250000x1_0 : (⟨S1250000, .i32⟩ : BufTy).Contents (Elt F) → (⟨S1250000x1, .i32⟩ : BufTy).Contents (Elt F))
  :: [] )
set_option maxRecDepth 8192 in
theorem w0_sub : (w0 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., binary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩
set_option maxRecDepth 8192 in
theorem w0_fresh : ∀ op ∈ (w0 : List (HloOp τ sig (Elt F))), op.fresh = ∅ := by
  intro _ h; (repeat (cases h with | head => rfl | tail _ h => ?_)); exact nomatch h
/-- The buffers this stretch writes. -/
abbrev w0_W : List (Ref sig .tc) := [main_cst, main_v0, main_cst_0, main_v1, main_v2, main_v3, main_cst_1, main_call0_v0, main_call0_v1, main_v4, main_cst_2, main_v5, main_v6, main_v7, main_cst_3, main_v8, main_v9, main_v10, main_c, main_v11, main_v12, main_c_4, main_v13, main_v14, main_v15, main_v16, main_v17, main_cst_5, main_v18, main_v19, main_v20, main_v21, main_v22, main_v23, main_v24, main_v25, main_c_6, main_v26, main_v27, main_c_7, main_v28, main_v29, main_v30, main_v31, main_v32, main_cst_8, main_v33, main_v34, main_v35, main_v36, main_v37, main_v38, main_v39, main_v40, main_c_9, main_v41, main_v42, main_c_10, main_v43, main_v44, main_v45, main_v46]

/-- @main's operations 63 … 95: the last two propagation steps and the blend with the features. -/
abbrev w1 : List (HloOp τ sig (Elt F)) :=
  ( StableHlo.binary main_v40 main_v46 main_v47 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F))
  :: StableHlo.nullary main_cst_11 (constant S_ .f32 0x00000000#32)
  :: StableHlo.unary main_cst_11 main_v48 (broadcastInDim S100000x64 ![] bcast_S_S100000x64 : (⟨S_, .f32⟩ : BufTy).Contents (Elt F) → (⟨S100000x64, .f32⟩ : BufTy).Contents (Elt F))
  :: StableHlo.unary main_arg2 main_v49 (broadcastInDim S1250000x1 ![0] bcast_S1250000_S1250000x1_0 : (⟨S1250000, .i32⟩ : BufTy).Contents (Elt F) → (⟨S1250000x1, .i32⟩ : BufTy).Contents (Elt F))
  :: StableHlo.ternary main_v48 main_v49 main_v47 main_v50 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F))
  :: StableHlo.unary main_v7 main_v51 (broadcastInDim S100000x64 ![0, 1] bcast_S100000x1_S100000x64_0_1 : (⟨S100000x1, .f32⟩ : BufTy).Contents (Elt F) → (⟨S100000x64, .f32⟩ : BufTy).Contents (Elt F))
  :: StableHlo.binary main_v50 main_v51 main_v52 (mulf : (⟨S100000x64, .f32⟩ : BufTy).Contents (Elt F) → (⟨S100000x64, .f32⟩ : BufTy).Contents (Elt F) → (⟨S100000x64, .f32⟩ : BufTy).Contents (Elt F))
  :: StableHlo.binary main_v38 main_v52 main_v53 (addf : (⟨S100000x64, .f32⟩ : BufTy).Contents (Elt F) → (⟨S100000x64, .f32⟩ : BufTy).Contents (Elt F) → (⟨S100000x64, .f32⟩ : BufTy).Contents (Elt F))
  :: StableHlo.unary main_v7 main_v54 (broadcastInDim S100000x64 ![0, 1] bcast_S100000x1_S100000x64_0_1 : (⟨S100000x1, .f32⟩ : BufTy).Contents (Elt F) → (⟨S100000x64, .f32⟩ : BufTy).Contents (Elt F))
  :: StableHlo.binary main_v52 main_v54 main_v55 (mulf : (⟨S100000x64, .f32⟩ : BufTy).Contents (Elt F) → (⟨S100000x64, .f32⟩ : BufTy).Contents (Elt F) → (⟨S100000x64, .f32⟩ : BufTy).Contents (Elt F))
  :: StableHlo.nullary main_c_12 (constantI S_ 32 0#32)
  :: StableHlo.unary main_c_12 main_v56 (broadcastInDim S1250000 ![] bcast_S_S1250000 : (⟨S_, .i32⟩ : BufTy).Contents (Elt F) → (⟨S1250000, .i32⟩ : BufTy).Contents (Elt F))
  :: StableHlo.binary main_arg1 main_v56 main_v57 (cmpi .slt : (⟨S1250000, .i32⟩ : BufTy).Contents (Elt F) → (⟨S1250000, .i32⟩ : BufTy).Contents (Elt F) → (⟨S1250000, .i1⟩ : BufTy).Contents (Elt F))
  :: StableHlo.nullary main_c_13 (constantI S_ 32 100000#32)
  :: StableHlo.unary main_c_13 main_v58 (broadcastInDim S1250000 ![] bcast_S_S1250000 : (⟨S_, .i32⟩ : BufTy).Contents (Elt F) → (⟨S1250000, .i32⟩ : BufTy).Contents (Elt F))
  :: StableHlo.binary main_arg1 main_v58 main_v59 (addi : (⟨S1250000, .i32⟩ : BufTy).Contents (Elt F) → (⟨S1250000, .i32⟩ : BufTy).Contents (Elt F) → (⟨S1250000, .i32⟩ : BufTy).Contents (Elt F))
  :: StableHlo.ternary main_v57 main_v59 main_arg1 main_v60 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F))
  :: StableHlo.unary main_v60 main_v61 (broadcastInDim S1250000x1 ![0] bcast_S1250000_S1250000x1_0 : (⟨S1250000, .i32⟩ : BufTy).Contents (Elt F) → (⟨S1250000x1, .i32⟩ : BufTy).Contents (Elt F))
  :: StableHlo.binary main_v55 main_v61 main_v62 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F))
  :: StableHlo.nullary main_cst_14 (constant S_ .f32 0x00000000#32)
  :: StableHlo.unary main_cst_14 main_v63 (broadcastInDim S100000x64 ![] bcast_S_S100000x64 : (⟨S_, .f32⟩ : BufTy).Contents (Elt F) → (⟨S100000x64, .f32⟩ : BufTy).Contents (Elt F))
  :: StableHlo.unary main_arg2 main_v64 (broadcastInDim S1250000x1 ![0] bcast_S1250000_S1250000x1_0 : (⟨S1250000, .i32⟩ : BufTy).Contents (Elt F) → (⟨S1250000x1, .i32⟩ : BufTy).Contents (Elt F))
  :: StableHlo.ternary main_v63 main_v64 main_v62 main_v65 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F))
  :: StableHlo.unary main_v7 main_v66 (broadcastInDim S100000x64 ![0, 1] bcast_S100000x1_S100000x64_0_1 : (⟨S100000x1, .f32⟩ : BufTy).Contents (Elt F) → (⟨S100000x64, .f32⟩ : BufTy).Contents (Elt F))
  :: StableHlo.binary main_v65 main_v66 main_v67 (mulf : (⟨S100000x64, .f32⟩ : BufTy).Contents (Elt F) → (⟨S100000x64, .f32⟩ : BufTy).Contents (Elt F) → (⟨S100000x64, .f32⟩ : BufTy).Contents (Elt F))
  :: StableHlo.binary main_v53 main_v67 main_v68 (addf : (⟨S100000x64, .f32⟩ : BufTy).Contents (Elt F) → (⟨S100000x64, .f32⟩ : BufTy).Contents (Elt F) → (⟨S100000x64, .f32⟩ : BufTy).Contents (Elt F))
  :: StableHlo.nullary main_cst_15 (constant S_ .f32 0x3E733333#32)
  :: StableHlo.unary main_cst_15 main_v69 (broadcastInDim S100000x64 ![] bcast_S_S100000x64 : (⟨S_, .f32⟩ : BufTy).Contents (Elt F) → (⟨S100000x64, .f32⟩ : BufTy).Contents (Elt F))
  :: StableHlo.binary main_v69 main_v68 main_v70 (mulf : (⟨S100000x64, .f32⟩ : BufTy).Contents (Elt F) → (⟨S100000x64, .f32⟩ : BufTy).Contents (Elt F) → (⟨S100000x64, .f32⟩ : BufTy).Contents (Elt F))
  :: StableHlo.nullary main_cst_16 (constant S_ .f32 0x3D4CCCCD#32)
  :: StableHlo.unary main_cst_16 main_v71 (broadcastInDim S100000x64 ![] bcast_S_S100000x64 : (⟨S_, .f32⟩ : BufTy).Contents (Elt F) → (⟨S100000x64, .f32⟩ : BufTy).Contents (Elt F))
  :: StableHlo.binary main_v71 main_arg0 main_v72 (mulf : (⟨S100000x64, .f32⟩ : BufTy).Contents (Elt F) → (⟨S100000x64, .f32⟩ : BufTy).Contents (Elt F) → (⟨S100000x64, .f32⟩ : BufTy).Contents (Elt F))
  :: StableHlo.binary main_v70 main_v72 main_v73 (addf : (⟨S100000x64, .f32⟩ : BufTy).Contents (Elt F) → (⟨S100000x64, .f32⟩ : BufTy).Contents (Elt F) → (⟨S100000x64, .f32⟩ : BufTy).Contents (Elt F))
  :: [] )
set_option maxRecDepth 8192 in
theorem w1_sub : (w1 : List (HloOp τ sig (Elt F))).Forall fun op => op.bufs ⊆ tcRefs τ sig :=
  ⟨binary_bufs_sub .., nullary_bufs_sub .., unary_bufs_sub .., unary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., nullary_bufs_sub .., unary_bufs_sub .., binary_bufs_sub .., nullary_bufs_sub .., unary_bufs_sub .., binary_bufs_sub .., binary_bufs_sub ..⟩
set_option maxRecDepth 8192 in
theorem w1_fresh : ∀ op ∈ (w1 : List (HloOp τ sig (Elt F))), op.fresh = ∅ := by
  intro _ h; (repeat (cases h with | head => rfl | tail _ h => ?_)); exact nomatch h
/-- The buffers this stretch writes. -/
abbrev w1_W : List (Ref sig .tc) := [main_v47, main_cst_11, main_v48, main_v49, main_v50, main_v51, main_v52, main_v53, main_v54, main_v55, main_c_12, main_v56, main_v57, main_c_13, main_v58, main_v59, main_v60, main_v61, main_v62, main_cst_14, main_v63, main_v64, main_v65, main_v66, main_v67, main_v68, main_cst_15, main_v69, main_v70, main_cst_16, main_v71, main_v72, main_v73]

/-- @main's operations 96 … 127: the first affine layer, its column mean, and the column variance (the call's body). -/
abbrev w2 : List (HloOp τ sig (Elt F)) :=
  ( StableHlo.binary main_v73 main_arg3 main_v74 ((fun l r => Host.dotGeneral dot_S100000x64_S64x256_S100000x256_1_0_0_1_n_n none l r) : (⟨S100000x64, .f32⟩ : BufTy).Contents (Elt F) → (⟨S64x256, .f32⟩ : BufTy).Contents (Elt F) → (⟨S100000x256, .f32⟩ : BufTy).Contents (Elt F))
  :: StableHlo.unary main_arg4 main_v75 (broadcastInDim S1x256 ![1] bcast_S256_S1x256_1 : (⟨S256, .f32⟩ : BufTy).Contents (Elt F) → (⟨S1x256, .f32⟩ : BufTy).Contents (Elt F))
  :: StableHlo.unary main_v75 main_v76 (broadcastInDim S100000x256 ![0, 1] bcast_S1x256_S100000x256_0_1 : (⟨S1x256, .f32⟩ : BufTy).Contents (Elt F) → (⟨S100000x256, .f32⟩ : BufTy).Contents (Elt F))
  :: StableHlo.binary main_v74 main_v76 main_v77 (addf : (⟨S100000x256, .f32⟩ : BufTy).Contents (Elt F) → (⟨S100000x256, .f32⟩ : BufTy).Contents (Elt F) → (⟨S100000x256, .f32⟩ : BufTy).Contents (Elt F))
  :: StableHlo.nullary main_cst_17 (constant S_ .f32 0x00000000#32)
  :: StableHlo.binary main_v77 main_cst_17 main_v78 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F))
  :: StableHlo.nullary main_cst_18 (constant S_ .f32 0x47C35000#32)
  :: StableHlo.unary main_cst_18 main_v79 (broadcastInDim S256 ![] bcast_S_S256 : (⟨S_, .f32⟩ : BufTy).Contents (Elt F) → (⟨S256, .f32⟩ : BufTy).Contents (Elt F))
  :: StableHlo.binary main_v78 main_v79 main_v80 (Host.divf : (⟨S256, .f32⟩ : BufTy).Contents (Elt F) → (⟨S256, .f32⟩ : BufTy).Contents (Elt F) → (⟨S256, .f32⟩ : BufTy).Contents (Elt F))
  :: StableHlo.nullary main_c_19 (constantI S_ 32 0#32)
  :: StableHlo.TRef.nullary (.of main_call1_cst : StableHlo.TRef sig ⟨S_, .f32⟩) (constant S_ .f32 0x00000000#32)
  :: StableHlo.TRef.binary (.of main_v77 : StableHlo.TRef sig ⟨S100000x256, .f32⟩) (.of main_call1_cst : StableHlo.TRef sig ⟨S_, .f32⟩) (.of main_call1_v0 : StableHlo.TRef sig ⟨S256, .f32⟩) (fun x v => Host.reduceAdd x v reducesTo_S100000x256_S256_d0 h_S_)
  :: StableHlo.TRef.unary (.of main_call1_v0 : StableHlo.TRef sig ⟨S256, .f32⟩) (.of main_call1_v1 : StableHlo.TRef sig ⟨S1x256, .f32⟩) (broadcastInDim S1x256 ![1] bcast_S256_S1x256_1)
  :: StableHlo.TRef.nullary (.of main_call1_cst_0 : StableHlo.TRef sig ⟨S_, .f32⟩) (constant S_ .f32 0x47C35000#32)
  :: StableHlo.TRef.unary (.of main_call1_cst_0 : StableHlo.TRef sig ⟨S_, .f32⟩) (.of main_call1_v2 : StableHlo.TRef sig ⟨S1x256, .f32⟩) (broadcastInDim S1x256 ![] bcast_S_S1x256)
  :: StableHlo.TRef.binary (.of main_call1_v1 : StableHlo.TRef sig ⟨S1x256, .f32⟩) (.of main_call1_v2 : StableHlo.TRef sig ⟨S1x256, .f32⟩) (.of main_call1_v3 : StableHlo.TRef sig ⟨S1x256, .f32⟩) Host.divf
  :: StableHlo.TRef.unary (.of main_call1_v3 : StableHlo.TRef sig ⟨S1x256, .f32⟩) (.of main_call1_v4 : StableHlo.TRef sig ⟨S100000x256, .f32⟩) (broadcastInDim S100000x256 ![0, 1] bcast_S1x256_S100000x256_0_1)
  :: StableHlo.TRef.binary (.of main_v77 : StableHlo.TRef sig ⟨S100000x256, .f32⟩) (.of main_call1_v4 : StableHlo.TRef sig ⟨S100000x256, .f32⟩) (.of main_call1_v5 : StableHlo.TRef sig ⟨S100000x256, .f32⟩) subf
  :: StableHlo.TRef.binary (.of main_call1_v5 : StableHlo.TRef sig ⟨S100000x256, .f32⟩) (.of main_call1_v5 : StableHlo.TRef sig ⟨S100000x256, .f32⟩) (.of main_call1_v6 : StableHlo.TRef sig ⟨S100000x256, .f32⟩) mulf
  :: StableHlo.TRef.unary (.of main_c_19 : StableHlo.TRef sig ⟨S_, .i32⟩) (.of main_call1_v7 : StableHlo.TRef sig ⟨S_, .f32⟩) (sitofp .f32)
  :: StableHlo.TRef.nullary (.of main_call1_cst_1 : StableHlo.TRef sig ⟨S_, .f32⟩) (constant S_ .f32 0x47C35000#32)
  :: StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf
  :: StableHlo.TRef.nullary (.of main_call1_cst_2 : StableHlo.TRef sig ⟨S_, .f32⟩) (constant S_ .f32 0x00000000#32)
  :: StableHlo.TRef.binary (.of main_call1_v6 : StableHlo.TRef sig ⟨S100000x256, .f32⟩) (.of main_call1_cst_2 : StableHlo.TRef sig ⟨S_, .f32⟩) (.of main_call1_v9 : StableHlo.TRef sig ⟨S256, .f32⟩) (fun x v => Host.reduceAdd x v reducesTo_S100000x256_S256_d0 h_S_)
  :: StableHlo.TRef.unary (.of main_call1_v8 : StableHlo.TRef sig ⟨S_, .f32⟩) (.of main_call1_v10 : StableHlo.TRef sig ⟨S256, .f32⟩) (broadcastInDim S256 ![] bcast_S_S256)
  :: StableHlo.TRef.binary (.of main_call1_v9 : StableHlo.TRef sig ⟨S256, .f32⟩) (.of main_call1_v10 : StableHlo.TRef sig ⟨S256, .f32⟩) (.of main_call1_v11 : StableHlo.TRef sig ⟨S256, .f32⟩) Host.divf
  :: StableHlo.TRef.nullary (.of main_call1_cst_3 : StableHlo.TRef sig ⟨S_, .f32⟩) (constant S_ .f32 0x00000000#32)
  :: StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt)
  :: StableHlo.TRef.nullary (.of main_call1_cst_4 : StableHlo.TRef sig ⟨S_, .f32⟩) (constant S_ .f32 0x7FC00000#32)
  :: StableHlo.TRef.unary (.of main_call1_cst_4 : StableHlo.TRef sig ⟨S_, .f32⟩) (.of main_call1_call0_v0 : StableHlo.TRef sig ⟨S_, .f32⟩) id
  :: StableHlo.TRef.unary (.of main_call1_call0_v0 : StableHlo.TRef sig ⟨S_, .f32⟩) (.of main_call1_call0_v1 : StableHlo.TRef sig ⟨S256, .f32⟩) (broadcastInDim S256 ![] bcast_S_S256)
  :: StableHlo.TRef.ternary (.of main_call1_v12 : StableHlo.TRef sig ⟨S_, .i1⟩) (.of main_call1_v11 : StableHlo.TRef sig ⟨S256, .f32⟩) (.of main_call1_call0_v1 : StableHlo.TRef sig ⟨S256, .f32⟩) (.of main_v81 : StableHlo.TRef sig ⟨S256, .f32⟩) (fun p a b => select (broadcastInDim S256 ![] bcast_S_S256 p) a b)
  :: [] )
set_option maxRecDepth 8192 in
theorem w2_sub : (w2 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem w2_fresh : ∀ op ∈ (w2 : List (HloOp τ sig (Elt F))), op.fresh = ∅ := by
  intro _ h; (repeat (cases h with | head => rfl | tail _ h => ?_)); exact nomatch h
/-- The buffers this stretch writes. -/
abbrev w2_W : List (Ref sig .tc) := [main_v74, main_v75, main_v76, main_v77, main_cst_17, main_v78, main_cst_18, main_v79, main_v80, main_c_19, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v81]

/-- @main's operations 128 … 143: the first normalisation. -/
abbrev w3 : List (HloOp τ sig (Elt F)) :=
  ( StableHlo.unary main_v80 main_v82 (broadcastInDim S1x256 ![1] bcast_S256_S1x256_1 : (⟨S256, .f32⟩ : BufTy).Contents (Elt F) → (⟨S1x256, .f32⟩ : BufTy).Contents (Elt F))
  :: StableHlo.unary main_v82 main_v83 (broadcastInDim S100000x256 ![0, 1] bcast_S1x256_S100000x256_0_1 : (⟨S1x256, .f32⟩ : BufTy).Contents (Elt F) → (⟨S100000x256, .f32⟩ : BufTy).Contents (Elt F))
  :: StableHlo.binary main_v77 main_v83 main_v84 (subf : (⟨S100000x256, .f32⟩ : BufTy).Contents (Elt F) → (⟨S100000x256, .f32⟩ : BufTy).Contents (Elt F) → (⟨S100000x256, .f32⟩ : BufTy).Contents (Elt F))
  :: StableHlo.unary main_arg5 main_v85 (broadcastInDim S1x256 ![1] bcast_S256_S1x256_1 : (⟨S256, .f32⟩ : BufTy).Contents (Elt F) → (⟨S1x256, .f32⟩ : BufTy).Contents (Elt F))
  :: StableHlo.unary main_v85 main_v86 (broadcastInDim S100000x256 ![0, 1] bcast_S1x256_S100000x256_0_1 : (⟨S1x256, .f32⟩ : BufTy).Contents (Elt F) → (⟨S100000x256, .f32⟩ : BufTy).Contents (Elt F))
  :: StableHlo.binary main_v86 main_v84 main_v87 (mulf : (⟨S100000x256, .f32⟩ : BufTy).Contents (Elt F) → (⟨S100000x256, .f32⟩ : BufTy).Contents (Elt F) → (⟨S100000x256, .f32⟩ : BufTy).Contents (Elt F))
  :: StableHlo.nullary main_cst_20 (constant S_ .f32 0x3727C5AC#32)
  :: StableHlo.unary main_cst_20 main_v88 (broadcastInDim S256 ![] bcast_S_S256 : (⟨S_, .f32⟩ : BufTy).Contents (Elt F) → (⟨S256, .f32⟩ : BufTy).Contents (Elt F))
  :: StableHlo.binary main_v81 main_v88 main_v89 (addf : (⟨S256, .f32⟩ : BufTy).Contents (Elt F) → (⟨S256, .f32⟩ : BufTy).Contents (Elt F) → (⟨S256, .f32⟩ : BufTy).Contents (Elt F))
  :: StableHlo.unary main_v89 main_v90 (Host.rsqrt : (⟨S256, .f32⟩ : BufTy).Contents (Elt F) → (⟨S256, .f32⟩ : BufTy).Contents (Elt F))
  :: StableHlo.unary main_v90 main_v91 (broadcastInDim S1x256 ![1] bcast_S256_S1x256_1 : (⟨S256, .f32⟩ : BufTy).Contents (Elt F) → (⟨S1x256, .f32⟩ : BufTy).Contents (Elt F))
  :: StableHlo.unary main_v91 main_v92 (broadcastInDim S100000x256 ![0, 1] bcast_S1x256_S100000x256_0_1 : (⟨S1x256, .f32⟩ : BufTy).Contents (Elt F) → (⟨S100000x256, .f32⟩ : BufTy).Contents (Elt F))
  :: StableHlo.binary main_v87 main_v92 main_v93 (mulf : (⟨S100000x256, .f32⟩ : BufTy).Contents (Elt F) → (⟨S100000x256, .f32⟩ : BufTy).Contents (Elt F) → (⟨S100000x256, .f32⟩ : BufTy).Contents (Elt F))
  :: StableHlo.unary main_arg6 main_v94 (broadcastInDim S1x256 ![1] bcast_S256_S1x256_1 : (⟨S256, .f32⟩ : BufTy).Contents (Elt F) → (⟨S1x256, .f32⟩ : BufTy).Contents (Elt F))
  :: StableHlo.unary main_v94 main_v95 (broadcastInDim S100000x256 ![0, 1] bcast_S1x256_S100000x256_0_1 : (⟨S1x256, .f32⟩ : BufTy).Contents (Elt F) → (⟨S100000x256, .f32⟩ : BufTy).Contents (Elt F))
  :: StableHlo.binary main_v93 main_v95 main_v96 (addf : (⟨S100000x256, .f32⟩ : BufTy).Contents (Elt F) → (⟨S100000x256, .f32⟩ : BufTy).Contents (Elt F) → (⟨S100000x256, .f32⟩ : BufTy).Contents (Elt F))
  :: [] )
set_option maxRecDepth 8192 in
theorem w3_sub : (w3 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩
set_option maxRecDepth 8192 in
theorem w3_fresh : ∀ op ∈ (w3 : List (HloOp τ sig (Elt F))), op.fresh = ∅ := by
  intro _ h; (repeat (cases h with | head => rfl | tail _ h => ?_)); exact nomatch h
/-- The buffers this stretch writes. -/
abbrev w3_W : List (Ref sig .tc) := [main_v82, main_v83, main_v84, main_v85, main_v86, main_v87, main_cst_20, main_v88, main_v89, main_v90, main_v91, main_v92, main_v93, main_v94, main_v95, main_v96]

/-- @main's operations 144 … 156: the first rectifier (the call's body), the second affine layer and its column mean. -/
abbrev w4 : List (HloOp τ sig (Elt F)) :=
  ( StableHlo.TRef.nullary (.of main_call2_cst : StableHlo.TRef sig ⟨S_, .f32⟩) (constant S_ .f32 0x00000000#32)
  :: StableHlo.TRef.unary (.of main_call2_cst : StableHlo.TRef sig ⟨S_, .f32⟩) (.of main_call2_v0 : StableHlo.TRef sig ⟨S100000x256, .f32⟩) (broadcastInDim S100000x256 ![] bcast_S_S100000x256)
  :: StableHlo.TRef.binary (.of main_v96 : StableHlo.TRef sig ⟨S100000x256, .f32⟩) (.of main_call2_v0 : StableHlo.TRef sig ⟨S100000x256, .f32⟩) (.of main_v97 : StableHlo.TRef sig ⟨S100000x256, .f32⟩) maximumf
  :: StableHlo.binary main_v97 main_arg7 main_v98 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F))
  :: StableHlo.unary main_arg8 main_v99 (broadcastInDim S1x256 ![1] bcast_S256_S1x256_1 : (⟨S256, .f32⟩ : BufTy).Contents (Elt F) → (⟨S1x256, .f32⟩ : BufTy).Contents (Elt F))
  :: StableHlo.unary main_v99 main_v100 (broadcastInDim S100000x256 ![0, 1] bcast_S1x256_S100000x256_0_1 : (⟨S1x256, .f32⟩ : BufTy).Contents (Elt F) → (⟨S100000x256, .f32⟩ : BufTy).Contents (Elt F))
  :: StableHlo.binary main_v98 main_v100 main_v101 (addf : (⟨S100000x256, .f32⟩ : BufTy).Contents (Elt F) → (⟨S100000x256, .f32⟩ : BufTy).Contents (Elt F) → (⟨S100000x256, .f32⟩ : BufTy).Contents (Elt F))
  :: StableHlo.nullary main_cst_21 (constant S_ .f32 0x00000000#32)
  :: StableHlo.binary main_v101 main_cst_21 main_v102 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F))
  :: StableHlo.nullary main_cst_22 (constant S_ .f32 0x47C35000#32)
  :: StableHlo.unary main_cst_22 main_v103 (broadcastInDim S256 ![] bcast_S_S256 : (⟨S_, .f32⟩ : BufTy).Contents (Elt F) → (⟨S256, .f32⟩ : BufTy).Contents (Elt F))
  :: StableHlo.binary main_v102 main_v103 main_v104 (Host.divf : (⟨S256, .f32⟩ : BufTy).Contents (Elt F) → (⟨S256, .f32⟩ : BufTy).Contents (Elt F) → (⟨S256, .f32⟩ : BufTy).Contents (Elt F))
  :: StableHlo.nullary main_c_23 (constantI S_ 32 0#32)
  :: [] )
set_option maxRecDepth 8192 in
theorem w4_sub : (w4 : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub ..⟩
set_option maxRecDepth 8192 in
theorem w4_fresh : ∀ op ∈ (w4 : List (HloOp τ sig (Elt F))), op.fresh = ∅ := by
  intro _ h; (repeat (cases h with | head => rfl | tail _ h => ?_)); exact nomatch h
/-- The buffers this stretch writes. -/
abbrev w4_W : List (Ref sig .tc) := [main_call2_cst, main_call2_v0, main_v97, main_v98, main_v99, main_v100, main_v101, main_cst_21, main_v102, main_cst_22, main_v103, main_v104, main_c_23]

/-- @main's operations 157 … 178: the second column variance (the call's body). -/
abbrev w5 : List (HloOp τ sig (Elt F)) :=
  ( StableHlo.TRef.nullary (.of main_call3_cst : StableHlo.TRef sig ⟨S_, .f32⟩) (constant S_ .f32 0x00000000#32)
  :: StableHlo.TRef.binary (.of main_v101 : StableHlo.TRef sig ⟨S100000x256, .f32⟩) (.of main_call3_cst : StableHlo.TRef sig ⟨S_, .f32⟩) (.of main_call3_v0 : StableHlo.TRef sig ⟨S256, .f32⟩) (fun x v => Host.reduceAdd x v reducesTo_S100000x256_S256_d0 h_S_)
  :: StableHlo.TRef.unary (.of main_call3_v0 : StableHlo.TRef sig ⟨S256, .f32⟩) (.of main_call3_v1 : StableHlo.TRef sig ⟨S1x256, .f32⟩) (broadcastInDim S1x256 ![1] bcast_S256_S1x256_1)
  :: StableHlo.TRef.nullary (.of main_call3_cst_0 : StableHlo.TRef sig ⟨S_, .f32⟩) (constant S_ .f32 0x47C35000#32)
  :: StableHlo.TRef.unary (.of main_call3_cst_0 : StableHlo.TRef sig ⟨S_, .f32⟩) (.of main_call3_v2 : StableHlo.TRef sig ⟨S1x256, .f32⟩) (broadcastInDim S1x256 ![] bcast_S_S1x256)
  :: StableHlo.TRef.binary (.of main_call3_v1 : StableHlo.TRef sig ⟨S1x256, .f32⟩) (.of main_call3_v2 : StableHlo.TRef sig ⟨S1x256, .f32⟩) (.of main_call3_v3 : StableHlo.TRef sig ⟨S1x256, .f32⟩) Host.divf
  :: StableHlo.TRef.unary (.of main_call3_v3 : StableHlo.TRef sig ⟨S1x256, .f32⟩) (.of main_call3_v4 : StableHlo.TRef sig ⟨S100000x256, .f32⟩) (broadcastInDim S100000x256 ![0, 1] bcast_S1x256_S100000x256_0_1)
  :: StableHlo.TRef.binary (.of main_v101 : StableHlo.TRef sig ⟨S100000x256, .f32⟩) (.of main_call3_v4 : StableHlo.TRef sig ⟨S100000x256, .f32⟩) (.of main_call3_v5 : StableHlo.TRef sig ⟨S100000x256, .f32⟩) subf
  :: StableHlo.TRef.binary (.of main_call3_v5 : StableHlo.TRef sig ⟨S100000x256, .f32⟩) (.of main_call3_v5 : StableHlo.TRef sig ⟨S100000x256, .f32⟩) (.of main_call3_v6 : StableHlo.TRef sig ⟨S100000x256, .f32⟩) mulf
  :: StableHlo.TRef.unary (.of main_c_23 : StableHlo.TRef sig ⟨S_, .i32⟩) (.of main_call3_v7 : StableHlo.TRef sig ⟨S_, .f32⟩) (sitofp .f32)
  :: StableHlo.TRef.nullary (.of main_call3_cst_1 : StableHlo.TRef sig ⟨S_, .f32⟩) (constant S_ .f32 0x47C35000#32)
  :: StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf
  :: StableHlo.TRef.nullary (.of main_call3_cst_2 : StableHlo.TRef sig ⟨S_, .f32⟩) (constant S_ .f32 0x00000000#32)
  :: StableHlo.TRef.binary (.of main_call3_v6 : StableHlo.TRef sig ⟨S100000x256, .f32⟩) (.of main_call3_cst_2 : StableHlo.TRef sig ⟨S_, .f32⟩) (.of main_call3_v9 : StableHlo.TRef sig ⟨S256, .f32⟩) (fun x v => Host.reduceAdd x v reducesTo_S100000x256_S256_d0 h_S_)
  :: StableHlo.TRef.unary (.of main_call3_v8 : StableHlo.TRef sig ⟨S_, .f32⟩) (.of main_call3_v10 : StableHlo.TRef sig ⟨S256, .f32⟩) (broadcastInDim S256 ![] bcast_S_S256)
  :: StableHlo.TRef.binary (.of main_call3_v9 : StableHlo.TRef sig ⟨S256, .f32⟩) (.of main_call3_v10 : StableHlo.TRef sig ⟨S256, .f32⟩) (.of main_call3_v11 : StableHlo.TRef sig ⟨S256, .f32⟩) Host.divf
  :: StableHlo.TRef.nullary (.of main_call3_cst_3 : StableHlo.TRef sig ⟨S_, .f32⟩) (constant S_ .f32 0x00000000#32)
  :: StableHlo.TRef.binary (.of main_call3_v8 : StableHlo.TRef sig ⟨S_, .f32⟩) (.of main_call3_cst_3 : StableHlo.TRef sig ⟨S_, .f32⟩) (.of main_call3_v12 : StableHlo.TRef sig ⟨S_, .i1⟩) (cmpf .ogt)
  :: StableHlo.TRef.nullary (.of main_call3_cst_4 : StableHlo.TRef sig ⟨S_, .f32⟩) (constant S_ .f32 0x7FC00000#32)
  :: StableHlo.TRef.unary (.of main_call3_cst_4 : StableHlo.TRef sig ⟨S_, .f32⟩) (.of main_call3_call0_v0 : StableHlo.TRef sig ⟨S_, .f32⟩) id
  :: StableHlo.TRef.unary (.of main_call3_call0_v0 : StableHlo.TRef sig ⟨S_, .f32⟩) (.of main_call3_call0_v1 : StableHlo.TRef sig ⟨S256, .f32⟩) (broadcastInDim S256 ![] bcast_S_S256)
  :: StableHlo.TRef.ternary (.of main_call3_v12 : StableHlo.TRef sig ⟨S_, .i1⟩) (.of main_call3_v11 : StableHlo.TRef sig ⟨S256, .f32⟩) (.of main_call3_call0_v1 : StableHlo.TRef sig ⟨S256, .f32⟩) (.of main_v105 : StableHlo.TRef sig ⟨S256, .f32⟩) (fun p a b => select (broadcastInDim S256 ![] bcast_S_S256 p) a b)
  :: [] )
set_option maxRecDepth 8192 in
theorem w5_sub : (w5 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem w5_fresh : ∀ op ∈ (w5 : List (HloOp τ sig (Elt F))), op.fresh = ∅ := by
  intro _ h; (repeat (cases h with | head => rfl | tail _ h => ?_)); exact nomatch h
/-- The buffers this stretch writes. -/
abbrev w5_W : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v105]

/-- @main's operations 179 … 201: the second normalisation, the rectifier (the call's body) and the last affine layer. -/
abbrev w6 : List (HloOp τ sig (Elt F)) :=
  ( StableHlo.unary main_v104 main_v106 (broadcastInDim S1x256 ![1] bcast_S256_S1x256_1 : (⟨S256, .f32⟩ : BufTy).Contents (Elt F) → (⟨S1x256, .f32⟩ : BufTy).Contents (Elt F))
  :: StableHlo.unary main_v106 main_v107 (broadcastInDim S100000x256 ![0, 1] bcast_S1x256_S100000x256_0_1 : (⟨S1x256, .f32⟩ : BufTy).Contents (Elt F) → (⟨S100000x256, .f32⟩ : BufTy).Contents (Elt F))
  :: StableHlo.binary main_v101 main_v107 main_v108 (subf : (⟨S100000x256, .f32⟩ : BufTy).Contents (Elt F) → (⟨S100000x256, .f32⟩ : BufTy).Contents (Elt F) → (⟨S100000x256, .f32⟩ : BufTy).Contents (Elt F))
  :: StableHlo.unary main_arg9 main_v109 (broadcastInDim S1x256 ![1] bcast_S256_S1x256_1 : (⟨S256, .f32⟩ : BufTy).Contents (Elt F) → (⟨S1x256, .f32⟩ : BufTy).Contents (Elt F))
  :: StableHlo.unary main_v109 main_v110 (broadcastInDim S100000x256 ![0, 1] bcast_S1x256_S100000x256_0_1 : (⟨S1x256, .f32⟩ : BufTy).Contents (Elt F) → (⟨S100000x256, .f32⟩ : BufTy).Contents (Elt F))
  :: StableHlo.binary main_v110 main_v108 main_v111 (mulf : (⟨S100000x256, .f32⟩ : BufTy).Contents (Elt F) → (⟨S100000x256, .f32⟩ : BufTy).Contents (Elt F) → (⟨S100000x256, .f32⟩ : BufTy).Contents (Elt F))
  :: StableHlo.nullary main_cst_24 (constant S_ .f32 0x3727C5AC#32)
  :: StableHlo.unary main_cst_24 main_v112 (broadcastInDim S256 ![] bcast_S_S256 : (⟨S_, .f32⟩ : BufTy).Contents (Elt F) → (⟨S256, .f32⟩ : BufTy).Contents (Elt F))
  :: StableHlo.binary main_v105 main_v112 main_v113 (addf : (⟨S256, .f32⟩ : BufTy).Contents (Elt F) → (⟨S256, .f32⟩ : BufTy).Contents (Elt F) → (⟨S256, .f32⟩ : BufTy).Contents (Elt F))
  :: StableHlo.unary main_v113 main_v114 (Host.rsqrt : (⟨S256, .f32⟩ : BufTy).Contents (Elt F) → (⟨S256, .f32⟩ : BufTy).Contents (Elt F))
  :: StableHlo.unary main_v114 main_v115 (broadcastInDim S1x256 ![1] bcast_S256_S1x256_1 : (⟨S256, .f32⟩ : BufTy).Contents (Elt F) → (⟨S1x256, .f32⟩ : BufTy).Contents (Elt F))
  :: StableHlo.unary main_v115 main_v116 (broadcastInDim S100000x256 ![0, 1] bcast_S1x256_S100000x256_0_1 : (⟨S1x256, .f32⟩ : BufTy).Contents (Elt F) → (⟨S100000x256, .f32⟩ : BufTy).Contents (Elt F))
  :: StableHlo.binary main_v111 main_v116 main_v117 (mulf : (⟨S100000x256, .f32⟩ : BufTy).Contents (Elt F) → (⟨S100000x256, .f32⟩ : BufTy).Contents (Elt F) → (⟨S100000x256, .f32⟩ : BufTy).Contents (Elt F))
  :: StableHlo.unary main_arg10 main_v118 (broadcastInDim S1x256 ![1] bcast_S256_S1x256_1 : (⟨S256, .f32⟩ : BufTy).Contents (Elt F) → (⟨S1x256, .f32⟩ : BufTy).Contents (Elt F))
  :: StableHlo.unary main_v118 main_v119 (broadcastInDim S100000x256 ![0, 1] bcast_S1x256_S100000x256_0_1 : (⟨S1x256, .f32⟩ : BufTy).Contents (Elt F) → (⟨S100000x256, .f32⟩ : BufTy).Contents (Elt F))
  :: StableHlo.binary main_v117 main_v119 main_v120 (addf : (⟨S100000x256, .f32⟩ : BufTy).Contents (Elt F) → (⟨S100000x256, .f32⟩ : BufTy).Contents (Elt F) → (⟨S100000x256, .f32⟩ : BufTy).Contents (Elt F))
  :: StableHlo.TRef.nullary (.of main_call4_cst : StableHlo.TRef sig ⟨S_, .f32⟩) (constant S_ .f32 0x00000000#32)
  :: StableHlo.TRef.unary (.of main_call4_cst : StableHlo.TRef sig ⟨S_, .f32⟩) (.of main_call4_v0 : StableHlo.TRef sig ⟨S100000x256, .f32⟩) (broadcastInDim S100000x256 ![] bcast_S_S100000x256)
  :: StableHlo.TRef.binary (.of main_v120 : StableHlo.TRef sig ⟨S100000x256, .f32⟩) (.of main_call4_v0 : StableHlo.TRef sig ⟨S100000x256, .f32⟩) (.of main_v121 : StableHlo.TRef sig ⟨S100000x256, .f32⟩) maximumf
  :: StableHlo.binary main_v121 main_arg11 main_v122 ((fun l r => Host.dotGeneral dot_S100000x256_S256x40_S100000x40_1_0_0_1_n_n none l r) : (⟨S100000x256, .f32⟩ : BufTy).Contents (Elt F) → (⟨S256x40, .f32⟩ : BufTy).Contents (Elt F) → (⟨S100000x40, .f32⟩ : BufTy).Contents (Elt F))
  :: StableHlo.unary main_arg12 main_v123 (broadcastInDim S1x40 ![1] bcast_S40_S1x40_1 : (⟨S40, .f32⟩ : BufTy).Contents (Elt F) → (⟨S1x40, .f32⟩ : BufTy).Contents (Elt F))
  :: StableHlo.unary main_v123 main_v124 (broadcastInDim S100000x40 ![0, 1] bcast_S1x40_S100000x40_0_1 : (⟨S1x40, .f32⟩ : BufTy).Contents (Elt F) → (⟨S100000x40, .f32⟩ : BufTy).Contents (Elt F))
  :: StableHlo.binary main_v122 main_v124 main_v125 (addf : (⟨S100000x40, .f32⟩ : BufTy).Contents (Elt F) → (⟨S100000x40, .f32⟩ : BufTy).Contents (Elt F) → (⟨S100000x40, .f32⟩ : BufTy).Contents (Elt F))
  :: [] )
set_option maxRecDepth 8192 in
theorem w6_sub : (w6 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
set_option maxRecDepth 8192 in
theorem w6_fresh : ∀ op ∈ (w6 : List (HloOp τ sig (Elt F))), op.fresh = ∅ := by
  intro _ h; (repeat (cases h with | head => rfl | tail _ h => ?_)); exact nomatch h
/-- The buffers this stretch writes. -/
abbrev w6_W : List (Ref sig .tc) := [main_v106, main_v107, main_v108, main_v109, main_v110, main_v111, main_cst_24, main_v112, main_v113, main_v114, main_v115, main_v116, main_v117, main_v118, main_v119, main_v120, main_call4_cst, main_call4_v0, main_v121, main_v122, main_v123, main_v124, main_v125]

end Cert.ReferenceIdeal.Hand

end
-- ==== Proof.Ref.MainEq.lean ====
/-
  @main is the straight line of its operations: each of its three printed stretches is the sequence of the
  corresponding lists (the calls unfold to their bodies), and the whole is their concatenation; every operation
  touches TensorCore references only and determines its result. Hence the run: every weakly fair execution
  terminates with each buffer at the fold of the operations over the launch contents.
-/
import proofs.«169417_j2877628089024_2_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem main_part0_eq (c : Dev nD) : main_part0 (F := F) c = seq w0 := rfl

set_option maxRecDepth 16384 in
set_option maxHeartbeats 4000000 in
theorem main_part1_eq (c : Dev nD) : main_part1 (F := F) c = seq (w1 ++ (w2 ++ w3)) := rfl

set_option maxRecDepth 16384 in
set_option maxHeartbeats 4000000 in
theorem main_part2_eq (c : Dev nD) : main_part2 (F := F) c = seq (w4 ++ (w5 ++ w6)) := rfl

/-- All of @main's operations, in order. -/
abbrev ops : List (HloOp τ sig (Elt F)) := w0 ++ ((w1 ++ (w2 ++ w3)) ++ (w4 ++ (w5 ++ w6)))

theorem main_eq (c : Dev nD) : main (F := F) c = seq ops := by
  show (main_part0 (F := F) c >>= fun _ => (main_part1 (F := F) c >>= fun _ => main_part2 (F := F) c)) = _
  rw [main_part0_eq, main_part1_eq, main_part2_eq]
  simp only [ops, seq_append]

theorem ops_sub : (ops : List (HloOp τ sig (Elt F))).Forall fun op => op.bufs ⊆ tcRefs τ sig :=
  List.forall_iff_forall_mem.mpr fun op h => by
    simp only [ops, List.mem_append] at h
    rcases h with h | ((h | h | h) | h | h | h)
    exacts [List.forall_iff_forall_mem.mp w0_sub op h, List.forall_iff_forall_mem.mp w1_sub op h,
      List.forall_iff_forall_mem.mp w2_sub op h, List.forall_iff_forall_mem.mp w3_sub op h,
      List.forall_iff_forall_mem.mp w4_sub op h, List.forall_iff_forall_mem.mp w5_sub op h,
      List.forall_iff_forall_mem.mp w6_sub op h]

theorem ops_fresh : ∀ op ∈ (ops : List (HloOp τ sig (Elt F))), op.fresh = ∅ := fun op h => by
  simp only [ops, List.mem_append] at h
  rcases h with h | ((h | h | h) | h | h | h)
  exacts [w0_fresh op h, w1_fresh op h, w2_fresh op h, w3_fresh op h, w4_fresh op h, w5_fresh op h, w6_fresh op h]

/-- From any memory with zero counters every weakly fair execution of @main terminates, each TensorCore buffer
    at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

/-- The fold over all the operations is the fold over the seven stretches in turn. -/
theorem after_ops (V : Valuation τ sig (Elt F)) :
    after ops V = after w6 (after w5 (after w4 (after w3 (after w2 (after w1 (after w0 V)))))) := by
  simp only [ops, after_app]

end Cert.ReferenceIdeal.Hand

end
-- ==== Proof.Ref.Win0.lean ====
/-
  The first stretch of the aggregation read off its operations: from any contents `W`, what the fold leaves at the
  four buffers the second stretch reads (the normalisation column, the running sum after two propagation steps, the
  second step scaled for the third gather, and that gather's index column), each as the operations' composed term.
-/
import proofs.«169417_j2877628089024_2_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem w0_writes : (w0 : List (HloOp τ sig (Elt F))).Forall fun op =>
    op.writes ⊆ (w0_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer this stretch does not write keeps its contents through it. -/
theorem w0_keep (W : Valuation τ sig (Elt F)) (r : Ref sig .tc) (h : r ∉ w0_W) :
    after w0 W (Proc.devRef .tc r) = W (Proc.devRef .tc r) :=
  after_of_writes_sub w0 W w0_writes h

set_option maxRecDepth 8192 in
set_option maxHeartbeats 4000000 in
theorem w0_v7 (W : Valuation τ sig (Elt F)) :
    after w0 W (Proc.devRef .tc main_v7) = (broadcastInDim S100000x1 ![0] bcast_S100000_S100000x1_0 (Host.powf (maximumf (broadcastInDim S100000 ![] bcast_S_S100000 (id (constant S_ .f32 0x3F800000#32 : (⟨S_, .f32⟩ : BufTy).Contents (Elt F)) : (⟨S_, .f32⟩ : BufTy).Contents (Elt F)) : (⟨S100000, .f32⟩ : BufTy).Contents (Elt F)) (Host.scatterAdd scatter_S100000_S1250000x1_S1250000_n_0_0_1 (broadcastInDim S100000 ![] bcast_S_S100000 (constant S_ .f32 0x00000000#32 : (⟨S_, .f32⟩ : BufTy).Contents (Elt F)) : (⟨S100000, .f32⟩ : BufTy).Contents (Elt F)) (broadcastInDim S1250000x1 ![0] bcast_S1250000_S1250000x1_0 (W (Proc.devRef .tc main_arg2)) : (⟨S1250000x1, .i32⟩ : BufTy).Contents (Elt F)) (broadcastInDim S1250000 ![] bcast_S_S1250000 (constant S_ .f32 0x3F800000#32 : (⟨S_, .f32⟩ : BufTy).Contents (Elt F)) : (⟨S1250000, .f32⟩ : BufTy).Contents (Elt F)) : (⟨S100000, .f32⟩ : BufTy).Contents (Elt F)) : (⟨S100000, .f32⟩ : BufTy).Contents (Elt F)) (broadcastInDim S100000 ![] bcast_S_S100000 (constant S_ .f32 0xBF000000#32 : (⟨S_, .f32⟩ : BufTy).Contents (Elt F)) : (⟨S100000, .f32⟩ : BufTy).Contents (Elt F)) : (⟨S100000, .f32⟩ : BufTy).Contents (Elt F)) : (⟨S100000x1, .f32⟩ : BufTy).Contents (Elt F)) := by
  simp only [w0]
  after_results_simp
  all_goals rfl

set_option maxRecDepth 8192 in
set_option maxHeartbeats 4000000 in
theorem w0_v38 (W : Valuation τ sig (Elt F)) :
    after w0 W (Proc.devRef .tc main_v38) = (addf (addf (broadcastInDim S100000x64 ![] bcast_S_S100000x64 (constant S_ .f32 0x00000000#32 : (⟨S_, .f32⟩ : BufTy).Contents (Elt F)) : (⟨S100000x64, .f32⟩ : BufTy).Contents (Elt F)) (mulf (Host.scatterAdd scatter_S100000x64_S1250000x1_S1250000x64_1_0_0_1 (broadcastInDim S100000x64 ![] bcast_S_S100000x64 (constant S_ .f32 0x00000000#32 : (⟨S_, .f32⟩ : BufTy).Contents (Elt F)) : (⟨S100000x64, .f32⟩ : BufTy).Contents (Elt F)) (broadcastInDim S1250000x1 ![0] bcast_S1250000_S1250000x1_0 (W (Proc.devRef .tc main_arg2)) : (⟨S1250000x1, .i32⟩ : BufTy).Contents (Elt F)) (Host.gather gather_S100000x64_S1250000x1_S1250000x64_1_0_n_n_0_1_164 (mulf (W (Proc.devRef .tc main_arg0)) (broadcastInDim S100000x64 ![0, 1] bcast_S100000x1_S100000x64_0_1 (broadcastInDim S100000x1 ![0] bcast_S100000_S100000x1_0 (Host.powf (maximumf (broadcastInDim S100000 ![] bcast_S_S100000 (id (constant S_ .f32 0x3F800000#32 : (⟨S_, .f32⟩ : BufTy).Contents (Elt F)) : (⟨S_, .f32⟩ : BufTy).Contents (Elt F)) : (⟨S100000, .f32⟩ : BufTy).Contents (Elt F)) (Host.scatterAdd scatter_S100000_S1250000x1_S1250000_n_0_0_1 (broadcastInDim S100000 ![] bcast_S_S100000 (constant S_ .f32 0x00000000#32 : (⟨S_, .f32⟩ : BufTy).Contents (Elt F)) : (⟨S100000, .f32⟩ : BufTy).Contents (Elt F)) (broadcastInDim S1250000x1 ![0] bcast_S1250000_S1250000x1_0 (W (Proc.devRef .tc main_arg2)) : (⟨S1250000x1, .i32⟩ : BufTy).Contents (Elt F)) (broadcastInDim S1250000 ![] bcast_S_S1250000 (constant S_ .f32 0x3F800000#32 : (⟨S_, .f32⟩ : BufTy).Contents (Elt F)) : (⟨S1250000, .f32⟩ : BufTy).Contents (Elt F)) : (⟨S100000, .f32⟩ : BufTy).Contents (Elt F)) : (⟨S100000, .f32⟩ : BufTy).Contents (Elt F)) (broadcastInDim S100000 ![] bcast_S_S100000 (constant S_ .f32 0xBF000000#32 : (⟨S_, .f32⟩ : BufTy).Contents (Elt F)) : (⟨S100000, .f32⟩ : BufTy).Contents (Elt F)) : (⟨S100000, .f32⟩ : BufTy).Contents (Elt F)) : (⟨S100000x1, .f32⟩ : BufTy).Contents (Elt F)) : (⟨S100000x64, .f32⟩ : BufTy).Contents (Elt F)) : (⟨S100000x64, .f32⟩ : BufTy).Contents (Elt F)) (broadcastInDim S1250000x1 ![0] bcast_S1250000_S1250000x1_0 (select (cmpi .slt (W (Proc.devRef .tc main_arg1)) (broadcastInDim S1250000 ![] bcast_S_S1250000 (constantI S_ 32 0#32 : (⟨S_, .i32⟩ : BufTy).Contents (Elt F)) : (⟨S1250000, .i32⟩ : BufTy).Contents (Elt F)) : (⟨S1250000, .i1⟩ : BufTy).Contents (Elt F)) (addi (W (Proc.devRef .tc main_arg1)) (broadcastInDim S1250000 ![] bcast_S_S1250000 (constantI S_ 32 100000#32 : (⟨S_, .i32⟩ : BufTy).Contents (Elt F)) : (⟨S1250000, .i32⟩ : BufTy).Contents (Elt F)) : (⟨S1250000, .i32⟩ : BufTy).Contents (Elt F)) (W (Proc.devRef .tc main_arg1)) : (⟨S1250000, .i32⟩ : BufTy).Contents (Elt F)) : (⟨S1250000x1, .i32⟩ : BufTy).Contents (Elt F)) : (⟨S1250000x64, .f32⟩ : BufTy).Contents (Elt F)) : (⟨S100000x64, .f32⟩ : BufTy).Contents (Elt F)) (broadcastInDim S100000x64 ![0, 1] bcast_S100000x1_S100000x64_0_1 (broadcastInDim S100000x1 ![0] bcast_S100000_S100000x1_0 (Host.powf (maximumf (broadcastInDim S100000 ![] bcast_S_S100000 (id (constant S_ .f32 0x3F800000#32 : (⟨S_, .f32⟩ : BufTy).Contents (Elt F)) : (⟨S_, .f32⟩ : BufTy).Contents (Elt F)) : (⟨S100000, .f32⟩ : BufTy).Contents (Elt F)) (Host.scatterAdd scatter_S100000_S1250000x1_S1250000_n_0_0_1 (broadcastInDim S100000 ![] bcast_S_S100000 (constant S_ .f32 0x00000000#32 : (⟨S_, .f32⟩ : BufTy).Contents (Elt F)) : (⟨S100000, .f32⟩ : BufTy).Contents (Elt F)) (broadcastInDim S1250000x1 ![0] bcast_S1250000_S1250000x1_0 (W (Proc.devRef .tc main_arg2)) : (⟨S1250000x1, .i32⟩ : BufTy).Contents (Elt F)) (broadcastInDim S1250000 ![] bcast_S_S1250000 (constant S_ .f32 0x3F800000#32 : (⟨S_, .f32⟩ : BufTy).Contents (Elt F)) : (⟨S1250000, .f32⟩ : BufTy).Contents (Elt F)) : (⟨S100000, .f32⟩ : BufTy).Contents (Elt F)) : (⟨S100000, .f32⟩ : BufTy).Contents (Elt F)) (broadcastInDim S100000 ![] bcast_S_S100000 (constant S_ .f32 0xBF000000#32 : (⟨S_, .f32⟩ : BufTy).Contents (Elt F)) : (⟨S100000, .f32⟩ : BufTy).Contents (Elt F)) : (⟨S100000, .f32⟩ : BufTy).Contents (Elt F)) : (⟨S100000x1, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) (mulf (Host.scatterAdd scatter_S100000x64_S1250000x1_S1250000x64_1_0_0_1 (broadcastInDim S100000x64 ![] bcast_S_S100000x64 (constant S_ .f32 0x00000000#32 : (⟨S_, .f32⟩ : BufTy).Contents (Elt F)) : (⟨S100000x64, .f32⟩ : BufTy).Contents (Elt F)) (broadcastInDim S1250000x1 ![0] bcast_S1250000_S1250000x1_0 (W (Proc.devRef .tc main_arg2)) : (⟨S1250000x1, .i32⟩ : BufTy).Contents (Elt F)) (Host.gather gather_S100000x64_S1250000x1_S1250000x64_1_0_n_n_0_1_164 (mulf (mulf (Host.scatterAdd scatter_S100000x64_S1250000x1_S1250000x64_1_0_0_1 (broadcastInDim S100000x64 ![] bcast_S_S100000x64 (constant S_ .f32 0x00000000#32 : (⟨S_, .f32⟩ : BufTy).Contents (Elt F)) : (⟨S100000x64, .f32⟩ : BufTy).Contents (Elt F)) (broadcastInDim S1250000x1 ![0] bcast_S1250000_S1250000x1_0 (W (Proc.devRef .tc main_arg2)) : (⟨S1250000x1, .i32⟩ : BufTy).Contents (Elt F)) (Host.gather gather_S100000x64_S1250000x1_S1250000x64_1_0_n_n_0_1_164 (mulf (W (Proc.devRef .tc main_arg0)) (broadcastInDim S100000x64 ![0, 1] bcast_S100000x1_S100000x64_0_1 (broadcastInDim S100000x1 ![0] bcast_S100000_S100000x1_0 (Host.powf (maximumf (broadcastInDim S100000 ![] bcast_S_S100000 (id (constant S_ .f32 0x3F800000#32 : (⟨S_, .f32⟩ : BufTy).Contents (Elt F)) : (⟨S_, .f32⟩ : BufTy).Contents (Elt F)) : (⟨S100000, .f32⟩ : BufTy).Contents (Elt F)) (Host.scatterAdd scatter_S100000_S1250000x1_S1250000_n_0_0_1 (broadcastInDim S100000 ![] bcast_S_S100000 (constant S_ .f32 0x00000000#32 : (⟨S_, .f32⟩ : BufTy).Contents (Elt F)) : (⟨S100000, .f32⟩ : BufTy).Contents (Elt F)) (broadcastInDim S1250000x1 ![0] bcast_S1250000_S1250000x1_0 (W (Proc.devRef .tc main_arg2)) : (⟨S1250000x1, .i32⟩ : BufTy).Contents (Elt F)) (broadcastInDim S1250000 ![] bcast_S_S1250000 (constant S_ .f32 0x3F800000#32 : (⟨S_, .f32⟩ : BufTy).Contents (Elt F)) : (⟨S1250000, .f32⟩ : BufTy).Contents (Elt F)) : (⟨S100000, .f32⟩ : BufTy).Contents (Elt F)) : (⟨S100000, .f32⟩ : BufTy).Contents (Elt F)) (broadcastInDim S100000 ![] bcast_S_S100000 (constant S_ .f32 0xBF000000#32 : (⟨S_, .f32⟩ : BufTy).Contents (Elt F)) : (⟨S100000, .f32⟩ : BufTy).Contents (Elt F)) : (⟨S100000, .f32⟩ : BufTy).Contents (Elt F)) : (⟨S100000x1, .f32⟩ : BufTy).Contents (Elt F)) : (⟨S100000x64, .f32⟩ : BufTy).Contents (Elt F)) : (⟨S100000x64, .f32⟩ : BufTy).Contents (Elt F)) (broadcastInDim S1250000x1 ![0] bcast_S1250000_S1250000x1_0 (select (cmpi .slt (W (Proc.devRef .tc main_arg1)) (broadcastInDim S1250000 ![] bcast_S_S1250000 (constantI S_ 32 0#32 : (⟨S_, .i32⟩ : BufTy).Contents (Elt F)) : (⟨S1250000, .i32⟩ : BufTy).Contents (Elt F)) : (⟨S1250000, .i1⟩ : BufTy).Contents (Elt F)) (addi (W (Proc.devRef .tc main_arg1)) (broadcastInDim S1250000 ![] bcast_S_S1250000 (constantI S_ 32 100000#32 : (⟨S_, .i32⟩ : BufTy).Contents (Elt F)) : (⟨S1250000, .i32⟩ : BufTy).Contents (Elt F)) : (⟨S1250000, .i32⟩ : BufTy).Contents (Elt F)) (W (Proc.devRef .tc main_arg1)) : (⟨S1250000, .i32⟩ : BufTy).Contents (Elt F)) : (⟨S1250000x1, .i32⟩ : BufTy).Contents (Elt F)) : (⟨S1250000x64, .f32⟩ : BufTy).Contents (Elt F)) : (⟨S100000x64, .f32⟩ : BufTy).Contents (Elt F)) (broadcastInDim S100000x64 ![0, 1] bcast_S100000x1_S100000x64_0_1 (broadcastInDim S100000x1 ![0] bcast_S100000_S100000x1_0 (Host.powf (maximumf (broadcastInDim S100000 ![] bcast_S_S100000 (id (constant S_ .f32 0x3F800000#32 : (⟨S_, .f32⟩ : BufTy).Contents (Elt F)) : (⟨S_, .f32⟩ : BufTy).Contents (Elt F)) : (⟨S100000, .f32⟩ : BufTy).Contents (Elt F)) (Host.scatterAdd scatter_S100000_S1250000x1_S1250000_n_0_0_1 (broadcastInDim S100000 ![] bcast_S_S100000 (constant S_ .f32 0x00000000#32 : (⟨S_, .f32⟩ : BufTy).Contents (Elt F)) : (⟨S100000, .f32⟩ : BufTy).Contents (Elt F)) (broadcastInDim S1250000x1 ![0] bcast_S1250000_S1250000x1_0 (W (Proc.devRef .tc main_arg2)) : (⟨S1250000x1, .i32⟩ : BufTy).Contents (Elt F)) (broadcastInDim S1250000 ![] bcast_S_S1250000 (constant S_ .f32 0x3F800000#32 : (⟨S_, .f32⟩ : BufTy).Contents (Elt F)) : (⟨S1250000, .f32⟩ : BufTy).Contents (Elt F)) : (⟨S100000, .f32⟩ : BufTy).Contents (Elt F)) : (⟨S100000, .f32⟩ : BufTy).Contents (Elt F)) (broadcastInDim S100000 ![] bcast_S_S100000 (constant S_ .f32 0xBF000000#32 : (⟨S_, .f32⟩ : BufTy).Contents (Elt F)) : (⟨S100000, .f32⟩ : BufTy).Contents (Elt F)) : (⟨S100000, .f32⟩ : BufTy).Contents (Elt F)) : (⟨S100000x1, .f32⟩ : BufTy).Contents (Elt F)) : (⟨S100000x64, .f32⟩ : BufTy).Contents (Elt F)) : (⟨S100000x64, .f32⟩ : BufTy).Contents (Elt F)) (broadcastInDim S100000x64 ![0, 1] bcast_S100000x1_S100000x64_0_1 (broadcastInDim S100000x1 ![0] bcast_S100000_S100000x1_0 (Host.powf (maximumf (broadcastInDim S100000 ![] bcast_S_S100000 (id (constant S_ .f32 0x3F800000#32 : (⟨S_, .f32⟩ : BufTy).Contents (Elt F)) : (⟨S_, .f32⟩ : BufTy).Contents (Elt F)) : (⟨S100000, .f32⟩ : BufTy).Contents (Elt F)) (Host.scatterAdd scatter_S100000_S1250000x1_S1250000_n_0_0_1 (broadcastInDim S100000 ![] bcast_S_S100000 (constant S_ .f32 0x00000000#32 : (⟨S_, .f32⟩ : BufTy).Contents (Elt F)) : (⟨S100000, .f32⟩ : BufTy).Contents (Elt F)) (broadcastInDim S1250000x1 ![0] bcast_S1250000_S1250000x1_0 (W (Proc.devRef .tc main_arg2)) : (⟨S1250000x1, .i32⟩ : BufTy).Contents (Elt F)) (broadcastInDim S1250000 ![] bcast_S_S1250000 (constant S_ .f32 0x3F800000#32 : (⟨S_, .f32⟩ : BufTy).Contents (Elt F)) : (⟨S1250000, .f32⟩ : BufTy).Contents (Elt F)) : (⟨S100000, .f32⟩ : BufTy).Contents (Elt F)) : (⟨S100000, .f32⟩ : BufTy).Contents (Elt F)) (broadcastInDim S100000 ![] bcast_S_S100000 (constant S_ .f32 0xBF000000#32 : (⟨S_, .f32⟩ : BufTy).Contents (Elt F)) : (⟨S100000, .f32⟩ : BufTy).Contents (Elt F)) : (⟨S100000, .f32⟩ : BufTy).Contents (Elt F)) : (⟨S100000x1, .f32⟩ : BufTy).Contents (Elt F)) : (⟨S100000x64, .f32⟩ : BufTy).Contents (Elt F)) : (⟨S100000x64, .f32⟩ : BufTy).Contents (Elt F)) (broadcastInDim S1250000x1 ![0] bcast_S1250000_S1250000x1_0 (select (cmpi .slt (W (Proc.devRef .tc main_arg1)) (broadcastInDim S1250000 ![] bcast_S_S1250000 (constantI S_ 32 0#32 : (⟨S_, .i32⟩ : BufTy).Contents (Elt F)) : (⟨S1250000, .i32⟩ : BufTy).Contents (Elt F)) : (⟨S1250000, .i1⟩ : BufTy).Contents (Elt F)) (addi (W (Proc.devRef .tc main_arg1)) (broadcastInDim S1250000 ![] bcast_S_S1250000 (constantI S_ 32 100000#32 : (⟨S_, .i32⟩ : BufTy).Contents (Elt F)) : (⟨S1250000, .i32⟩ : BufTy).Contents (Elt F)) : (⟨S1250000, .i32⟩ : BufTy).Contents (Elt F)) (W (Proc.devRef .tc main_arg1)) : (⟨S1250000, .i32⟩ : BufTy).Contents (Elt F)) : (⟨S1250000x1, .i32⟩ : BufTy).Contents (Elt F)) : (⟨S1250000x64, .f32⟩ : BufTy).Contents (Elt F)) : (⟨S100000x64, .f32⟩ : BufTy).Contents (Elt F)) (broadcastInDim S100000x64 ![0, 1] bcast_S100000x1_S100000x64_0_1 (broadcastInDim S100000x1 ![0] bcast_S100000_S100000x1_0 (Host.powf (maximumf (broadcastInDim S100000 ![] bcast_S_S100000 (id (constant S_ .f32 0x3F800000#32 : (⟨S_, .f32⟩ : BufTy).Contents (Elt F)) : (⟨S_, .f32⟩ : BufTy).Contents (Elt F)) : (⟨S100000, .f32⟩ : BufTy).Contents (Elt F)) (Host.scatterAdd scatter_S100000_S1250000x1_S1250000_n_0_0_1 (broadcastInDim S100000 ![] bcast_S_S100000 (constant S_ .f32 0x00000000#32 : (⟨S_, .f32⟩ : BufTy).Contents (Elt F)) : (⟨S100000, .f32⟩ : BufTy).Contents (Elt F)) (broadcastInDim S1250000x1 ![0] bcast_S1250000_S1250000x1_0 (W (Proc.devRef .tc main_arg2)) : (⟨S1250000x1, .i32⟩ : BufTy).Contents (Elt F)) (broadcastInDim S1250000 ![] bcast_S_S1250000 (constant S_ .f32 0x3F800000#32 : (⟨S_, .f32⟩ : BufTy).Contents (Elt F)) : (⟨S1250000, .f32⟩ : BufTy).Contents (Elt F)) : (⟨S100000, .f32⟩ : BufTy).Contents (Elt F)) : (⟨S100000, .f32⟩ : BufTy).Contents (Elt F)) (broadcastInDim S100000 ![] bcast_S_S100000 (constant S_ .f32 0xBF000000#32 : (⟨S_, .f32⟩ : BufTy).Contents (Elt F)) : (⟨S100000, .f32⟩ : BufTy).Contents (Elt F)) : (⟨S100000, .f32⟩ : BufTy).Contents (Elt F)) : (⟨S100000x1, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) := by
  simp only [w0]
  after_results_simp
  all_goals rfl

set_option maxRecDepth 8192 in
set_option maxHeartbeats 4000000 in
theorem w0_v40 (W : Valuation τ sig (Elt F)) :
    after w0 W (Proc.devRef .tc main_v40) = (mulf (mulf (Host.scatterAdd scatter_S100000x64_S1250000x1_S1250000x64_1_0_0_1 (broadcastInDim S100000x64 ![] bcast_S_S100000x64 (constant S_ .f32 0x00000000#32 : (⟨S_, .f32⟩ : BufTy).Contents (Elt F)) : (⟨S100000x64, .f32⟩ : BufTy).Contents (Elt F)) (broadcastInDim S1250000x1 ![0] bcast_S1250000_S1250000x1_0 (W (Proc.devRef .tc main_arg2)) : (⟨S1250000x1, .i32⟩ : BufTy).Contents (Elt F)) (Host.gather gather_S100000x64_S1250000x1_S1250000x64_1_0_n_n_0_1_164 (mulf (mulf (Host.scatterAdd scatter_S100000x64_S1250000x1_S1250000x64_1_0_0_1 (broadcastInDim S100000x64 ![] bcast_S_S100000x64 (constant S_ .f32 0x00000000#32 : (⟨S_, .f32⟩ : BufTy).Contents (Elt F)) : (⟨S100000x64, .f32⟩ : BufTy).Contents (Elt F)) (broadcastInDim S1250000x1 ![0] bcast_S1250000_S1250000x1_0 (W (Proc.devRef .tc main_arg2)) : (⟨S1250000x1, .i32⟩ : BufTy).Contents (Elt F)) (Host.gather gather_S100000x64_S1250000x1_S1250000x64_1_0_n_n_0_1_164 (mulf (W (Proc.devRef .tc main_arg0)) (broadcastInDim S100000x64 ![0, 1] bcast_S100000x1_S100000x64_0_1 (broadcastInDim S100000x1 ![0] bcast_S100000_S100000x1_0 (Host.powf (maximumf (broadcastInDim S100000 ![] bcast_S_S100000 (id (constant S_ .f32 0x3F800000#32 : (⟨S_, .f32⟩ : BufTy).Contents (Elt F)) : (⟨S_, .f32⟩ : BufTy).Contents (Elt F)) : (⟨S100000, .f32⟩ : BufTy).Contents (Elt F)) (Host.scatterAdd scatter_S100000_S1250000x1_S1250000_n_0_0_1 (broadcastInDim S100000 ![] bcast_S_S100000 (constant S_ .f32 0x00000000#32 : (⟨S_, .f32⟩ : BufTy).Contents (Elt F)) : (⟨S100000, .f32⟩ : BufTy).Contents (Elt F)) (broadcastInDim S1250000x1 ![0] bcast_S1250000_S1250000x1_0 (W (Proc.devRef .tc main_arg2)) : (⟨S1250000x1, .i32⟩ : BufTy).Contents (Elt F)) (broadcastInDim S1250000 ![] bcast_S_S1250000 (constant S_ .f32 0x3F800000#32 : (⟨S_, .f32⟩ : BufTy).Contents (Elt F)) : (⟨S1250000, .f32⟩ : BufTy).Contents (Elt F)) : (⟨S100000, .f32⟩ : BufTy).Contents (Elt F)) : (⟨S100000, .f32⟩ : BufTy).Contents (Elt F)) (broadcastInDim S100000 ![] bcast_S_S100000 (constant S_ .f32 0xBF000000#32 : (⟨S_, .f32⟩ : BufTy).Contents (Elt F)) : (⟨S100000, .f32⟩ : BufTy).Contents (Elt F)) : (⟨S100000, .f32⟩ : BufTy).Contents (Elt F)) : (⟨S100000x1, .f32⟩ : BufTy).Contents (Elt F)) : (⟨S100000x64, .f32⟩ : BufTy).Contents (Elt F)) : (⟨S100000x64, .f32⟩ : BufTy).Contents (Elt F)) (broadcastInDim S1250000x1 ![0] bcast_S1250000_S1250000x1_0 (select (cmpi .slt (W (Proc.devRef .tc main_arg1)) (broadcastInDim S1250000 ![] bcast_S_S1250000 (constantI S_ 32 0#32 : (⟨S_, .i32⟩ : BufTy).Contents (Elt F)) : (⟨S1250000, .i32⟩ : BufTy).Contents (Elt F)) : (⟨S1250000, .i1⟩ : BufTy).Contents (Elt F)) (addi (W (Proc.devRef .tc main_arg1)) (broadcastInDim S1250000 ![] bcast_S_S1250000 (constantI S_ 32 100000#32 : (⟨S_, .i32⟩ : BufTy).Contents (Elt F)) : (⟨S1250000, .i32⟩ : BufTy).Contents (Elt F)) : (⟨S1250000, .i32⟩ : BufTy).Contents (Elt F)) (W (Proc.devRef .tc main_arg1)) : (⟨S1250000, .i32⟩ : BufTy).Contents (Elt F)) : (⟨S1250000x1, .i32⟩ : BufTy).Contents (Elt F)) : (⟨S1250000x64, .f32⟩ : BufTy).Contents (Elt F)) : (⟨S100000x64, .f32⟩ : BufTy).Contents (Elt F)) (broadcastInDim S100000x64 ![0, 1] bcast_S100000x1_S100000x64_0_1 (broadcastInDim S100000x1 ![0] bcast_S100000_S100000x1_0 (Host.powf (maximumf (broadcastInDim S100000 ![] bcast_S_S100000 (id (constant S_ .f32 0x3F800000#32 : (⟨S_, .f32⟩ : BufTy).Contents (Elt F)) : (⟨S_, .f32⟩ : BufTy).Contents (Elt F)) : (⟨S100000, .f32⟩ : BufTy).Contents (Elt F)) (Host.scatterAdd scatter_S100000_S1250000x1_S1250000_n_0_0_1 (broadcastInDim S100000 ![] bcast_S_S100000 (constant S_ .f32 0x00000000#32 : (⟨S_, .f32⟩ : BufTy).Contents (Elt F)) : (⟨S100000, .f32⟩ : BufTy).Contents (Elt F)) (broadcastInDim S1250000x1 ![0] bcast_S1250000_S1250000x1_0 (W (Proc.devRef .tc main_arg2)) : (⟨S1250000x1, .i32⟩ : BufTy).Contents (Elt F)) (broadcastInDim S1250000 ![] bcast_S_S1250000 (constant S_ .f32 0x3F800000#32 : (⟨S_, .f32⟩ : BufTy).Contents (Elt F)) : (⟨S1250000, .f32⟩ : BufTy).Contents (Elt F)) : (⟨S100000, .f32⟩ : BufTy).Contents (Elt F)) : (⟨S100000, .f32⟩ : BufTy).Contents (Elt F)) (broadcastInDim S100000 ![] bcast_S_S100000 (constant S_ .f32 0xBF000000#32 : (⟨S_, .f32⟩ : BufTy).Contents (Elt F)) : (⟨S100000, .f32⟩ : BufTy).Contents (Elt F)) : (⟨S100000, .f32⟩ : BufTy).Contents (Elt F)) : (⟨S100000x1, .f32⟩ : BufTy).Contents (Elt F)) : (⟨S100000x64, .f32⟩ : BufTy).Contents (Elt F)) : (⟨S100000x64, .f32⟩ : BufTy).Contents (Elt F)) (broadcastInDim S100000x64 ![0, 1] bcast_S100000x1_S100000x64_0_1 (broadcastInDim S100000x1 ![0] bcast_S100000_S100000x1_0 (Host.powf (maximumf (broadcastInDim S100000 ![] bcast_S_S100000 (id (constant S_ .f32 0x3F800000#32 : (⟨S_, .f32⟩ : BufTy).Contents (Elt F)) : (⟨S_, .f32⟩ : BufTy).Contents (Elt F)) : (⟨S100000, .f32⟩ : BufTy).Contents (Elt F)) (Host.scatterAdd scatter_S100000_S1250000x1_S1250000_n_0_0_1 (broadcastInDim S100000 ![] bcast_S_S100000 (constant S_ .f32 0x00000000#32 : (⟨S_, .f32⟩ : BufTy).Contents (Elt F)) : (⟨S100000, .f32⟩ : BufTy).Contents (Elt F)) (broadcastInDim S1250000x1 ![0] bcast_S1250000_S1250000x1_0 (W (Proc.devRef .tc main_arg2)) : (⟨S1250000x1, .i32⟩ : BufTy).Contents (Elt F)) (broadcastInDim S1250000 ![] bcast_S_S1250000 (constant S_ .f32 0x3F800000#32 : (⟨S_, .f32⟩ : BufTy).Contents (Elt F)) : (⟨S1250000, .f32⟩ : BufTy).Contents (Elt F)) : (⟨S100000, .f32⟩ : BufTy).Contents (Elt F)) : (⟨S100000, .f32⟩ : BufTy).Contents (Elt F)) (broadcastInDim S100000 ![] bcast_S_S100000 (constant S_ .f32 0xBF000000#32 : (⟨S_, .f32⟩ : BufTy).Contents (Elt F)) : (⟨S100000, .f32⟩ : BufTy).Contents (Elt F)) : (⟨S100000, .f32⟩ : BufTy).Contents (Elt F)) : (⟨S100000x1, .f32⟩ : BufTy).Contents (Elt F)) : (⟨S100000x64, .f32⟩ : BufTy).Contents (Elt F)) : (⟨S100000x64, .f32⟩ : BufTy).Contents (Elt F)) (broadcastInDim S1250000x1 ![0] bcast_S1250000_S1250000x1_0 (select (cmpi .slt (W (Proc.devRef .tc main_arg1)) (broadcastInDim S1250000 ![] bcast_S_S1250000 (constantI S_ 32 0#32 : (⟨S_, .i32⟩ : BufTy).Contents (Elt F)) : (⟨S1250000, .i32⟩ : BufTy).Contents (Elt F)) : (⟨S1250000, .i1⟩ : BufTy).Contents (Elt F)) (addi (W (Proc.devRef .tc main_arg1)) (broadcastInDim S1250000 ![] bcast_S_S1250000 (constantI S_ 32 100000#32 : (⟨S_, .i32⟩ : BufTy).Contents (Elt F)) : (⟨S1250000, .i32⟩ : BufTy).Contents (Elt F)) : (⟨S1250000, .i32⟩ : BufTy).Contents (Elt F)) (W (Proc.devRef .tc main_arg1)) : (⟨S1250000, .i32⟩ : BufTy).Contents (Elt F)) : (⟨S1250000x1, .i32⟩ : BufTy).Contents (Elt F)) : (⟨S1250000x64, .f32⟩ : BufTy).Contents (Elt F)) : (⟨S100000x64, .f32⟩ : BufTy).Contents (Elt F)) (broadcastInDim S100000x64 ![0, 1] bcast_S100000x1_S100000x64_0_1 (broadcastInDim S100000x1 ![0] bcast_S100000_S100000x1_0 (Host.powf (maximumf (broadcastInDim S100000 ![] bcast_S_S100000 (id (constant S_ .f32 0x3F800000#32 : (⟨S_, .f32⟩ : BufTy).Contents (Elt F)) : (⟨S_, .f32⟩ : BufTy).Contents (Elt F)) : (⟨S100000, .f32⟩ : BufTy).Contents (Elt F)) (Host.scatterAdd scatter_S100000_S1250000x1_S1250000_n_0_0_1 (broadcastInDim S100000 ![] bcast_S_S100000 (constant S_ .f32 0x00000000#32 : (⟨S_, .f32⟩ : BufTy).Contents (Elt F)) : (⟨S100000, .f32⟩ : BufTy).Contents (Elt F)) (broadcastInDim S1250000x1 ![0] bcast_S1250000_S1250000x1_0 (W (Proc.devRef .tc main_arg2)) : (⟨S1250000x1, .i32⟩ : BufTy).Contents (Elt F)) (broadcastInDim S1250000 ![] bcast_S_S1250000 (constant S_ .f32 0x3F800000#32 : (⟨S_, .f32⟩ : BufTy).Contents (Elt F)) : (⟨S1250000, .f32⟩ : BufTy).Contents (Elt F)) : (⟨S100000, .f32⟩ : BufTy).Contents (Elt F)) : (⟨S100000, .f32⟩ : BufTy).Contents (Elt F)) (broadcastInDim S100000 ![] bcast_S_S100000 (constant S_ .f32 0xBF000000#32 : (⟨S_, .f32⟩ : BufTy).Contents (Elt F)) : (⟨S100000, .f32⟩ : BufTy).Contents (Elt F)) : (⟨S100000, .f32⟩ : BufTy).Contents (Elt F)) : (⟨S100000x1, .f32⟩ : BufTy).Contents (Elt F)) : (⟨S100000x64, .f32⟩ : BufTy).Contents (Elt F)) : (⟨S100000x64, .f32⟩ : BufTy).Contents (Elt F)) (broadcastInDim S100000x64 ![0, 1] bcast_S100000x1_S100000x64_0_1 (broadcastInDim S100000x1 ![0] bcast_S100000_S100000x1_0 (Host.powf (maximumf (broadcastInDim S100000 ![] bcast_S_S100000 (id (constant S_ .f32 0x3F800000#32 : (⟨S_, .f32⟩ : BufTy).Contents (Elt F)) : (⟨S_, .f32⟩ : BufTy).Contents (Elt F)) : (⟨S100000, .f32⟩ : BufTy).Contents (Elt F)) (Host.scatterAdd scatter_S100000_S1250000x1_S1250000_n_0_0_1 (broadcastInDim S100000 ![] bcast_S_S100000 (constant S_ .f32 0x00000000#32 : (⟨S_, .f32⟩ : BufTy).Contents (Elt F)) : (⟨S100000, .f32⟩ : BufTy).Contents (Elt F)) (broadcastInDim S1250000x1 ![0] bcast_S1250000_S1250000x1_0 (W (Proc.devRef .tc main_arg2)) : (⟨S1250000x1, .i32⟩ : BufTy).Contents (Elt F)) (broadcastInDim S1250000 ![] bcast_S_S1250000 (constant S_ .f32 0x3F800000#32 : (⟨S_, .f32⟩ : BufTy).Contents (Elt F)) : (⟨S1250000, .f32⟩ : BufTy).Contents (Elt F)) : (⟨S100000, .f32⟩ : BufTy).Contents (Elt F)) : (⟨S100000, .f32⟩ : BufTy).Contents (Elt F)) (broadcastInDim S100000 ![] bcast_S_S100000 (constant S_ .f32 0xBF000000#32 : (⟨S_, .f32⟩ : BufTy).Contents (Elt F)) : (⟨S100000, .f32⟩ : BufTy).Contents (Elt F)) : (⟨S100000, .f32⟩ : BufTy).Contents (Elt F)) : (⟨S100000x1, .f32⟩ : BufTy).Contents (Elt F)) : (⟨S100000x64, .f32⟩ : BufTy).Contents (Elt F)) : (⟨S100000x64, .f32⟩ : BufTy).Contents (Elt F)) := by
  simp only [w0]
  after_results_simp
  all_goals rfl

set_option maxRecDepth 8192 in
set_option maxHeartbeats 4000000 in
theorem w0_v46 (W : Valuation τ sig (Elt F)) :
    after w0 W (Proc.devRef .tc main_v46) = (broadcastInDim S1250000x1 ![0] bcast_S1250000_S1250000x1_0 (select (cmpi .slt (W (Proc.devRef .tc main_arg1)) (broadcastInDim S1250000 ![] bcast_S_S1250000 (constantI S_ 32 0#32 : (⟨S_, .i32⟩ : BufTy).Contents (Elt F)) : (⟨S1250000, .i32⟩ : BufTy).Contents (Elt F)) : (⟨S1250000, .i1⟩ : BufTy).Contents (Elt F)) (addi (W (Proc.devRef .tc main_arg1)) (broadcastInDim S1250000 ![] bcast_S_S1250000 (constantI S_ 32 100000#32 : (⟨S_, .i32⟩ : BufTy).Contents (Elt F)) : (⟨S1250000, .i32⟩ : BufTy).Contents (Elt F)) : (⟨S1250000, .i32⟩ : BufTy).Contents (Elt F)) (W (Proc.devRef .tc main_arg1)) : (⟨S1250000, .i32⟩ : BufTy).Contents (Elt F)) : (⟨S1250000x1, .i32⟩ : BufTy).Contents (Elt F)) := by
  simp only [w0]
  after_results_simp
  all_goals rfl

end Cert.ReferenceIdeal.Hand

end
-- ==== Proof.Ref.Win1.lean ====
/-
  The second stretch of the aggregation read off its operations: from any contents `W`, the fold leaves at the
  aggregated features' buffer the composed term of the last two propagation steps and the blend, over what `W` holds
  at the four buffers carried over from the first stretch and at the three arguments.
-/
import proofs.«169417_j2877628089024_2_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem w1_writes : (w1 : List (HloOp τ sig (Elt F))).Forall fun op =>
    op.writes ⊆ (w1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer this stretch does not write keeps its contents through it. -/
theorem w1_keep (W : Valuation τ sig (Elt F)) (r : Ref sig .tc) (h : r ∉ w1_W) :
    after w1 W (Proc.devRef .tc r) = W (Proc.devRef .tc r) :=
  after_of_writes_sub w1 W w1_writes h

set_option maxRecDepth 8192 in
set_option maxHeartbeats 4000000 in
theorem w1_v73 (W : Valuation τ sig (Elt F)) :
    after w1 W (Proc.devRef .tc main_v73) = (addf (mulf (broadcastInDim S100000x64 ![] bcast_S_S100000x64 (constant S_ .f32 0x3E733333#32 : (⟨S_, .f32⟩ : BufTy).Contents (Elt F)) : (⟨S100000x64, .f32⟩ : BufTy).Contents (Elt F)) (addf (addf (W (Proc.devRef .tc main_v38)) (mulf (Host.scatterAdd scatter_S100000x64_S1250000x1_S1250000x64_1_0_0_1 (broadcastInDim S100000x64 ![] bcast_S_S100000x64 (constant S_ .f32 0x00000000#32 : (⟨S_, .f32⟩ : BufTy).Contents (Elt F)) : (⟨S100000x64, .f32⟩ : BufTy).Contents (Elt F)) (broadcastInDim S1250000x1 ![0] bcast_S1250000_S1250000x1_0 (W (Proc.devRef .tc main_arg2)) : (⟨S1250000x1, .i32⟩ : BufTy).Contents (Elt F)) (Host.gather gather_S100000x64_S1250000x1_S1250000x64_1_0_n_n_0_1_164 (W (Proc.devRef .tc main_v40)) (W (Proc.devRef .tc main_v46)) : (⟨S1250000x64, .f32⟩ : BufTy).Contents (Elt F)) : (⟨S100000x64, .f32⟩ : BufTy).Contents (Elt F)) (broadcastInDim S100000x64 ![0, 1] bcast_S100000x1_S100000x64_0_1 (W (Proc.devRef .tc main_v7)) : (⟨S100000x64, .f32⟩ : BufTy).Contents (Elt F)) : (⟨S100000x64, .f32⟩ : BufTy).Contents (Elt F)) : (⟨S100000x64, .f32⟩ : BufTy).Contents (Elt F)) (mulf (Host.scatterAdd scatter_S100000x64_S1250000x1_S1250000x64_1_0_0_1 (broadcastInDim S100000x64 ![] bcast_S_S100000x64 (constant S_ .f32 0x00000000#32 : (⟨S_, .f32⟩ : BufTy).Contents (Elt F)) : (⟨S100000x64, .f32⟩ : BufTy).Contents (Elt F)) (broadcastInDim S1250000x1 ![0] bcast_S1250000_S1250000x1_0 (W (Proc.devRef .tc main_arg2)) : (⟨S1250000x1, .i32⟩ : BufTy).Contents (Elt F)) (Host.gather gather_S100000x64_S1250000x1_S1250000x64_1_0_n_n_0_1_164 (mulf (mulf (Host.scatterAdd scatter_S100000x64_S1250000x1_S1250000x64_1_0_0_1 (broadcastInDim S100000x64 ![] bcast_S_S100000x64 (constant S_ .f32 0x00000000#32 : (⟨S_, .f32⟩ : BufTy).Contents (Elt F)) : (⟨S100000x64, .f32⟩ : BufTy).Contents (Elt F)) (broadcastInDim S1250000x1 ![0] bcast_S1250000_S1250000x1_0 (W (Proc.devRef .tc main_arg2)) : (⟨S1250000x1, .i32⟩ : BufTy).Contents (Elt F)) (Host.gather gather_S100000x64_S1250000x1_S1250000x64_1_0_n_n_0_1_164 (W (Proc.devRef .tc main_v40)) (W (Proc.devRef .tc main_v46)) : (⟨S1250000x64, .f32⟩ : BufTy).Contents (Elt F)) : (⟨S100000x64, .f32⟩ : BufTy).Contents (Elt F)) (broadcastInDim S100000x64 ![0, 1] bcast_S100000x1_S100000x64_0_1 (W (Proc.devRef .tc main_v7)) : (⟨S100000x64, .f32⟩ : BufTy).Contents (Elt F)) : (⟨S100000x64, .f32⟩ : BufTy).Contents (Elt F)) (broadcastInDim S100000x64 ![0, 1] bcast_S100000x1_S100000x64_0_1 (W (Proc.devRef .tc main_v7)) : (⟨S100000x64, .f32⟩ : BufTy).Contents (Elt F)) : (⟨S100000x64, .f32⟩ : BufTy).Contents (Elt F)) (broadcastInDim S1250000x1 ![0] bcast_S1250000_S1250000x1_0 (select (cmpi .slt (W (Proc.devRef .tc main_arg1)) (broadcastInDim S1250000 ![] bcast_S_S1250000 (constantI S_ 32 0#32 : (⟨S_, .i32⟩ : BufTy).Contents (Elt F)) : (⟨S1250000, .i32⟩ : BufTy).Contents (Elt F)) : (⟨S1250000, .i1⟩ : BufTy).Contents (Elt F)) (addi (W (Proc.devRef .tc main_arg1)) (broadcastInDim S1250000 ![] bcast_S_S1250000 (constantI S_ 32 100000#32 : (⟨S_, .i32⟩ : BufTy).Contents (Elt F)) : (⟨S1250000, .i32⟩ : BufTy).Contents (Elt F)) : (⟨S1250000, .i32⟩ : BufTy).Contents (Elt F)) (W (Proc.devRef .tc main_arg1)) : (⟨S1250000, .i32⟩ : BufTy).Contents (Elt F)) : (⟨S1250000x1, .i32⟩ : BufTy).Contents (Elt F)) : (⟨S1250000x64, .f32⟩ : BufTy).Contents (Elt F)) : (⟨S100000x64, .f32⟩ : BufTy).Contents (Elt F)) (broadcastInDim S100000x64 ![0, 1] bcast_S100000x1_S100000x64_0_1 (W (Proc.devRef .tc main_v7)) : (⟨S100000x64, .f32⟩ : BufTy).Contents (Elt F)) : (⟨S100000x64, .f32⟩ : BufTy).Contents (Elt F)) : (⟨S100000x64, .f32⟩ : BufTy).Contents (Elt F)) : (⟨S100000x64, .f32⟩ : BufTy).Contents (Elt F)) (mulf (broadcastInDim S100000x64 ![] bcast_S_S100000x64 (constant S_ .f32 0x3D4CCCCD#32 : (⟨S_, .f32⟩ : BufTy).Contents (Elt F)) : (⟨S100000x64, .f32⟩ : BufTy).Contents (Elt F)) (W (Proc.devRef .tc main_arg0)) : (⟨S100000x64, .f32⟩ : BufTy).Contents (Elt F)) : (⟨S100000x64, .f32⟩ : BufTy).Contents (Elt F)) := by
  simp only [w1]
  after_results_simp
  all_goals rfl

end Cert.ReferenceIdeal.Hand

end
-- ==== Proof.Ref.AggEq.lean ====
/-
  The two stretches of the aggregation composed: from any contents `V`, the fold of both leaves at the aggregated
  features' buffer the aggregation function of `V`'s three arguments (the composed terms of the two stretches,
  one substituted into the other, are that function's definition unfolded).
-/
import proofs.«169417_j2877628089024_2_alg».proof.Proof.Ref.Win0
import proofs.«169417_j2877628089024_2_alg».proof.Proof.Ref.Win1
import proofs.«169417_j2877628089024_2_alg».proof.Proof.Ref.Agg

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.scatterAdd Host.gather Host.powf in
set_option maxRecDepth 16384 in
set_option maxHeartbeats 4000000 in
theorem agg_eq (V : Valuation τ sig (Elt F)) :
    after w1 (after w0 V) (Proc.devRef .tc main_v73)
      = agg (V (Proc.devRef .tc main_arg0)) (V (Proc.devRef .tc main_arg1)) (V (Proc.devRef .tc main_arg2)) := by
  rw [w1_v73]
  rw [w0_v7, w0_v38, w0_v40, w0_v46, w0_keep V main_arg0 (by decide), w0_keep V main_arg1 (by decide),
    w0_keep V main_arg2 (by decide)]
  rfl

end Cert.ReferenceIdeal.Hand

end
-- ==== Proof.Ref.Stage.lean ====
/-
  The stages of the reference after the graph aggregation, each as a pure function of arrays: an affine layer
  (a contraction plus a bias laid under every row), the column sum, mean and variance of a 100000 × 256 array
  (the variance as the program forms it: centred squares summed, divided by a count computed as 1.0e5 minus a
  converted integer, selected against a not-a-number filler on the count's sign), the normalisation, the rectifier.
-/
import proofs.«169417_j2877628089024_2_alg».proof.Proof.Gen.ReferenceIdeal
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A vector of 256 laid under every one of the 100000 rows. -/
def rows256 (v : (⟨S256, .f32⟩ : BufTy).Contents (Elt F)) : (⟨S100000x256, .f32⟩ : BufTy).Contents (Elt F) :=
  broadcastInDim S100000x256 ![0, 1] bcast_S1x256_S100000x256_0_1 (broadcastInDim S1x256 ![1] bcast_S256_S1x256_1 v)

/-- A vector of 40 laid under every one of the 100000 rows. -/
def rows40 (v : (⟨S40, .f32⟩ : BufTy).Contents (Elt F)) : (⟨S100000x40, .f32⟩ : BufTy).Contents (Elt F) :=
  broadcastInDim S100000x40 ![0, 1] bcast_S1x40_S100000x40_0_1 (broadcastInDim S1x40 ![1] bcast_S40_S1x40_1 v)

/-- The first affine layer, 64 → 256. -/
def lin1 (x : (⟨S100000x64, .f32⟩ : BufTy).Contents (Elt F)) (w : (⟨S64x256, .f32⟩ : BufTy).Contents (Elt F)) (b : (⟨S256, .f32⟩ : BufTy).Contents (Elt F)) : (⟨S100000x256, .f32⟩ : BufTy).Contents (Elt F) :=
  addf (Host.dotGeneral dot_S100000x64_S64x256_S100000x256_1_0_0_1_n_n none x w) (rows256 b)

/-- The second affine layer, 256 → 256. -/
def lin2 (x : (⟨S100000x256, .f32⟩ : BufTy).Contents (Elt F)) (w : (⟨S256x256, .f32⟩ : BufTy).Contents (Elt F)) (b : (⟨S256, .f32⟩ : BufTy).Contents (Elt F)) : (⟨S100000x256, .f32⟩ : BufTy).Contents (Elt F) :=
  addf (Host.dotGeneral dot_S100000x256_S256x256_S100000x256_1_0_0_1_n_n none x w) (rows256 b)

/-- The last affine layer, 256 → 40. -/
def lin3 (x : (⟨S100000x256, .f32⟩ : BufTy).Contents (Elt F)) (w : (⟨S256x40, .f32⟩ : BufTy).Contents (Elt F)) (b : (⟨S40, .f32⟩ : BufTy).Contents (Elt F)) : (⟨S100000x40, .f32⟩ : BufTy).Contents (Elt F) :=
  addf (Host.dotGeneral dot_S100000x256_S256x40_S100000x40_1_0_0_1_n_n none x w) (rows40 b)

/-- The column sums, from the zero word. -/
def colSum (y : (⟨S100000x256, .f32⟩ : BufTy).Contents (Elt F)) : (⟨S256, .f32⟩ : BufTy).Contents (Elt F) :=
  Host.reduceAdd y (constant S_ .f32 0x00000000#32) reducesTo_S100000x256_S256_d0 h_S_

/-- The column means: the sums over the word of 1.0e5. -/
def colMean (y : (⟨S100000x256, .f32⟩ : BufTy).Contents (Elt F)) : (⟨S256, .f32⟩ : BufTy).Contents (Elt F) :=
  Host.divf (colSum y) (broadcastInDim S256 ![] bcast_S_S256 (constant S_ .f32 0x47C35000#32))

/-- The array minus its column means, the means formed as a 1 × 256 row first. -/
def centred (y : (⟨S100000x256, .f32⟩ : BufTy).Contents (Elt F)) : (⟨S100000x256, .f32⟩ : BufTy).Contents (Elt F) :=
  subf y (broadcastInDim S100000x256 ![0, 1] bcast_S1x256_S100000x256_0_1
    (Host.divf (broadcastInDim S1x256 ![1] bcast_S256_S1x256_1 (colSum y))
      (broadcastInDim S1x256 ![] bcast_S_S1x256 (constant S_ .f32 0x47C35000#32))))

/-- The count the variance divides by: the word of 1.0e5 minus the converted integer. -/
def varCount (c : (⟨S_, .i32⟩ : BufTy).Contents (Elt F)) : (⟨S_, .f32⟩ : BufTy).Contents (Elt F) :=
  subf (constant S_ .f32 0x47C35000#32) (sitofp .f32 c)

/-- The column variances as the program forms them, for the integer `c` it subtracts from the count. -/
def colVarG (y : (⟨S100000x256, .f32⟩ : BufTy).Contents (Elt F)) (c : (⟨S_, .i32⟩ : BufTy).Contents (Elt F)) : (⟨S256, .f32⟩ : BufTy).Contents (Elt F) :=
  select (broadcastInDim S256 ![] bcast_S_S256 (cmpf .ogt (varCount c) (constant S_ .f32 0x00000000#32)))
    (Host.divf (Host.reduceAdd (mulf (centred y) (centred y)) (constant S_ .f32 0x00000000#32) reducesTo_S100000x256_S256_d0 h_S_)
      (broadcastInDim S256 ![] bcast_S_S256 (varCount c)))
    (broadcastInDim S256 ![] bcast_S_S256 (id (constant S_ .f32 0x7FC00000#32)))

/-- The column variances: the integer is zero. -/
def colVar (y : (⟨S100000x256, .f32⟩ : BufTy).Contents (Elt F)) : (⟨S256, .f32⟩ : BufTy).Contents (Elt F) := colVarG y (constantI S_ 32 0#32)

/-- The normalisation for given means and variances: `γ · (y − μ) · rsqrt (v + ε) + β`, `ε` the word of 9.99999974E-6. -/
def bnG (y : (⟨S100000x256, .f32⟩ : BufTy).Contents (Elt F)) (mu v g be : (⟨S256, .f32⟩ : BufTy).Contents (Elt F)) : (⟨S100000x256, .f32⟩ : BufTy).Contents (Elt F) :=
  addf (mulf (mulf (rows256 g) (subf y (rows256 mu)))
      (rows256 (Host.rsqrt (addf v (broadcastInDim S256 ![] bcast_S_S256 (constant S_ .f32 0x3727C5AC#32))))))
    (rows256 be)

/-- The rectifier: the maximum with the zero word everywhere. -/
def relu (z : (⟨S100000x256, .f32⟩ : BufTy).Contents (Elt F)) : (⟨S100000x256, .f32⟩ : BufTy).Contents (Elt F) :=
  maximumf z (broadcastInDim S100000x256 ![] bcast_S_S100000x256 (constant S_ .f32 0x00000000#32))

/-- The normalisation by the array's own column means and variances, then the rectifier. -/
def bnRelu (y : (⟨S100000x256, .f32⟩ : BufTy).Contents (Elt F)) (g be : (⟨S256, .f32⟩ : BufTy).Contents (Elt F)) : (⟨S100000x256, .f32⟩ : BufTy).Contents (Elt F) :=
  relu (bnG y (colMean y) (colVar y) g be)

end Cert.ReferenceIdeal.Hand

end
-- ==== Proof.Ref.Win2.lean ====
/-
  The first affine layer, its column mean and its column variance, read off the operations that form them:
  the fold of this stretch from any contents `W` leaves, at the three buffers later operations read, the
  stage functions of `W`'s aggregated features, weights and bias.
-/
import proofs.«169417_j2877628089024_2_alg».proof.Proof.Ref.Ops
import proofs.«169417_j2877628089024_2_alg».proof.Proof.Ref.Stage

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem w2_writes : (w2 : List (HloOp τ sig (Elt F))).Forall fun op =>
    op.writes ⊆ (w2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer this stretch does not write keeps its contents through it. -/
theorem w2_keep (W : Valuation τ sig (Elt F)) (r : Ref sig .tc) (h : r ∉ w2_W) :
    after w2 W (Proc.devRef .tc r) = W (Proc.devRef .tc r) :=
  after_of_writes_sub w2 W w2_writes h

set_option maxRecDepth 8192 in
set_option maxHeartbeats 4000000 in
theorem w2_v77 (W : Valuation τ sig (Elt F)) :
    after w2 W (Proc.devRef .tc main_v77) = lin1 (W (Proc.devRef .tc main_v73)) (W (Proc.devRef .tc main_arg3)) (W (Proc.devRef .tc main_arg4)) := by
  simp only [w2]
  after_results_simp
  all_goals rfl

set_option maxRecDepth 8192 in
set_option maxHeartbeats 4000000 in
theorem w2_v80 (W : Valuation τ sig (Elt F)) :
    after w2 W (Proc.devRef .tc main_v80) = colMean (lin1 (W (Proc.devRef .tc main_v73)) (W (Proc.devRef .tc main_arg3)) (W (Proc.devRef .tc main_arg4))) := by
  simp only [w2]
  after_results_simp
  all_goals rfl

set_option maxRecDepth 8192 in
set_option maxHeartbeats 4000000 in
theorem w2_v81 (W : Valuation τ sig (Elt F)) :
    after w2 W (Proc.devRef .tc main_v81) = colVar (lin1 (W (Proc.devRef .tc main_v73)) (W (Proc.devRef .tc main_arg3)) (W (Proc.devRef .tc main_arg4))) := by
  simp only [w2]
  after_results_simp
  all_goals rfl

end Cert.ReferenceIdeal.Hand

end
-- ==== Proof.Ref.Win3.lean ====
/-
  The first normalisation read off its operations: from any contents `W` the fold of this stretch leaves at its last
  buffer the normalisation stage applied to what `W` holds at the layer's output, mean and variance and at the scale and shift.
-/
import proofs.«169417_j2877628089024_2_alg».proof.Proof.Ref.Ops
import proofs.«169417_j2877628089024_2_alg».proof.Proof.Ref.Stage

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem w3_writes : (w3 : List (HloOp τ sig (Elt F))).Forall fun op =>
    op.writes ⊆ (w3_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer this stretch does not write keeps its contents through it. -/
theorem w3_keep (W : Valuation τ sig (Elt F)) (r : Ref sig .tc) (h : r ∉ w3_W) :
    after w3 W (Proc.devRef .tc r) = W (Proc.devRef .tc r) :=
  after_of_writes_sub w3 W w3_writes h

set_option maxRecDepth 8192 in
set_option maxHeartbeats 4000000 in
theorem w3_v96 (W : Valuation τ sig (Elt F)) :
    after w3 W (Proc.devRef .tc main_v96) = bnG (W (Proc.devRef .tc main_v77)) (W (Proc.devRef .tc main_v80)) (W (Proc.devRef .tc main_v81)) (W (Proc.devRef .tc main_arg5)) (W (Proc.devRef .tc main_arg6)) := by
  simp only [w3]
  after_results_simp
  all_goals rfl

end Cert.ReferenceIdeal.Hand

end
-- ==== Proof.Ref.Win4.lean ====
/-
  The first rectifier, the second affine layer and its column mean read off their operations, and the integer the
  second variance call is handed.
-/
import proofs.«169417_j2877628089024_2_alg».proof.Proof.Ref.Ops
import proofs.«169417_j2877628089024_2_alg».proof.Proof.Ref.Stage

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem w4_writes : (w4 : List (HloOp τ sig (Elt F))).Forall fun op =>
    op.writes ⊆ (w4_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer this stretch does not write keeps its contents through it. -/
theorem w4_keep (W : Valuation τ sig (Elt F)) (r : Ref sig .tc) (h : r ∉ w4_W) :
    after w4 W (Proc.devRef .tc r) = W (Proc.devRef .tc r) :=
  after_of_writes_sub w4 W w4_writes h

set_option maxRecDepth 8192 in
set_option maxHeartbeats 4000000 in
theorem w4_v101 (W : Valuation τ sig (Elt F)) :
    after w4 W (Proc.devRef .tc main_v101) = lin2 (relu (W (Proc.devRef .tc main_v96))) (W (Proc.devRef .tc main_arg7)) (W (Proc.devRef .tc main_arg8)) := by
  simp only [w4]
  after_results_simp
  all_goals rfl

set_option maxRecDepth 8192 in
set_option maxHeartbeats 4000000 in
theorem w4_v104 (W : Valuation τ sig (Elt F)) :
    after w4 W (Proc.devRef .tc main_v104) = colMean (lin2 (relu (W (Proc.devRef .tc main_v96))) (W (Proc.devRef .tc main_arg7)) (W (Proc.devRef .tc main_arg8))) := by
  simp only [w4]
  after_results_simp
  all_goals rfl

set_option maxRecDepth 8192 in
set_option maxHeartbeats 4000000 in
theorem w4_c_23 (W : Valuation τ sig (Elt F)) :
    after w4 W (Proc.devRef .tc main_c_23) = (constantI S_ 32 0#32 : (⟨S_, .i32⟩ : BufTy).Contents (Elt F)) := by
  simp only [w4]
  after_results_simp
  all_goals rfl

end Cert.ReferenceIdeal.Hand

end
-- ==== Proof.Ref.Win5.lean ====
/-
  The second column variance read off the call's operations.
-/
import proofs.«169417_j2877628089024_2_alg».proof.Proof.Ref.Ops
import proofs.«169417_j2877628089024_2_alg».proof.Proof.Ref.Stage

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem w5_writes : (w5 : List (HloOp τ sig (Elt F))).Forall fun op =>
    op.writes ⊆ (w5_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer this stretch does not write keeps its contents through it. -/
theorem w5_keep (W : Valuation τ sig (Elt F)) (r : Ref sig .tc) (h : r ∉ w5_W) :
    after w5 W (Proc.devRef .tc r) = W (Proc.devRef .tc r) :=
  after_of_writes_sub w5 W w5_writes h

set_option maxRecDepth 8192 in
set_option maxHeartbeats 4000000 in
theorem w5_v105 (W : Valuation τ sig (Elt F)) :
    after w5 W (Proc.devRef .tc main_v105) = colVarG (W (Proc.devRef .tc main_v101)) (W (Proc.devRef .tc main_c_23)) := by
  simp only [w5]
  after_results_simp
  all_goals rfl

end Cert.ReferenceIdeal.Hand

end
-- ==== Proof.Ref.Win6.lean ====
/-
  The second normalisation, its rectifier and the last affine layer read off their operations.
-/
import proofs.«169417_j2877628089024_2_alg».proof.Proof.Ref.Ops
import proofs.«169417_j2877628089024_2_alg».proof.Proof.Ref.Stage

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem w6_writes : (w6 : List (HloOp τ sig (Elt F))).Forall fun op =>
    op.writes ⊆ (w6_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer this stretch does not write keeps its contents through it. -/
theorem w6_keep (W : Valuation τ sig (Elt F)) (r : Ref sig .tc) (h : r ∉ w6_W) :
    after w6 W (Proc.devRef .tc r) = W (Proc.devRef .tc r) :=
  after_of_writes_sub w6 W w6_writes h

set_option maxRecDepth 8192 in
set_option maxHeartbeats 4000000 in
theorem w6_v125 (W : Valuation τ sig (Elt F)) :
    after w6 W (Proc.devRef .tc main_v125) = lin3 (relu (bnG (W (Proc.devRef .tc main_v101)) (W (Proc.devRef .tc main_v104)) (W (Proc.devRef .tc main_v105)) (W (Proc.devRef .tc main_arg9)) (W (Proc.devRef .tc main_arg10)))) (W (Proc.devRef .tc main_arg11)) (W (Proc.devRef .tc main_arg12)) := by
  simp only [w6]
  after_results_simp
  all_goals rfl

end Cert.ReferenceIdeal.Hand

end
-- ==== Proof.Ref.Res.lean ====
/-
  The reference's result as one pure function of its thirteen argument arrays: the aggregation, then
  affine layer, normalisation and rectifier twice, then the last affine layer.
-/
import proofs.«169417_j2877628089024_2_alg».proof.Proof.Ref.Agg
import proofs.«169417_j2877628089024_2_alg».proof.Proof.Ref.Stage

noncomputable section

namespace Cert.ReferenceIdeal.Hand

open Cert.ReferenceIdeal Cert.ReferenceIdeal.Gen Idealize.ShloMosaic Idealize.ShloMosaic.TcCoe Idealize.SL.Sem Idealize.ShloMosaic.StableHlo

/-- The reference's result as one pure function of the thirteen argument arrays. -/
def res (a0 : (⟨S100000x64, .f32⟩ : BufTy).Contents (Elt Ideal)) (a1 a2 : (⟨S1250000, .i32⟩ : BufTy).Contents (Elt Ideal))
    (a3 : (⟨S64x256, .f32⟩ : BufTy).Contents (Elt Ideal)) (a4 a5 a6 : (⟨S256, .f32⟩ : BufTy).Contents (Elt Ideal))
    (a7 : (⟨S256x256, .f32⟩ : BufTy).Contents (Elt Ideal)) (a8 a9 a10 : (⟨S256, .f32⟩ : BufTy).Contents (Elt Ideal))
    (a11 : (⟨S256x40, .f32⟩ : BufTy).Contents (Elt Ideal)) (a12 : (⟨S40, .f32⟩ : BufTy).Contents (Elt Ideal)) :
    (⟨S100000x40, .f32⟩ : BufTy).Contents (Elt Ideal) :=
  lin3 (bnRelu (lin2 (bnRelu (lin1 (agg a0 a1 a2) a3 a4) a5 a6) a7 a8) a9 a10) a11 a12

end Cert.ReferenceIdeal.Hand

end
-- ==== Proof.Ref.Run.lean ====
/-
  The reference's run: every weakly fair execution of @main terminates, its result buffer at `res` of the
  thirteen argument arrays' launch contents and the arguments unchanged. The fold over all the operations is the
  fold over the seven stretches in turn; each stretch's reading is substituted into the next, an argument (written
  by no operation) is carried through every stretch, and what results is `res`'s definition unfolded.
-/
import proofs.«169417_j2877628089024_2_alg».proof.Proof.Ref.MainEq
import proofs.«169417_j2877628089024_2_alg».proof.Proof.Ref.AggEq
import proofs.«169417_j2877628089024_2_alg».proof.Proof.Ref.Win2
import proofs.«169417_j2877628089024_2_alg».proof.Proof.Ref.Win3
import proofs.«169417_j2877628089024_2_alg».proof.Proof.Ref.Win4
import proofs.«169417_j2877628089024_2_alg».proof.Proof.Ref.Win5
import proofs.«169417_j2877628089024_2_alg».proof.Proof.Ref.Win6
import proofs.«169417_j2877628089024_2_alg».proof.Proof.Ref.Res

noncomputable section

namespace Cert.ReferenceIdeal.Hand

open Cert.ReferenceIdeal Cert.ReferenceIdeal.Gen Idealize.ShloMosaic Idealize.ShloMosaic.TcCoe Idealize.SL.Sem Idealize.ShloMosaic.StableHlo

section Keep
variable {F : FTy → Type} [FloatOps F]

theorem keep2 (V : Valuation τ sig (Elt F)) (r : Ref sig .tc) (h0 : r ∉ w0_W) (h1 : r ∉ w1_W) :
    after w1 (after w0 V) (Proc.devRef .tc r) = V (Proc.devRef .tc r) := by
  rw [w1_keep _ r h1, w0_keep _ r h0]
theorem keep3 (V : Valuation τ sig (Elt F)) (r : Ref sig .tc) (h0 : r ∉ w0_W) (h1 : r ∉ w1_W) (h2 : r ∉ w2_W) :
    after w2 (after w1 (after w0 V)) (Proc.devRef .tc r) = V (Proc.devRef .tc r) := by
  rw [w2_keep _ r h2, keep2 V r h0 h1]
theorem keep4 (V : Valuation τ sig (Elt F)) (r : Ref sig .tc) (h0 : r ∉ w0_W) (h1 : r ∉ w1_W) (h2 : r ∉ w2_W) (h3 : r ∉ w3_W) :
    after w3 (after w2 (after w1 (after w0 V))) (Proc.devRef .tc r) = V (Proc.devRef .tc r) := by
  rw [w3_keep _ r h3, keep3 V r h0 h1 h2]
theorem keep5 (V : Valuation τ sig (Elt F)) (r : Ref sig .tc) (h0 : r ∉ w0_W) (h1 : r ∉ w1_W) (h2 : r ∉ w2_W) (h3 : r ∉ w3_W) (h4 : r ∉ w4_W) :
    after w4 (after w3 (after w2 (after w1 (after w0 V)))) (Proc.devRef .tc r) = V (Proc.devRef .tc r) := by
  rw [w4_keep _ r h4, keep4 V r h0 h1 h2 h3]
theorem keep6 (V : Valuation τ sig (Elt F)) (r : Ref sig .tc) (h0 : r ∉ w0_W) (h1 : r ∉ w1_W) (h2 : r ∉ w2_W) (h3 : r ∉ w3_W) (h4 : r ∉ w4_W) (h5 : r ∉ w5_W) :
    after w5 (after w4 (after w3 (after w2 (after w1 (after w0 V))))) (Proc.devRef .tc r) = V (Proc.devRef .tc r) := by
  rw [w5_keep _ r h5, keep5 V r h0 h1 h2 h3 h4]
theorem keep7 (V : Valuation τ sig (Elt F)) (r : Ref sig .tc) (h0 : r ∉ w0_W) (h1 : r ∉ w1_W) (h2 : r ∉ w2_W) (h3 : r ∉ w3_W) (h4 : r ∉ w4_W) (h5 : r ∉ w5_W) (h6 : r ∉ w6_W) :
    after w6 (after w5 (after w4 (after w3 (after w2 (after w1 (after w0 V)))))) (Proc.devRef .tc r) = V (Proc.devRef .tc r) := by
  rw [w6_keep _ r h6, keep6 V r h0 h1 h2 h3 h4 h5]

end Keep

set_option maxRecDepth 16384 in
set_option maxHeartbeats 4000000 in
/-- The result buffer after all the operations, from any contents. -/
theorem out_eq (V : Valuation τ sig (Elt Ideal)) :
    after ops V (Proc.devRef .tc main_v125) = res (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [after_ops, w6_v125]
  rw [keep6 V main_arg9 (by decide) (by decide) (by decide) (by decide) (by decide) (by decide), keep6 V main_arg10 (by decide) (by decide) (by decide) (by decide) (by decide) (by decide), keep6 V main_arg11 (by decide) (by decide) (by decide) (by decide) (by decide) (by decide), keep6 V main_arg12 (by decide) (by decide) (by decide) (by decide) (by decide) (by decide)]
  rw [w5_keep _ main_v101 (by decide), w5_keep _ main_v104 (by decide), w5_v105]
  rw [w4_v101, w4_v104, w4_c_23]
  rw [keep4 V main_arg7 (by decide) (by decide) (by decide) (by decide), keep4 V main_arg8 (by decide) (by decide) (by decide) (by decide)]
  rw [w3_v96]
  rw [keep3 V main_arg5 (by decide) (by decide) (by decide), keep3 V main_arg6 (by decide) (by decide) (by decide)]
  rw [w2_v77, w2_v80, w2_v81]
  rw [keep2 V main_arg3 (by decide) (by decide), keep2 V main_arg4 (by decide) (by decide)]
  rw [agg_eq]
  rfl

/-- An argument buffer is written by no operation. -/
theorem arg_eq (V : Valuation τ sig (Elt Ideal)) (r : Ref sig .tc)
    (h0 : r ∉ w0_W) (h1 : r ∉ w1_W) (h2 : r ∉ w2_W) (h3 : r ∉ w3_W) (h4 : r ∉ w4_W) (h5 : r ∉ w5_W) (h6 : r ∉ w6_W) :
    after ops V (Proc.devRef .tc r) = V (Proc.devRef .tc r) := by
  rw [after_ops]; exact keep7 V r h0 h1 h2 h3 h4 h5 h6

/-- On every device, from any memory with zero counters: every weakly fair execution of @main terminates with the
    result at `res` of the arguments' launch contents and the arguments unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v125) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v125).trans (out_eq (launchContents m c)),
      (h c main_arg0).trans (arg_eq (launchContents m c) main_arg0 (by decide) (by decide) (by decide) (by decide) (by decide) (by decide) (by decide)),
      (h c main_arg1).trans (arg_eq (launchContents m c) main_arg1 (by decide) (by decide) (by decide) (by decide) (by decide) (by decide) (by decide)),
      (h c main_arg2).trans (arg_eq (launchContents m c) main_arg2 (by decide) (by decide) (by decide) (by decide) (by decide) (by decide) (by decide)),
      (h c main_arg3).trans (arg_eq (launchContents m c) main_arg3 (by decide) (by decide) (by decide) (by decide) (by decide) (by decide) (by decide)),
      (h c main_arg4).trans (arg_eq (launchContents m c) main_arg4 (by decide) (by decide) (by decide) (by decide) (by decide) (by decide) (by decide)),
      (h c main_arg5).trans (arg_eq (launchContents m c) main_arg5 (by decide) (by decide) (by decide) (by decide) (by decide) (by decide) (by decide)),
      (h c main_arg6).trans (arg_eq (launchContents m c) main_arg6 (by decide) (by decide) (by decide) (by decide) (by decide) (by decide) (by decide)),
      (h c main_arg7).trans (arg_eq (launchContents m c) main_arg7 (by decide) (by decide) (by decide) (by decide) (by decide) (by decide) (by decide)),
      (h c main_arg8).trans (arg_eq (launchContents m c) main_arg8 (by decide) (by decide) (by decide) (by decide) (by decide) (by decide) (by decide)),
      (h c main_arg9).trans (arg_eq (launchContents m c) main_arg9 (by decide) (by decide) (by decide) (by decide) (by decide) (by decide) (by decide)),
      (h c main_arg10).trans (arg_eq (launchContents m c) main_arg10 (by decide) (by decide) (by decide) (by decide) (by decide) (by decide) (by decide)),
      (h c main_arg11).trans (arg_eq (launchContents m c) main_arg11 (by decide) (by decide) (by decide) (by decide) (by decide) (by decide) (by decide)),
      (h c main_arg12).trans (arg_eq (launchContents m c) main_arg12 (by decide) (by decide) (by decide) (by decide) (by decide) (by decide) (by decide))⟩)
    (run_after m ρ)

end Cert.ReferenceIdeal.Hand

end
-- ==== Proof.Math.lean ====
/-
  The two programs compute the same network: Linear, batch norm, ReLU, twice, then Linear. They differ only in how
  the batch norm is evaluated. The one-pass form takes the column sums `Σ y` and `Σ y·y`, forms the mean, the
  clamped variance `max (Σ y·y / N − mean²) 0`, and applies `y · scale + shift`; the two-pass form centres the
  column first and applies `γ · (y − mean) · rsqrt (var + ε) + β`.

  On the extended reals the two agree when every entry is a real number, the row count `N` is the (positive) number
  of rows and `ε` is a positive real: then every intermediate quantity is again a real number, the clamp is
  inactive because a centred variance is nonnegative, and `var + ε` is positive so the reciprocal square root is
  the real one. This file carries that column-wise identity through the three layers, and records that each layer
  keeps the entries real.
-/
import proofs.«169417_j2877628089024_2_alg».proof.Proof.Spec
import proofs.«169417_j2877628089024_2_alg».proof.Proof.LibBatchNorm

noncomputable section

namespace MlpMath

open Idealize.ShloMosaic MlpSpec

/-! ### The two float constants -/

/-- The pattern `0x47C35000`: exponent field `143`, fraction `4411392`, i.e. `(2^23 + 4411392) · 2^(16 − 23) = 100000`. -/
theorem N_word : Ideal.ofBits .f32 0x47C35000#32 = ((100000 : ℝ) : EReal) := by
  simp [Ideal.ofBits, Ideal.ieee, -EReal.coe_mul]; norm_num

/-- The pattern `0x3727C5AC`: exponent field `110`, fraction `2606508`, i.e. the positive real
    `(2^23 + 2606508) · 2^(−17 − 23)` (the float nearest `10⁻⁵`). Only its sign and finiteness matter. -/
theorem eps_word : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ### Arrays of reals -/

/-- A matrix of reals is the entrywise coercion of a real matrix. -/
theorem real2_eq {a b : ℕ} {x : Fin a → Fin b → EReal} (hx : Real2 x) :
    ∃ f : Fin a → Fin b → ℝ, x = fun r k => ((f r k : ℝ) : EReal) := by
  choose f hf using hx
  exact ⟨f, funext fun r => funext fun k => hf r k⟩

/-- A vector of reals is the entrywise coercion of a real vector. -/
theorem real1_eq {a : ℕ} {x : Fin a → EReal} (hx : Real1 x) :
    ∃ f : Fin a → ℝ, x = fun k => ((f k : ℝ) : EReal) := by
  choose f hf using hx
  exact ⟨f, funext fun k => hf k⟩

/-- The affine layer keeps the entries real: a finite sum of products of reals, plus a real. -/
theorem lin_real {n d h : ℕ} (x : Fin n → Fin d → EReal) (W : Fin d → Fin h → EReal) (b : Fin h → EReal) :
    Real2 x → Real2 W → Real1 b → Real2 (lin x W b) := by
  intro hx hW hb
  obtain ⟨fx, rfl⟩ := real2_eq hx
  obtain ⟨fW, rfl⟩ := real2_eq hW
  obtain ⟨fb, rfl⟩ := real1_eq hb
  intro r j
  refine ⟨(∑ k, fx r k * fW k j) + fb j, ?_⟩
  simp only [lin]
  rw [EReal.coe_add, LibBatchNorm.coe_sum]
  simp only [EReal.coe_mul]

/-- The one-pass batch norm of real data, with `N` the row count and `ε > 0`, is real at every entry: the sums, the
    mean, the clamped variance, the reciprocal square root of `var + ε > 0`, the scale and the shift are all reals. -/
theorem bnK_coe {n h : ℕ} (hn : 0 < n) {e : ℝ} (he : 0 < e) (fy : Fin n → Fin h → ℝ) (fg fβ : Fin h → ℝ)
    (r : Fin n) (j : Fin h) :
    ∃ v : ℝ, bnK (((n : ℝ) : EReal)) (e : EReal) (fun r j => ((fy r j : ℝ) : EReal))
      (fun j => ((fg j : ℝ) : EReal)) (fun j => ((fβ j : ℝ) : EReal)) r j = (v : EReal) := by
  have h0 : (n : ℝ) ≠ 0 := by positivity
  have hS1 : (∑ i, ((fy i j : ℝ) : EReal)) = ((∑ i, fy i j : ℝ) : EReal) := (LibBatchNorm.coe_sum _ _).symm
  have hS2 : (∑ i, ((fy i j : ℝ) : EReal) * ((fy i j : ℝ) : EReal)) = ((∑ i, fy i j * fy i j : ℝ) : EReal) := by
    rw [LibBatchNorm.coe_sum]; exact Finset.sum_congr rfl fun i _ => (EReal.coe_mul _ _).symm
  simp only [bnK, scaleK, shiftK, varK, mean, sum1, sum2]
  rw [hS1, hS2, LibBatchNorm.div_coe_coe _ h0, LibBatchNorm.div_coe_coe _ h0]
  rw [← EReal.coe_mul, ← EReal.coe_sub, ← EReal.coe_zero, LibBatchNorm.max_coe, ← EReal.coe_add,
    LibBatchNorm.rsqrt_coe_pos (add_pos_of_nonneg_of_pos (le_max_right _ _) he)]
  simp only [← EReal.coe_mul, ← EReal.coe_sub, ← EReal.coe_add, LibBatchNorm.max_coe]
  exact ⟨_, rfl⟩

/-- One pass against two passes, for a whole matrix: the library identity at every column, then the ReLU. -/
theorem bnK_eq_bnR {n h : ℕ} (hn : 0 < n) (N ε : EReal) (hN : N = ((n : ℝ) : EReal))
    (hε : ∃ e : ℝ, 0 < e ∧ ε = (e : EReal)) (y : Fin n → Fin h → EReal) (g β : Fin h → EReal)
    (hy : Real2 y) (hg : Real1 g) (hβ : Real1 β) : bnK N ε y g β = bnR N ε y g β := by
  obtain ⟨e, he, rfl⟩ := hε
  subst hN
  obtain ⟨fy, rfl⟩ := real2_eq hy
  obtain ⟨fg, rfl⟩ := real1_eq hg
  obtain ⟨fβ, rfl⟩ := real1_eq hβ
  funext r j
  simp only [bnK, bnR, scaleK, shiftK, varK, varR, mean, sum1, sum2]
  exact congrArg (fun t => max t 0)
    (LibBatchNorm.scale_shift_eq_centred (fun i => fy i j) (fg j) (fβ j) e (n : ℝ) (by simp)
      (by positivity) he r)

/-- The one-pass batch norm keeps the entries real. -/
theorem bnK_real {n h : ℕ} (hn : 0 < n) (N ε : EReal) (hN : N = ((n : ℝ) : EReal))
    (hε : ∃ e : ℝ, 0 < e ∧ ε = (e : EReal)) (y : Fin n → Fin h → EReal) (g β : Fin h → EReal)
    (hy : Real2 y) (hg : Real1 g) (hβ : Real1 β) : Real2 (bnK N ε y g β) := by
  obtain ⟨e, he, rfl⟩ := hε
  subst hN
  obtain ⟨fy, rfl⟩ := real2_eq hy
  obtain ⟨fg, rfl⟩ := real1_eq hg
  obtain ⟨fβ, rfl⟩ := real1_eq hβ
  exact fun r j => bnK_coe hn he fy fg fβ r j

/-- The two-pass batch norm keeps the entries real: it is the one-pass one. -/
theorem bnR_real {n h : ℕ} (hn : 0 < n) (N ε : EReal) (hN : N = ((n : ℝ) : EReal))
    (hε : ∃ e : ℝ, 0 < e ∧ ε = (e : EReal)) (y : Fin n → Fin h → EReal) (g β : Fin h → EReal)
    (hy : Real2 y) (hg : Real1 g) (hβ : Real1 β) : Real2 (bnR N ε y g β) := by
  rw [← bnK_eq_bnR hn N ε hN hε y g β hy hg hβ]
  exact bnK_real hn N ε hN hε y g β hy hg hβ

/-- **The two networks agree on real data.** The first affine layer is real, so its two norms agree and are real;
    hence the second affine layer is real and its two norms agree; the last affine layer is applied to equal inputs. -/
theorem netK_eq_netR {n d h₁ h₂ h₃ : ℕ} (hn : 0 < n) (N ε : EReal) (hN : N = ((n : ℝ) : EReal))
    (hε : ∃ e : ℝ, 0 < e ∧ ε = (e : EReal))
    (X : Fin n → Fin d → EReal)
    (W1 : Fin d → Fin h₁ → EReal) (b1 g1 be1 : Fin h₁ → EReal)
    (W2 : Fin h₁ → Fin h₂ → EReal) (b2 g2 be2 : Fin h₂ → EReal)
    (W3 : Fin h₂ → Fin h₃ → EReal) (b3 : Fin h₃ → EReal)
    (hX : Real2 X) (hW1 : Real2 W1) (hb1 : Real1 b1) (hg1 : Real1 g1) (hbe1 : Real1 be1)
    (hW2 : Real2 W2) (hb2 : Real1 b2) (hg2 : Real1 g2) (hbe2 : Real1 be2) :
    netK N ε X W1 b1 g1 be1 W2 b2 g2 be2 W3 b3 = netR N ε X W1 b1 g1 be1 W2 b2 g2 be2 W3 b3 := by
  have h1 : Real2 (lin X W1 b1) := lin_real X W1 b1 hX hW1 hb1
  have e1 := bnK_eq_bnR hn N ε hN hε _ g1 be1 h1 hg1 hbe1
  have r1 := bnK_real hn N ε hN hε _ g1 be1 h1 hg1 hbe1
  have h2 := lin_real _ W2 b2 r1 hW2 hb2
  have e2 := bnK_eq_bnR hn N ε hN hε _ g2 be2 h2 hg2 hbe2
  unfold netK netR
  rw [e2, e1]

end MlpMath

end
-- ==== Proof.Ref.Value.lean ====
/-
  The reference's result read at an index: each stage of `res`, at the ideal values, is the corresponding
  function of the specification on the arrays read at coordinates — an affine layer is `lin`, the column mean is
  `mean`, the column variance (whose run-time count is the word of 1.0e5 minus a converted zero, positive, so the
  selection takes the quotient) is `varR`, normalisation and rectifier are `bnR` — and their composition is `netR`.
-/
import proofs.«169417_j2877628089024_2_alg».proof.Proof.Ref.Res
import proofs.«169417_j2877628089024_2_alg».proof.Proof.Spec
import proofs.«169417_j2877628089024_2_alg».proof.Proof.Math
import Idealize.ShloMosaic.Lib.ValueIdx
import Idealize.ShloMosaic.Lib.IdealHost
import Idealize.ShloMosaic.Lib.StackMember
import Idealize.ShloMosaic.Lib.Pipeline.Value

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx MlpSpec

/-- The word of 1.0e5 and the word of 9.99999974E-6. -/
abbrev Nw : EReal := Ideal.ofBits .f32 0x47C35000#32
abbrev εw : EReal := Ideal.ofBits .f32 0x3727C5AC#32

theorem rows256_apply (v : (⟨S256, .f32⟩ : BufTy).Contents (Elt Ideal)) (r : Fin 100000) (j : Fin 256) :
    rows256 v (ix2 r j) = v (ix1 j) := by
  unfold rows256
  rw [broadcastInDim_apply _ _ _ _ (ix2 (0 : Fin 1) j) (by intro a; match a with | ⟨0, _⟩ => rfl | ⟨1, _⟩ => rfl)]
  rw [broadcastInDim_apply _ _ _ _ (ix1 j) (by intro a; match a with | ⟨0, _⟩ => rfl)]

theorem rows40_apply (v : (⟨S40, .f32⟩ : BufTy).Contents (Elt Ideal)) (r : Fin 100000) (j : Fin 40) :
    rows40 v (ix2 r j) = v (ix1 j) := by
  unfold rows40
  rw [broadcastInDim_apply _ _ _ _ (ix2 (0 : Fin 1) j) (by intro a; match a with | ⟨0, _⟩ => rfl | ⟨1, _⟩ => rfl)]
  rw [broadcastInDim_apply _ _ _ _ (ix1 j) (by intro a; match a with | ⟨0, _⟩ => rfl)]

theorem lin1_apply (x : (⟨S100000x64, .f32⟩ : BufTy).Contents (Elt Ideal)) (w : (⟨S64x256, .f32⟩ : BufTy).Contents (Elt Ideal)) (b : (⟨S256, .f32⟩ : BufTy).Contents (Elt Ideal)) (r : Fin 100000) (j : Fin 256) :
    lin1 x w b (ix2 r j) = lin (cur2 x) (cur2 w) (cur1 b) r j := by
  unfold lin1 lin cur2 cur1
  rw [addf_apply, rows256_apply]
  congr 1
  exact StackMember.dotGeneral_plain_apply (m := 100000) (n := 256) (k := 64) none x w r j

theorem hR : S100000x256.Reduces [0] S256 := by decide

theorem colSum_apply (y : (⟨S100000x256, .f32⟩ : BufTy).Contents (Elt Ideal)) (j : Fin 256) :
    colSum y (ix1 j) = ∑ r : Fin 100000, y (ix2 r j) := by
  unfold colSum
  rw [hostReduceAdd_apply, Ideal.hostReduceAdd_single _ hR, constant_apply, Ideal.ofBits_zero_f32, zero_add]
  refine Finset.sum_congr rfl fun r _ => congrArg y ?_
  funext c; apply Fin.ext
  match c with
  | ⟨0, _⟩ => rfl
  | ⟨1, _⟩ => rfl

theorem colMean_apply (y : (⟨S100000x256, .f32⟩ : BufTy).Contents (Elt Ideal)) (j : Fin 256) :
    colMean y (ix1 j) = mean Nw (cur2 y) j := by
  unfold colMean mean sum1 cur2
  rw [hostDivf_apply, colSum_apply, broadcastInDim_scalar_apply, constant_apply]

theorem centred_apply (y : (⟨S100000x256, .f32⟩ : BufTy).Contents (Elt Ideal)) (r : Fin 100000) (j : Fin 256) :
    centred y (ix2 r j) = y (ix2 r j) - mean Nw (cur2 y) j := by
  unfold centred mean sum1 cur2
  rw [subf_apply, broadcastInDim_apply _ _ _ _ (ix2 (0 : Fin 1) j) (by intro a; match a with | ⟨0, _⟩ => rfl | ⟨1, _⟩ => rfl),
    hostDivf_apply, broadcastInDim_apply _ _ _ _ (ix1 j) (by intro a; match a with | ⟨0, _⟩ => rfl),
    colSum_apply, broadcastInDim_scalar_apply, constant_apply]

theorem varCount_zero : varCount (F := Ideal) (constantI S_ 32 0#32) ix0 = Nw := by
  unfold varCount
  rw [subf_apply, constant_apply, sitofp_apply]
  show Nw - (((0#32 : BitVec 32).toInt : ℝ) : EReal) = Nw
  simp

theorem Nw_pos : (0 : EReal) < Nw := by
  show (0 : EReal) < Ideal.ofBits .f32 0x47C35000#32
  rw [MlpMath.N_word]
  exact_mod_cast (by norm_num : (0 : ℝ) < 100000)

theorem colVar_apply (y : (⟨S100000x256, .f32⟩ : BufTy).Contents (Elt Ideal)) (j : Fin 256) :
    colVar y (ix1 j) = varR Nw (cur2 y) j := by
  unfold colVar colVarG
  rw [select_apply]
  have hc : (broadcastInDim S256 ![] bcast_S_S256 (cmpf (F := Ideal) .ogt (varCount (F := Ideal) (constantI S_ 32 0#32)) (constant (F := Ideal) S_ .f32 0x00000000#32))) (ix1 j) = 1#1 := by
    rw [broadcastInDim_scalar_apply, cmpf_apply, varCount_zero, constant_apply, Ideal.ofBits_zero_f32]
    show Ideal.cmp .ogt Nw 0 = 1#1
    unfold Ideal.cmp
    simp [Nw_pos]
  rw [hc, select_one, hostDivf_apply, hostReduceAdd_apply, Ideal.hostReduceAdd_single _ hR, constant_apply,
    Ideal.ofBits_zero_f32, zero_add, broadcastInDim_scalar_apply, varCount_zero]
  unfold varR
  refine congrArg (fun t => Ideal.div t Nw) (Finset.sum_congr rfl fun (r : Fin 100000) _ => ?_)
  have e : hR.lift (ix1 j) r = ix2 r j := by
    funext c; apply Fin.ext
    match c with
    | ⟨0, _⟩ => rfl
    | ⟨1, _⟩ => rfl
  rw [e, mulf_apply, centred_apply]
  rfl

theorem hostRsqrt_apply {s : Shape} (x : FVec Ideal s .f32) (i : s.Idx) : Host.rsqrt x i = Ideal.rsqrt (x i) := rfl

theorem bnRelu_apply (y : (⟨S100000x256, .f32⟩ : BufTy).Contents (Elt Ideal)) (g be : (⟨S256, .f32⟩ : BufTy).Contents (Elt Ideal)) (r : Fin 100000) (j : Fin 256) :
    bnRelu y g be (ix2 r j) = bnR Nw εw (cur2 y) (cur1 g) (cur1 be) r j := by
  unfold bnRelu relu bnG
  simp only [maximumf_apply, addf_apply, mulf_apply, subf_apply, rows256_apply, hostRsqrt_apply, colMean_apply, colVar_apply]
  rw [broadcastInDim_scalar_apply, broadcastInDim_scalar_apply, constant_apply, constant_apply, Ideal.ofBits_zero_f32]
  rfl

theorem lin2_apply (x : (⟨S100000x256, .f32⟩ : BufTy).Contents (Elt Ideal)) (w : (⟨S256x256, .f32⟩ : BufTy).Contents (Elt Ideal)) (b : (⟨S256, .f32⟩ : BufTy).Contents (Elt Ideal)) (r : Fin 100000) (j : Fin 256) :
    lin2 x w b (ix2 r j) = lin (cur2 x) (cur2 w) (cur1 b) r j := by
  unfold lin2 lin cur2 cur1
  rw [addf_apply, rows256_apply]
  congr 1
  exact StackMember.dotGeneral_plain_apply (m := 100000) (n := 256) (k := 256) none x w r j

theorem lin3_apply (x : (⟨S100000x256, .f32⟩ : BufTy).Contents (Elt Ideal)) (w : (⟨S256x40, .f32⟩ : BufTy).Contents (Elt Ideal)) (b : (⟨S40, .f32⟩ : BufTy).Contents (Elt Ideal)) (r : Fin 100000) (j : Fin 40) :
    lin3 x w b (ix2 r j) = lin (cur2 x) (cur2 w) (cur1 b) r j := by
  unfold lin3 lin cur2 cur1
  rw [addf_apply, rows40_apply]
  congr 1
  exact StackMember.dotGeneral_plain_apply (m := 100000) (n := 40) (k := 256) none x w r j

theorem cur2_bnRelu (y : (⟨S100000x256, .f32⟩ : BufTy).Contents (Elt Ideal)) (g be : (⟨S256, .f32⟩ : BufTy).Contents (Elt Ideal)) :
    cur2 (bnRelu y g be) = bnR Nw εw (cur2 y) (cur1 g) (cur1 be) :=
  funext fun r => funext fun j => bnRelu_apply y g be r j

theorem cur2_lin1 (x : (⟨S100000x64, .f32⟩ : BufTy).Contents (Elt Ideal)) (w : (⟨S64x256, .f32⟩ : BufTy).Contents (Elt Ideal)) (b : (⟨S256, .f32⟩ : BufTy).Contents (Elt Ideal)) :
    cur2 (lin1 x w b) = lin (cur2 x) (cur2 w) (cur1 b) :=
  funext fun r => funext fun j => lin1_apply x w b r j

theorem cur2_lin2 (x : (⟨S100000x256, .f32⟩ : BufTy).Contents (Elt Ideal)) (w : (⟨S256x256, .f32⟩ : BufTy).Contents (Elt Ideal)) (b : (⟨S256, .f32⟩ : BufTy).Contents (Elt Ideal)) :
    cur2 (lin2 x w b) = lin (cur2 x) (cur2 w) (cur1 b) :=
  funext fun r => funext fun j => lin2_apply x w b r j

/-- The reference's result at row `r`, column `j`: the specification's two-pass network on the aggregated features. -/
theorem res_value (a0 : (⟨S100000x64, .f32⟩ : BufTy).Contents (Elt Ideal)) (a1 a2 : (⟨S1250000, .i32⟩ : BufTy).Contents (Elt Ideal))
    (a3 : (⟨S64x256, .f32⟩ : BufTy).Contents (Elt Ideal)) (a4 a5 a6 : (⟨S256, .f32⟩ : BufTy).Contents (Elt Ideal))
    (a7 : (⟨S256x256, .f32⟩ : BufTy).Contents (Elt Ideal)) (a8 a9 a10 : (⟨S256, .f32⟩ : BufTy).Contents (Elt Ideal))
    (a11 : (⟨S256x40, .f32⟩ : BufTy).Contents (Elt Ideal)) (a12 : (⟨S40, .f32⟩ : BufTy).Contents (Elt Ideal))
    (r : Fin 100000) (j : Fin 40) :
    res a0 a1 a2 a3 a4 a5 a6 a7 a8 a9 a10 a11 a12 (ix2 r j)
      = netR (Ideal.ofBits .f32 0x47C35000#32) (Ideal.ofBits .f32 0x3727C5AC#32)
          (cur2 (agg a0 a1 a2)) (cur2 a3) (cur1 a4) (cur1 a5) (cur1 a6) (cur2 a7) (cur1 a8) (cur1 a9) (cur1 a10)
          (cur2 a11) (cur1 a12) r j := by
  unfold res netR
  rw [lin3_apply, cur2_bnRelu, cur2_lin2, cur2_bnRelu, cur2_lin1]

end Cert.ReferenceIdeal.Hand

end
-- ==== Proof.Finite.lean ====
/-
  The precondition says that every float argument is finite: for each of them the program forms `|x| < +∞` entry by
  entry, takes the conjunction over all entries, and the eleven conjunctions are and-ed into one bit, which the claim
  sets to 1. Read back: a conjunction of bits that is 1 has every bit 1; a reduction by `and` over all axes that is 1
  had a 1 at every entry; and an extended real `x` with `max x (−x) < ⊤` is neither `⊤` nor `⊥`, hence a real
  number. So every entry of every float argument is a real number.
-/
import proofs.«169417_j2877628089024_2_alg».proof.Pre_finite_inputs
import proofs.«169417_j2877628089024_2_alg».proof.Proof.Gen.Pre_finite_inputs
import proofs.«169417_j2877628089024_2_alg».proof.Proof.Spec
import Idealize.ShloMosaic.Lib.ReduceAll

noncomputable section

namespace MlpFinite

open Idealize.ShloMosaic Idealize.ShloMosaic.ValueIdx MlpSpec

/-- The scalar shape has one index. -/
instance : Subsingleton Cert.Pre_finite_inputs.S_.Idx := ⟨fun a b => funext fun d => d.elim0⟩

/-- The pattern `0x7F800000` (exponent field all ones, fraction zero, sign clear) is `+∞`. -/
theorem inf_word : Ideal.ofBits .f32 0x7F800000#32 = (⊤ : EReal) := by
  simp [Ideal.ofBits, Ideal.ieee]

/-- An extended real whose absolute value `max x (−x)` lies strictly below `+∞` is a real number. -/
theorem real_of_abs_lt_inf (x : EReal)
    (h : Ideal.cmp .olt (max x (-x)) (Ideal.ofBits .f32 0x7F800000#32) = 1#1) : ∃ v : ℝ, x = (v : EReal) := by
  rw [inf_word] at h
  induction x using EReal.rec with
  | bot => simp [Ideal.cmp] at h
  | coe r => exact ⟨r, rfl⟩
  | top => simp [Ideal.cmp] at h

/-- One argument's test, read back at an entry: if the conjunction over all entries of `|x| < +∞` is 1, the entry at
    `i` is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
          (cmpf .olt (Host.absf x)
            (broadcastInDim s ![] hb (constant (F := Ideal) Cert.Pre_finite_inputs.S_ .f32 0x7F800000#32)))
          init hr hu j = 1#1)
    (i : s.Idx) : ∃ v : ℝ, x i = (v : EReal) :=
  real_of_abs_lt_inf (x i) (Host.reduce_andi_all _ init hr hu j e i)

open Cert.Pre_finite_inputs in
/-- **Every float argument is real.** The claim's bit at the one index of the scalar result is the conjunction of the
    eleven tests; each test gives its argument's entries by `real_of_all`. -/
theorem real_of_fn [Cert.Pre_finite_inputs.Facts]
    (a0 : (⟨Cert.Pre_finite_inputs.S100000x64, .f32⟩ : BufTy).Contents (Elt Ideal))
    (a1 : (⟨Cert.Pre_finite_inputs.S1250000, .i32⟩ : BufTy).Contents (Elt Ideal))
    (a2 : (⟨Cert.Pre_finite_inputs.S1250000, .i32⟩ : BufTy).Contents (Elt Ideal))
    (a3 : (⟨Cert.Pre_finite_inputs.S64x256, .f32⟩ : BufTy).Contents (Elt Ideal))
    (a4 : (⟨Cert.Pre_finite_inputs.S256, .f32⟩ : BufTy).Contents (Elt Ideal))
    (a5 : (⟨Cert.Pre_finite_inputs.S256, .f32⟩ : BufTy).Contents (Elt Ideal))
    (a6 : (⟨Cert.Pre_finite_inputs.S256, .f32⟩ : BufTy).Contents (Elt Ideal))
    (a7 : (⟨Cert.Pre_finite_inputs.S256x256, .f32⟩ : BufTy).Contents (Elt Ideal))
    (a8 : (⟨Cert.Pre_finite_inputs.S256, .f32⟩ : BufTy).Contents (Elt Ideal))
    (a9 : (⟨Cert.Pre_finite_inputs.S256, .f32⟩ : BufTy).Contents (Elt Ideal))
    (a10 : (⟨Cert.Pre_finite_inputs.S256, .f32⟩ : BufTy).Contents (Elt Ideal))
    (a11 : (⟨Cert.Pre_finite_inputs.S256x40, .f32⟩ : BufTy).Contents (Elt Ideal))
    (a12 : (⟨Cert.Pre_finite_inputs.S40, .f32⟩ : BufTy).Contents (Elt Ideal))
    (h : Cert.Pre_finite_inputs.fn (F := Ideal) a0 a1 a2 a3 a4 a5 a6 a7 a8 a9 a10 a11 a12 = fun _ => 1#1) :
    Real2 (cur2 a0) ∧ Real2 (cur2 a3) ∧ Real1 (cur1 a4) ∧ Real1 (cur1 a5) ∧ Real1 (cur1 a6) ∧ Real2 (cur2 a7)
      ∧ Real1 (cur1 a8) ∧ Real1 (cur1 a9) ∧ Real1 (cur1 a10) ∧ Real2 (cur2 a11) ∧ Real1 (cur1 a12) := by
  have h0 := congrFun h ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨e0, e3⟩, e4⟩, e5⟩, e6⟩, e7⟩, e8⟩, e9⟩, e10⟩, e11⟩, e12⟩ := h0
  exact ⟨fun r k => real_of_all a0 _ _ _ _ _ e0 (ix2 r k), fun r k => real_of_all a3 _ _ _ _ _ e3 (ix2 r k),
    fun k => real_of_all a4 _ _ _ _ _ e4 (ix1 k), fun k => real_of_all a5 _ _ _ _ _ e5 (ix1 k),
    fun k => real_of_all a6 _ _ _ _ _ e6 (ix1 k), fun r k => real_of_all a7 _ _ _ _ _ e7 (ix2 r k),
    fun k => real_of_all a8 _ _ _ _ _ e8 (ix1 k), fun k => real_of_all a9 _ _ _ _ _ e9 (ix1 k),
    fun k => real_of_all a10 _ _ _ _ _ e10 (ix1 k), fun r k => real_of_all a11 _ _ _ _ _ e11 (ix2 r k),
    fun k => real_of_all a12 _ _ _ _ _ e12 (ix1 k)⟩

end MlpFinite

end
-- ==== Proof.lean ====
/-
  The certificate's claim for the three-call MLP (Linear → BatchNorm → ReLU twice, then Linear) after the shared
  graph aggregation.

  The mathematics, at the exact instance. Both programs compute the same aggregated features `X` with the same host
  operations. For a layer's pre-activation `y = x·W + b` (an `n × h` array, `n = 100000`) the kernel program forms, per
  column, `S₁ = Σ y` and `S₂ = Σ y²` (accumulated block by block: 2 groups of 10 blocks of 5000 rows, the two
  groups' partial sums added on the host), `mean = S₁ / n`, `var = max (S₂ / n − mean²) 0`,
  `scale = γ · rsqrt (var + ε)`, `shift = β − mean · scale`, and applies `max (y · scale + shift) 0`; the reference
  forms `mean = (Σ y) / n`, `var = (Σ (y − mean)²) / n` and applies `max (γ · (y − mean) · rsqrt (var + ε) + β) 0`.
  Over finite data the two agree (Proof/LibBatchNorm.lean: the one-pass variance is the two-pass variance, it is
  nonnegative, and scale-and-shift is the centred form), and a sum over rows taken block by block is the sum over
  all rows (Proof/LibBlockSum.lean). The last layer's weight and bias are padded with zero columns from 40 to 128 and
  the result sliced back to 40 columns, which changes no kept entry. Rounding to bf16 on the way into each product and
  when an activation is stored is the identity at the exact instance. Finiteness of the data comes from the
  precondition (every float argument finite) and from the aggregation keeping finite data finite.

  `preserves` is `True`: the ideal pass rewrote nothing, so the idealization is the program's own text.
-/
import proofs.«169417_j2877628089024_2_alg».proof.Defs
import proofs.«169417_j2877628089024_2_alg».proof.Proof.Gen.Kernel
import proofs.«169417_j2877628089024_2_alg».proof.Proof.Gen.KernelIdeal
import proofs.«169417_j2877628089024_2_alg».proof.Proof.Gen.ReferenceIdeal
import proofs.«169417_j2877628089024_2_alg».proof.Proof.Gen.Pre_finite_inputs
import proofs.«169417_j2877628089024_2_alg».proof.Proof.K.Frame
import proofs.«169417_j2877628089024_2_alg».proof.Proof.KI.Frame
import proofs.«169417_j2877628089024_2_alg».proof.Proof.KIV.MainValue
import proofs.«169417_j2877628089024_2_alg».proof.Proof.Ref.Run
import proofs.«169417_j2877628089024_2_alg».proof.Proof.Ref.Value
import proofs.«169417_j2877628089024_2_alg».proof.Proof.Ref.Agg
import proofs.«169417_j2877628089024_2_alg».proof.Proof.Math
import proofs.«169417_j2877628089024_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx MlpSpec

/-- The word-level program runs and leaves its arguments unchanged. -/
theorem frame_Kernel : Cert.frame_Kernel := fun m ρ _ => Cert.Kernel.Hand.frame (F := Bits) m ρ

/-- So does its idealization. -/
theorem frame_KernelIdeal : Cert.frame_KernelIdeal := fun m ρ _ => Cert.KernelIdeal.Hand.frame (F := Ideal) m ρ

/-- The reference runs and leaves its arguments unchanged: its run with the result dropped. -/
theorem frame_ReferenceIdeal : Cert.frame_ReferenceIdeal := fun m ρ _ =>
  (θ_run Cert.ReferenceIdeal.defs _ _).mono (fun _ h c => (h c).2) (Cert.ReferenceIdeal.Hand.run m ρ)

/-- The ideal pass rewrote no operation, so the idealization is the program's own text read at the exact instance. -/
theorem preserves : Cert.preserves_Kernel_KernelIdeal := trivial

set_option maxHeartbeats 4000000 in
/-- At the exact instance both programs end with the same result: the kernel program's is the one-pass network of
    the aggregated features (`kernel_value`), the reference's the two-pass network of the same (`res_value`), and
    over finite data the two networks agree (`netK_eq_netR`). -/
theorem algebraic : Cert.algebraic_KernelIdeal_ReferenceIdeal := by
  intro m ρ m' ρ' hpre hagree
  refine ⟨fun c => Cert.KernelIdeal.Hand.W12 (F := Ideal) m ρ c (Proc.devRef .tc Cert.KernelIdeal.main_v117),
    Cert.KernelIdeal.Hand.run_value (F := Ideal) m ρ, ?_⟩
  refine (θ_run Cert.ReferenceIdeal.defs _ _).mono (fun _ h c => ⟨(h c).1.trans ?_, (h c).2⟩)
    (Cert.ReferenceIdeal.Hand.run m' ρ')
  obtain ⟨e0, e1, e2, e3, e4, e5, e6, e7, e8, e9, e10, e11, e12⟩ := hagree c
  rw [e0, e1, e2, e3, e4, e5, e6, e7, e8, e9, e10, e11, e12]
  obtain ⟨h0, h3, h4, h5, h6, h7, h8, h9, h10, h11, h12⟩ := MlpFinite.real_of_fn _ _ _ _ _ _ _ _ _ _ _ _ _ (hpre c)
  funext i
  obtain ⟨r, j, rfl⟩ : ∃ (r : Fin 100000) (j : Fin 40), i = ix2 r j := ⟨i 0, i 1, eq_ix2 i⟩
  refine (Cert.ReferenceIdeal.Hand.res_value _ _ _ _ _ _ _ _ _ _ _ _ _ r j).trans ?_
  rw [← MlpMath.netK_eq_netR (n := 100000) (by norm_num) (Ideal.ofBits .f32 0x47C35000#32) (Ideal.ofBits .f32 0x3727C5AC#32)
    (by rw [MlpMath.N_word]; norm_num) MlpMath.eps_word _ _ _ _ _ _ _ _ _ _ _
    (Cert.ReferenceIdeal.Hand.agg_real _ _ _ h0) h3 h4 h5 h6 h7 h8 h9 h10]
  exact (Cert.KernelIdeal.HandValue.kernel_value m ρ c r j).symm

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, preserves, algebraic⟩

end Cert.Proof

end
